-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v140)) (v1 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_v130) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x320000 : Shape := ⟨2, ![2, 320000]⟩
abbrev S20000 : Shape := ⟨1, ![20000]⟩
abbrev S400x8 : Shape := ⟨2, ![400, 8]⟩
abbrev S400x50x50 : Shape := ⟨3, ![400, 50, 50]⟩
abbrev S3x512x512 : Shape := ⟨3, ![3, 512, 512]⟩
abbrev S3x512 : Shape := ⟨2, ![3, 512]⟩
abbrev S3 : Shape := ⟨1, ![3]⟩
abbrev S3020x256 : Shape := ⟨2, ![3020, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S400x8 : S_.BroadcastsInDim S400x8 (![] : Fin 0 → Fin S400x8.rank)
  reducesTo_S400x8_S_d0_1 : S400x8.ReducesTo [0, 1] S_
  bcast_S_S400x50x50 : S_.BroadcastsInDim S400x50x50 (![] : Fin 0 → Fin S400x50x50.rank)
  reducesTo_S400x50x50_S_d0_1_2 : S400x50x50.ReducesTo [0, 1, 2] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S3 : S_.BroadcastsInDim S3 (![] : Fin 0 → Fin S3.rank)
  reducesTo_S3_S_d0 : S3.ReducesTo [0] S_
  bcast_S_S3020x256 : S_.BroadcastsInDim S3020x256 (![] : Fin 0 → Fin S3020x256.rank)
  reducesTo_S3020x256_S_d0_1 : S3020x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg11 : FVec F S3x512 .f32) (main_v83 : IVec S_ 1) (main_v84 : FVec F S3x512 .f32) : IVec S_ 1 :=
  let main_v85 : IVec S3x512 1 := cmpf .oge main_arg11 main_v84
  let main_c_33 : IVec S_ 1 := constantI S_ 1 1#1
  let main_v86 : IVec S_ 1 := (fun x v => Host.reduce IntOp.andi x v reducesTo_S3x512_S_d0_1 h_S_) main_v85 main_c_33
  let main_v87 : IVec S_ 1 := andi main_v83 main_v86
  main_v87

def fn_part4 {F : FTy → Type} [FloatOps F] (main_arg11 : FVec F S3x512 .f32) (main_arg16 : FVec F S256 .f32) (main_arg17 : FVec F S256x1 .f32) (main_arg18 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x1 .f32 := Host.absf main_arg17
  let main_cst_28 : FVec F S_ .f32 := constant S_ .f32 0x7F800000#32
  let main_v75 : FVec F S256x1 .f32 := broadcastInDim S256x1 ![] bcast_S_S256x1 main_cst_28
  let main_v76 : IVec S256x1 1 := cmpf .olt main_v74 main_v75
  let main_c_29 : IVec S_ 1 := constantI S_ 1 1#1
  let main_v77 : IVec S_ 1 := (fun x v => Host.reduce IntOp.andi x v reducesTo_S256x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_cst_32 : FVec F S_ .f32 := constant S_ .f32 0x00000000#32
  let main_v84 : FVec F S3x512 .f32 := broadcastInDim S3x512 ![] bcast_S_S3x512 main_cst_32
  fn_part5 (F := F) main_arg11 main_v83 main_v84

def fn_part3 {F : FTy → Type} [FloatOps F] (main_arg11 : FVec F S3x512 .f32) (main_arg13 : FVec F S3x512 .f32) (main_arg14 : FVec F S3 .f32) (main_arg15 : FVec F S3020x256 .f32) (main_arg16 : FVec F S256 .f32) (main_arg17 : FVec F S256x1 .f32) (main_arg18 : FVec F S1 .f32) (main_v48 : IVec S_ 1) (main_v49 : FVec F S3x512x512 .f32) (main_v50 : FVec F S3x512x512 .f32) : IVec S_ 1 :=
  let main_v51 : IVec S3x512x512 1 := cmpf .olt main_v49 main_v50
  let main_c_19 : IVec S_ 1 := constantI S_ 1 1#1
  let main_v52 : IVec S_ 1 := (fun x v => Host.reduce IntOp.andi x v reducesTo_S3x512x512_S_d0_1_2 h_S_) main_v51 main_c_19
  let main_v53 : IVec S_ 1 := andi main_v48 main_v52
  let main_v54 : FVec F S3x512 .f32 := Host.absf main_arg13
  let main_cst_20 : FVec F S_ .f32 := constant S_ .f32 0x7F800000#32
  let main_v55 : FVec F S3x512 .f32 := broadcastInDim S3x512 ![] bcast_S_S3x512 main_cst_20
  let main_v56 : IVec S3x512 1 := cmpf .olt main_v54 main_v55
  let main_c_21 : IVec S_ 1 := constantI S_ 1 1#1
  let main_v57 : IVec S_ 1 := (fun x v => Host.reduce IntOp.andi x v reducesTo_S3x512_S_d0_1 h_S_) main_v56 main_c_21
  let main_v58 : IVec S_ 1 := andi main_v53 main_v57
  let main_v59 : FVec F S3 .f32 := Host.absf main_arg14
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_v64 : FVec F S3020x256 .f32 := Host.absf main_arg15
  let main_cst_24 : FVec F S_ .f32 := constant S_ .f32 0x7F800000#32
  let main_v65 : FVec F S3020x256 .f32 := broadcastInDim S3020x256 ![] bcast_S_S3020x256 main_cst_24
  let main_v66 : IVec S3020x256 1 := cmpf .olt main_v64 main_v65
  let main_c_25 : IVec S_ 1 := constantI S_ 1 1#1
  let main_v67 : IVec S_ 1 := (fun x v => Host.reduce IntOp.andi x v reducesTo_S3020x256_S_d0_1 h_S_) main_v66 main_c_25
  fn_part4 (F := F) main_arg11 main_arg16 main_arg17 main_arg18 main_v63 main_v67

def fn_part2 {F : FTy → Type} [FloatOps F] (main_arg9 : FVec F S3x512 .f32) (main_arg10 : FVec F S3x512 .f32) (main_arg11 : FVec F S3x512 .f32) (main_arg12 : FVec F S3x512x512 .f32) (main_arg13 : FVec F S3x512 .f32) (main_arg14 : FVec F S3 .f32) (main_arg15 : FVec F S3020x256 .f32) (main_arg16 : FVec F S256 .f32) (main_arg17 : FVec F S256x1 .f32) (main_arg18 : FVec F S1 .f32) (main_v33 : IVec S_ 1) : IVec S_ 1 :=
  let main_v34 : FVec F S3x512 .f32 := Host.absf main_arg9
  let main_cst_12 : FVec F S_ .f32 := constant S_ .f32 0x7F800000#32
  let main_v35 : FVec F S3x512 .f32 := broadcastInDim S3x512 ![] bcast_S_S3x512 main_cst_12
  let main_v36 : IVec S3x512 1 := cmpf .olt main_v34 main_v35
  let main_c_13 : IVec S_ 1 := constantI S_ 1 1#1
  let main_v37 : IVec S_ 1 := (fun x v => Host.reduce IntOp.andi x v reducesTo_S3x512_S_d0_1 h_S_) main_v36 main_c_13
  let main_v38 : IVec S_ 1 := andi main_v33 main_v37
  let main_v39 : FVec F S3x512 .f32 := Host.absf main_arg10
  let main_cst_14 : FVec F S_ .f32 := constant S_ .f32 0x7F800000#32
  let main_v40 : FVec F S3x512 .f32 := broadcastInDim S3x512 ![] bcast_S_S3x512 main_cst_14
  let main_v41 : IVec S3x512 1 := cmpf .olt main_v39 main_v40
  let main_c_15 : IVec S_ 1 := constantI S_ 1 1#1
  let main_v42 : IVec S_ 1 := (fun x v => Host.reduce IntOp.andi x v reducesTo_S3x512_S_d0_1 h_S_) main_v41 main_c_15
  let main_v43 : IVec S_ 1 := andi main_v38 main_v42
  let main_v44 : FVec F S3x512 .f32 := Host.absf main_arg11
  let main_cst_16 : FVec F S_ .f32 := constant S_ .f32 0x7F800000#32
  let main_v45 : FVec F S3x512 .f32 := broadcastInDim S3x512 ![] bcast_S_S3x512 main_cst_16
  let main_v46 : IVec S3x512 1 := cmpf .olt main_v44 main_v45
  let main_c_17 : IVec S_ 1 := constantI S_ 1 1#1
  let main_v47 : IVec S_ 1 := (fun x v => Host.reduce IntOp.andi x v reducesTo_S3x512_S_d0_1 h_S_) main_v46 main_c_17
  let main_v48 : IVec S_ 1 := andi main_v43 main_v47
  let main_v49 : FVec F S3x512x512 .f32 := Host.absf main_arg12
  let main_cst_18 : FVec F S_ .f32 := constant S_ .f32 0x7F800000#32
  let main_v50 : FVec F S3x512x512 .f32 := broadcastInDim S3x512x512 ![] bcast_S_S3x512x512 main_cst_18
  fn_part3 (F := F) main_arg11 main_arg13 main_arg14 main_arg15 main_arg16 main_arg17 main_arg18 main_v48 main_v49 main_v50

def fn_part1 {F : FTy → Type} [FloatOps F] (main_arg6 : FVec F S3x512 .f32) (main_arg7 : FVec F S3 .f32) (main_arg8 : FVec F S3x512 .f32) (main_arg9 : FVec F S3x512 .f32) (main_arg10 : FVec F S3x512 .f32) (main_arg11 : FVec F S3x512 .f32) (main_arg12 : FVec F S3x512x512 .f32) (main_arg13 : FVec F S3x512 .f32) (main_arg14 : FVec F S3 .f32) (main_arg15 : FVec F S3020x256 .f32) (main_arg16 : FVec F S256 .f32) (main_arg17 : FVec F S256x1 .f32) (main_arg18 : FVec F S1 .f32) (main_v13 : IVec S_ 1) (main_v16 : IVec S3x512x512 1) : IVec S_ 1 :=
  let main_c_5 : IVec S_ 1 := constantI S_ 1 1#1
  let main_v17 : IVec S_ 1 := (fun x v => Host.reduce IntOp.andi x v reducesTo_S3x512x512_S_d0_1_2 h_S_) main_v16 main_c_5
  let main_v18 : IVec S_ 1 := andi main_v13 main_v17
  let main_v19 : FVec F S3x512 .f32 := Host.absf main_arg6
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_v24 : FVec F S3 .f32 := Host.absf main_arg7
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S3x512 .f32 := Host.absf main_arg8
  let main_cst_10 : FVec F S_ .f32 := constant S_ .f32 0x7F800000#32
  let main_v30 : FVec F S3x512 .f32 := broadcastInDim S3x512 ![] bcast_S_S3x512 main_cst_10
  let main_v31 : IVec S3x512 1 := cmpf .olt main_v29 main_v30
  let main_c_11 : IVec S_ 1 := constantI S_ 1 1#1
  let main_v32 : IVec S_ 1 := (fun x v => Host.reduce IntOp.andi x v reducesTo_S3x512_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S20000x512 .f32) (main_arg1 : IVec S2x320000 32) (main_arg2 : IVec S20000 32) (main_arg3 : FVec F S400x8 .f32) (main_arg4 : FVec F S400x50x50 .f32) (main_arg5 : FVec F S3x512x512 .f32) (main_arg6 : FVec F S3x512 .f32) (main_arg7 : FVec F S3 .f32) (main_arg8 : FVec F S3x512 .f32) (main_arg9 : FVec F S3x512 .f32) (main_arg10 : FVec F S3x512 .f32) (main_arg11 : FVec F S3x512 .f32) (main_arg12 : FVec F S3x512x512 .f32) (main_arg13 : FVec F S3x512 .f32) (main_arg14 : FVec F S3 .f32) (main_arg15 : FVec F S3020x256 .f32) (main_arg16 : FVec F S256 .f32) (main_arg17 : FVec F S256x1 .f32) (main_arg18 : FVec F S1 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S400x8 .f32 := Host.absf main_arg3
  let main_cst_0 : FVec F S_ .f32 := constant S_ .f32 0x7F800000#32
  let main_v5 : FVec F S400x8 .f32 := broadcastInDim S400x8 ![] bcast_S_S400x8 main_cst_0
  let main_v6 : IVec S400x8 1 := cmpf .olt main_v4 main_v5
  let main_c_1 : IVec S_ 1 := constantI S_ 1 1#1
  let main_v7 : IVec S_ 1 := (fun x v => Host.reduce IntOp.andi x v reducesTo_S400x8_S_d0_1 h_S_) main_v6 main_c_1
  let main_v8 : IVec S_ 1 := andi main_v3 main_v7
  let main_v9 : FVec F S400x50x50 .f32 := Host.absf main_arg4
  let main_cst_2 : FVec F S_ .f32 := constant S_ .f32 0x7F800000#32
  let main_v10 : FVec F S400x50x50 .f32 := broadcastInDim S400x50x50 ![] bcast_S_S400x50x50 main_cst_2
  let main_v11 : IVec S400x50x50 1 := cmpf .olt main_v9 main_v10
  let main_c_3 : IVec S_ 1 := constantI S_ 1 1#1
  let main_v12 : IVec S_ 1 := (fun x v => Host.reduce IntOp.andi x v reducesTo_S400x50x50_S_d0_1_2 h_S_) main_v11 main_c_3
  let main_v13 : IVec S_ 1 := andi main_v8 main_v12
  let main_v14 : FVec F S3x512x512 .f32 := Host.absf main_arg5
  let main_cst_4 : FVec F S_ .f32 := constant S_ .f32 0x7F800000#32
  let main_v15 : FVec F S3x512x512 .f32 := broadcastInDim S3x512x512 ![] bcast_S_S3x512x512 main_cst_4
  let main_v16 : IVec S3x512x512 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S20000x512 : Shape := ⟨2, ![20000, 512]⟩
abbrev S2x320000 : Shape := ⟨2, ![2, 320000]⟩
abbrev S20000 : Shape := ⟨1, ![20000]⟩
abbrev S400x8 : Shape := ⟨2, ![400, 8]⟩
abbrev S400x50x50 : Shape := ⟨3, ![400, 50, 50]⟩
abbrev S3x512x512 : Shape := ⟨3, ![3, 512, 512]⟩
abbrev S3x512 : Shape := ⟨2, ![3, 512]⟩
abbrev S3 : Shape := ⟨1, ![3]⟩
abbrev S3020x256 : Shape := ⟨2, ![3020, 256]⟩
abbrev S256 : Shape := ⟨1, ![256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x512 : Shape := ⟨2, ![320000, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x1 : Shape := ⟨2, ![1, 1]⟩
abbrev S1000x512 : Shape := ⟨2, ![1000, 512]⟩
abbrev S400x512 : Shape := ⟨2, ![400, 512]⟩
abbrev S20000x1 : Shape := ⟨2, ![20000, 1]⟩
abbrev S400x2500 : Shape := ⟨2, ![400, 2500]⟩
abbrev S400x3020 : Shape := ⟨2, ![400, 3020]⟩
abbrev S400x256 : Shape := ⟨2, ![400, 256]⟩
abbrev S1x256 : Shape := ⟨2, ![1, 256]⟩
abbrev S400x1 : Shape := ⟨2, ![400, 1]⟩

abbrev nBuf : Space → Nat
  | .hbm => 174
  | .vmem => 48
  | .smem => 0
  | _ => 0

abbrev hbmTy0_0 (i : Nat) : BufTy := match i % 128 with
  | 0 => ⟨S20000x512, .f32⟩
  | 1 => ⟨S2x320000, .i32⟩
  | 2 => ⟨S20000, .i32⟩
  | 3 => ⟨S400x8, .f32⟩
  | 4 => ⟨S400x50x50, .f32⟩
  | 5 => ⟨S3x512x512, .f32⟩
  | 6 => ⟨S3x512, .f32⟩
  | 7 => ⟨S3, .f32⟩
  | 8 => ⟨S3x512, .f32⟩
  | 9 => ⟨S3x512, .f32⟩
  | 10 => ⟨S3x512, .f32⟩
  | 11 => ⟨S3x512, .f32⟩
  | 12 => ⟨S3x512x512, .f32⟩
  | 13 => ⟨S3x512, .f32⟩
  | 14 => ⟨S3, .f32⟩
  | 15 => ⟨S3020x256, .f32⟩
  | 16 => ⟨S256, .f32⟩
  | 17 => ⟨S256x1, .f32⟩
  | 18 => ⟨S1, .f32⟩
  | 19 => ⟨S1x320000, .i32⟩
  | 20 => ⟨S320000, .i32⟩
  | 21 => ⟨S1x320000, .i32⟩
  | 22 => ⟨S320000, .i32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000x512, .f32⟩
  | 32 => ⟨S_, .f32⟩
  | 33 => ⟨S20000x512, .f32⟩
  | 34 => ⟨S320000x1, .i32⟩
  | 35 => ⟨S20000x512, .f32⟩
  | 36 => ⟨S1x512x512, .f32⟩
  | 37 => ⟨S512x512, .f32⟩
  | 38 => ⟨S1x512, .f32⟩
  | 39 => ⟨S512, .f32⟩
  | 40 => ⟨S1, .f32⟩
  | 41 => ⟨S_, .f32⟩
  | 42 => ⟨S1x512, .f32⟩
  | 43 => ⟨S512, .f32⟩
  | 44 => ⟨S1x512, .f32⟩
  | 45 => ⟨S512, .f32⟩
  | 46 => ⟨S1x512, .f32⟩
  | 47 => ⟨S512, .f32⟩
  | 48 => ⟨S1x512, .f32⟩
  | 49 => ⟨S512, .f32⟩
  | 50 => ⟨S1x512x512, .f32⟩
  | 51 => ⟨S512x512, .f32⟩
  | 52 => ⟨S1x512, .f32⟩
  | 53 => ⟨S512, .f32⟩
  | 54 => ⟨S1, .f32⟩
  | 55 => ⟨S_, .f32⟩
  | 56 => ⟨S1x512, .f32⟩
  | 57 => ⟨S1x512, .f32⟩
  | 58 => ⟨S1x512, .f32⟩
  | 59 => ⟨S1x512, .f32⟩
  | 60 => ⟨S1x512, .f32⟩
  | 61 => ⟨S1x512, .f32⟩
  | 62 => ⟨S1x1, .f32⟩
  | 63 => ⟨S1x1, .f32⟩
  | 64 => ⟨S20000x512, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x512, .f32⟩
  | 74 => ⟨S_, .f32⟩
  | 75 => ⟨S20000x512, .f32⟩
  | 76 => ⟨S320000x1, .i32⟩
  | 77 => ⟨S20000x512, .f32⟩
  | 78 => ⟨S1x512x512, .f32⟩
  | 79 => ⟨S512x512, .f32⟩
  | 80 => ⟨S1x512, .f32⟩
  | 81 => ⟨S512, .f32⟩
  | 82 => ⟨S1, .f32⟩
  | 83 => ⟨S_, .f32⟩
  | 84 => ⟨S1x512, .f32⟩
  | 85 => ⟨S512, .f32⟩
  | 86 => ⟨S1x512, .f32⟩
  | 87 => ⟨S512, .f32⟩
  | 88 => ⟨S1x512, .f32⟩
  | 89 => ⟨S512, .f32⟩
  | 90 => ⟨S1x512, .f32⟩
  | 91 => ⟨S512, .f32⟩
  | 92 => ⟨S1x512x512, .f32⟩
  | 93 => ⟨S512x512, .f32⟩
  | 94 => ⟨S1x512, .f32⟩
  | 95 => ⟨S512, .f32⟩
  | 96 => ⟨S1, .f32⟩
  | 97 => ⟨S_, .f32⟩
  | 98 => ⟨S1x512, .f32⟩
  | 99 => ⟨S1x512, .f32⟩
  | 100 => ⟨S1x512, .f32⟩
  | 101 => ⟨S1x512, .f32⟩
  | 102 => ⟨S1x512, .f32⟩
  | 103 => ⟨S1x512, .f32⟩
  | 104 => ⟨S1x1, .f32⟩
  | 105 => ⟨S1x1, .f32⟩
  | 106 => ⟨S20000x512, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000x512, .f32⟩
  | 116 => ⟨S_, .f32⟩
  | 117 => ⟨S20000x512, .f32⟩
  | 118 => ⟨S320000x1, .i32⟩
  | 119 => ⟨S20000x512, .f32⟩
  | 120 => ⟨S1x512x512, .f32⟩
  | 121 => ⟨S512x512, .f32⟩
  | 122 => ⟨S1x512, .f32⟩
  | 123 => ⟨S512, .f32⟩
  | 124 => ⟨S1, .f32⟩
  | 125 => ⟨S_, .f32⟩
  | 126 => ⟨S1x512, .f32⟩
  | 127 => ⟨S512, .f32⟩
  | _ => ⟨S20000x512, .f32⟩

abbrev hbmTy0_1 (i : Nat) : BufTy := match i % 128 with
  | 0 => ⟨S1x512, .f32⟩
  | 1 => ⟨S512, .f32⟩
  | 2 => ⟨S1x512, .f32⟩
  | 3 => ⟨S512, .f32⟩
  | 4 => ⟨S1x512, .f32⟩
  | 5 => ⟨S512, .f32⟩
  | 6 => ⟨S1x512x512, .f32⟩
  | 7 => ⟨S512x512, .f32⟩
  | 8 => ⟨S1x512, .f32⟩
  | 9 => ⟨S512, .f32⟩
  | 10 => ⟨S1, .f32⟩
  | 11 => ⟨S_, .f32⟩
  | 12 => ⟨S1x512, .f32⟩
  | 13 => ⟨S1x512, .f32⟩
  | 14 => ⟨S1x512, .f32⟩
  | 15 => ⟨S1x512, .f32⟩
  | 16 => ⟨S1x512, .f32⟩
  | 17 => ⟨S1x512, .f32⟩
  | 18 => ⟨S1x1, .f32⟩
  | 19 => ⟨S1x1, .f32⟩
  | 20 => ⟨S20000x512, .f32⟩
  | 21 => ⟨S_, .f32⟩
  | 22 => ⟨S400x512, .f32⟩
  | 23 => ⟨S20000x1, .i32⟩
  | 24 => ⟨S400x512, .f32⟩
  | 25 => ⟨S400x2500, .f32⟩
  | 26 => ⟨S400x3020, .f32⟩
  | 27 => ⟨S400x256, .f32⟩
  | 28 => ⟨S1x256, .f32⟩
  | 29 => ⟨S400x256, .f32⟩
  | 30 => ⟨S400x256, .f32⟩
  | 31 => ⟨S_, .f32⟩
  | 32 => ⟨S400x256, .f32⟩
  | 33 => ⟨S400x256, .f32⟩
  | 34 => ⟨S400x1, .f32⟩
  | 35 => ⟨S1x1, .f32⟩
  | 36 => ⟨S400x1, .f32⟩
  | 37 => ⟨S400x1, .f32⟩
  | 38 => ⟨S400x1, .f32⟩
  | 39 => ⟨S400x1, .f32⟩
  | 40 => ⟨S_, .f32⟩
  | 41 => ⟨S400x1, .f32⟩
  | 42 => ⟨S400x1, .f32⟩
  | 43 => ⟨S_, .f32⟩
  | 44 => ⟨S400x1, .f32⟩
  | 45 => ⟨S400x1, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S1x512, .f32⟩
  | .local _ .vmem, ⟨6, _⟩ => ⟨S1x1, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S1x512, .f32⟩
  | .local _ .vmem, ⟨13, _⟩ => ⟨S1x1, .f32⟩
  | .local _ .vmem, ⟨14, _⟩ => ⟨S1000x512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S512x512, .f32⟩
  | .local _ .vmem, ⟨21, _⟩ => ⟨S1x512, .f32⟩
  | .local _ .vmem, ⟨22, _⟩ => ⟨S1x1, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S512x512, .f32⟩
  | .local _ .vmem, ⟨28, _⟩ => ⟨S1x512, .f32⟩
  | .local _ .vmem, ⟨29, _⟩ => ⟨S1x1, .f32⟩
  | .local _ .vmem, ⟨30, _⟩ => ⟨S1000x512, .f32⟩
  | .local _ .vmem, ⟨31, _⟩ => ⟨S1000x512, .f32⟩
  | .local _ .vmem, ⟨32, _⟩ => ⟨S1000x512, .f32⟩
  | .local _ .vmem, ⟨33, _⟩ => ⟨S1000x512, .f32⟩
  | .local _ .vmem, ⟨34, _⟩ => ⟨S1000x512, .f32⟩
  | .local _ .vmem, ⟨35, _⟩ => ⟨S1000x512, .f32⟩
  | .local _ .vmem, ⟨36, _⟩ => ⟨S512x512, .f32⟩
  | .local _ .vmem, ⟨37, _⟩ => ⟨S1x512, .f32⟩
  | .local _ .vmem, ⟨38, _⟩ => ⟨S1x1, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S1x512, .f32⟩
  | .local _ .vmem, ⟨43, _⟩ => ⟨S512x512, .f32⟩
  | .local _ .vmem, ⟨44, _⟩ => ⟨S1x512, .f32⟩
  | .local _ .vmem, ⟨45, _⟩ => ⟨S1x1, .f32⟩
  | .local _ .vmem, ⟨46, _⟩ => ⟨S1000x512, .f32⟩
  | .local _ .vmem, ⟨47, _⟩ => ⟨S1000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_1 : Ref sig .tc := ⟨.hbm, 65, rfl⟩
abbrev main_v43 : Ref sig .tc := ⟨.hbm, 66, rfl⟩
abbrev main_v44 : Ref sig .tc := ⟨.hbm, 67, rfl⟩
abbrev main_c_2 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_3 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_4 : Ref sig .tc := ⟨.hbm, 107, rfl⟩
abbrev main_v82 : Ref sig .tc := ⟨.hbm, 108, rfl⟩
abbrev main_v83 : Ref sig .tc := ⟨.hbm, 109, rfl⟩
abbrev main_c_5 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_6 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_7 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_call0_cst : Ref sig .tc := ⟨.hbm, 159, rfl⟩
abbrev main_call0_v0 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_8 : Ref sig .tc := ⟨.hbm, 168, rfl⟩
abbrev main_v137 : Ref sig .tc := ⟨.hbm, 169, rfl⟩
abbrev main_v138 : Ref sig .tc := ⟨.hbm, 170, rfl⟩
abbrev main_cst_9 : Ref sig .tc := ⟨.hbm, 171, rfl⟩
abbrev main_v139 : Ref sig .tc := ⟨.hbm, 172, rfl⟩
abbrev main_v140 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg12_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg10_0 : Ref sig .tc := ⟨.vmem, 44, rfl⟩
abbrev cc2_stg11_0 : Ref sig .tc := ⟨.vmem, 45, rfl⟩
abbrev cc2_stg12_0 : Ref sig .tc := ⟨.vmem, 46, rfl⟩
abbrev cc2_stg12_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem12_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem8_0 : DmaSem sig := 42
abbrev cc2_sem9_0 : DmaSem sig := 43
abbrev cc2_sem10_0 : DmaSem sig := 44
abbrev cc2_sem11_0 : DmaSem sig := 45
abbrev cc2_sem12_0 : DmaSem sig := 46
abbrev cc2_sem12_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1000x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1000x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1000x512 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  slices_S3_S1_0 : S3.Slices ![0] S1
  shapeCasts_S1_S_ : S1.ShapeCasts S_
  shapeCasts_S512_S1x512 : S512.ShapeCasts S1x512
  shapeCasts_S_S1x1 : S_.ShapeCasts S1x1
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S3x512x512_S1x512x512_1_0_0 : S3x512x512.Slices ![1, 0, 0] S1x512x512
  slices_S3x512_S1x512_1_0 : S3x512.Slices ![1, 0] S1x512
  slices_S3_S1_1 : S3.Slices ![1] S1
  slices_S3x512x512_S1x512x512_2_0_0 : S3x512x512.Slices ![2, 0, 0] S1x512x512
  slices_S3x512_S1x512_2_0 : S3x512.Slices ![2, 0] S1x512
  slices_S3_S1_2 : S3.Slices ![2] S1
  bcast_S_S400x512 : S_.BroadcastsInDim S400x512 (![] : Fin 0 → Fin S400x512.rank)
  bcast_S20000_S20000x1_0 : S20000.BroadcastsInDim S20000x1 (![0] : Fin 1 → Fin S20000x1.rank)
  shapeCasts_S400x50x50_S400x2500 : S400x50x50.ShapeCasts S400x2500
  concatenates_S400x512_S400x8_S400x2500_S400x3020_d1 : Shape.Concatenates [S400x512, S400x8, S400x2500] S400x3020 1
  bcast_S256_S1x256_1 : S256.BroadcastsInDim S1x256 (![1] : Fin 1 → Fin S1x256.rank)
  bcast_S1x256_S400x256_0_1 : S1x256.BroadcastsInDim S400x256 (![0, 1] : Fin 2 → Fin S400x256.rank)
  bcast_S_S400x256 : S_.BroadcastsInDim S400x256 (![] : Fin 0 → Fin S400x256.rank)
  bcast_S1_S1x1_1 : S1.BroadcastsInDim S1x1 (![1] : Fin 1 → Fin S1x1.rank)
  bcast_S1x1_S400x1_0_1 : S1x1.BroadcastsInDim S400x1 (![0, 1] : Fin 2 → Fin S400x1.rank)
  bcast_S_S400x1 : S_.BroadcastsInDim S400x1 (![] : Fin 0 → Fin S400x1.rank)
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S1000x512_S512x512_S1000x512_1_0_0_1_n_n_wf : DotDims.WF S1000x512 S512x512 S1000x512 [1] [0] [0] [1] [] []
  scatter_S400x512_S20000x1_S20000x512_1_0_0_1_wf : ScatterDims.WF S400x512 S20000x1 S20000x512 [1] [0] [0] 1
  dot_S400x3020_S3020x256_S400x256_1_0_0_1_n_n_wf : DotDims.WF S400x3020 S3020x256 S400x256 [1] [0] [0] [1] [] []
  dot_S400x256_S256x1_S400x1_1_0_0_1_n_n_wf : DotDims.WF S400x256 S256x1 S400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x512.size a
  hwx0_0 : ∀ i : grid0.Coords, EltTy.bits .f32 = 32 ∨ (Rect.block (s := S20000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S20000x512.size a
  hwx0_1 : ∀ i : grid0.Coords, EltTy.bits .f32 = 32 ∨ (Rect.block (s := S20000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x512.size a ≤ S20000x512.size a
  hwx0_12 : ∀ i : grid0.Coords, EltTy.bits .f32 = 32 ∨ (Rect.block (s := S20000x512) S1000x512.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S20000x512.size a
  hwx1_0 : ∀ i : grid1.Coords, EltTy.bits .f32 = 32 ∨ (Rect.block (s := S20000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S20000x512.size a
  hwx1_1 : ∀ i : grid1.Coords, EltTy.bits .f32 = 32 ∨ (Rect.block (s := S20000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x512.size a ≤ S512x512.size a
  hwx1_9 : ∀ i : grid1.Coords, EltTy.bits .f32 = 32 ∨ (Rect.block (s := S512x512) S512x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x512.size a ≤ S1x512.size a
  hwx1_10 : ∀ i : grid1.Coords, EltTy.bits .f32 = 32 ∨ (Rect.block (s := S1x512) S1x512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1000x512.size a ≤ S20000x512.size a
  hwx1_12 : ∀ i : grid1.Coords, EltTy.bits .f32 = 32 ∨ (Rect.block (s := S20000x512) S1000x512.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S20000x512.size a
  hwx2_1 : ∀ i : grid2.Coords, EltTy.bits .f32 = 32 ∨ (Rect.block (s := S20000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x512.size a ≤ S1x512.size a
  hwx2_7 : ∀ i : grid2.Coords, EltTy.bits .f32 = 32 ∨ (Rect.block (s := S1x512) S1x512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x512.size a ≤ S1x512.size a
  hwx2_8 : ∀ i : grid2.Coords, EltTy.bits .f32 = 32 ∨ (Rect.block (s := S1x512) S1x512.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x512.size a ≤ S512x512.size a
  hwx2_9 : ∀ i : grid2.Coords, EltTy.bits .f32 = 32 ∨ (Rect.block (s := S512x512) S512x512.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x512.size a ≤ S1x512.size a
  hwx2_10 : ∀ i : grid2.Coords, EltTy.bits .f32 = 32 ∨ (Rect.block (s := S1x512) S1x512.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x1.size a ≤ S1x1.size a
  hwx2_11 : ∀ i : grid2.Coords, EltTy.bits .f32 = 32 ∨ (Rect.block (s := S1x1) S1x1.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1000x512.size a ≤ S20000x512.size a
  hwx2_12 : ∀ i : grid2.Coords, EltTy.bits .f32 = 32 ∨ (Rect.block (s := S20000x512) S1000x512.size (cc2_transform_12 i) (hinb2_12 i)).WholeWords (EltTy.packing .f32)

variable [Facts₀]

def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def scatter_S400x512_S20000x1_S20000x512_1_0_0_1 : ScatterDims S400x512 S20000x1 S20000x512 where
  updateWindowDims := [1]
  insertedWindowDims := [0]
  scatterDimsToOperandDims := [0]
  indexVectorDim := 1
  wf := scatter_S400x512_S20000x1_S20000x512_1_0_0_1_wf
def dot_S400x3020_S3020x256_S400x256_1_0_0_1_n_n : DotDims S400x3020 S3020x256 S400x256 where
  lhsContracting := [1]
  rhsContracting := [0]
  lhsNonContracting := [0]
  rhsNonContracting := [1]
  lhsBatch := []
  rhsBatch := []
  wf := dot_S400x3020_S3020x256_S400x256_1_0_0_1_n_n_wf
def dot_S400x256_S256x1_S400x1_1_0_0_1_n_n : DotDims S400x256 S256x1 S400x1 where
  lhsContracting := [1]
  rhsContracting := [0]
  lhsNonContracting := [0]
  rhsNonContracting := [1]
  lhsBatch := []
  rhsBatch := []
  wf := dot_S400x256_S256x1_S400x1_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42) S1000x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v42) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v79) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v74) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v75) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v76) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v77) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v68) S512x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v78) S1x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v80) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v81) S1000x512.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v81) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v91) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v93) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v112) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v118) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v113) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v114) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v115) S1x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v116) S1x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v107) S512x512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v117) S1x512.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v119) S1x1.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v120) S1000x512.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S20000x512 : Shape := ⟨2, ![20000, 512]⟩
abbrev S2x320000 : Shape := ⟨2, ![2, 320000]⟩
abbrev S20000 : Shape := ⟨1, ![20000]⟩
abbrev S400x8 : Shape := ⟨2, ![400, 8]⟩
abbrev S400x50x50 : Shape := ⟨3, ![400, 50, 50]⟩
abbrev S3x512x512 : Shape := ⟨3, ![3, 512, 512]⟩
abbrev S3x512 : Shape := ⟨2, ![3, 512]⟩
abbrev S3 : Shape := ⟨1, ![3]⟩
abbrev S3020x256 : Shape := ⟨2, ![3020, 256]⟩
abbrev S256 : Shape := ⟨1, ![256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x512 : Shape := ⟨2, ![320000, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S400x512 : Shape := ⟨2, ![400, 512]⟩
abbrev S20000x1 : Shape := ⟨2, ![20000, 1]⟩
abbrev S400x2500 : Shape := ⟨2, ![400, 2500]⟩
abbrev S400x3020 : Shape := ⟨2, ![400, 3020]⟩
abbrev S400x256 : Shape := ⟨2, ![400, 256]⟩
abbrev S1x256 : Shape := ⟨2, ![1, 256]⟩
abbrev S400x1 : Shape := ⟨2, ![400, 1]⟩
abbrev S1x1 : Shape := ⟨2, ![1, 1]⟩

abbrev nBuf : Space → Nat
  | .hbm => 261
  | .vmem => 0
  | .smem => 0
  | _ => 0

abbrev hbmTy0_0 (i : Nat) : BufTy := match i % 128 with
  | 0 => ⟨S20000x512, .f32⟩
  | 1 => ⟨S2x320000, .i32⟩
  | 2 => ⟨S20000, .i32⟩
  | 3 => ⟨S400x8, .f32⟩
  | 4 => ⟨S400x50x50, .f32⟩
  | 5 => ⟨S3x512x512, .f32⟩
  | 6 => ⟨S3x512, .f32⟩
  | 7 => ⟨S3, .f32⟩
  | 8 => ⟨S3x512, .f32⟩
  | 9 => ⟨S3x512, .f32⟩
  | 10 => ⟨S3x512, .f32⟩
  | 11 => ⟨S3x512, .f32⟩
  | 12 => ⟨S3x512x512, .f32⟩
  | 13 => ⟨S3x512, .f32⟩
  | 14 => ⟨S3, .f32⟩
  | 15 => ⟨S3020x256, .f32⟩
  | 16 => ⟨S256, .f32⟩
  | 17 => ⟨S256x1, .f32⟩
  | 18 => ⟨S1, .f32⟩
  | 19 => ⟨S1x320000, .i32⟩
  | 20 => ⟨S320000, .i32⟩
  | 21 => ⟨S1x320000, .i32⟩
  | 22 => ⟨S320000, .i32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000x512, .f32⟩
  | 32 => ⟨S_, .f32⟩
  | 33 => ⟨S20000x512, .f32⟩
  | 34 => ⟨S320000x1, .i32⟩
  | 35 => ⟨S20000x512, .f32⟩
  | 36 => ⟨S20000x512, .f32⟩
  | 37 => ⟨S1x512x512, .f32⟩
  | 38 => ⟨S512x512, .f32⟩
  | 39 => ⟨S20000x512, .f32⟩
  | 40 => ⟨S1x512, .f32⟩
  | 41 => ⟨S512, .f32⟩
  | 42 => ⟨S1x512, .f32⟩
  | 43 => ⟨S20000x512, .f32⟩
  | 44 => ⟨S20000x512, .f32⟩
  | 45 => ⟨S1, .f32⟩
  | 46 => ⟨S_, .f32⟩
  | 47 => ⟨S_, .f32⟩
  | 48 => ⟨S20000x512, .f32⟩
  | 49 => ⟨S20000x512, .i1⟩
  | 50 => ⟨S20000x512, .f32⟩
  | 51 => ⟨S20000x512, .f32⟩
  | 52 => ⟨S20000x512, .f32⟩
  | 53 => ⟨S1x512, .f32⟩
  | 54 => ⟨S512, .f32⟩
  | 55 => ⟨S1x512, .f32⟩
  | 56 => ⟨S20000x512, .f32⟩
  | 57 => ⟨S20000x512, .f32⟩
  | 58 => ⟨S1x512, .f32⟩
  | 59 => ⟨S512, .f32⟩
  | 60 => ⟨S1x512, .f32⟩
  | 61 => ⟨S512, .f32⟩
  | 62 => ⟨S_, .f32⟩
  | 63 => ⟨S512, .f32⟩
  | 64 => ⟨S512, .f32⟩
  | 65 => ⟨S512, .f32⟩
  | 66 => ⟨S512, .f32⟩
  | 67 => ⟨S1x512, .f32⟩
  | 68 => ⟨S20000x512, .f32⟩
  | 69 => ⟨S20000x512, .f32⟩
  | 70 => ⟨S1x512, .f32⟩
  | 71 => ⟨S512, .f32⟩
  | 72 => ⟨S1x512, .f32⟩
  | 73 => ⟨S20000x512, .f32⟩
  | 74 => ⟨S20000x512, .f32⟩
  | 75 => ⟨S1x512x512, .f32⟩
  | 76 => ⟨S512x512, .f32⟩
  | 77 => ⟨S20000x512, .f32⟩
  | 78 => ⟨S1x512, .f32⟩
  | 79 => ⟨S512, .f32⟩
  | 80 => ⟨S1x512, .f32⟩
  | 81 => ⟨S20000x512, .f32⟩
  | 82 => ⟨S20000x512, .f32⟩
  | 83 => ⟨S1, .f32⟩
  | 84 => ⟨S_, .f32⟩
  | 85 => ⟨S_, .f32⟩
  | 86 => ⟨S20000x512, .f32⟩
  | 87 => ⟨S20000x512, .i1⟩
  | 88 => ⟨S20000x512, .f32⟩
  | 89 => ⟨S20000x512, .f32⟩
  | 90 => ⟨S20000x512, .f32⟩
  | 91 => ⟨S_, .f32⟩
  | 92 => ⟨S20000x512, .f32⟩
  | 93 => ⟨S20000x512, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000x512, .f32⟩
  | 103 => ⟨S_, .f32⟩
  | 104 => ⟨S20000x512, .f32⟩
  | 105 => ⟨S320000x1, .i32⟩
  | 106 => ⟨S20000x512, .f32⟩
  | 107 => ⟨S20000x512, .f32⟩
  | 108 => ⟨S1x512x512, .f32⟩
  | 109 => ⟨S512x512, .f32⟩
  | 110 => ⟨S20000x512, .f32⟩
  | 111 => ⟨S1x512, .f32⟩
  | 112 => ⟨S512, .f32⟩
  | 113 => ⟨S1x512, .f32⟩
  | 114 => ⟨S20000x512, .f32⟩
  | 115 => ⟨S20000x512, .f32⟩
  | 116 => ⟨S1, .f32⟩
  | 117 => ⟨S_, .f32⟩
  | 118 => ⟨S_, .f32⟩
  | 119 => ⟨S20000x512, .f32⟩
  | 120 => ⟨S20000x512, .i1⟩
  | 121 => ⟨S20000x512, .f32⟩
  | 122 => ⟨S20000x512, .f32⟩
  | 123 => ⟨S20000x512, .f32⟩
  | 124 => ⟨S1x512, .f32⟩
  | 125 => ⟨S512, .f32⟩
  | 126 => ⟨S1x512, .f32⟩
  | 127 => ⟨S20000x512, .f32⟩
  | _ => ⟨S20000x512, .f32⟩

abbrev hbmTy0_1 (i : Nat) : BufTy := match i % 128 with
  | 0 => ⟨S20000x512, .f32⟩
  | 1 => ⟨S1x512, .f32⟩
  | 2 => ⟨S512, .f32⟩
  | 3 => ⟨S1x512, .f32⟩
  | 4 => ⟨S512, .f32⟩
  | 5 => ⟨S_, .f32⟩
  | 6 => ⟨S512, .f32⟩
  | 7 => ⟨S512, .f32⟩
  | 8 => ⟨S512, .f32⟩
  | 9 => ⟨S512, .f32⟩
  | 10 => ⟨S1x512, .f32⟩
  | 11 => ⟨S20000x512, .f32⟩
  | 12 => ⟨S20000x512, .f32⟩
  | 13 => ⟨S1x512, .f32⟩
  | 14 => ⟨S512, .f32⟩
  | 15 => ⟨S1x512, .f32⟩
  | 16 => ⟨S20000x512, .f32⟩
  | 17 => ⟨S20000x512, .f32⟩
  | 18 => ⟨S1x512x512, .f32⟩
  | 19 => ⟨S512x512, .f32⟩
  | 20 => ⟨S20000x512, .f32⟩
  | 21 => ⟨S1x512, .f32⟩
  | 22 => ⟨S512, .f32⟩
  | 23 => ⟨S1x512, .f32⟩
  | 24 => ⟨S20000x512, .f32⟩
  | 25 => ⟨S20000x512, .f32⟩
  | 26 => ⟨S1, .f32⟩
  | 27 => ⟨S_, .f32⟩
  | 28 => ⟨S_, .f32⟩
  | 29 => ⟨S20000x512, .f32⟩
  | 30 => ⟨S20000x512, .i1⟩
  | 31 => ⟨S20000x512, .f32⟩
  | 32 => ⟨S20000x512, .f32⟩
  | 33 => ⟨S20000x512, .f32⟩
  | 34 => ⟨S_, .f32⟩
  | 35 => ⟨S20000x512, .f32⟩
  | 36 => ⟨S20000x512, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000x512, .f32⟩
  | 46 => ⟨S_, .f32⟩
  | 47 => ⟨S20000x512, .f32⟩
  | 48 => ⟨S320000x1, .i32⟩
  | 49 => ⟨S20000x512, .f32⟩
  | 50 => ⟨S20000x512, .f32⟩
  | 51 => ⟨S1x512x512, .f32⟩
  | 52 => ⟨S512x512, .f32⟩
  | 53 => ⟨S20000x512, .f32⟩
  | 54 => ⟨S1x512, .f32⟩
  | 55 => ⟨S512, .f32⟩
  | 56 => ⟨S1x512, .f32⟩
  | 57 => ⟨S20000x512, .f32⟩
  | 58 => ⟨S20000x512, .f32⟩
  | 59 => ⟨S1, .f32⟩
  | 60 => ⟨S_, .f32⟩
  | 61 => ⟨S_, .f32⟩
  | 62 => ⟨S20000x512, .f32⟩
  | 63 => ⟨S20000x512, .i1⟩
  | 64 => ⟨S20000x512, .f32⟩
  | 65 => ⟨S20000x512, .f32⟩
  | 66 => ⟨S20000x512, .f32⟩
  | 67 => ⟨S1x512, .f32⟩
  | 68 => ⟨S512, .f32⟩
  | 69 => ⟨S1x512, .f32⟩
  | 70 => ⟨S20000x512, .f32⟩
  | 71 => ⟨S20000x512, .f32⟩
  | 72 => ⟨S1x512, .f32⟩
  | 73 => ⟨S512, .f32⟩
  | 74 => ⟨S1x512, .f32⟩
  | 75 => ⟨S512, .f32⟩
  | 76 => ⟨S_, .f32⟩
  | 77 => ⟨S512, .f32⟩
  | 78 => ⟨S512, .f32⟩
  | 79 => ⟨S512, .f32⟩
  | 80 => ⟨S512, .f32⟩
  | 81 => ⟨S1x512, .f32⟩
  | 82 => ⟨S20000x512, .f32⟩
  | 83 => ⟨S20000x512, .f32⟩
  | 84 => ⟨S1x512, .f32⟩
  | 85 => ⟨S512, .f32⟩
  | 86 => ⟨S1x512, .f32⟩
  | 87 => ⟨S20000x512, .f32⟩
  | 88 => ⟨S20000x512, .f32⟩
  | 89 => ⟨S1x512x512, .f32⟩
  | 90 => ⟨S512x512, .f32⟩
  | 91 => ⟨S20000x512, .f32⟩
  | 92 => ⟨S1x512, .f32⟩
  | 93 => ⟨S512, .f32⟩
  | 94 => ⟨S1x512, .f32⟩
  | 95 => ⟨S20000x512, .f32⟩
  | 96 => ⟨S20000x512, .f32⟩
  | 97 => ⟨S1, .f32⟩
  | 98 => ⟨S_, .f32⟩
  | 99 => ⟨S_, .f32⟩
  | 100 => ⟨S20000x512, .f32⟩
  | 101 => ⟨S20000x512, .i1⟩
  | 102 => ⟨S20000x512, .f32⟩
  | 103 => ⟨S20000x512, .f32⟩
  | 104 => ⟨S20000x512, .f32⟩
  | 105 => ⟨S_, .f32⟩
  | 106 => ⟨S20000x512, .f32⟩
  | 107 => ⟨S20000x512, .f32⟩
  | 108 => ⟨S_, .f32⟩
  | 109 => ⟨S400x512, .f32⟩
  | 110 => ⟨S20000x1, .i32⟩
  | 111 => ⟨S400x512, .f32⟩
  | 112 => ⟨S400x2500, .f32⟩
  | 113 => ⟨S400x3020, .f32⟩
  | 114 => ⟨S400x256, .f32⟩
  | 115 => ⟨S1x256, .f32⟩
  | 116 => ⟨S400x256, .f32⟩
  | 117 => ⟨S400x256, .f32⟩
  | 118 => ⟨S_, .f32⟩
  | 119 => ⟨S400x256, .f32⟩
  | 120 => ⟨S400x256, .f32⟩
  | 121 => ⟨S400x1, .f32⟩
  | 122 => ⟨S1x1, .f32⟩
  | 123 => ⟨S400x1, .f32⟩
  | 124 => ⟨S400x1, .f32⟩
  | 125 => ⟨S400x1, .f32⟩
  | 126 => ⟨S400x1, .f32⟩
  | 127 => ⟨S_, .f32⟩
  | _ => ⟨S20000x512, .f32⟩

abbrev hbmTy0_2 (i : Nat) : BufTy := match i % 128 with
  | 0 => ⟨S400x1, .f32⟩
  | 1 => ⟨S400x1, .f32⟩
  | 2 => ⟨S_, .f32⟩
  | 3 => ⟨S400x1, .f32⟩
  | 4 => ⟨S400x1, .f32⟩
  | _ => ⟨S20000x512, .f32⟩

abbrev hbmTy (i : Nat) : BufTy := match i / 128 with
  | 0 => hbmTy0_0 i
  | 1 => hbmTy0_1 i
  | 2 => hbmTy0_2 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_3 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_v66 : Ref sig .tc := ⟨.hbm, 93, rfl⟩
abbrev main_c_4 : Ref sig .tc := ⟨.hbm, 94, rfl⟩
abbrev main_v67 : Ref sig .tc := ⟨.hbm, 95, rfl⟩
abbrev main_v68 : Ref sig .tc := ⟨.hbm, 96, rfl⟩
abbrev main_c_5 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_6 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_7 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_8 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_9 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_call5_cst : Ref sig .tc := ⟨.hbm, 162, rfl⟩
abbrev main_call5_v0 : Ref sig .tc := ⟨.hbm, 163, rfl⟩
abbrev main_v129 : Ref sig .tc := ⟨.hbm, 164, rfl⟩
abbrev main_c_10 : Ref sig .tc := ⟨.hbm, 165, rfl⟩
abbrev main_v130 : Ref sig .tc := ⟨.hbm, 166, rfl⟩
abbrev main_v131 : Ref sig .tc := ⟨.hbm, 167, rfl⟩
abbrev main_c_11 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_12 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_13 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_14 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_cst_15 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_call8_cst : Ref sig .tc := ⟨.hbm, 233, rfl⟩
abbrev main_call8_v0 : Ref sig .tc := ⟨.hbm, 234, rfl⟩
abbrev main_v192 : Ref sig .tc := ⟨.hbm, 235, rfl⟩
abbrev main_cst_16 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_call9_cst : Ref sig .tc := ⟨.hbm, 246, rfl⟩
abbrev main_call9_v0 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_cst_17 : Ref sig .tc := ⟨.hbm, 255, rfl⟩
abbrev main_v209 : Ref sig .tc := ⟨.hbm, 256, rfl⟩
abbrev main_v210 : Ref sig .tc := ⟨.hbm, 257, rfl⟩
abbrev main_cst_18 : Ref sig .tc := ⟨.hbm, 258, rfl⟩
abbrev main_v211 : Ref sig .tc := ⟨.hbm, 259, rfl⟩
abbrev main_v212 : Ref sig .tc := ⟨.hbm, 260, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  slices_S3_S1_0 : S3.Slices ![0] S1
  shapeCasts_S1_S_ : S1.ShapeCasts S_
  bcast_S_S512 : S_.BroadcastsInDim S512 (![] : Fin 0 → Fin S512.rank)
  slices_S3x512x512_S1x512x512_1_0_0 : S3x512x512.Slices ![1, 0, 0] S1x512x512
  slices_S3x512_S1x512_1_0 : S3x512.Slices ![1, 0] S1x512
  slices_S3_S1_1 : S3.Slices ![1] S1
  slices_S3x512x512_S1x512x512_2_0_0 : S3x512x512.Slices ![2, 0, 0] S1x512x512
  slices_S3x512_S1x512_2_0 : S3x512.Slices ![2, 0] S1x512
  slices_S3_S1_2 : S3.Slices ![2] S1
  bcast_S_S400x512 : S_.BroadcastsInDim S400x512 (![] : Fin 0 → Fin S400x512.rank)
  bcast_S20000_S20000x1_0 : S20000.BroadcastsInDim S20000x1 (![0] : Fin 1 → Fin S20000x1.rank)
  shapeCasts_S400x50x50_S400x2500 : S400x50x50.ShapeCasts S400x2500
  concatenates_S400x512_S400x8_S400x2500_S400x3020_d1 : Shape.Concatenates [S400x512, S400x8, S400x2500] S400x3020 1
  bcast_S256_S1x256_1 : S256.BroadcastsInDim S1x256 (![1] : Fin 1 → Fin S1x256.rank)
  bcast_S1x256_S400x256_0_1 : S1x256.BroadcastsInDim S400x256 (![0, 1] : Fin 2 → Fin S400x256.rank)
  bcast_S_S400x256 : S_.BroadcastsInDim S400x256 (![] : Fin 0 → Fin S400x256.rank)
  bcast_S1_S1x1_1 : S1.BroadcastsInDim S1x1 (![1] : Fin 1 → Fin S1x1.rank)
  bcast_S1x1_S400x1_0_1 : S1x1.BroadcastsInDim S400x1 (![0, 1] : Fin 2 → Fin S400x1.rank)
  bcast_S_S400x1 : S_.BroadcastsInDim S400x1 (![] : Fin 0 → Fin S400x1.rank)
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x512_S20000x512_1_0_0_1_n_n_wf : DotDims.WF S20000x512 S512x512 S20000x512 [1] [0] [0] [1] [] []
  scatter_S400x512_S20000x1_S20000x512_1_0_0_1_wf : ScatterDims.WF S400x512 S20000x1 S20000x512 [1] [0] [0] 1
  dot_S400x3020_S3020x256_S400x256_1_0_0_1_n_n_wf : DotDims.WF S400x3020 S3020x256 S400x256 [1] [0] [0] [1] [] []
  dot_S400x256_S256x1_S400x1_1_0_0_1_n_n_wf : DotDims.WF S400x256 S256x1 S400x1 [1] [0] [0] [1] [] []

variable [Facts₀]

def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S400x512_S20000x1_S20000x512_1_0_0_1 : ScatterDims S400x512 S20000x1 S20000x512 where
  updateWindowDims := [1]
  insertedWindowDims := [0]
  scatterDimsToOperandDims := [0]
  indexVectorDim := 1
  wf := scatter_S400x512_S20000x1_S20000x512_1_0_0_1_wf
def dot_S400x3020_S3020x256_S400x256_1_0_0_1_n_n : DotDims S400x3020 S3020x256 S400x256 where
  lhsContracting := [1]
  rhsContracting := [0]
  lhsNonContracting := [0]
  rhsNonContracting := [1]
  lhsBatch := []
  rhsBatch := []
  wf := dot_S400x3020_S3020x256_S400x256_1_0_0_1_n_n_wf
def dot_S400x256_S256x1_S400x1_1_0_0_1_n_n : DotDims S400x256 S256x1 S400x1 where
  lhsContracting := [1]
  rhsContracting := [0]
  lhsNonContracting := [0]
  rhsNonContracting := [1]
  lhsBatch := []
  rhsBatch := []
  wf := dot_S400x256_S256x1_S400x1_1_0_0_1_n_n_wf

class Facts : Prop extends Facts₀ where

variable [Facts]
-- ==== Proof.BitsLayer0Body.lean ====
/-
  The first layer's kernel body, run once on whole staging buffers.

  The body reads twelve blocks — a block of 1000 rows of the node features h and of the neighbour sums agg, the
  two 512×512 weight matrices, and eight rows of parameters (two biases, the batch-norm scale, shift, mean and
  variance, each 1×512, and the two 1×1 slopes) — and writes one block of 1000 rows: with u = h + agg,
    z  = prelu (u·W₁ + b₁, a₁),   z' = (z − mean) · (γ · rsqrt (var + ε)) + β,   out = max (prelu (z'·W₂ + b₂, a₂), 0).
  Every access is of a whole buffer, so what the body leaves in the output buffer is one function of the twelve
  buffers it found; this module names that function and proves the body's triple against it.
-/
import proofs.«142629_j73753178406914_1_alg».proof.Proof.Gen.Kernel.Launch
import proofs.«142629_j73753178406914_1_alg».proof.Proof.Gen.Kernel.Skeleton
import proofs.«142629_j73753178406914_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rRows : Rect S1000x512 := Rect.unit (s := S1000x512) ![0, 0] S1000x512.size inb_S1000x512_S1000x512_0_0
abbrev rMat : Rect S512x512 := Rect.unit (s := S512x512) ![0, 0] S512x512.size inb_S512x512_S512x512_0_0
abbrev rRow : Rect S1x512 := Rect.unit (s := S1x512) ![0, 0] S1x512.size inb_S1x512_S1x512_0_0
abbrev rOne : Rect S1x1 := Rect.unit (s := S1x1) ![0, 0] S1x1.size inb_S1x1_S1x1_0_0

/-! ## What the body leaves in the output buffer -/

/-- The first layer's output block from the twelve input blocks, in the order of the call's operands:
    h, agg, W₁, b₁, a₁, γ, β, mean, var, W₂, b₂, a₂. The one store writes the whole buffer. -/
def out0 (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32) :
    Vec F S1000x512 .f32 :=
  View.canon [⟨rRows, k0_pay1
    (k0_pay2 (View.ld xh rRows) (View.ld xagg rRows) (View.ld xw1 rMat) (View.ld xb1 rRow) (View.ld xa1 rOne)
      (View.ld xg rRow) (View.ld xvar rRow) (View.ld xmean rRow) (View.ld xbeta rRow))
    (View.ld xw2 rMat) (View.ld xb2 rRow) (View.ld xa2 rOne)⟩]

/-- The one store covers the buffer. -/
theorem cover0 (p0 : Vec F S1000x512 .f32) (y : S1000x512.Idx) :
    ∃ pc ∈ ([⟨rRows, p0⟩] : List (View.Piece (Elt F) S1000x512 .f32)), y ∈ pc.1.set :=
  View.cover_of_tiled [⟨rRows, p0⟩] S1000x512.size (by rfl) y

/-! ## The body's triple -/

set_option maxHeartbeats 4000000 in
/-- On whole staging buffers, the inputs' at contents x and the output's at anything, the body runs to its
    continuation with the inputs' as they were and the output's at out0 of them. -/
theorem body0_triple (c : Dev nD) (E : Set ℕ) (i : grid0.Coords)
    (arg1 : Memref sig .tc .vmem S1000x512 .f32) (harg1 : arg1.IsWhole) (arg2 : Memref sig .tc .vmem S1000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S512x512 .f32) (harg10 : arg10.IsWhole)
    (arg11 : Memref sig .tc .vmem S1x512 .f32) (harg11 : arg11.IsWhole) (arg12 : Memref sig .tc .vmem S1x1 .f32) (harg12 : arg12.IsWhole)
    (arg13 : Memref sig .tc .vmem S1000x512 .f32) (harg13 : arg13.IsWhole)
    (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32)
    (K : PUnit → sProp 𝕄) :
    iprop(owns (c : Thread nD τ) arg1 fullShare xh ∗ owns (c : Thread nD τ) arg2 fullShare xagg
        ∗ owns (c : Thread nD τ) arg3 fullShare xw1 ∗ owns (c : Thread nD τ) arg4 fullShare xb1
        ∗ owns (c : Thread nD τ) arg5 fullShare xa1 ∗ owns (c : Thread nD τ) arg6 fullShare xg
        ∗ owns (c : Thread nD τ) arg7 fullShare xbeta ∗ owns (c : Thread nD τ) arg8 fullShare xmean
        ∗ owns (c : Thread nD τ) arg9 fullShare xvar ∗ owns (c : Thread nD τ) arg10 fullShare xw2
        ∗ owns (c : Thread nD τ) arg11 fullShare xb2 ∗ owns (c : Thread nD τ) arg12 fullShare xa2
        ∗ (∃ d, owns (c : Thread nD τ) arg13 fullShare d)
        ∗ (iprop(owns (c : Thread nD τ) arg1 fullShare xh ∗ owns (c : Thread nD τ) arg2 fullShare xagg
            ∗ owns (c : Thread nD τ) arg3 fullShare xw1 ∗ owns (c : Thread nD τ) arg4 fullShare xb1
            ∗ owns (c : Thread nD τ) arg5 fullShare xa1 ∗ owns (c : Thread nD τ) arg6 fullShare xg
            ∗ owns (c : Thread nD τ) arg7 fullShare xbeta ∗ owns (c : Thread nD τ) arg8 fullShare xmean
            ∗ owns (c : Thread nD τ) arg9 fullShare xvar ∗ owns (c : Thread nD τ) arg10 fullShare xw2
            ∗ owns (c : Thread nD τ) arg11 fullShare xb2 ∗ owns (c : Thread nD τ) arg12 fullShare xa2
            ∗ owns (c : Thread nD τ) arg13 fullShare (out0 xh xagg xw1 xb1 xa1 xg xbeta xmean xvar xw2 xb2 xa2)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8
            arg9 harg9 arg10 harg10 arg11 harg11 arg12 harg12 arg13 harg13) K := by
  simp only [cc0__mlp_kernel_eq_skeleton]; unfold cc0__mlp_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover0 _)

end Cert.Kernel.Layer

end
-- ==== Proof.BitsLayer0Data.lean ====
/-
  Layer 1's region as the pipeline sees it: what each window's staging buffer holds when the body is called at a
  grid point, what the body leaves there, and hence the obligation the pipeline asks of the body at every point.
-/
import proofs.«142629_j73753178406914_1_alg».proof.Proof.BitsLayer0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks at a grid point

`V` is what the core's buffers hold when the region is entered. Window w's block at point t is the part of its
array the point's index map selects: rows 1000·t … 1000·t + 999 for the two row-blocked inputs and the output,
the whole array for the ten resident parameter windows. -/

section
variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetched it or an earlier
point did and the index has not moved since (the resident windows are fetched once, at the first point). -/

theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = blk0 V c 7 t) (t : Fin cfg0.N) (d) : dat.before 7 t d = blk0 V c 7 t :=
  (dat.before_in_eq_fetched 7 rfl (fun _ => rfl) (fun _ _ _ => rfl) (fun t => by rw [hafter]; unfold Dat.blockOf blk0; rw [hA]; try rfl) t d).trans
    (by unfold Dat.fetched Dat.blockOf blk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = blk0 V c 8 t) (t : Fin cfg0.N) (d) : dat.before 8 t d = blk0 V c 8 t :=
  (dat.before_in_eq_fetched 8 rfl (fun _ => rfl) (fun _ _ _ => rfl) (fun t => by rw [hafter]; unfold Dat.blockOf blk0; rw [hA]; try rfl) t d).trans
    (by unfold Dat.fetched Dat.blockOf blk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = blk0 V c 9 t) (t : Fin cfg0.N) (d) : dat.before 9 t d = blk0 V c 9 t :=
  (dat.before_in_eq_fetched 9 rfl (fun _ => rfl) (fun _ _ _ => rfl) (fun t => by rw [hafter]; unfold Dat.blockOf blk0; rw [hA]; try rfl) t d).trans
    (by unfold Dat.fetched Dat.blockOf blk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = blk0 V c 10 t) (t : Fin cfg0.N) (d) : dat.before 10 t d = blk0 V c 10 t :=
  (dat.before_in_eq_fetched 10 rfl (fun _ => rfl) (fun _ _ _ => rfl) (fun t => by rw [hafter]; unfold Dat.blockOf blk0; rw [hA]; try rfl) t d).trans
    (by unfold Dat.fetched Dat.blockOf blk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = blk0 V c 11 t) (t : Fin cfg0.N) (d) : dat.before 11 t d = blk0 V c 11 t :=
  (dat.before_in_eq_fetched 11 rfl (fun _ => rfl) (fun _ _ _ => rfl) (fun t => by rw [hafter]; unfold Dat.blockOf blk0; rw [hA]; try rfl) t d).trans
    (by unfold Dat.fetched Dat.blockOf blk0; rw [hA]; try rfl)

/-! ## The proof data: arrays as found, each input's buffer at its block, the output's at the layer's function of them -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => blk0 V c 9 t
    | ⟨10, _⟩ => blk0 V c 10 t
    | ⟨11, _⟩ => blk0 V c 11 t
    | ⟨12, _⟩ => out0 (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = blk0 V c 8 t := by dsimp only [dat0]
theorem after0_9 (c : Dev nD) (t : Fin cfg0.N) : (dat0 V c).after 9 t = blk0 V c 9 t := by dsimp only [dat0]
theorem after0_10 (c : Dev nD) (t : Fin cfg0.N) : (dat0 V c).after 10 t = blk0 V c 10 t := by dsimp only [dat0]
theorem after0_11 (c : Dev nD) (t : Fin cfg0.N) : (dat0 V c).after 11 t = blk0 V c 11 t := by dsimp only [dat0]
theorem after0_12 (c : Dev nD) (t : Fin cfg0.N) : (dat0 V c).after 12 t = out0 (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d
theorem before0_6 (c : Dev nD) (t : Fin cfg0.N) (d) : (dat0 V c).before 6 t d = blk0 V c 6 t :=
  before0_6_of V (dat0 V c) (A_eq0 V c 6) (after0_6 V c) t d
theorem before0_7 (c : Dev nD) (t : Fin cfg0.N) (d) : (dat0 V c).before 7 t d = blk0 V c 7 t :=
  before0_7_of V (dat0 V c) (A_eq0 V c 7) (after0_7 V c) t d
theorem before0_8 (c : Dev nD) (t : Fin cfg0.N) (d) : (dat0 V c).before 8 t d = blk0 V c 8 t :=
  before0_8_of V (dat0 V c) (A_eq0 V c 8) (after0_8 V c) t d
theorem before0_9 (c : Dev nD) (t : Fin cfg0.N) (d) : (dat0 V c).before 9 t d = blk0 V c 9 t :=
  before0_9_of V (dat0 V c) (A_eq0 V c 9) (after0_9 V c) t d
theorem before0_10 (c : Dev nD) (t : Fin cfg0.N) (d) : (dat0 V c).before 10 t d = blk0 V c 10 t :=
  before0_10_of V (dat0 V c) (A_eq0 V c 10) (after0_10 V c) t d
theorem before0_11 (c : Dev nD) (t : Fin cfg0.N) (d) : (dat0 V c).before 11 t d = blk0 V c 11 t :=
  before0_11_of V (dat0 V c) (A_eq0 V c 11) (after0_11 V c) t d

/-! ## The body at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 2000000 in
/-- The inputs' buffers hold their blocks, so the body's triple applies; the invariant and what the core owes pass
    through unread. -/
theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body0_triple c Set.univ _ _ _ _ _ _ _ _ _ _ _ _ _ _ _ _ _ _ _ _ _ _ _ _ _ _ _
    (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation at every point. -/
theorem body_obligation0 (c : Dev nD) : BodyObligation (dat0 (F := F) V c) (defs₀ (F := F)) Variants.none () Set.univ := fun t => by
  rw [bigSep_W0, bigSep_W0]
  exact body0_at V c t

end

end Cert.Kernel.Layer

end
-- ==== Proof.BitsLayer1Body.lean ====
/-
  Layer 2's kernel body, run once on whole staging buffers: the same twelve reads and one whole-buffer store as the
  first layer's, of this layer's own parameter rows (the printed body computes the shift row β apart from the rest,
  which changes nothing in what is stored).
-/
import proofs.«142629_j73753178406914_1_alg».proof.Proof.BitsLayer0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in the output buffer -/

/-- Layer 2's output block from the twelve input blocks, in the order of the call's operands:
    h, agg, W₁, b₁, a₁, γ, β, mean, var, W₂, b₂, a₂. The one store writes the whole buffer. -/
def out1 (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32) :
    Vec F S1000x512 .f32 :=
  View.canon [⟨rRows, k1_pay1
    (k1_pay2 (View.ld xh rRows) (View.ld xagg rRows) (View.ld xw1 rMat) (View.ld xb1 rRow) (View.ld xa1 rOne)
      (View.ld xg rRow) (View.ld xvar rRow) (View.ld xmean rRow))
    (k1_pay3 (View.ld xbeta rRow))
    (View.ld xw2 rMat) (View.ld xb2 rRow) (View.ld xa2 rOne)⟩]

/-- The one store covers the buffer. -/
theorem cover1 (p0 : Vec F S1000x512 .f32) (y : S1000x512.Idx) :
    ∃ pc ∈ ([⟨rRows, p0⟩] : List (View.Piece (Elt F) S1000x512 .f32)), y ∈ pc.1.set :=
  View.cover_of_tiled [⟨rRows, p0⟩] S1000x512.size (by rfl) y

/-! ## The body's triple -/

set_option maxHeartbeats 4000000 in
/-- On whole staging buffers, the inputs' at contents x and the output's at anything, the body runs to its
    continuation with the inputs' as they were and the output's at out1 of them. -/
theorem body1_triple (c : Dev nD) (E : Set ℕ) (i : grid1.Coords)
    (arg1 : Memref sig .tc .vmem S1000x512 .f32) (harg1 : arg1.IsWhole) (arg2 : Memref sig .tc .vmem S1000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S512x512 .f32) (harg10 : arg10.IsWhole)
    (arg11 : Memref sig .tc .vmem S1x512 .f32) (harg11 : arg11.IsWhole) (arg12 : Memref sig .tc .vmem S1x1 .f32) (harg12 : arg12.IsWhole)
    (arg13 : Memref sig .tc .vmem S1000x512 .f32) (harg13 : arg13.IsWhole)
    (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32)
    (K : PUnit → sProp 𝕄) :
    iprop(owns (c : Thread nD τ) arg1 fullShare xh ∗ owns (c : Thread nD τ) arg2 fullShare xagg
        ∗ owns (c : Thread nD τ) arg3 fullShare xw1 ∗ owns (c : Thread nD τ) arg4 fullShare xb1
        ∗ owns (c : Thread nD τ) arg5 fullShare xa1 ∗ owns (c : Thread nD τ) arg6 fullShare xg
        ∗ owns (c : Thread nD τ) arg7 fullShare xbeta ∗ owns (c : Thread nD τ) arg8 fullShare xmean
        ∗ owns (c : Thread nD τ) arg9 fullShare xvar ∗ owns (c : Thread nD τ) arg10 fullShare xw2
        ∗ owns (c : Thread nD τ) arg11 fullShare xb2 ∗ owns (c : Thread nD τ) arg12 fullShare xa2
        ∗ (∃ d, owns (c : Thread nD τ) arg13 fullShare d)
        ∗ (iprop(owns (c : Thread nD τ) arg1 fullShare xh ∗ owns (c : Thread nD τ) arg2 fullShare xagg
            ∗ owns (c : Thread nD τ) arg3 fullShare xw1 ∗ owns (c : Thread nD τ) arg4 fullShare xb1
            ∗ owns (c : Thread nD τ) arg5 fullShare xa1 ∗ owns (c : Thread nD τ) arg6 fullShare xg
            ∗ owns (c : Thread nD τ) arg7 fullShare xbeta ∗ owns (c : Thread nD τ) arg8 fullShare xmean
            ∗ owns (c : Thread nD τ) arg9 fullShare xvar ∗ owns (c : Thread nD τ) arg10 fullShare xw2
            ∗ owns (c : Thread nD τ) arg11 fullShare xb2 ∗ owns (c : Thread nD τ) arg12 fullShare xa2
            ∗ owns (c : Thread nD τ) arg13 fullShare (out1 xh xagg xw1 xb1 xa1 xg xbeta xmean xvar xw2 xb2 xa2)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8
            arg9 harg9 arg10 harg10 arg11 harg11 arg12 harg12 arg13 harg13) K := by
  simp only [cc1__mlp_kernel_eq_skeleton]; unfold cc1__mlp_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1 _)

end Cert.Kernel.Layer

end
-- ==== Proof.BitsLayer1Data.lean ====
/-
  Layer 2's region as the pipeline sees it: what each window's staging buffer holds when the body is called at a
  grid point, what the body leaves there, and hence the obligation the pipeline asks of the body at every point.
-/
import proofs.«142629_j73753178406914_1_alg».proof.Proof.BitsLayer1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks at a grid point

`V` is what the core's buffers hold when the region is entered. Window w's block at point t is the part of its
array the point's index map selects: rows 1000·t … 1000·t + 999 for the two row-blocked inputs and the output,
the whole array for the ten resident parameter windows. -/

section
variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetched it or an earlier
point did and the index has not moved since (the resident windows are fetched once, at the first point). -/

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = blk1 V c 9 t) (t : Fin cfg1.N) (d) : dat.before 9 t d = blk1 V c 9 t :=
  (dat.before_in_eq_fetched 9 rfl (fun _ => rfl) (fun _ _ _ => rfl) (fun t => by rw [hafter]; unfold Dat.blockOf blk1; rw [hA]; try rfl) t d).trans
    (by unfold Dat.fetched Dat.blockOf blk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = blk1 V c 10 t) (t : Fin cfg1.N) (d) : dat.before 10 t d = blk1 V c 10 t :=
  (dat.before_in_eq_fetched 10 rfl (fun _ => rfl) (fun _ _ _ => rfl) (fun t => by rw [hafter]; unfold Dat.blockOf blk1; rw [hA]; try rfl) t d).trans
    (by unfold Dat.fetched Dat.blockOf blk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = blk1 V c 11 t) (t : Fin cfg1.N) (d) : dat.before 11 t d = blk1 V c 11 t :=
  (dat.before_in_eq_fetched 11 rfl (fun _ => rfl) (fun _ _ _ => rfl) (fun t => by rw [hafter]; unfold Dat.blockOf blk1; rw [hA]; try rfl) t d).trans
    (by unfold Dat.fetched Dat.blockOf blk1; rw [hA]; try rfl)

/-! ## The proof data: arrays as found, each input's buffer at its block, the output's at the layer's function of them -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => out1 (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = blk1 V c 9 t := by dsimp only [dat1]
theorem after1_10 (c : Dev nD) (t : Fin cfg1.N) : (dat1 V c).after 10 t = blk1 V c 10 t := by dsimp only [dat1]
theorem after1_11 (c : Dev nD) (t : Fin cfg1.N) : (dat1 V c).after 11 t = blk1 V c 11 t := by dsimp only [dat1]
theorem after1_12 (c : Dev nD) (t : Fin cfg1.N) : (dat1 V c).after 12 t = out1 (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d
theorem before1_6 (c : Dev nD) (t : Fin cfg1.N) (d) : (dat1 V c).before 6 t d = blk1 V c 6 t :=
  before1_6_of V (dat1 V c) (A_eq1 V c 6) (after1_6 V c) t d
theorem before1_7 (c : Dev nD) (t : Fin cfg1.N) (d) : (dat1 V c).before 7 t d = blk1 V c 7 t :=
  before1_7_of V (dat1 V c) (A_eq1 V c 7) (after1_7 V c) t d
theorem before1_8 (c : Dev nD) (t : Fin cfg1.N) (d) : (dat1 V c).before 8 t d = blk1 V c 8 t :=
  before1_8_of V (dat1 V c) (A_eq1 V c 8) (after1_8 V c) t d
theorem before1_9 (c : Dev nD) (t : Fin cfg1.N) (d) : (dat1 V c).before 9 t d = blk1 V c 9 t :=
  before1_9_of V (dat1 V c) (A_eq1 V c 9) (after1_9 V c) t d
theorem before1_10 (c : Dev nD) (t : Fin cfg1.N) (d) : (dat1 V c).before 10 t d = blk1 V c 10 t :=
  before1_10_of V (dat1 V c) (A_eq1 V c 10) (after1_10 V c) t d
theorem before1_11 (c : Dev nD) (t : Fin cfg1.N) (d) : (dat1 V c).before 11 t d = blk1 V c 11 t :=
  before1_11_of V (dat1 V c) (A_eq1 V c 11) (after1_11 V c) t d

/-! ## The body at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 2000000 in
/-- The inputs' buffers hold their blocks, so the body's triple applies; the invariant and what the core owes pass
    through unread. -/
theorem body1_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body1_triple c Set.univ _ _ _ _ _ _ _ _ _ _ _ _ _ _ _ _ _ _ _ _ _ _ _ _ _ _ _
    (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation at every point. -/
theorem body_obligation1 (c : Dev nD) : BodyObligation (dat1 (F := F) V c) (defs₀ (F := F)) Variants.none () Set.univ := fun t => by
  rw [bigSep_W1, bigSep_W1]
  exact body1_at V c t

end

end Cert.Kernel.Layer

end
-- ==== Proof.BitsLayer2Body.lean ====
/-
  Layer 3's kernel body, run once on whole staging buffers: the same twelve reads and one whole-buffer store as the
  first layer's, of this layer's own parameter rows (the printed body computes the shift row β apart from the rest,
  which changes nothing in what is stored).
-/
import proofs.«142629_j73753178406914_1_alg».proof.Proof.BitsLayer0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in the output buffer -/

/-- Layer 3's output block from the twelve input blocks, in the order of the call's operands:
    h, agg, W₁, b₁, a₁, γ, β, mean, var, W₂, b₂, a₂. The one store writes the whole buffer. -/
def out2 (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32) :
    Vec F S1000x512 .f32 :=
  View.canon [⟨rRows, k2_pay1
    (k2_pay2 (View.ld xh rRows) (View.ld xagg rRows) (View.ld xw1 rMat) (View.ld xb1 rRow) (View.ld xa1 rOne)
      (View.ld xg rRow) (View.ld xvar rRow) (View.ld xmean rRow))
    (k2_pay3 (View.ld xbeta rRow))
    (View.ld xw2 rMat) (View.ld xb2 rRow) (View.ld xa2 rOne)⟩]

/-- The one store covers the buffer. -/
theorem cover2 (p0 : Vec F S1000x512 .f32) (y : S1000x512.Idx) :
    ∃ pc ∈ ([⟨rRows, p0⟩] : List (View.Piece (Elt F) S1000x512 .f32)), y ∈ pc.1.set :=
  View.cover_of_tiled [⟨rRows, p0⟩] S1000x512.size (by rfl) y

/-! ## The body's triple -/

set_option maxHeartbeats 4000000 in
/-- On whole staging buffers, the inputs' at contents x and the output's at anything, the body runs to its
    continuation with the inputs' as they were and the output's at out2 of them. -/
theorem body2_triple (c : Dev nD) (E : Set ℕ) (i : grid2.Coords)
    (arg1 : Memref sig .tc .vmem S1000x512 .f32) (harg1 : arg1.IsWhole) (arg2 : Memref sig .tc .vmem S1000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S512x512 .f32) (harg10 : arg10.IsWhole)
    (arg11 : Memref sig .tc .vmem S1x512 .f32) (harg11 : arg11.IsWhole) (arg12 : Memref sig .tc .vmem S1x1 .f32) (harg12 : arg12.IsWhole)
    (arg13 : Memref sig .tc .vmem S1000x512 .f32) (harg13 : arg13.IsWhole)
    (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32)
    (K : PUnit → sProp 𝕄) :
    iprop(owns (c : Thread nD τ) arg1 fullShare xh ∗ owns (c : Thread nD τ) arg2 fullShare xagg
        ∗ owns (c : Thread nD τ) arg3 fullShare xw1 ∗ owns (c : Thread nD τ) arg4 fullShare xb1
        ∗ owns (c : Thread nD τ) arg5 fullShare xa1 ∗ owns (c : Thread nD τ) arg6 fullShare xg
        ∗ owns (c : Thread nD τ) arg7 fullShare xbeta ∗ owns (c : Thread nD τ) arg8 fullShare xmean
        ∗ owns (c : Thread nD τ) arg9 fullShare xvar ∗ owns (c : Thread nD τ) arg10 fullShare xw2
        ∗ owns (c : Thread nD τ) arg11 fullShare xb2 ∗ owns (c : Thread nD τ) arg12 fullShare xa2
        ∗ (∃ d, owns (c : Thread nD τ) arg13 fullShare d)
        ∗ (iprop(owns (c : Thread nD τ) arg1 fullShare xh ∗ owns (c : Thread nD τ) arg2 fullShare xagg
            ∗ owns (c : Thread nD τ) arg3 fullShare xw1 ∗ owns (c : Thread nD τ) arg4 fullShare xb1
            ∗ owns (c : Thread nD τ) arg5 fullShare xa1 ∗ owns (c : Thread nD τ) arg6 fullShare xg
            ∗ owns (c : Thread nD τ) arg7 fullShare xbeta ∗ owns (c : Thread nD τ) arg8 fullShare xmean
            ∗ owns (c : Thread nD τ) arg9 fullShare xvar ∗ owns (c : Thread nD τ) arg10 fullShare xw2
            ∗ owns (c : Thread nD τ) arg11 fullShare xb2 ∗ owns (c : Thread nD τ) arg12 fullShare xa2
            ∗ owns (c : Thread nD τ) arg13 fullShare (out2 xh xagg xw1 xb1 xa1 xg xbeta xmean xvar xw2 xb2 xa2)) -∗ K ⟨⟩))
      ⊢ wp frame (wpE (defs₀ (F := F)) Variants.none c none) E
          (cc2__mlp_kernel i arg1 harg1 arg2 harg2 arg3 harg3 arg4 harg4 arg5 harg5 arg6 harg6 arg7 harg7 arg8 harg8
            arg9 harg9 arg10 harg10 arg11 harg11 arg12 harg12 arg13 harg13) K := by
  simp only [cc2__mlp_kernel_eq_skeleton]; unfold cc2__mlp_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover2 _)

end Cert.Kernel.Layer

end
-- ==== Proof.BitsLayer2Data.lean ====
/-
  Layer 3's region as the pipeline sees it: what each window's staging buffer holds when the body is called at a
  grid point, what the body leaves there, and hence the obligation the pipeline asks of the body at every point.
-/
import proofs.«142629_j73753178406914_1_alg».proof.Proof.BitsLayer2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks at a grid point

`V` is what the core's buffers hold when the region is entered. Window w's block at point t is the part of its
array the point's index map selects: rows 1000·t … 1000·t + 999 for the two row-blocked inputs and the output,
the whole array for the ten resident parameter windows. -/

section
variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the point fetched it or an earlier
point did and the index has not moved since (the resident windows are fetched once, at the first point). -/

theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = blk2 V c 7 t) (t : Fin cfg2.N) (d) : dat.before 7 t d = blk2 V c 7 t :=
  (dat.before_in_eq_fetched 7 rfl (fun _ => rfl) (fun _ _ _ => rfl) (fun t => by rw [hafter]; unfold Dat.blockOf blk2; rw [hA]; try rfl) t d).trans
    (by unfold Dat.fetched Dat.blockOf blk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = blk2 V c 8 t) (t : Fin cfg2.N) (d) : dat.before 8 t d = blk2 V c 8 t :=
  (dat.before_in_eq_fetched 8 rfl (fun _ => rfl) (fun _ _ _ => rfl) (fun t => by rw [hafter]; unfold Dat.blockOf blk2; rw [hA]; try rfl) t d).trans
    (by unfold Dat.fetched Dat.blockOf blk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = blk2 V c 9 t) (t : Fin cfg2.N) (d) : dat.before 9 t d = blk2 V c 9 t :=
  (dat.before_in_eq_fetched 9 rfl (fun _ => rfl) (fun _ _ _ => rfl) (fun t => by rw [hafter]; unfold Dat.blockOf blk2; rw [hA]; try rfl) t d).trans
    (by unfold Dat.fetched Dat.blockOf blk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = blk2 V c 10 t) (t : Fin cfg2.N) (d) : dat.before 10 t d = blk2 V c 10 t :=
  (dat.before_in_eq_fetched 10 rfl (fun _ => rfl) (fun _ _ _ => rfl) (fun t => by rw [hafter]; unfold Dat.blockOf blk2; rw [hA]; try rfl) t d).trans
    (by unfold Dat.fetched Dat.blockOf blk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = blk2 V c 11 t) (t : Fin cfg2.N) (d) : dat.before 11 t d = blk2 V c 11 t :=
  (dat.before_in_eq_fetched 11 rfl (fun _ => rfl) (fun _ _ _ => rfl) (fun t => by rw [hafter]; unfold Dat.blockOf blk2; rw [hA]; try rfl) t d).trans
    (by unfold Dat.fetched Dat.blockOf blk2; rw [hA]; try rfl)

/-! ## The proof data: arrays as found, each input's buffer at its block, the output's at the layer's function of them -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => blk2 V c 10 t
    | ⟨11, _⟩ => blk2 V c 11 t
    | ⟨12, _⟩ => out2 (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = blk2 V c 8 t := by dsimp only [dat2]
theorem after2_9 (c : Dev nD) (t : Fin cfg2.N) : (dat2 V c).after 9 t = blk2 V c 9 t := by dsimp only [dat2]
theorem after2_10 (c : Dev nD) (t : Fin cfg2.N) : (dat2 V c).after 10 t = blk2 V c 10 t := by dsimp only [dat2]
theorem after2_11 (c : Dev nD) (t : Fin cfg2.N) : (dat2 V c).after 11 t = blk2 V c 11 t := by dsimp only [dat2]
theorem after2_12 (c : Dev nD) (t : Fin cfg2.N) : (dat2 V c).after 12 t = out2 (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d
theorem before2_5 (c : Dev nD) (t : Fin cfg2.N) (d) : (dat2 V c).before 5 t d = blk2 V c 5 t :=
  before2_5_of V (dat2 V c) (A_eq2 V c 5) (after2_5 V c) t d
theorem before2_6 (c : Dev nD) (t : Fin cfg2.N) (d) : (dat2 V c).before 6 t d = blk2 V c 6 t :=
  before2_6_of V (dat2 V c) (A_eq2 V c 6) (after2_6 V c) t d
theorem before2_7 (c : Dev nD) (t : Fin cfg2.N) (d) : (dat2 V c).before 7 t d = blk2 V c 7 t :=
  before2_7_of V (dat2 V c) (A_eq2 V c 7) (after2_7 V c) t d
theorem before2_8 (c : Dev nD) (t : Fin cfg2.N) (d) : (dat2 V c).before 8 t d = blk2 V c 8 t :=
  before2_8_of V (dat2 V c) (A_eq2 V c 8) (after2_8 V c) t d
theorem before2_9 (c : Dev nD) (t : Fin cfg2.N) (d) : (dat2 V c).before 9 t d = blk2 V c 9 t :=
  before2_9_of V (dat2 V c) (A_eq2 V c 9) (after2_9 V c) t d
theorem before2_10 (c : Dev nD) (t : Fin cfg2.N) (d) : (dat2 V c).before 10 t d = blk2 V c 10 t :=
  before2_10_of V (dat2 V c) (A_eq2 V c 10) (after2_10 V c) t d
theorem before2_11 (c : Dev nD) (t : Fin cfg2.N) (d) : (dat2 V c).before 11 t d = blk2 V c 11 t :=
  before2_11_of V (dat2 V c) (A_eq2 V c 11) (after2_11 V c) t d

/-! ## The body at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t))

set_option maxHeartbeats 2000000 in
/-- The inputs' buffers hold their blocks, so the body's triple applies; the invariant and what the core owes pass
    through unread. -/
theorem body2_at (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body2_triple c Set.univ _ _ _ _ _ _ _ _ _ _ _ _ _ _ _ _ _ _ _ _ _ _ _ _ _ _ _
    (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation at every point. -/
theorem body_obligation2 (c : Dev nD) : BodyObligation (dat2 (F := F) V c) (defs₀ (F := F)) Variants.none () Set.univ := fun t => by
  rw [bigSep_W2, bigSep_W2]
  exact body2_at V c t

end

end Cert.Kernel.Layer

end
-- ==== Proof.BitsKernelRun.lean ====
/-
  The kernel program's run, from the launch to the return.

  @main is nine items: a stretch of host operations (the first gather and segment sum, and the first layer's
  parameter rows), the first layer's region, a second stretch and region, a third stretch and region, and three
  stretches for the pooling and the two dense layers of the head. The contents of every unscoped buffer are followed
  through the items — a stretch leaves its operations' results, a region leaves its output array with every grid
  point's block written back and everything else as it found it — and every weakly fair execution is shown to
  terminate, faulting nowhere, with every unscoped buffer at the last of these contents.
-/
import proofs.«142629_j73753178406914_1_alg».proof.Proof.BitsLayer0Data
import proofs.«142629_j73753178406914_1_alg».proof.Proof.BitsLayer1Data
import proofs.«142629_j73753178406914_1_alg».proof.Proof.BitsLayer2Data
import proofs.«142629_j73753178406914_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- At launch. -/
abbrev B0 : Dev nD → Valuation τ sig (Elt F) := fun c b => m (c, b)
/-- After the first host stretch. -/
abbrev B1 : Dev nD → Valuation τ sig (Elt F) := fun c => StableHlo.after hostOps0 (B0 m c)
abbrev T1 : (c : Dev nD) → (b : Ref sig .tc) → Buf (Elt F) ((c : Thread nD τ).loc b) := fun c b => B1 m c b

/-- After layer 1's region: its windows' arrays at what the pipeline leaves — the inputs as entered, the output with
    every point's block written back —, every other buffer as entered. -/
def B2 (c : Dev nD) : Valuation τ sig (Elt F) :=
  Pipeline.withArrays spec0 c (B1 m c) fun w => (dat0 (T1 m) c).arrAt w cfg0.N
theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev T2 : (c : Dev nD) → (b : Ref sig .tc) → Buf (Elt F) ((c : Thread nD τ).loc b) := fun c b => B2 m c b
theorem left0_arr (c : Dev nD) (w : Fin cfg0.W) : (dat0 (T1 m) c).arrAt w cfg0.N = T2 m c (Pipeline.arrRef spec0 w) :=
  (B2_arr m c w).symm
theorem left0_rest (c : Dev nD) : ∀ b, b ∉ Finset.univ.image (Pipeline.arrRef spec0) → T2 m c b = T1 m c b :=
  fun b hb => B2_of_ne m c b fun w e => hb (Finset.mem_image.mpr ⟨w, Finset.mem_univ _, e⟩)

/-- After the second host stretch. -/
abbrev B3 : Dev nD → Valuation τ sig (Elt F) := fun c => StableHlo.after hostOps1 (B2 m c)
abbrev T3 : (c : Dev nD) → (b : Ref sig .tc) → Buf (Elt F) ((c : Thread nD τ).loc b) := fun c b => B3 m c b

/-- After layer 2's region: its windows' arrays at what the pipeline leaves — the inputs as entered, the output with
    every point's block written back —, every other buffer as entered. -/
def B4 (c : Dev nD) : Valuation τ sig (Elt F) :=
  Pipeline.withArrays spec1 c (B3 m c) fun w => (dat1 (T3 m) c).arrAt w cfg1.N
theorem B4_arr (c : Dev nD) (w : Fin cfg1.W) :
    B4 m c (Proc.devRef .tc (Pipeline.arrRef spec1 w)) = (dat1 (T3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev T4 : (c : Dev nD) → (b : Ref sig .tc) → Buf (Elt F) ((c : Thread nD τ).loc b) := fun c b => B4 m c b
theorem left1_arr (c : Dev nD) (w : Fin cfg1.W) : (dat1 (T3 m) c).arrAt w cfg1.N = T4 m c (Pipeline.arrRef spec1 w) :=
  (B4_arr m c w).symm
theorem left1_rest (c : Dev nD) : ∀ b, b ∉ Finset.univ.image (Pipeline.arrRef spec1) → T4 m c b = T3 m c b :=
  fun b hb => B4_of_ne m c b fun w e => hb (Finset.mem_image.mpr ⟨w, Finset.mem_univ _, e⟩)

/-- After the third host stretch. -/
abbrev B5 : Dev nD → Valuation τ sig (Elt F) := fun c => StableHlo.after hostOps2 (B4 m c)
abbrev T5 : (c : Dev nD) → (b : Ref sig .tc) → Buf (Elt F) ((c : Thread nD τ).loc b) := fun c b => B5 m c b

/-- After layer 3's region: its windows' arrays at what the pipeline leaves — the inputs as entered, the output with
    every point's block written back —, every other buffer as entered. -/
def B6 (c : Dev nD) : Valuation τ sig (Elt F) :=
  Pipeline.withArrays spec2 c (B5 m c) fun w => (dat2 (T5 m) c).arrAt w cfg2.N
theorem B6_arr (c : Dev nD) (w : Fin cfg2.W) :
    B6 m c (Proc.devRef .tc (Pipeline.arrRef spec2 w)) = (dat2 (T5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev T6 : (c : Dev nD) → (b : Ref sig .tc) → Buf (Elt F) ((c : Thread nD τ).loc b) := fun c b => B6 m c b
theorem left2_arr (c : Dev nD) (w : Fin cfg2.W) : (dat2 (T5 m) c).arrAt w cfg2.N = T6 m c (Pipeline.arrRef spec2 w) :=
  (B6_arr m c w).symm
theorem left2_rest (c : Dev nD) : ∀ b, b ∉ Finset.univ.image (Pipeline.arrRef spec2) → T6 m c b = T5 m c b :=
  fun b hb => B6_of_ne m c b fun w e => hb (Finset.mem_image.mpr ⟨w, Finset.mem_univ _, e⟩)

/-- After the pooling and the head's three stretches. -/
abbrev B7 : Dev nD → Valuation τ sig (Elt F) := fun c => StableHlo.after hostOps3 (B6 m c)
abbrev B8 : Dev nD → Valuation τ sig (Elt F) := fun c => StableHlo.after hostOps3_1 (B7 m c)
abbrev B9 : Dev nD → Valuation τ sig (Elt F) := fun c => StableHlo.after hostOps3_2 (B8 m c)

/-! ## The proof data of the three pipelines, and what rides beside the buffers -/

/-- No pipeline has a prefetched table. -/
abbrev tables : (p : Fin 3) → (pcfgs (F := F) p).Adm := fun p => (cfgs p).toPCfg_adm

def data : (p : Fin 3) → (c : Dev nD) → Dat τ (Elt F) Unit ℕ (UR sig nD τ) ℕ (Pipeline.pin (pcfgs (F := F)) tables p) c
  | ⟨0, _⟩ => fun c => dat0 (T1 m) c
  | ⟨1, _⟩ => fun c => dat1 (T3 m) c
  | ⟨2, _⟩ => fun c => dat2 (T5 m) c

abbrev 𝒱₀ : Variants := Variants.none
abbrev L : GSem nD τ sig → Finset Unit := fun _ => ∅
abbrev lv : GSem nD τ sig → Unit → ℕ := fun _ _ => 0

/-- Beside the buffers, through every item: the core's generator register at some state, and the core owing nothing. -/
abbrev rest (c : Dev nD) : sProp 𝕄 := iprop((∃ r, prngReg c r) ∗ ∃ W, owes (c : Thread nD τ) (0 : CellTallies nD τ sig Unit) W)

/-- A host stretch as an item: from the contents W it leaves the contents after its operations. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-! ## The three regions as items -/

set_option backward.isDefEq.respectTransparency.types false in
/-- Layer 1's region over the thread state: entered with every unscoped buffer at B1, left with them at B2. Its
    windows' arrays are split out of the unscoped buffers at entry and put back at exit; the generator register goes
    into the pipeline's invariant and comes back; nothing is owed; the kernel has no semaphore of its own. -/
def layerSeg0 : Pipeline.RegionSeg (pcfgs (F := F)) tables (data m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (B1 m c) ∗ rest c)
  post c := iprop(StableHlo.held (c : Thread nD τ) (Pipeline.ucRefs τ sig) (B2 m c) ∗ rest c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) tables (data m) launch0.win launch0.arr_whole c
      ((data m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m 0 c).Φ 0 = Pipeline.ΦA spec0 c from rfl]; unfold Pipeline.ΦA
    iintro ⟨Hp, -, Hr⟩
    isplitl [Hr]; · iexact Hr
    iexact Hp
  hout c := by
    rw [Pipeline.ownSems0_none, show (data m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (data m) ((data m 0 c).share_full fun _ => rfl)
      (T1 m c) (T2 m c) ((data m 0 c).arrAt · cfg0.N) (left0_arr m c) (left0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered with every unscoped buffer at B3, left with them at B4. Its
    windows' arrays are split out of the unscoped buffers at entry and put back at exit; the generator register goes
    into the pipeline's invariant and comes back; nothing is owed; the kernel has no semaphore of its own. -/
def layerSeg1 : Pipeline.RegionSeg (pcfgs (F := F)) tables (data m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (B3 m c) ∗ rest c)
  post c := iprop(StableHlo.held (c : Thread nD τ) (Pipeline.ucRefs τ sig) (B4 m c) ∗ rest c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) tables (data m) launch1.win launch1.arr_whole c
      ((data m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m 1 c).Φ 0 = Pipeline.ΦA spec1 c from rfl]; unfold Pipeline.ΦA
    iintro ⟨Hp, -, Hr⟩
    isplitl [Hr]; · iexact Hr
    iexact Hp
  hout c := by
    rw [Pipeline.ownSems0_none, show (data m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (data m) ((data m 1 c).share_full fun _ => rfl)
      (T3 m c) (T4 m c) ((data m 1 c).arrAt · cfg1.N) (left1_arr m c) (left1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's region over the thread state: entered with every unscoped buffer at B5, left with them at B6. Its
    windows' arrays are split out of the unscoped buffers at entry and put back at exit; the generator register goes
    into the pipeline's invariant and comes back; nothing is owed; the kernel has no semaphore of its own. -/
def layerSeg2 : Pipeline.RegionSeg (pcfgs (F := F)) tables (data m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (B5 m c) ∗ rest c)
  post c := iprop(StableHlo.held (c : Thread nD τ) (Pipeline.ucRefs τ sig) (B6 m c) ∗ rest c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) tables (data m) launch2.win launch2.arr_whole c
      ((data m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m 2 c).Φ 0 = Pipeline.ΦA spec2 c from rfl]; unfold Pipeline.ΦA
    iintro ⟨Hp, -, Hr⟩
    isplitl [Hr]; · iexact Hr
    iexact Hp
  hout c := by
    rw [Pipeline.ownSems0_none, show (data m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tables (Ix := Unit) (Name := ℕ) (U := UR sig nD τ) (Lvl := ℕ)
      launch2.win launch2.arr_whole c (data m) ((data m 2 c).share_full fun _ => rfl)
      (T5 m c) (T6 m c) ((data m 2 c).arrAt · cfg2.N) (left2_arr m c) (left2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev items : List (Pipeline.Seg (pcfgs (F := F)) tables (data m) () defs₀ 𝒱₀ L lv) :=
  [ .host (hostItem hostOps0 hostOps0_sub hostOps0_fresh (B0 m)),
    .region (layerSeg0 m),
    .host (hostItem hostOps1 hostOps1_sub hostOps1_fresh (B2 m)),
    .region (layerSeg1 m),
    .host (hostItem hostOps2 hostOps2_sub hostOps2_fresh (B4 m)),
    .region (layerSeg2 m),
    .host (hostItem hostOps3 hostOps3_sub hostOps3_fresh (B6 m)),
    .host (hostItem hostOps3_1 hostOps3_1_sub hostOps3_1_fresh (B7 m)),
    .host (hostItem hostOps3_2 hostOps3_2_sub hostOps3_2_fresh (B8 m)) ]

theorem main_is_items (c : Dev nD) : main (F := F) c = Pipeline.Seg.run (items m) := (main_chain c).trans (by chain_rfl)

set_option backward.isDefEq.respectTransparency.types false in
/-- Every weakly fair execution of @main from memory m with zero counters terminates, faulting nowhere, with every
    unscoped buffer of every core at the last contents B9. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) tables (data m) () cellOf_inj emb₁ defs₀ 𝒱₀ L lv m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ rest c))
    (Tₙ := fun c => iprop(StableHlo.held (c : Thread nD τ) (Pipeline.ucRefs τ sig) (B9 m c) ∗ ∃ r, prngReg c r))
    (hch := ⟨fun _ => .rfl, fun _ => .rfl, fun _ => .rfl, fun _ => .rfl, fun _ => .rfl, fun _ => .rfl, fun _ => .rfl, fun _ => .rfl, fun _ => .rfl, fun c => by
        show iprop(StableHlo.held (c.tc : Thread nD τ) (Pipeline.ucRefs τ sig) (B9 m c) ∗ rest c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

end Cert.Kernel.Layer

end
-- ==== Proof.BitsKernelKeeps.lean ====
/-
  The arguments at the end of the kernel program's run: each of the nineteen argument arrays holds what it held at
  launch. No host operation writes an argument; a region changes only its output array, and the one argument a region
  has a window on (the node features, the first layer's first input) is an input window, which the pipeline leaves
  as it found it. With the run this is the program's frame.
-/
import proofs.«142629_j73753178406914_1_alg».proof.Proof.BitsKernelRun

set_option maxRecDepth 16384

noncomputable section

namespace Cert.Kernel.Layer

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

theorem B9_main_arg0 (c : Dev nD) : B9 m c (Proc.devRef .tc main_arg0) = m ((c : Thread nD τ).loc main_arg0) :=
  (StableHlo.after_of_writes_sub hostOps3_2 _ hostOps3_2_writes (r := main_arg0) (by decide)).trans <|
  (StableHlo.after_of_writes_sub hostOps3_1 _ hostOps3_1_writes (r := main_arg0) (by decide)).trans <|
  (StableHlo.after_of_writes_sub hostOps3 _ hostOps3_writes (r := main_arg0) (by decide)).trans <|
  (B6_of_ne m c main_arg0 (by decide)).trans <|
  (StableHlo.after_of_writes_sub hostOps2 _ hostOps2_writes (r := main_arg0) (by decide)).trans <|
  (B4_of_ne m c main_arg0 (by decide)).trans <|
  (StableHlo.after_of_writes_sub hostOps1 _ hostOps1_writes (r := main_arg0) (by decide)).trans <|
  ((B2_arr m c 0).trans (((dat0 (T1 m) c).arrAt_in 0 rfl _).trans (A_eq0 (T1 m) c 0))).trans <|
  (StableHlo.after_of_writes_sub hostOps0 _ hostOps0_writes (r := main_arg0) (by decide)).trans rfl

theorem B9_main_arg1 (c : Dev nD) : B9 m c (Proc.devRef .tc main_arg1) = m ((c : Thread nD τ).loc main_arg1) :=
  (StableHlo.after_of_writes_sub hostOps3_2 _ hostOps3_2_writes (r := main_arg1) (by decide)).trans <|
  (StableHlo.after_of_writes_sub hostOps3_1 _ hostOps3_1_writes (r := main_arg1) (by decide)).trans <|
  (StableHlo.after_of_writes_sub hostOps3 _ hostOps3_writes (r := main_arg1) (by decide)).trans <|
  (B6_of_ne m c main_arg1 (by decide)).trans <|
  (StableHlo.after_of_writes_sub hostOps2 _ hostOps2_writes (r := main_arg1) (by decide)).trans <|
  (B4_of_ne m c main_arg1 (by decide)).trans <|
  (StableHlo.after_of_writes_sub hostOps1 _ hostOps1_writes (r := main_arg1) (by decide)).trans <|
  (B2_of_ne m c main_arg1 (by decide)).trans <|
  (StableHlo.after_of_writes_sub hostOps0 _ hostOps0_writes (r := main_arg1) (by decide)).trans rfl

theorem B9_main_arg2 (c : Dev nD) : B9 m c (Proc.devRef .tc main_arg2) = m ((c : Thread nD τ).loc main_arg2) :=
  (StableHlo.after_of_writes_sub hostOps3_2 _ hostOps3_2_writes (r := main_arg2) (by decide)).trans <|
  (StableHlo.after_of_writes_sub hostOps3_1 _ hostOps3_1_writes (r := main_arg2) (by decide)).trans <|
  (StableHlo.after_of_writes_sub hostOps3 _ hostOps3_writes (r := main_arg2) (by decide)).trans <|
  (B6_of_ne m c main_arg2 (by decide)).trans <|
  (StableHlo.after_of_writes_sub hostOps2 _ hostOps2_writes (r := main_arg2) (by decide)).trans <|
  (B4_of_ne m c main_arg2 (by decide)).trans <|
  (StableHlo.after_of_writes_sub hostOps1 _ hostOps1_writes (r := main_arg2) (by decide)).trans <|
  (B2_of_ne m c main_arg2 (by decide)).trans <|
  (StableHlo.after_of_writes_sub hostOps0 _ hostOps0_writes (r := main_arg2) (by decide)).trans rfl

theorem B9_main_arg3 (c : Dev nD) : B9 m c (Proc.devRef .tc main_arg3) = m ((c : Thread nD τ).loc main_arg3) :=
  (StableHlo.after_of_writes_sub hostOps3_2 _ hostOps3_2_writes (r := main_arg3) (by decide)).trans <|
  (StableHlo.after_of_writes_sub hostOps3_1 _ hostOps3_1_writes (r := main_arg3) (by decide)).trans <|
  (StableHlo.after_of_writes_sub hostOps3 _ hostOps3_writes (r := main_arg3) (by decide)).trans <|
  (B6_of_ne m c main_arg3 (by decide)).trans <|
  (StableHlo.after_of_writes_sub hostOps2 _ hostOps2_writes (r := main_arg3) (by decide)).trans <|
  (B4_of_ne m c main_arg3 (by decide)).trans <|
  (StableHlo.after_of_writes_sub hostOps1 _ hostOps1_writes (r := main_arg3) (by decide)).trans <|
  (B2_of_ne m c main_arg3 (by decide)).trans <|
  (StableHlo.after_of_writes_sub hostOps0 _ hostOps0_writes (r := main_arg3) (by decide)).trans rfl

theorem B9_main_arg4 (c : Dev nD) : B9 m c (Proc.devRef .tc main_arg4) = m ((c : Thread nD τ).loc main_arg4) :=
  (StableHlo.after_of_writes_sub hostOps3_2 _ hostOps3_2_writes (r := main_arg4) (by decide)).trans <|
  (StableHlo.after_of_writes_sub hostOps3_1 _ hostOps3_1_writes (r := main_arg4) (by decide)).trans <|
  (StableHlo.after_of_writes_sub hostOps3 _ hostOps3_writes (r := main_arg4) (by decide)).trans <|
  (B6_of_ne m c main_arg4 (by decide)).trans <|
  (StableHlo.after_of_writes_sub hostOps2 _ hostOps2_writes (r := main_arg4) (by decide)).trans <|
  (B4_of_ne m c main_arg4 (by decide)).trans <|
  (StableHlo.after_of_writes_sub hostOps1 _ hostOps1_writes (r := main_arg4) (by decide)).trans <|
  (B2_of_ne m c main_arg4 (by decide)).trans <|
  (StableHlo.after_of_writes_sub hostOps0 _ hostOps0_writes (r := main_arg4) (by decide)).trans rfl

theorem B9_main_arg5 (c : Dev nD) : B9 m c (Proc.devRef .tc main_arg5) = m ((c : Thread nD τ).loc main_arg5) :=
  (StableHlo.after_of_writes_sub hostOps3_2 _ hostOps3_2_writes (r := main_arg5) (by decide)).trans <|
  (StableHlo.after_of_writes_sub hostOps3_1 _ hostOps3_1_writes (r := main_arg5) (by decide)).trans <|
  (StableHlo.after_of_writes_sub hostOps3 _ hostOps3_writes (r := main_arg5) (by decide)).trans <|
  (B6_of_ne m c main_arg5 (by decide)).trans <|
  (StableHlo.after_of_writes_sub hostOps2 _ hostOps2_writes (r := main_arg5) (by decide)).trans <|
  (B4_of_ne m c main_arg5 (by decide)).trans <|
  (StableHlo.after_of_writes_sub hostOps1 _ hostOps1_writes (r := main_arg5) (by decide)).trans <|
  (B2_of_ne m c main_arg5 (by decide)).trans <|
  (StableHlo.after_of_writes_sub hostOps0 _ hostOps0_writes (r := main_arg5) (by decide)).trans rfl

theorem B9_main_arg6 (c : Dev nD) : B9 m c (Proc.devRef .tc main_arg6) = m ((c : Thread nD τ).loc main_arg6) :=
  (StableHlo.after_of_writes_sub hostOps3_2 _ hostOps3_2_writes (r := main_arg6) (by decide)).trans <|
  (StableHlo.after_of_writes_sub hostOps3_1 _ hostOps3_1_writes (r := main_arg6) (by decide)).trans <|
  (StableHlo.after_of_writes_sub hostOps3 _ hostOps3_writes (r := main_arg6) (by decide)).trans <|
  (B6_of_ne m c main_arg6 (by decide)).trans <|
  (StableHlo.after_of_writes_sub hostOps2 _ hostOps2_writes (r := main_arg6) (by decide)).trans <|
  (B4_of_ne m c main_arg6 (by decide)).trans <|
  (StableHlo.after_of_writes_sub hostOps1 _ hostOps1_writes (r := main_arg6) (by decide)).trans <|
  (B2_of_ne m c main_arg6 (by decide)).trans <|
  (StableHlo.after_of_writes_sub hostOps0 _ hostOps0_writes (r := main_arg6) (by decide)).trans rfl

theorem B9_main_arg7 (c : Dev nD) : B9 m c (Proc.devRef .tc main_arg7) = m ((c : Thread nD τ).loc main_arg7) :=
  (StableHlo.after_of_writes_sub hostOps3_2 _ hostOps3_2_writes (r := main_arg7) (by decide)).trans <|
  (StableHlo.after_of_writes_sub hostOps3_1 _ hostOps3_1_writes (r := main_arg7) (by decide)).trans <|
  (StableHlo.after_of_writes_sub hostOps3 _ hostOps3_writes (r := main_arg7) (by decide)).trans <|
  (B6_of_ne m c main_arg7 (by decide)).trans <|
  (StableHlo.after_of_writes_sub hostOps2 _ hostOps2_writes (r := main_arg7) (by decide)).trans <|
  (B4_of_ne m c main_arg7 (by decide)).trans <|
  (StableHlo.after_of_writes_sub hostOps1 _ hostOps1_writes (r := main_arg7) (by decide)).trans <|
  (B2_of_ne m c main_arg7 (by decide)).trans <|
  (StableHlo.after_of_writes_sub hostOps0 _ hostOps0_writes (r := main_arg7) (by decide)).trans rfl

theorem B9_main_arg8 (c : Dev nD) : B9 m c (Proc.devRef .tc main_arg8) = m ((c : Thread nD τ).loc main_arg8) :=
  (StableHlo.after_of_writes_sub hostOps3_2 _ hostOps3_2_writes (r := main_arg8) (by decide)).trans <|
  (StableHlo.after_of_writes_sub hostOps3_1 _ hostOps3_1_writes (r := main_arg8) (by decide)).trans <|
  (StableHlo.after_of_writes_sub hostOps3 _ hostOps3_writes (r := main_arg8) (by decide)).trans <|
  (B6_of_ne m c main_arg8 (by decide)).trans <|
  (StableHlo.after_of_writes_sub hostOps2 _ hostOps2_writes (r := main_arg8) (by decide)).trans <|
  (B4_of_ne m c main_arg8 (by decide)).trans <|
  (StableHlo.after_of_writes_sub hostOps1 _ hostOps1_writes (r := main_arg8) (by decide)).trans <|
  (B2_of_ne m c main_arg8 (by decide)).trans <|
  (StableHlo.after_of_writes_sub hostOps0 _ hostOps0_writes (r := main_arg8) (by decide)).trans rfl

theorem B9_main_arg9 (c : Dev nD) : B9 m c (Proc.devRef .tc main_arg9) = m ((c : Thread nD τ).loc main_arg9) :=
  (StableHlo.after_of_writes_sub hostOps3_2 _ hostOps3_2_writes (r := main_arg9) (by decide)).trans <|
  (StableHlo.after_of_writes_sub hostOps3_1 _ hostOps3_1_writes (r := main_arg9) (by decide)).trans <|
  (StableHlo.after_of_writes_sub hostOps3 _ hostOps3_writes (r := main_arg9) (by decide)).trans <|
  (B6_of_ne m c main_arg9 (by decide)).trans <|
  (StableHlo.after_of_writes_sub hostOps2 _ hostOps2_writes (r := main_arg9) (by decide)).trans <|
  (B4_of_ne m c main_arg9 (by decide)).trans <|
  (StableHlo.after_of_writes_sub hostOps1 _ hostOps1_writes (r := main_arg9) (by decide)).trans <|
  (B2_of_ne m c main_arg9 (by decide)).trans <|
  (StableHlo.after_of_writes_sub hostOps0 _ hostOps0_writes (r := main_arg9) (by decide)).trans rfl

theorem B9_main_arg10 (c : Dev nD) : B9 m c (Proc.devRef .tc main_arg10) = m ((c : Thread nD τ).loc main_arg10) :=
  (StableHlo.after_of_writes_sub hostOps3_2 _ hostOps3_2_writes (r := main_arg10) (by decide)).trans <|
  (StableHlo.after_of_writes_sub hostOps3_1 _ hostOps3_1_writes (r := main_arg10) (by decide)).trans <|
  (StableHlo.after_of_writes_sub hostOps3 _ hostOps3_writes (r := main_arg10) (by decide)).trans <|
  (B6_of_ne m c main_arg10 (by decide)).trans <|
  (StableHlo.after_of_writes_sub hostOps2 _ hostOps2_writes (r := main_arg10) (by decide)).trans <|
  (B4_of_ne m c main_arg10 (by decide)).trans <|
  (StableHlo.after_of_writes_sub hostOps1 _ hostOps1_writes (r := main_arg10) (by decide)).trans <|
  (B2_of_ne m c main_arg10 (by decide)).trans <|
  (StableHlo.after_of_writes_sub hostOps0 _ hostOps0_writes (r := main_arg10) (by decide)).trans rfl

theorem B9_main_arg11 (c : Dev nD) : B9 m c (Proc.devRef .tc main_arg11) = m ((c : Thread nD τ).loc main_arg11) :=
  (StableHlo.after_of_writes_sub hostOps3_2 _ hostOps3_2_writes (r := main_arg11) (by decide)).trans <|
  (StableHlo.after_of_writes_sub hostOps3_1 _ hostOps3_1_writes (r := main_arg11) (by decide)).trans <|
  (StableHlo.after_of_writes_sub hostOps3 _ hostOps3_writes (r := main_arg11) (by decide)).trans <|
  (B6_of_ne m c main_arg11 (by decide)).trans <|
  (StableHlo.after_of_writes_sub hostOps2 _ hostOps2_writes (r := main_arg11) (by decide)).trans <|
  (B4_of_ne m c main_arg11 (by decide)).trans <|
  (StableHlo.after_of_writes_sub hostOps1 _ hostOps1_writes (r := main_arg11) (by decide)).trans <|
  (B2_of_ne m c main_arg11 (by decide)).trans <|
  (StableHlo.after_of_writes_sub hostOps0 _ hostOps0_writes (r := main_arg11) (by decide)).trans rfl

theorem B9_main_arg12 (c : Dev nD) : B9 m c (Proc.devRef .tc main_arg12) = m ((c : Thread nD τ).loc main_arg12) :=
  (StableHlo.after_of_writes_sub hostOps3_2 _ hostOps3_2_writes (r := main_arg12) (by decide)).trans <|
  (StableHlo.after_of_writes_sub hostOps3_1 _ hostOps3_1_writes (r := main_arg12) (by decide)).trans <|
  (StableHlo.after_of_writes_sub hostOps3 _ hostOps3_writes (r := main_arg12) (by decide)).trans <|
  (B6_of_ne m c main_arg12 (by decide)).trans <|
  (StableHlo.after_of_writes_sub hostOps2 _ hostOps2_writes (r := main_arg12) (by decide)).trans <|
  (B4_of_ne m c main_arg12 (by decide)).trans <|
  (StableHlo.after_of_writes_sub hostOps1 _ hostOps1_writes (r := main_arg12) (by decide)).trans <|
  (B2_of_ne m c main_arg12 (by decide)).trans <|
  (StableHlo.after_of_writes_sub hostOps0 _ hostOps0_writes (r := main_arg12) (by decide)).trans rfl

theorem B9_main_arg13 (c : Dev nD) : B9 m c (Proc.devRef .tc main_arg13) = m ((c : Thread nD τ).loc main_arg13) :=
  (StableHlo.after_of_writes_sub hostOps3_2 _ hostOps3_2_writes (r := main_arg13) (by decide)).trans <|
  (StableHlo.after_of_writes_sub hostOps3_1 _ hostOps3_1_writes (r := main_arg13) (by decide)).trans <|
  (StableHlo.after_of_writes_sub hostOps3 _ hostOps3_writes (r := main_arg13) (by decide)).trans <|
  (B6_of_ne m c main_arg13 (by decide)).trans <|
  (StableHlo.after_of_writes_sub hostOps2 _ hostOps2_writes (r := main_arg13) (by decide)).trans <|
  (B4_of_ne m c main_arg13 (by decide)).trans <|
  (StableHlo.after_of_writes_sub hostOps1 _ hostOps1_writes (r := main_arg13) (by decide)).trans <|
  (B2_of_ne m c main_arg13 (by decide)).trans <|
  (StableHlo.after_of_writes_sub hostOps0 _ hostOps0_writes (r := main_arg13) (by decide)).trans rfl

theorem B9_main_arg14 (c : Dev nD) : B9 m c (Proc.devRef .tc main_arg14) = m ((c : Thread nD τ).loc main_arg14) :=
  (StableHlo.after_of_writes_sub hostOps3_2 _ hostOps3_2_writes (r := main_arg14) (by decide)).trans <|
  (StableHlo.after_of_writes_sub hostOps3_1 _ hostOps3_1_writes (r := main_arg14) (by decide)).trans <|
  (StableHlo.after_of_writes_sub hostOps3 _ hostOps3_writes (r := main_arg14) (by decide)).trans <|
  (B6_of_ne m c main_arg14 (by decide)).trans <|
  (StableHlo.after_of_writes_sub hostOps2 _ hostOps2_writes (r := main_arg14) (by decide)).trans <|
  (B4_of_ne m c main_arg14 (by decide)).trans <|
  (StableHlo.after_of_writes_sub hostOps1 _ hostOps1_writes (r := main_arg14) (by decide)).trans <|
  (B2_of_ne m c main_arg14 (by decide)).trans <|
  (StableHlo.after_of_writes_sub hostOps0 _ hostOps0_writes (r := main_arg14) (by decide)).trans rfl

theorem B9_main_arg15 (c : Dev nD) : B9 m c (Proc.devRef .tc main_arg15) = m ((c : Thread nD τ).loc main_arg15) :=
  (StableHlo.after_of_writes_sub hostOps3_2 _ hostOps3_2_writes (r := main_arg15) (by decide)).trans <|
  (StableHlo.after_of_writes_sub hostOps3_1 _ hostOps3_1_writes (r := main_arg15) (by decide)).trans <|
  (StableHlo.after_of_writes_sub hostOps3 _ hostOps3_writes (r := main_arg15) (by decide)).trans <|
  (B6_of_ne m c main_arg15 (by decide)).trans <|
  (StableHlo.after_of_writes_sub hostOps2 _ hostOps2_writes (r := main_arg15) (by decide)).trans <|
  (B4_of_ne m c main_arg15 (by decide)).trans <|
  (StableHlo.after_of_writes_sub hostOps1 _ hostOps1_writes (r := main_arg15) (by decide)).trans <|
  (B2_of_ne m c main_arg15 (by decide)).trans <|
  (StableHlo.after_of_writes_sub hostOps0 _ hostOps0_writes (r := main_arg15) (by decide)).trans rfl

theorem B9_main_arg16 (c : Dev nD) : B9 m c (Proc.devRef .tc main_arg16) = m ((c : Thread nD τ).loc main_arg16) :=
  (StableHlo.after_of_writes_sub hostOps3_2 _ hostOps3_2_writes (r := main_arg16) (by decide)).trans <|
  (StableHlo.after_of_writes_sub hostOps3_1 _ hostOps3_1_writes (r := main_arg16) (by decide)).trans <|
  (StableHlo.after_of_writes_sub hostOps3 _ hostOps3_writes (r := main_arg16) (by decide)).trans <|
  (B6_of_ne m c main_arg16 (by decide)).trans <|
  (StableHlo.after_of_writes_sub hostOps2 _ hostOps2_writes (r := main_arg16) (by decide)).trans <|
  (B4_of_ne m c main_arg16 (by decide)).trans <|
  (StableHlo.after_of_writes_sub hostOps1 _ hostOps1_writes (r := main_arg16) (by decide)).trans <|
  (B2_of_ne m c main_arg16 (by decide)).trans <|
  (StableHlo.after_of_writes_sub hostOps0 _ hostOps0_writes (r := main_arg16) (by decide)).trans rfl

theorem B9_main_arg17 (c : Dev nD) : B9 m c (Proc.devRef .tc main_arg17) = m ((c : Thread nD τ).loc main_arg17) :=
  (StableHlo.after_of_writes_sub hostOps3_2 _ hostOps3_2_writes (r := main_arg17) (by decide)).trans <|
  (StableHlo.after_of_writes_sub hostOps3_1 _ hostOps3_1_writes (r := main_arg17) (by decide)).trans <|
  (StableHlo.after_of_writes_sub hostOps3 _ hostOps3_writes (r := main_arg17) (by decide)).trans <|
  (B6_of_ne m c main_arg17 (by decide)).trans <|
  (StableHlo.after_of_writes_sub hostOps2 _ hostOps2_writes (r := main_arg17) (by decide)).trans <|
  (B4_of_ne m c main_arg17 (by decide)).trans <|
  (StableHlo.after_of_writes_sub hostOps1 _ hostOps1_writes (r := main_arg17) (by decide)).trans <|
  (B2_of_ne m c main_arg17 (by decide)).trans <|
  (StableHlo.after_of_writes_sub hostOps0 _ hostOps0_writes (r := main_arg17) (by decide)).trans rfl

theorem B9_main_arg18 (c : Dev nD) : B9 m c (Proc.devRef .tc main_arg18) = m ((c : Thread nD τ).loc main_arg18) :=
  (StableHlo.after_of_writes_sub hostOps3_2 _ hostOps3_2_writes (r := main_arg18) (by decide)).trans <|
  (StableHlo.after_of_writes_sub hostOps3_1 _ hostOps3_1_writes (r := main_arg18) (by decide)).trans <|
  (StableHlo.after_of_writes_sub hostOps3 _ hostOps3_writes (r := main_arg18) (by decide)).trans <|
  (B6_of_ne m c main_arg18 (by decide)).trans <|
  (StableHlo.after_of_writes_sub hostOps2 _ hostOps2_writes (r := main_arg18) (by decide)).trans <|
  (B4_of_ne m c main_arg18 (by decide)).trans <|
  (StableHlo.after_of_writes_sub hostOps1 _ hostOps1_writes (r := main_arg18) (by decide)).trans <|
  (B2_of_ne m c main_arg18 (by decide)).trans <|
  (StableHlo.after_of_writes_sub hostOps0 _ hostOps0_writes (r := main_arg18) (by decide)).trans rfl

/-- An unscoped TensorCore reference is among those the run's last state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every weakly fair execution terminates, faulting nowhere, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_unscoped main_arg0 (by decide))).trans (B9_main_arg0 m c),
     (h c _ (mem_unscoped main_arg1 (by decide))).trans (B9_main_arg1 m c),
     (h c _ (mem_unscoped main_arg2 (by decide))).trans (B9_main_arg2 m c),
     (h c _ (mem_unscoped main_arg3 (by decide))).trans (B9_main_arg3 m c),
     (h c _ (mem_unscoped main_arg4 (by decide))).trans (B9_main_arg4 m c),
     (h c _ (mem_unscoped main_arg5 (by decide))).trans (B9_main_arg5 m c),
     (h c _ (mem_unscoped main_arg6 (by decide))).trans (B9_main_arg6 m c),
     (h c _ (mem_unscoped main_arg7 (by decide))).trans (B9_main_arg7 m c),
     (h c _ (mem_unscoped main_arg8 (by decide))).trans (B9_main_arg8 m c),
     (h c _ (mem_unscoped main_arg9 (by decide))).trans (B9_main_arg9 m c),
     (h c _ (mem_unscoped main_arg10 (by decide))).trans (B9_main_arg10 m c),
     (h c _ (mem_unscoped main_arg11 (by decide))).trans (B9_main_arg11 m c),
     (h c _ (mem_unscoped main_arg12 (by decide))).trans (B9_main_arg12 m c),
     (h c _ (mem_unscoped main_arg13 (by decide))).trans (B9_main_arg13 m c),
     (h c _ (mem_unscoped main_arg14 (by decide))).trans (B9_main_arg14 m c),
     (h c _ (mem_unscoped main_arg15 (by decide))).trans (B9_main_arg15 m c),
     (h c _ (mem_unscoped main_arg16 (by decide))).trans (B9_main_arg16 m c),
     (h c _ (mem_unscoped main_arg17 (by decide))).trans (B9_main_arg17 m c),
     (h c _ (mem_unscoped main_arg18 (by decide))).trans (B9_main_arg18 m c)⟩)
    (run m ρ)

end Cert.Kernel.Layer

end
-- ==== Proof.Layer0Body.lean ====
/-
  The first layer's kernel body, run once on whole staging buffers.

  The body reads twelve blocks — a block of 1000 rows of the node features h and of the neighbour sums agg, the
  two 512×512 weight matrices, and eight rows of parameters (two biases, the batch-norm scale, shift, mean and
  variance, each 1×512, and the two 1×1 slopes) — and writes one block of 1000 rows: with u = h + agg,
    z  = prelu (u·W₁ + b₁, a₁),   z' = (z − mean) · (γ · rsqrt (var + ε)) + β,   out = max (prelu (z'·W₂ + b₂, a₂), 0).
  Every access is of a whole buffer, so what the body leaves in the output buffer is one function of the twelve
  buffers it found; this module names that function and proves the body's triple against it.
-/
import proofs.«142629_j73753178406914_1_alg».proof.Proof.Gen.KernelIdeal.Launch
import proofs.«142629_j73753178406914_1_alg».proof.Proof.Gen.KernelIdeal.Skeleton
import proofs.«142629_j73753178406914_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rRows : Rect S1000x512 := Rect.unit (s := S1000x512) ![0, 0] S1000x512.size inb_S1000x512_S1000x512_0_0
abbrev rMat : Rect S512x512 := Rect.unit (s := S512x512) ![0, 0] S512x512.size inb_S512x512_S512x512_0_0
abbrev rRow : Rect S1x512 := Rect.unit (s := S1x512) ![0, 0] S1x512.size inb_S1x512_S1x512_0_0
abbrev rOne : Rect S1x1 := Rect.unit (s := S1x1) ![0, 0] S1x1.size inb_S1x1_S1x1_0_0

/-! ## What the body leaves in the output buffer -/

/-- The first layer's output block from the twelve input blocks, in the order of the call's operands:
    h, agg, W₁, b₁, a₁, γ, β, mean, var, W₂, b₂, a₂. The one store writes the whole buffer. -/
def out0 (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32) :
    Vec F S1000x512 .f32 :=
  View.canon [⟨rRows, k0_pay1
    (k0_pay2 (View.ld xh rRows) (View.ld xagg rRows) (View.ld xw1 rMat) (View.ld xb1 rRow) (View.ld xa1 rOne)
      (View.ld xg rRow) (View.ld xvar rRow) (View.ld xmean rRow) (View.ld xbeta rRow))
    (View.ld xw2 rMat) (View.ld xb2 rRow) (View.ld xa2 rOne)⟩]

/-- The one store covers the buffer. -/
theorem cover0 (p0 : Vec F S1000x512 .f32) (y : S1000x512.Idx) :
    ∃ pc ∈ ([⟨rRows, p0⟩] : List (View.Piece (Elt F) S1000x512 .f32)), y ∈ pc.1.set :=
  View.cover_of_tiled [⟨rRows, p0⟩] S1000x512.size (by rfl) y

/-! ## The body's triple -/

set_option maxHeartbeats 4000000 in
/-- On whole staging buffers, the inputs' at contents x and the output's at anything, the body runs to its
    continuation with the inputs' as they were and the output's at out0 of them. -/
theorem body0_triple (c : Dev nD) (E : Set ℕ) (i : grid0.Coords)
    (arg1 : Memref sig .tc .vmem S1000x512 .f32) (harg1 : arg1.IsWhole) (arg2 : Memref sig .tc .vmem S1000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S512x512 .f32) (harg10 : arg10.IsWhole)
    (arg11 : Memref sig .tc .vmem S1x512 .f32) (harg11 : arg11.IsWhole) (arg12 : Memref sig .tc .vmem S1x1 .f32) (harg12 : arg12.IsWhole)
    (arg13 : Memref sig .tc .vmem S1000x512 .f32) (harg13 : arg13.IsWhole)
    (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32)
    (K : PUnit → sProp 𝕄) :
    iprop(owns (c : Thread nD τ) arg1 fullShare xh ∗ owns (c : Thread nD τ) arg2 fullShare xagg
        ∗ owns (c : Thread nD τ) arg3 fullShare xw1 ∗ owns (c : Thread nD τ) arg4 fullShare xb1
        ∗ owns (c : Thread nD τ) arg5 fullShare xa1 ∗ owns (c : Thread nD τ) arg6 fullShare xg
        ∗ owns (c : Thread nD τ) arg7 fullShare xbeta ∗ owns (c : Thread nD τ) arg8 fullShare xmean
        ∗ owns (c : Thread nD τ) arg9 fullShare xvar ∗ owns (c : Thread nD τ) arg10 fullShare xw2
        ∗ owns (c : Thread nD τ) arg11 fullShare xb2 ∗ owns (c : Thread nD τ) arg12 fullShare xa2
        ∗ (∃ d, owns (c : Thread nD τ) arg13 fullShare d)
        ∗ (iprop(owns (c : Thread nD τ) arg1 fullShare xh ∗ owns (c : Thread nD τ) arg2 fullShare xagg
            ∗ owns (c : Thread nD τ) arg3 fullShare xw1 ∗ owns (c : Thread nD τ) arg4 fullShare xb1
            ∗ owns (c : Thread nD τ) arg5 fullShare xa1 ∗ owns (c : Thread nD τ) arg6 fullShare xg
            ∗ owns (c : Thread nD τ) arg7 fullShare xbeta ∗ owns (c : Thread nD τ) arg8 fullShare xmean
            ∗ owns (c : Thread nD τ) arg9 fullShare xvar ∗ owns (c : Thread nD τ) arg10 fullShare xw2
            ∗ owns (c : Thread nD τ) arg11 fullShare xb2 ∗ owns (c : Thread nD τ) arg12 fullShare xa2
            ∗ owns (c : Thread nD τ) arg13 fullShare (out0 xh xagg xw1 xb1 xa1 xg xbeta xmean xvar xw2 xb2 xa2)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8
            arg9 harg9 arg10 harg10 arg11 harg11 arg12 harg12 arg13 harg13) K := by
  simp only [cc0__mlp_kernel_eq_skeleton]; unfold cc0__mlp_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover0 _)

end Cert.KernelIdeal.Layer

end
-- ==== Proof.Layer0Data.lean ====
/-
  Layer 1's region as the pipeline sees it: what each window's staging buffer holds when the body is called at a
  grid point, what the body leaves there, and hence the obligation the pipeline asks of the body at every point.
-/
import proofs.«142629_j73753178406914_1_alg».proof.Proof.Layer0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks at a grid point

`V` is what the core's buffers hold when the region is entered. Window w's block at point t is the part of its
array the point's index map selects: rows 1000·t … 1000·t + 999 for the two row-blocked inputs and the output,
the whole array for the ten resident parameter windows. -/

section
variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetched it or an earlier
point did and the index has not moved since (the resident windows are fetched once, at the first point). -/

theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = blk0 V c 7 t) (t : Fin cfg0.N) (d) : dat.before 7 t d = blk0 V c 7 t :=
  (dat.before_in_eq_fetched 7 rfl (fun _ => rfl) (fun _ _ _ => rfl) (fun t => by rw [hafter]; unfold Dat.blockOf blk0; rw [hA]; try rfl) t d).trans
    (by unfold Dat.fetched Dat.blockOf blk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = blk0 V c 8 t) (t : Fin cfg0.N) (d) : dat.before 8 t d = blk0 V c 8 t :=
  (dat.before_in_eq_fetched 8 rfl (fun _ => rfl) (fun _ _ _ => rfl) (fun t => by rw [hafter]; unfold Dat.blockOf blk0; rw [hA]; try rfl) t d).trans
    (by unfold Dat.fetched Dat.blockOf blk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = blk0 V c 9 t) (t : Fin cfg0.N) (d) : dat.before 9 t d = blk0 V c 9 t :=
  (dat.before_in_eq_fetched 9 rfl (fun _ => rfl) (fun _ _ _ => rfl) (fun t => by rw [hafter]; unfold Dat.blockOf blk0; rw [hA]; try rfl) t d).trans
    (by unfold Dat.fetched Dat.blockOf blk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = blk0 V c 10 t) (t : Fin cfg0.N) (d) : dat.before 10 t d = blk0 V c 10 t :=
  (dat.before_in_eq_fetched 10 rfl (fun _ => rfl) (fun _ _ _ => rfl) (fun t => by rw [hafter]; unfold Dat.blockOf blk0; rw [hA]; try rfl) t d).trans
    (by unfold Dat.fetched Dat.blockOf blk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = blk0 V c 11 t) (t : Fin cfg0.N) (d) : dat.before 11 t d = blk0 V c 11 t :=
  (dat.before_in_eq_fetched 11 rfl (fun _ => rfl) (fun _ _ _ => rfl) (fun t => by rw [hafter]; unfold Dat.blockOf blk0; rw [hA]; try rfl) t d).trans
    (by unfold Dat.fetched Dat.blockOf blk0; rw [hA]; try rfl)

/-! ## The proof data: arrays as found, each input's buffer at its block, the output's at the layer's function of them -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => blk0 V c 9 t
    | ⟨10, _⟩ => blk0 V c 10 t
    | ⟨11, _⟩ => blk0 V c 11 t
    | ⟨12, _⟩ => out0 (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = blk0 V c 8 t := by dsimp only [dat0]
theorem after0_9 (c : Dev nD) (t : Fin cfg0.N) : (dat0 V c).after 9 t = blk0 V c 9 t := by dsimp only [dat0]
theorem after0_10 (c : Dev nD) (t : Fin cfg0.N) : (dat0 V c).after 10 t = blk0 V c 10 t := by dsimp only [dat0]
theorem after0_11 (c : Dev nD) (t : Fin cfg0.N) : (dat0 V c).after 11 t = blk0 V c 11 t := by dsimp only [dat0]
theorem after0_12 (c : Dev nD) (t : Fin cfg0.N) : (dat0 V c).after 12 t = out0 (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d
theorem before0_6 (c : Dev nD) (t : Fin cfg0.N) (d) : (dat0 V c).before 6 t d = blk0 V c 6 t :=
  before0_6_of V (dat0 V c) (A_eq0 V c 6) (after0_6 V c) t d
theorem before0_7 (c : Dev nD) (t : Fin cfg0.N) (d) : (dat0 V c).before 7 t d = blk0 V c 7 t :=
  before0_7_of V (dat0 V c) (A_eq0 V c 7) (after0_7 V c) t d
theorem before0_8 (c : Dev nD) (t : Fin cfg0.N) (d) : (dat0 V c).before 8 t d = blk0 V c 8 t :=
  before0_8_of V (dat0 V c) (A_eq0 V c 8) (after0_8 V c) t d
theorem before0_9 (c : Dev nD) (t : Fin cfg0.N) (d) : (dat0 V c).before 9 t d = blk0 V c 9 t :=
  before0_9_of V (dat0 V c) (A_eq0 V c 9) (after0_9 V c) t d
theorem before0_10 (c : Dev nD) (t : Fin cfg0.N) (d) : (dat0 V c).before 10 t d = blk0 V c 10 t :=
  before0_10_of V (dat0 V c) (A_eq0 V c 10) (after0_10 V c) t d
theorem before0_11 (c : Dev nD) (t : Fin cfg0.N) (d) : (dat0 V c).before 11 t d = blk0 V c 11 t :=
  before0_11_of V (dat0 V c) (A_eq0 V c 11) (after0_11 V c) t d

/-! ## The body at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 2000000 in
/-- The inputs' buffers hold their blocks, so the body's triple applies; the invariant and what the core owes pass
    through unread. -/
theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body0_triple c Set.univ _ _ _ _ _ _ _ _ _ _ _ _ _ _ _ _ _ _ _ _ _ _ _ _ _ _ _
    (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation at every point. -/
theorem body_obligation0 (c : Dev nD) : BodyObligation (dat0 (F := F) V c) (defs₀ (F := F)) Variants.none () Set.univ := fun t => by
  rw [bigSep_W0, bigSep_W0]
  exact body0_at V c t

end

end Cert.KernelIdeal.Layer

end
-- ==== Proof.Layer1Body.lean ====
/-
  Layer 2's kernel body, run once on whole staging buffers: the same twelve reads and one whole-buffer store as the
  first layer's, of this layer's own parameter rows (the printed body computes the shift row β apart from the rest,
  which changes nothing in what is stored).
-/
import proofs.«142629_j73753178406914_1_alg».proof.Proof.Layer0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in the output buffer -/

/-- Layer 2's output block from the twelve input blocks, in the order of the call's operands:
    h, agg, W₁, b₁, a₁, γ, β, mean, var, W₂, b₂, a₂. The one store writes the whole buffer. -/
def out1 (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32) :
    Vec F S1000x512 .f32 :=
  View.canon [⟨rRows, k1_pay1
    (k1_pay2 (View.ld xh rRows) (View.ld xagg rRows) (View.ld xw1 rMat) (View.ld xb1 rRow) (View.ld xa1 rOne)
      (View.ld xg rRow) (View.ld xvar rRow) (View.ld xmean rRow))
    (k1_pay3 (View.ld xbeta rRow))
    (View.ld xw2 rMat) (View.ld xb2 rRow) (View.ld xa2 rOne)⟩]

/-- The one store covers the buffer. -/
theorem cover1 (p0 : Vec F S1000x512 .f32) (y : S1000x512.Idx) :
    ∃ pc ∈ ([⟨rRows, p0⟩] : List (View.Piece (Elt F) S1000x512 .f32)), y ∈ pc.1.set :=
  View.cover_of_tiled [⟨rRows, p0⟩] S1000x512.size (by rfl) y

/-! ## The body's triple -/

set_option maxHeartbeats 4000000 in
/-- On whole staging buffers, the inputs' at contents x and the output's at anything, the body runs to its
    continuation with the inputs' as they were and the output's at out1 of them. -/
theorem body1_triple (c : Dev nD) (E : Set ℕ) (i : grid1.Coords)
    (arg1 : Memref sig .tc .vmem S1000x512 .f32) (harg1 : arg1.IsWhole) (arg2 : Memref sig .tc .vmem S1000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S512x512 .f32) (harg10 : arg10.IsWhole)
    (arg11 : Memref sig .tc .vmem S1x512 .f32) (harg11 : arg11.IsWhole) (arg12 : Memref sig .tc .vmem S1x1 .f32) (harg12 : arg12.IsWhole)
    (arg13 : Memref sig .tc .vmem S1000x512 .f32) (harg13 : arg13.IsWhole)
    (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32)
    (K : PUnit → sProp 𝕄) :
    iprop(owns (c : Thread nD τ) arg1 fullShare xh ∗ owns (c : Thread nD τ) arg2 fullShare xagg
        ∗ owns (c : Thread nD τ) arg3 fullShare xw1 ∗ owns (c : Thread nD τ) arg4 fullShare xb1
        ∗ owns (c : Thread nD τ) arg5 fullShare xa1 ∗ owns (c : Thread nD τ) arg6 fullShare xg
        ∗ owns (c : Thread nD τ) arg7 fullShare xbeta ∗ owns (c : Thread nD τ) arg8 fullShare xmean
        ∗ owns (c : Thread nD τ) arg9 fullShare xvar ∗ owns (c : Thread nD τ) arg10 fullShare xw2
        ∗ owns (c : Thread nD τ) arg11 fullShare xb2 ∗ owns (c : Thread nD τ) arg12 fullShare xa2
        ∗ (∃ d, owns (c : Thread nD τ) arg13 fullShare d)
        ∗ (iprop(owns (c : Thread nD τ) arg1 fullShare xh ∗ owns (c : Thread nD τ) arg2 fullShare xagg
            ∗ owns (c : Thread nD τ) arg3 fullShare xw1 ∗ owns (c : Thread nD τ) arg4 fullShare xb1
            ∗ owns (c : Thread nD τ) arg5 fullShare xa1 ∗ owns (c : Thread nD τ) arg6 fullShare xg
            ∗ owns (c : Thread nD τ) arg7 fullShare xbeta ∗ owns (c : Thread nD τ) arg8 fullShare xmean
            ∗ owns (c : Thread nD τ) arg9 fullShare xvar ∗ owns (c : Thread nD τ) arg10 fullShare xw2
            ∗ owns (c : Thread nD τ) arg11 fullShare xb2 ∗ owns (c : Thread nD τ) arg12 fullShare xa2
            ∗ owns (c : Thread nD τ) arg13 fullShare (out1 xh xagg xw1 xb1 xa1 xg xbeta xmean xvar xw2 xb2 xa2)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8
            arg9 harg9 arg10 harg10 arg11 harg11 arg12 harg12 arg13 harg13) K := by
  simp only [cc1__mlp_kernel_eq_skeleton]; unfold cc1__mlp_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1 _)

end Cert.KernelIdeal.Layer

end
-- ==== Proof.Layer1Data.lean ====
/-
  Layer 2's region as the pipeline sees it: what each window's staging buffer holds when the body is called at a
  grid point, what the body leaves there, and hence the obligation the pipeline asks of the body at every point.
-/
import proofs.«142629_j73753178406914_1_alg».proof.Proof.Layer1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks at a grid point

`V` is what the core's buffers hold when the region is entered. Window w's block at point t is the part of its
array the point's index map selects: rows 1000·t … 1000·t + 999 for the two row-blocked inputs and the output,
the whole array for the ten resident parameter windows. -/

section
variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetched it or an earlier
point did and the index has not moved since (the resident windows are fetched once, at the first point). -/

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = blk1 V c 9 t) (t : Fin cfg1.N) (d) : dat.before 9 t d = blk1 V c 9 t :=
  (dat.before_in_eq_fetched 9 rfl (fun _ => rfl) (fun _ _ _ => rfl) (fun t => by rw [hafter]; unfold Dat.blockOf blk1; rw [hA]; try rfl) t d).trans
    (by unfold Dat.fetched Dat.blockOf blk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = blk1 V c 10 t) (t : Fin cfg1.N) (d) : dat.before 10 t d = blk1 V c 10 t :=
  (dat.before_in_eq_fetched 10 rfl (fun _ => rfl) (fun _ _ _ => rfl) (fun t => by rw [hafter]; unfold Dat.blockOf blk1; rw [hA]; try rfl) t d).trans
    (by unfold Dat.fetched Dat.blockOf blk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = blk1 V c 11 t) (t : Fin cfg1.N) (d) : dat.before 11 t d = blk1 V c 11 t :=
  (dat.before_in_eq_fetched 11 rfl (fun _ => rfl) (fun _ _ _ => rfl) (fun t => by rw [hafter]; unfold Dat.blockOf blk1; rw [hA]; try rfl) t d).trans
    (by unfold Dat.fetched Dat.blockOf blk1; rw [hA]; try rfl)

/-! ## The proof data: arrays as found, each input's buffer at its block, the output's at the layer's function of them -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => out1 (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = blk1 V c 9 t := by dsimp only [dat1]
theorem after1_10 (c : Dev nD) (t : Fin cfg1.N) : (dat1 V c).after 10 t = blk1 V c 10 t := by dsimp only [dat1]
theorem after1_11 (c : Dev nD) (t : Fin cfg1.N) : (dat1 V c).after 11 t = blk1 V c 11 t := by dsimp only [dat1]
theorem after1_12 (c : Dev nD) (t : Fin cfg1.N) : (dat1 V c).after 12 t = out1 (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d
theorem before1_6 (c : Dev nD) (t : Fin cfg1.N) (d) : (dat1 V c).before 6 t d = blk1 V c 6 t :=
  before1_6_of V (dat1 V c) (A_eq1 V c 6) (after1_6 V c) t d
theorem before1_7 (c : Dev nD) (t : Fin cfg1.N) (d) : (dat1 V c).before 7 t d = blk1 V c 7 t :=
  before1_7_of V (dat1 V c) (A_eq1 V c 7) (after1_7 V c) t d
theorem before1_8 (c : Dev nD) (t : Fin cfg1.N) (d) : (dat1 V c).before 8 t d = blk1 V c 8 t :=
  before1_8_of V (dat1 V c) (A_eq1 V c 8) (after1_8 V c) t d
theorem before1_9 (c : Dev nD) (t : Fin cfg1.N) (d) : (dat1 V c).before 9 t d = blk1 V c 9 t :=
  before1_9_of V (dat1 V c) (A_eq1 V c 9) (after1_9 V c) t d
theorem before1_10 (c : Dev nD) (t : Fin cfg1.N) (d) : (dat1 V c).before 10 t d = blk1 V c 10 t :=
  before1_10_of V (dat1 V c) (A_eq1 V c 10) (after1_10 V c) t d
theorem before1_11 (c : Dev nD) (t : Fin cfg1.N) (d) : (dat1 V c).before 11 t d = blk1 V c 11 t :=
  before1_11_of V (dat1 V c) (A_eq1 V c 11) (after1_11 V c) t d

/-! ## The body at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 2000000 in
/-- The inputs' buffers hold their blocks, so the body's triple applies; the invariant and what the core owes pass
    through unread. -/
theorem body1_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body1_triple c Set.univ _ _ _ _ _ _ _ _ _ _ _ _ _ _ _ _ _ _ _ _ _ _ _ _ _ _ _
    (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation at every point. -/
theorem body_obligation1 (c : Dev nD) : BodyObligation (dat1 (F := F) V c) (defs₀ (F := F)) Variants.none () Set.univ := fun t => by
  rw [bigSep_W1, bigSep_W1]
  exact body1_at V c t

end

end Cert.KernelIdeal.Layer

end
-- ==== Proof.Layer2Body.lean ====
/-
  Layer 3's kernel body, run once on whole staging buffers: the same twelve reads and one whole-buffer store as the
  first layer's, of this layer's own parameter rows (the printed body computes the shift row β apart from the rest,
  which changes nothing in what is stored).
-/
import proofs.«142629_j73753178406914_1_alg».proof.Proof.Layer0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in the output buffer -/

/-- Layer 3's output block from the twelve input blocks, in the order of the call's operands:
    h, agg, W₁, b₁, a₁, γ, β, mean, var, W₂, b₂, a₂. The one store writes the whole buffer. -/
def out2 (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32) :
    Vec F S1000x512 .f32 :=
  View.canon [⟨rRows, k2_pay1
    (k2_pay2 (View.ld xh rRows) (View.ld xagg rRows) (View.ld xw1 rMat) (View.ld xb1 rRow) (View.ld xa1 rOne)
      (View.ld xg rRow) (View.ld xvar rRow) (View.ld xmean rRow))
    (k2_pay3 (View.ld xbeta rRow))
    (View.ld xw2 rMat) (View.ld xb2 rRow) (View.ld xa2 rOne)⟩]

/-- The one store covers the buffer. -/
theorem cover2 (p0 : Vec F S1000x512 .f32) (y : S1000x512.Idx) :
    ∃ pc ∈ ([⟨rRows, p0⟩] : List (View.Piece (Elt F) S1000x512 .f32)), y ∈ pc.1.set :=
  View.cover_of_tiled [⟨rRows, p0⟩] S1000x512.size (by rfl) y

/-! ## The body's triple -/

set_option maxHeartbeats 4000000 in
/-- On whole staging buffers, the inputs' at contents x and the output's at anything, the body runs to its
    continuation with the inputs' as they were and the output's at out2 of them. -/
theorem body2_triple (c : Dev nD) (E : Set ℕ) (i : grid2.Coords)
    (arg1 : Memref sig .tc .vmem S1000x512 .f32) (harg1 : arg1.IsWhole) (arg2 : Memref sig .tc .vmem S1000x512 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S512x512 .f32) (harg10 : arg10.IsWhole)
    (arg11 : Memref sig .tc .vmem S1x512 .f32) (harg11 : arg11.IsWhole) (arg12 : Memref sig .tc .vmem S1x1 .f32) (harg12 : arg12.IsWhole)
    (arg13 : Memref sig .tc .vmem S1000x512 .f32) (harg13 : arg13.IsWhole)
    (xh xagg : Vec F S1000x512 .f32) (xw1 : Vec F S512x512 .f32) (xb1 : Vec F S1x512 .f32) (xa1 : Vec F S1x1 .f32)
    (xg xbeta xmean xvar : Vec F S1x512 .f32) (xw2 : Vec F S512x512 .f32) (xb2 : Vec F S1x512 .f32) (xa2 : Vec F S1x1 .f32)
    (K : PUnit → sProp 𝕄) :
    iprop(owns (c : Thread nD τ) arg1 fullShare xh ∗ owns (c : Thread nD τ) arg2 fullShare xagg
        ∗ owns (c : Thread nD τ) arg3 fullShare xw1 ∗ owns (c : Thread nD τ) arg4 fullShare xb1
        ∗ owns (c : Thread nD τ) arg5 fullShare xa1 ∗ owns (c : Thread nD τ) arg6 fullShare xg
        ∗ owns (c : Thread nD τ) arg7 fullShare xbeta ∗ owns (c : Thread nD τ) arg8 fullShare xmean
        ∗ owns (c : Thread nD τ) arg9 fullShare xvar ∗ owns (c : Thread nD τ) arg10 fullShare xw2
        ∗ owns (c : Thread nD τ) arg11 fullShare xb2 ∗ owns (c : Thread nD τ) arg12 fullShare xa2
        ∗ (∃ d, owns (c : Thread nD τ) arg13 fullShare d)
        ∗ (iprop(owns (c : Thread nD τ) arg1 fullShare xh ∗ owns (c : Thread nD τ) arg2 fullShare xagg
            ∗ owns (c : Thread nD τ) arg3 fullShare xw1 ∗ owns (c : Thread nD τ) arg4 fullShare xb1
            ∗ owns (c : Thread nD τ) arg5 fullShare xa1 ∗ owns (c : Thread nD τ) arg6 fullShare xg
            ∗ owns (c : Thread nD τ) arg7 fullShare xbeta ∗ owns (c : Thread nD τ) arg8 fullShare xmean
            ∗ owns (c : Thread nD τ) arg9 fullShare xvar ∗ owns (c : Thread nD τ) arg10 fullShare xw2
            ∗ owns (c : Thread nD τ) arg11 fullShare xb2 ∗ owns (c : Thread nD τ) arg12 fullShare xa2
            ∗ owns (c : Thread nD τ) arg13 fullShare (out2 xh xagg xw1 xb1 xa1 xg xbeta xmean xvar xw2 xb2 xa2)) -∗ K ⟨⟩))
      ⊢ wp frame (wpE (defs₀ (F := F)) Variants.none c none) E
          (cc2__mlp_kernel i arg1 harg1 arg2 harg2 arg3 harg3 arg4 harg4 arg5 harg5 arg6 harg6 arg7 harg7 arg8 harg8
            arg9 harg9 arg10 harg10 arg11 harg11 arg12 harg12 arg13 harg13) K := by
  simp only [cc2__mlp_kernel_eq_skeleton]; unfold cc2__mlp_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover2 _)

end Cert.KernelIdeal.Layer

end
-- ==== Proof.Layer2Data.lean ====
/-
  Layer 3's region as the pipeline sees it: what each window's staging buffer holds when the body is called at a
  grid point, what the body leaves there, and hence the obligation the pipeline asks of the body at every point.
-/
import proofs.«142629_j73753178406914_1_alg».proof.Proof.Layer2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks at a grid point

`V` is what the core's buffers hold when the region is entered. Window w's block at point t is the part of its
array the point's index map selects: rows 1000·t … 1000·t + 999 for the two row-blocked inputs and the output,
the whole array for the ten resident parameter windows. -/

section
variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the point fetched it or an earlier
point did and the index has not moved since (the resident windows are fetched once, at the first point). -/

theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = blk2 V c 7 t) (t : Fin cfg2.N) (d) : dat.before 7 t d = blk2 V c 7 t :=
  (dat.before_in_eq_fetched 7 rfl (fun _ => rfl) (fun _ _ _ => rfl) (fun t => by rw [hafter]; unfold Dat.blockOf blk2; rw [hA]; try rfl) t d).trans
    (by unfold Dat.fetched Dat.blockOf blk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = blk2 V c 8 t) (t : Fin cfg2.N) (d) : dat.before 8 t d = blk2 V c 8 t :=
  (dat.before_in_eq_fetched 8 rfl (fun _ => rfl) (fun _ _ _ => rfl) (fun t => by rw [hafter]; unfold Dat.blockOf blk2; rw [hA]; try rfl) t d).trans
    (by unfold Dat.fetched Dat.blockOf blk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = blk2 V c 9 t) (t : Fin cfg2.N) (d) : dat.before 9 t d = blk2 V c 9 t :=
  (dat.before_in_eq_fetched 9 rfl (fun _ => rfl) (fun _ _ _ => rfl) (fun t => by rw [hafter]; unfold Dat.blockOf blk2; rw [hA]; try rfl) t d).trans
    (by unfold Dat.fetched Dat.blockOf blk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = blk2 V c 10 t) (t : Fin cfg2.N) (d) : dat.before 10 t d = blk2 V c 10 t :=
  (dat.before_in_eq_fetched 10 rfl (fun _ => rfl) (fun _ _ _ => rfl) (fun t => by rw [hafter]; unfold Dat.blockOf blk2; rw [hA]; try rfl) t d).trans
    (by unfold Dat.fetched Dat.blockOf blk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = blk2 V c 11 t) (t : Fin cfg2.N) (d) : dat.before 11 t d = blk2 V c 11 t :=
  (dat.before_in_eq_fetched 11 rfl (fun _ => rfl) (fun _ _ _ => rfl) (fun t => by rw [hafter]; unfold Dat.blockOf blk2; rw [hA]; try rfl) t d).trans
    (by unfold Dat.fetched Dat.blockOf blk2; rw [hA]; try rfl)

/-! ## The proof data: arrays as found, each input's buffer at its block, the output's at the layer's function of them -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => blk2 V c 10 t
    | ⟨11, _⟩ => blk2 V c 11 t
    | ⟨12, _⟩ => out2 (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = blk2 V c 8 t := by dsimp only [dat2]
theorem after2_9 (c : Dev nD) (t : Fin cfg2.N) : (dat2 V c).after 9 t = blk2 V c 9 t := by dsimp only [dat2]
theorem after2_10 (c : Dev nD) (t : Fin cfg2.N) : (dat2 V c).after 10 t = blk2 V c 10 t := by dsimp only [dat2]
theorem after2_11 (c : Dev nD) (t : Fin cfg2.N) : (dat2 V c).after 11 t = blk2 V c 11 t := by dsimp only [dat2]
theorem after2_12 (c : Dev nD) (t : Fin cfg2.N) : (dat2 V c).after 12 t = out2 (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d
theorem before2_5 (c : Dev nD) (t : Fin cfg2.N) (d) : (dat2 V c).before 5 t d = blk2 V c 5 t :=
  before2_5_of V (dat2 V c) (A_eq2 V c 5) (after2_5 V c) t d
theorem before2_6 (c : Dev nD) (t : Fin cfg2.N) (d) : (dat2 V c).before 6 t d = blk2 V c 6 t :=
  before2_6_of V (dat2 V c) (A_eq2 V c 6) (after2_6 V c) t d
theorem before2_7 (c : Dev nD) (t : Fin cfg2.N) (d) : (dat2 V c).before 7 t d = blk2 V c 7 t :=
  before2_7_of V (dat2 V c) (A_eq2 V c 7) (after2_7 V c) t d
theorem before2_8 (c : Dev nD) (t : Fin cfg2.N) (d) : (dat2 V c).before 8 t d = blk2 V c 8 t :=
  before2_8_of V (dat2 V c) (A_eq2 V c 8) (after2_8 V c) t d
theorem before2_9 (c : Dev nD) (t : Fin cfg2.N) (d) : (dat2 V c).before 9 t d = blk2 V c 9 t :=
  before2_9_of V (dat2 V c) (A_eq2 V c 9) (after2_9 V c) t d
theorem before2_10 (c : Dev nD) (t : Fin cfg2.N) (d) : (dat2 V c).before 10 t d = blk2 V c 10 t :=
  before2_10_of V (dat2 V c) (A_eq2 V c 10) (after2_10 V c) t d
theorem before2_11 (c : Dev nD) (t : Fin cfg2.N) (d) : (dat2 V c).before 11 t d = blk2 V c 11 t :=
  before2_11_of V (dat2 V c) (A_eq2 V c 11) (after2_11 V c) t d

/-! ## The body at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t))

set_option maxHeartbeats 2000000 in
/-- The inputs' buffers hold their blocks, so the body's triple applies; the invariant and what the core owes pass
    through unread. -/
theorem body2_at (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body2_triple c Set.univ _ _ _ _ _ _ _ _ _ _ _ _ _ _ _ _ _ _ _ _ _ _ _ _ _ _ _
    (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation at every point. -/
theorem body_obligation2 (c : Dev nD) : BodyObligation (dat2 (F := F) V c) (defs₀ (F := F)) Variants.none () Set.univ := fun t => by
  rw [bigSep_W2, bigSep_W2]
  exact body2_at V c t

end

end Cert.KernelIdeal.Layer

end
-- ==== Proof.KernelRun.lean ====
/-
  The kernel program's run, from the launch to the return.

  @main is nine items: a stretch of host operations (the first gather and segment sum, and the first layer's
  parameter rows), the first layer's region, a second stretch and region, a third stretch and region, and three
  stretches for the pooling and the two dense layers of the head. The contents of every unscoped buffer are followed
  through the items — a stretch leaves its operations' results, a region leaves its output array with every grid
  point's block written back and everything else as it found it — and every weakly fair execution is shown to
  terminate, faulting nowhere, with every unscoped buffer at the last of these contents.
-/
import proofs.«142629_j73753178406914_1_alg».proof.Proof.Layer0Data
import proofs.«142629_j73753178406914_1_alg».proof.Proof.Layer1Data
import proofs.«142629_j73753178406914_1_alg».proof.Proof.Layer2Data
import proofs.«142629_j73753178406914_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- At launch. -/
abbrev B0 : Dev nD → Valuation τ sig (Elt F) := fun c b => m (c, b)
/-- After the first host stretch. -/
abbrev B1 : Dev nD → Valuation τ sig (Elt F) := fun c => StableHlo.after hostOps0 (B0 m c)
abbrev T1 : (c : Dev nD) → (b : Ref sig .tc) → Buf (Elt F) ((c : Thread nD τ).loc b) := fun c b => B1 m c b

/-- After layer 1's region: its windows' arrays at what the pipeline leaves — the inputs as entered, the output with
    every point's block written back —, every other buffer as entered. -/
def B2 (c : Dev nD) : Valuation τ sig (Elt F) :=
  Pipeline.withArrays spec0 c (B1 m c) fun w => (dat0 (T1 m) c).arrAt w cfg0.N
theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev T2 : (c : Dev nD) → (b : Ref sig .tc) → Buf (Elt F) ((c : Thread nD τ).loc b) := fun c b => B2 m c b
theorem left0_arr (c : Dev nD) (w : Fin cfg0.W) : (dat0 (T1 m) c).arrAt w cfg0.N = T2 m c (Pipeline.arrRef spec0 w) :=
  (B2_arr m c w).symm
theorem left0_rest (c : Dev nD) : ∀ b, b ∉ Finset.univ.image (Pipeline.arrRef spec0) → T2 m c b = T1 m c b :=
  fun b hb => B2_of_ne m c b fun w e => hb (Finset.mem_image.mpr ⟨w, Finset.mem_univ _, e⟩)

/-- After the second host stretch. -/
abbrev B3 : Dev nD → Valuation τ sig (Elt F) := fun c => StableHlo.after hostOps1 (B2 m c)
abbrev T3 : (c : Dev nD) → (b : Ref sig .tc) → Buf (Elt F) ((c : Thread nD τ).loc b) := fun c b => B3 m c b

/-- After layer 2's region: its windows' arrays at what the pipeline leaves — the inputs as entered, the output with
    every point's block written back —, every other buffer as entered. -/
def B4 (c : Dev nD) : Valuation τ sig (Elt F) :=
  Pipeline.withArrays spec1 c (B3 m c) fun w => (dat1 (T3 m) c).arrAt w cfg1.N
theorem B4_arr (c : Dev nD) (w : Fin cfg1.W) :
    B4 m c (Proc.devRef .tc (Pipeline.arrRef spec1 w)) = (dat1 (T3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev T4 : (c : Dev nD) → (b : Ref sig .tc) → Buf (Elt F) ((c : Thread nD τ).loc b) := fun c b => B4 m c b
theorem left1_arr (c : Dev nD) (w : Fin cfg1.W) : (dat1 (T3 m) c).arrAt w cfg1.N = T4 m c (Pipeline.arrRef spec1 w) :=
  (B4_arr m c w).symm
theorem left1_rest (c : Dev nD) : ∀ b, b ∉ Finset.univ.image (Pipeline.arrRef spec1) → T4 m c b = T3 m c b :=
  fun b hb => B4_of_ne m c b fun w e => hb (Finset.mem_image.mpr ⟨w, Finset.mem_univ _, e⟩)

/-- After the third host stretch. -/
abbrev B5 : Dev nD → Valuation τ sig (Elt F) := fun c => StableHlo.after hostOps2 (B4 m c)
abbrev T5 : (c : Dev nD) → (b : Ref sig .tc) → Buf (Elt F) ((c : Thread nD τ).loc b) := fun c b => B5 m c b

/-- After layer 3's region: its windows' arrays at what the pipeline leaves — the inputs as entered, the output with
    every point's block written back —, every other buffer as entered. -/
def B6 (c : Dev nD) : Valuation τ sig (Elt F) :=
  Pipeline.withArrays spec2 c (B5 m c) fun w => (dat2 (T5 m) c).arrAt w cfg2.N
theorem B6_arr (c : Dev nD) (w : Fin cfg2.W) :
    B6 m c (Proc.devRef .tc (Pipeline.arrRef spec2 w)) = (dat2 (T5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev T6 : (c : Dev nD) → (b : Ref sig .tc) → Buf (Elt F) ((c : Thread nD τ).loc b) := fun c b => B6 m c b
theorem left2_arr (c : Dev nD) (w : Fin cfg2.W) : (dat2 (T5 m) c).arrAt w cfg2.N = T6 m c (Pipeline.arrRef spec2 w) :=
  (B6_arr m c w).symm
theorem left2_rest (c : Dev nD) : ∀ b, b ∉ Finset.univ.image (Pipeline.arrRef spec2) → T6 m c b = T5 m c b :=
  fun b hb => B6_of_ne m c b fun w e => hb (Finset.mem_image.mpr ⟨w, Finset.mem_univ _, e⟩)

/-- After the pooling and the head's three stretches. -/
abbrev B7 : Dev nD → Valuation τ sig (Elt F) := fun c => StableHlo.after hostOps3 (B6 m c)
abbrev B8 : Dev nD → Valuation τ sig (Elt F) := fun c => StableHlo.after hostOps3_1 (B7 m c)
abbrev B9 : Dev nD → Valuation τ sig (Elt F) := fun c => StableHlo.after hostOps3_2 (B8 m c)

/-! ## The proof data of the three pipelines, and what rides beside the buffers -/

/-- No pipeline has a prefetched table. -/
abbrev tables : (p : Fin 3) → (pcfgs (F := F) p).Adm := fun p => (cfgs p).toPCfg_adm

def data : (p : Fin 3) → (c : Dev nD) → Dat τ (Elt F) Unit ℕ (UR sig nD τ) ℕ (Pipeline.pin (pcfgs (F := F)) tables p) c
  | ⟨0, _⟩ => fun c => dat0 (T1 m) c
  | ⟨1, _⟩ => fun c => dat1 (T3 m) c
  | ⟨2, _⟩ => fun c => dat2 (T5 m) c

abbrev 𝒱₀ : Variants := Variants.none
abbrev L : GSem nD τ sig → Finset Unit := fun _ => ∅
abbrev lv : GSem nD τ sig → Unit → ℕ := fun _ _ => 0

/-- Beside the buffers, through every item: the core's generator register at some state, and the core owing nothing. -/
abbrev rest (c : Dev nD) : sProp 𝕄 := iprop((∃ r, prngReg c r) ∗ ∃ W, owes (c : Thread nD τ) (0 : CellTallies nD τ sig Unit) W)

/-- A host stretch as an item: from the contents W it leaves the contents after its operations. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-! ## The three regions as items -/

set_option backward.isDefEq.respectTransparency.types false in
/-- Layer 1's region over the thread state: entered with every unscoped buffer at B1, left with them at B2. Its
    windows' arrays are split out of the unscoped buffers at entry and put back at exit; the generator register goes
    into the pipeline's invariant and comes back; nothing is owed; the kernel has no semaphore of its own. -/
def layerSeg0 : Pipeline.RegionSeg (pcfgs (F := F)) tables (data m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (B1 m c) ∗ rest c)
  post c := iprop(StableHlo.held (c : Thread nD τ) (Pipeline.ucRefs τ sig) (B2 m c) ∗ rest c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) tables (data m) launch0.win launch0.arr_whole c
      ((data m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m 0 c).Φ 0 = Pipeline.ΦA spec0 c from rfl]; unfold Pipeline.ΦA
    iintro ⟨Hp, -, Hr⟩
    isplitl [Hr]; · iexact Hr
    iexact Hp
  hout c := by
    rw [Pipeline.ownSems0_none, show (data m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (data m) ((data m 0 c).share_full fun _ => rfl)
      (T1 m c) (T2 m c) ((data m 0 c).arrAt · cfg0.N) (left0_arr m c) (left0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered with every unscoped buffer at B3, left with them at B4. Its
    windows' arrays are split out of the unscoped buffers at entry and put back at exit; the generator register goes
    into the pipeline's invariant and comes back; nothing is owed; the kernel has no semaphore of its own. -/
def layerSeg1 : Pipeline.RegionSeg (pcfgs (F := F)) tables (data m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (B3 m c) ∗ rest c)
  post c := iprop(StableHlo.held (c : Thread nD τ) (Pipeline.ucRefs τ sig) (B4 m c) ∗ rest c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) tables (data m) launch1.win launch1.arr_whole c
      ((data m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m 1 c).Φ 0 = Pipeline.ΦA spec1 c from rfl]; unfold Pipeline.ΦA
    iintro ⟨Hp, -, Hr⟩
    isplitl [Hr]; · iexact Hr
    iexact Hp
  hout c := by
    rw [Pipeline.ownSems0_none, show (data m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (data m) ((data m 1 c).share_full fun _ => rfl)
      (T3 m c) (T4 m c) ((data m 1 c).arrAt · cfg1.N) (left1_arr m c) (left1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's region over the thread state: entered with every unscoped buffer at B5, left with them at B6. Its
    windows' arrays are split out of the unscoped buffers at entry and put back at exit; the generator register goes
    into the pipeline's invariant and comes back; nothing is owed; the kernel has no semaphore of its own. -/
def layerSeg2 : Pipeline.RegionSeg (pcfgs (F := F)) tables (data m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (B5 m c) ∗ rest c)
  post c := iprop(StableHlo.held (c : Thread nD τ) (Pipeline.ucRefs τ sig) (B6 m c) ∗ rest c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) tables (data m) launch2.win launch2.arr_whole c
      ((data m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m 2 c).Φ 0 = Pipeline.ΦA spec2 c from rfl]; unfold Pipeline.ΦA
    iintro ⟨Hp, -, Hr⟩
    isplitl [Hr]; · iexact Hr
    iexact Hp
  hout c := by
    rw [Pipeline.ownSems0_none, show (data m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tables (Ix := Unit) (Name := ℕ) (U := UR sig nD τ) (Lvl := ℕ)
      launch2.win launch2.arr_whole c (data m) ((data m 2 c).share_full fun _ => rfl)
      (T5 m c) (T6 m c) ((data m 2 c).arrAt · cfg2.N) (left2_arr m c) (left2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev items : List (Pipeline.Seg (pcfgs (F := F)) tables (data m) () defs₀ 𝒱₀ L lv) :=
  [ .host (hostItem hostOps0 hostOps0_sub hostOps0_fresh (B0 m)),
    .region (layerSeg0 m),
    .host (hostItem hostOps1 hostOps1_sub hostOps1_fresh (B2 m)),
    .region (layerSeg1 m),
    .host (hostItem hostOps2 hostOps2_sub hostOps2_fresh (B4 m)),
    .region (layerSeg2 m),
    .host (hostItem hostOps3 hostOps3_sub hostOps3_fresh (B6 m)),
    .host (hostItem hostOps3_1 hostOps3_1_sub hostOps3_1_fresh (B7 m)),
    .host (hostItem hostOps3_2 hostOps3_2_sub hostOps3_2_fresh (B8 m)) ]

theorem main_is_items (c : Dev nD) : main (F := F) c = Pipeline.Seg.run (items m) := (main_chain c).trans (by chain_rfl)

set_option backward.isDefEq.respectTransparency.types false in
/-- Every weakly fair execution of @main from memory m with zero counters terminates, faulting nowhere, with every
    unscoped buffer of every core at the last contents B9. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) tables (data m) () cellOf_inj emb₁ defs₀ 𝒱₀ L lv m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ rest c))
    (Tₙ := fun c => iprop(StableHlo.held (c : Thread nD τ) (Pipeline.ucRefs τ sig) (B9 m c) ∗ ∃ r, prngReg c r))
    (hch := ⟨fun _ => .rfl, fun _ => .rfl, fun _ => .rfl, fun _ => .rfl, fun _ => .rfl, fun _ => .rfl, fun _ => .rfl, fun _ => .rfl, fun _ => .rfl, fun c => by
        show iprop(StableHlo.held (c.tc : Thread nD τ) (Pipeline.ucRefs τ sig) (B9 m c) ∗ rest c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

end Cert.KernelIdeal.Layer

end
-- ==== Proof.KernelKeeps.lean ====
/-
  The arguments at the end of the kernel program's run: each of the nineteen argument arrays holds what it held at
  launch. No host operation writes an argument; a region changes only its output array, and the one argument a region
  has a window on (the node features, the first layer's first input) is an input window, which the pipeline leaves
  as it found it. With the run this is the program's frame.
-/
import proofs.«142629_j73753178406914_1_alg».proof.Proof.KernelRun

set_option maxRecDepth 16384

noncomputable section

namespace Cert.KernelIdeal.Layer

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

theorem B9_main_arg0 (c : Dev nD) : B9 m c (Proc.devRef .tc main_arg0) = m ((c : Thread nD τ).loc main_arg0) :=
  (StableHlo.after_of_writes_sub hostOps3_2 _ hostOps3_2_writes (r := main_arg0) (by decide)).trans <|
  (StableHlo.after_of_writes_sub hostOps3_1 _ hostOps3_1_writes (r := main_arg0) (by decide)).trans <|
  (StableHlo.after_of_writes_sub hostOps3 _ hostOps3_writes (r := main_arg0) (by decide)).trans <|
  (B6_of_ne m c main_arg0 (by decide)).trans <|
  (StableHlo.after_of_writes_sub hostOps2 _ hostOps2_writes (r := main_arg0) (by decide)).trans <|
  (B4_of_ne m c main_arg0 (by decide)).trans <|
  (StableHlo.after_of_writes_sub hostOps1 _ hostOps1_writes (r := main_arg0) (by decide)).trans <|
  ((B2_arr m c 0).trans (((dat0 (T1 m) c).arrAt_in 0 rfl _).trans (A_eq0 (T1 m) c 0))).trans <|
  (StableHlo.after_of_writes_sub hostOps0 _ hostOps0_writes (r := main_arg0) (by decide)).trans rfl

theorem B9_main_arg1 (c : Dev nD) : B9 m c (Proc.devRef .tc main_arg1) = m ((c : Thread nD τ).loc main_arg1) :=
  (StableHlo.after_of_writes_sub hostOps3_2 _ hostOps3_2_writes (r := main_arg1) (by decide)).trans <|
  (StableHlo.after_of_writes_sub hostOps3_1 _ hostOps3_1_writes (r := main_arg1) (by decide)).trans <|
  (StableHlo.after_of_writes_sub hostOps3 _ hostOps3_writes (r := main_arg1) (by decide)).trans <|
  (B6_of_ne m c main_arg1 (by decide)).trans <|
  (StableHlo.after_of_writes_sub hostOps2 _ hostOps2_writes (r := main_arg1) (by decide)).trans <|
  (B4_of_ne m c main_arg1 (by decide)).trans <|
  (StableHlo.after_of_writes_sub hostOps1 _ hostOps1_writes (r := main_arg1) (by decide)).trans <|
  (B2_of_ne m c main_arg1 (by decide)).trans <|
  (StableHlo.after_of_writes_sub hostOps0 _ hostOps0_writes (r := main_arg1) (by decide)).trans rfl

theorem B9_main_arg2 (c : Dev nD) : B9 m c (Proc.devRef .tc main_arg2) = m ((c : Thread nD τ).loc main_arg2) :=
  (StableHlo.after_of_writes_sub hostOps3_2 _ hostOps3_2_writes (r := main_arg2) (by decide)).trans <|
  (StableHlo.after_of_writes_sub hostOps3_1 _ hostOps3_1_writes (r := main_arg2) (by decide)).trans <|
  (StableHlo.after_of_writes_sub hostOps3 _ hostOps3_writes (r := main_arg2) (by decide)).trans <|
  (B6_of_ne m c main_arg2 (by decide)).trans <|
  (StableHlo.after_of_writes_sub hostOps2 _ hostOps2_writes (r := main_arg2) (by decide)).trans <|
  (B4_of_ne m c main_arg2 (by decide)).trans <|
  (StableHlo.after_of_writes_sub hostOps1 _ hostOps1_writes (r := main_arg2) (by decide)).trans <|
  (B2_of_ne m c main_arg2 (by decide)).trans <|
  (StableHlo.after_of_writes_sub hostOps0 _ hostOps0_writes (r := main_arg2) (by decide)).trans rfl

theorem B9_main_arg3 (c : Dev nD) : B9 m c (Proc.devRef .tc main_arg3) = m ((c : Thread nD τ).loc main_arg3) :=
  (StableHlo.after_of_writes_sub hostOps3_2 _ hostOps3_2_writes (r := main_arg3) (by decide)).trans <|
  (StableHlo.after_of_writes_sub hostOps3_1 _ hostOps3_1_writes (r := main_arg3) (by decide)).trans <|
  (StableHlo.after_of_writes_sub hostOps3 _ hostOps3_writes (r := main_arg3) (by decide)).trans <|
  (B6_of_ne m c main_arg3 (by decide)).trans <|
  (StableHlo.after_of_writes_sub hostOps2 _ hostOps2_writes (r := main_arg3) (by decide)).trans <|
  (B4_of_ne m c main_arg3 (by decide)).trans <|
  (StableHlo.after_of_writes_sub hostOps1 _ hostOps1_writes (r := main_arg3) (by decide)).trans <|
  (B2_of_ne m c main_arg3 (by decide)).trans <|
  (StableHlo.after_of_writes_sub hostOps0 _ hostOps0_writes (r := main_arg3) (by decide)).trans rfl

theorem B9_main_arg4 (c : Dev nD) : B9 m c (Proc.devRef .tc main_arg4) = m ((c : Thread nD τ).loc main_arg4) :=
  (StableHlo.after_of_writes_sub hostOps3_2 _ hostOps3_2_writes (r := main_arg4) (by decide)).trans <|
  (StableHlo.after_of_writes_sub hostOps3_1 _ hostOps3_1_writes (r := main_arg4) (by decide)).trans <|
  (StableHlo.after_of_writes_sub hostOps3 _ hostOps3_writes (r := main_arg4) (by decide)).trans <|
  (B6_of_ne m c main_arg4 (by decide)).trans <|
  (StableHlo.after_of_writes_sub hostOps2 _ hostOps2_writes (r := main_arg4) (by decide)).trans <|
  (B4_of_ne m c main_arg4 (by decide)).trans <|
  (StableHlo.after_of_writes_sub hostOps1 _ hostOps1_writes (r := main_arg4) (by decide)).trans <|
  (B2_of_ne m c main_arg4 (by decide)).trans <|
  (StableHlo.after_of_writes_sub hostOps0 _ hostOps0_writes (r := main_arg4) (by decide)).trans rfl

theorem B9_main_arg5 (c : Dev nD) : B9 m c (Proc.devRef .tc main_arg5) = m ((c : Thread nD τ).loc main_arg5) :=
  (StableHlo.after_of_writes_sub hostOps3_2 _ hostOps3_2_writes (r := main_arg5) (by decide)).trans <|
  (StableHlo.after_of_writes_sub hostOps3_1 _ hostOps3_1_writes (r := main_arg5) (by decide)).trans <|
  (StableHlo.after_of_writes_sub hostOps3 _ hostOps3_writes (r := main_arg5) (by decide)).trans <|
  (B6_of_ne m c main_arg5 (by decide)).trans <|
  (StableHlo.after_of_writes_sub hostOps2 _ hostOps2_writes (r := main_arg5) (by decide)).trans <|
  (B4_of_ne m c main_arg5 (by decide)).trans <|
  (StableHlo.after_of_writes_sub hostOps1 _ hostOps1_writes (r := main_arg5) (by decide)).trans <|
  (B2_of_ne m c main_arg5 (by decide)).trans <|
  (StableHlo.after_of_writes_sub hostOps0 _ hostOps0_writes (r := main_arg5) (by decide)).trans rfl

theorem B9_main_arg6 (c : Dev nD) : B9 m c (Proc.devRef .tc main_arg6) = m ((c : Thread nD τ).loc main_arg6) :=
  (StableHlo.after_of_writes_sub hostOps3_2 _ hostOps3_2_writes (r := main_arg6) (by decide)).trans <|
  (StableHlo.after_of_writes_sub hostOps3_1 _ hostOps3_1_writes (r := main_arg6) (by decide)).trans <|
  (StableHlo.after_of_writes_sub hostOps3 _ hostOps3_writes (r := main_arg6) (by decide)).trans <|
  (B6_of_ne m c main_arg6 (by decide)).trans <|
  (StableHlo.after_of_writes_sub hostOps2 _ hostOps2_writes (r := main_arg6) (by decide)).trans <|
  (B4_of_ne m c main_arg6 (by decide)).trans <|
  (StableHlo.after_of_writes_sub hostOps1 _ hostOps1_writes (r := main_arg6) (by decide)).trans <|
  (B2_of_ne m c main_arg6 (by decide)).trans <|
  (StableHlo.after_of_writes_sub hostOps0 _ hostOps0_writes (r := main_arg6) (by decide)).trans rfl

theorem B9_main_arg7 (c : Dev nD) : B9 m c (Proc.devRef .tc main_arg7) = m ((c : Thread nD τ).loc main_arg7) :=
  (StableHlo.after_of_writes_sub hostOps3_2 _ hostOps3_2_writes (r := main_arg7) (by decide)).trans <|
  (StableHlo.after_of_writes_sub hostOps3_1 _ hostOps3_1_writes (r := main_arg7) (by decide)).trans <|
  (StableHlo.after_of_writes_sub hostOps3 _ hostOps3_writes (r := main_arg7) (by decide)).trans <|
  (B6_of_ne m c main_arg7 (by decide)).trans <|
  (StableHlo.after_of_writes_sub hostOps2 _ hostOps2_writes (r := main_arg7) (by decide)).trans <|
  (B4_of_ne m c main_arg7 (by decide)).trans <|
  (StableHlo.after_of_writes_sub hostOps1 _ hostOps1_writes (r := main_arg7) (by decide)).trans <|
  (B2_of_ne m c main_arg7 (by decide)).trans <|
  (StableHlo.after_of_writes_sub hostOps0 _ hostOps0_writes (r := main_arg7) (by decide)).trans rfl

theorem B9_main_arg8 (c : Dev nD) : B9 m c (Proc.devRef .tc main_arg8) = m ((c : Thread nD τ).loc main_arg8) :=
  (StableHlo.after_of_writes_sub hostOps3_2 _ hostOps3_2_writes (r := main_arg8) (by decide)).trans <|
  (StableHlo.after_of_writes_sub hostOps3_1 _ hostOps3_1_writes (r := main_arg8) (by decide)).trans <|
  (StableHlo.after_of_writes_sub hostOps3 _ hostOps3_writes (r := main_arg8) (by decide)).trans <|
  (B6_of_ne m c main_arg8 (by decide)).trans <|
  (StableHlo.after_of_writes_sub hostOps2 _ hostOps2_writes (r := main_arg8) (by decide)).trans <|
  (B4_of_ne m c main_arg8 (by decide)).trans <|
  (StableHlo.after_of_writes_sub hostOps1 _ hostOps1_writes (r := main_arg8) (by decide)).trans <|
  (B2_of_ne m c main_arg8 (by decide)).trans <|
  (StableHlo.after_of_writes_sub hostOps0 _ hostOps0_writes (r := main_arg8) (by decide)).trans rfl

theorem B9_main_arg9 (c : Dev nD) : B9 m c (Proc.devRef .tc main_arg9) = m ((c : Thread nD τ).loc main_arg9) :=
  (StableHlo.after_of_writes_sub hostOps3_2 _ hostOps3_2_writes (r := main_arg9) (by decide)).trans <|
  (StableHlo.after_of_writes_sub hostOps3_1 _ hostOps3_1_writes (r := main_arg9) (by decide)).trans <|
  (StableHlo.after_of_writes_sub hostOps3 _ hostOps3_writes (r := main_arg9) (by decide)).trans <|
  (B6_of_ne m c main_arg9 (by decide)).trans <|
  (StableHlo.after_of_writes_sub hostOps2 _ hostOps2_writes (r := main_arg9) (by decide)).trans <|
  (B4_of_ne m c main_arg9 (by decide)).trans <|
  (StableHlo.after_of_writes_sub hostOps1 _ hostOps1_writes (r := main_arg9) (by decide)).trans <|
  (B2_of_ne m c main_arg9 (by decide)).trans <|
  (StableHlo.after_of_writes_sub hostOps0 _ hostOps0_writes (r := main_arg9) (by decide)).trans rfl

theorem B9_main_arg10 (c : Dev nD) : B9 m c (Proc.devRef .tc main_arg10) = m ((c : Thread nD τ).loc main_arg10) :=
  (StableHlo.after_of_writes_sub hostOps3_2 _ hostOps3_2_writes (r := main_arg10) (by decide)).trans <|
  (StableHlo.after_of_writes_sub hostOps3_1 _ hostOps3_1_writes (r := main_arg10) (by decide)).trans <|
  (StableHlo.after_of_writes_sub hostOps3 _ hostOps3_writes (r := main_arg10) (by decide)).trans <|
  (B6_of_ne m c main_arg10 (by decide)).trans <|
  (StableHlo.after_of_writes_sub hostOps2 _ hostOps2_writes (r := main_arg10) (by decide)).trans <|
  (B4_of_ne m c main_arg10 (by decide)).trans <|
  (StableHlo.after_of_writes_sub hostOps1 _ hostOps1_writes (r := main_arg10) (by decide)).trans <|
  (B2_of_ne m c main_arg10 (by decide)).trans <|
  (StableHlo.after_of_writes_sub hostOps0 _ hostOps0_writes (r := main_arg10) (by decide)).trans rfl

theorem B9_main_arg11 (c : Dev nD) : B9 m c (Proc.devRef .tc main_arg11) = m ((c : Thread nD τ).loc main_arg11) :=
  (StableHlo.after_of_writes_sub hostOps3_2 _ hostOps3_2_writes (r := main_arg11) (by decide)).trans <|
  (StableHlo.after_of_writes_sub hostOps3_1 _ hostOps3_1_writes (r := main_arg11) (by decide)).trans <|
  (StableHlo.after_of_writes_sub hostOps3 _ hostOps3_writes (r := main_arg11) (by decide)).trans <|
  (B6_of_ne m c main_arg11 (by decide)).trans <|
  (StableHlo.after_of_writes_sub hostOps2 _ hostOps2_writes (r := main_arg11) (by decide)).trans <|
  (B4_of_ne m c main_arg11 (by decide)).trans <|
  (StableHlo.after_of_writes_sub hostOps1 _ hostOps1_writes (r := main_arg11) (by decide)).trans <|
  (B2_of_ne m c main_arg11 (by decide)).trans <|
  (StableHlo.after_of_writes_sub hostOps0 _ hostOps0_writes (r := main_arg11) (by decide)).trans rfl

theorem B9_main_arg12 (c : Dev nD) : B9 m c (Proc.devRef .tc main_arg12) = m ((c : Thread nD τ).loc main_arg12) :=
  (StableHlo.after_of_writes_sub hostOps3_2 _ hostOps3_2_writes (r := main_arg12) (by decide)).trans <|
  (StableHlo.after_of_writes_sub hostOps3_1 _ hostOps3_1_writes (r := main_arg12) (by decide)).trans <|
  (StableHlo.after_of_writes_sub hostOps3 _ hostOps3_writes (r := main_arg12) (by decide)).trans <|
  (B6_of_ne m c main_arg12 (by decide)).trans <|
  (StableHlo.after_of_writes_sub hostOps2 _ hostOps2_writes (r := main_arg12) (by decide)).trans <|
  (B4_of_ne m c main_arg12 (by decide)).trans <|
  (StableHlo.after_of_writes_sub hostOps1 _ hostOps1_writes (r := main_arg12) (by decide)).trans <|
  (B2_of_ne m c main_arg12 (by decide)).trans <|
  (StableHlo.after_of_writes_sub hostOps0 _ hostOps0_writes (r := main_arg12) (by decide)).trans rfl

theorem B9_main_arg13 (c : Dev nD) : B9 m c (Proc.devRef .tc main_arg13) = m ((c : Thread nD τ).loc main_arg13) :=
  (StableHlo.after_of_writes_sub hostOps3_2 _ hostOps3_2_writes (r := main_arg13) (by decide)).trans <|
  (StableHlo.after_of_writes_sub hostOps3_1 _ hostOps3_1_writes (r := main_arg13) (by decide)).trans <|
  (StableHlo.after_of_writes_sub hostOps3 _ hostOps3_writes (r := main_arg13) (by decide)).trans <|
  (B6_of_ne m c main_arg13 (by decide)).trans <|
  (StableHlo.after_of_writes_sub hostOps2 _ hostOps2_writes (r := main_arg13) (by decide)).trans <|
  (B4_of_ne m c main_arg13 (by decide)).trans <|
  (StableHlo.after_of_writes_sub hostOps1 _ hostOps1_writes (r := main_arg13) (by decide)).trans <|
  (B2_of_ne m c main_arg13 (by decide)).trans <|
  (StableHlo.after_of_writes_sub hostOps0 _ hostOps0_writes (r := main_arg13) (by decide)).trans rfl

theorem B9_main_arg14 (c : Dev nD) : B9 m c (Proc.devRef .tc main_arg14) = m ((c : Thread nD τ).loc main_arg14) :=
  (StableHlo.after_of_writes_sub hostOps3_2 _ hostOps3_2_writes (r := main_arg14) (by decide)).trans <|
  (StableHlo.after_of_writes_sub hostOps3_1 _ hostOps3_1_writes (r := main_arg14) (by decide)).trans <|
  (StableHlo.after_of_writes_sub hostOps3 _ hostOps3_writes (r := main_arg14) (by decide)).trans <|
  (B6_of_ne m c main_arg14 (by decide)).trans <|
  (StableHlo.after_of_writes_sub hostOps2 _ hostOps2_writes (r := main_arg14) (by decide)).trans <|
  (B4_of_ne m c main_arg14 (by decide)).trans <|
  (StableHlo.after_of_writes_sub hostOps1 _ hostOps1_writes (r := main_arg14) (by decide)).trans <|
  (B2_of_ne m c main_arg14 (by decide)).trans <|
  (StableHlo.after_of_writes_sub hostOps0 _ hostOps0_writes (r := main_arg14) (by decide)).trans rfl

theorem B9_main_arg15 (c : Dev nD) : B9 m c (Proc.devRef .tc main_arg15) = m ((c : Thread nD τ).loc main_arg15) :=
  (StableHlo.after_of_writes_sub hostOps3_2 _ hostOps3_2_writes (r := main_arg15) (by decide)).trans <|
  (StableHlo.after_of_writes_sub hostOps3_1 _ hostOps3_1_writes (r := main_arg15) (by decide)).trans <|
  (StableHlo.after_of_writes_sub hostOps3 _ hostOps3_writes (r := main_arg15) (by decide)).trans <|
  (B6_of_ne m c main_arg15 (by decide)).trans <|
  (StableHlo.after_of_writes_sub hostOps2 _ hostOps2_writes (r := main_arg15) (by decide)).trans <|
  (B4_of_ne m c main_arg15 (by decide)).trans <|
  (StableHlo.after_of_writes_sub hostOps1 _ hostOps1_writes (r := main_arg15) (by decide)).trans <|
  (B2_of_ne m c main_arg15 (by decide)).trans <|
  (StableHlo.after_of_writes_sub hostOps0 _ hostOps0_writes (r := main_arg15) (by decide)).trans rfl

theorem B9_main_arg16 (c : Dev nD) : B9 m c (Proc.devRef .tc main_arg16) = m ((c : Thread nD τ).loc main_arg16) :=
  (StableHlo.after_of_writes_sub hostOps3_2 _ hostOps3_2_writes (r := main_arg16) (by decide)).trans <|
  (StableHlo.after_of_writes_sub hostOps3_1 _ hostOps3_1_writes (r := main_arg16) (by decide)).trans <|
  (StableHlo.after_of_writes_sub hostOps3 _ hostOps3_writes (r := main_arg16) (by decide)).trans <|
  (B6_of_ne m c main_arg16 (by decide)).trans <|
  (StableHlo.after_of_writes_sub hostOps2 _ hostOps2_writes (r := main_arg16) (by decide)).trans <|
  (B4_of_ne m c main_arg16 (by decide)).trans <|
  (StableHlo.after_of_writes_sub hostOps1 _ hostOps1_writes (r := main_arg16) (by decide)).trans <|
  (B2_of_ne m c main_arg16 (by decide)).trans <|
  (StableHlo.after_of_writes_sub hostOps0 _ hostOps0_writes (r := main_arg16) (by decide)).trans rfl

theorem B9_main_arg17 (c : Dev nD) : B9 m c (Proc.devRef .tc main_arg17) = m ((c : Thread nD τ).loc main_arg17) :=
  (StableHlo.after_of_writes_sub hostOps3_2 _ hostOps3_2_writes (r := main_arg17) (by decide)).trans <|
  (StableHlo.after_of_writes_sub hostOps3_1 _ hostOps3_1_writes (r := main_arg17) (by decide)).trans <|
  (StableHlo.after_of_writes_sub hostOps3 _ hostOps3_writes (r := main_arg17) (by decide)).trans <|
  (B6_of_ne m c main_arg17 (by decide)).trans <|
  (StableHlo.after_of_writes_sub hostOps2 _ hostOps2_writes (r := main_arg17) (by decide)).trans <|
  (B4_of_ne m c main_arg17 (by decide)).trans <|
  (StableHlo.after_of_writes_sub hostOps1 _ hostOps1_writes (r := main_arg17) (by decide)).trans <|
  (B2_of_ne m c main_arg17 (by decide)).trans <|
  (StableHlo.after_of_writes_sub hostOps0 _ hostOps0_writes (r := main_arg17) (by decide)).trans rfl

theorem B9_main_arg18 (c : Dev nD) : B9 m c (Proc.devRef .tc main_arg18) = m ((c : Thread nD τ).loc main_arg18) :=
  (StableHlo.after_of_writes_sub hostOps3_2 _ hostOps3_2_writes (r := main_arg18) (by decide)).trans <|
  (StableHlo.after_of_writes_sub hostOps3_1 _ hostOps3_1_writes (r := main_arg18) (by decide)).trans <|
  (StableHlo.after_of_writes_sub hostOps3 _ hostOps3_writes (r := main_arg18) (by decide)).trans <|
  (B6_of_ne m c main_arg18 (by decide)).trans <|
  (StableHlo.after_of_writes_sub hostOps2 _ hostOps2_writes (r := main_arg18) (by decide)).trans <|
  (B4_of_ne m c main_arg18 (by decide)).trans <|
  (StableHlo.after_of_writes_sub hostOps1 _ hostOps1_writes (r := main_arg18) (by decide)).trans <|
  (B2_of_ne m c main_arg18 (by decide)).trans <|
  (StableHlo.after_of_writes_sub hostOps0 _ hostOps0_writes (r := main_arg18) (by decide)).trans rfl

/-- An unscoped TensorCore reference is among those the run's last state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every weakly fair execution terminates, faulting nowhere, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_unscoped main_arg0 (by decide))).trans (B9_main_arg0 m c),
     (h c _ (mem_unscoped main_arg1 (by decide))).trans (B9_main_arg1 m c),
     (h c _ (mem_unscoped main_arg2 (by decide))).trans (B9_main_arg2 m c),
     (h c _ (mem_unscoped main_arg3 (by decide))).trans (B9_main_arg3 m c),
     (h c _ (mem_unscoped main_arg4 (by decide))).trans (B9_main_arg4 m c),
     (h c _ (mem_unscoped main_arg5 (by decide))).trans (B9_main_arg5 m c),
     (h c _ (mem_unscoped main_arg6 (by decide))).trans (B9_main_arg6 m c),
     (h c _ (mem_unscoped main_arg7 (by decide))).trans (B9_main_arg7 m c),
     (h c _ (mem_unscoped main_arg8 (by decide))).trans (B9_main_arg8 m c),
     (h c _ (mem_unscoped main_arg9 (by decide))).trans (B9_main_arg9 m c),
     (h c _ (mem_unscoped main_arg10 (by decide))).trans (B9_main_arg10 m c),
     (h c _ (mem_unscoped main_arg11 (by decide))).trans (B9_main_arg11 m c),
     (h c _ (mem_unscoped main_arg12 (by decide))).trans (B9_main_arg12 m c),
     (h c _ (mem_unscoped main_arg13 (by decide))).trans (B9_main_arg13 m c),
     (h c _ (mem_unscoped main_arg14 (by decide))).trans (B9_main_arg14 m c),
     (h c _ (mem_unscoped main_arg15 (by decide))).trans (B9_main_arg15 m c),
     (h c _ (mem_unscoped main_arg16 (by decide))).trans (B9_main_arg16 m c),
     (h c _ (mem_unscoped main_arg17 (by decide))).trans (B9_main_arg17 m c),
     (h c _ (mem_unscoped main_arg18 (by decide))).trans (B9_main_arg18 m c)⟩)
    (run m ρ)

end Cert.KernelIdeal.Layer

end
-- ==== Proof.RefRun.lean ====
/-
  The reference program's run, cut into stretches.

  The reference's @main is a straight line of 242 host operations (the operations of the three functions it calls
  standing in the calls' places).  The line is cut here into seven consecutive stretches: the sum over the edges that
  feeds a layer and the layer itself, three times over, and then the pooling and the head.  Every weakly fair execution
  of @main terminates with each buffer of each core at the line's operations applied in order to the launch contents,
  and applying a concatenation of lines is applying them one after the other; so the final contents are the seventh of
  a chain of valuations, each the stretch's operations applied to the one before, the first the launch contents.  Every
  intermediate buffer keeps its name in that chain: what a layer reads is the valuation before it at the buffer the
  preceding sum wrote.  No operation writes an argument, so each argument holds at the end what it held at launch.
-/
import proofs.«142629_j73753178406914_1_alg».proof.Proof.Gen.ReferenceIdeal
import Idealize.ShloMosaic.Lib.StableHlo.Run
import Idealize.ShloMosaic.Lib.Pipeline.Frame

set_option maxRecDepth 8192

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-! ## The seven stretches -/

/-- The source and destination columns of the edge list (negative entries wrapped), the rows of the node features gathered
    at the sources, their sum per destination, and the node features plus that sum: up to %14. -/
abbrev rA0 : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    nullary main_c (constantI S_ 32 0#32),
    unary main_c main_v4 (broadcastInDim S320000 ![] bcast_S_S320000 : (⟨S_, .i32⟩ : BufTy).Contents (Elt F) → (⟨S320000, .i32⟩ : BufTy).Contents (Elt F)),
    binary main_v1 main_v4 main_v5 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v6 (broadcastInDim S320000 ![] bcast_S_S320000 : (⟨S_, .i32⟩ : BufTy).Contents (Elt F) → (⟨S320000, .i32⟩ : BufTy).Contents (Elt F)),
    binary main_v1 main_v6 main_v7 (addi : (⟨S320000, .i32⟩ : BufTy).Contents (Elt F) → (⟨S320000, .i32⟩ : BufTy).Contents (Elt F) → (⟨S320000, .i32⟩ : BufTy).Contents (Elt F)),
    ternary main_v5 main_v7 main_v1 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v8 main_v9 (broadcastInDim S320000x1 ![0] bcast_S320000_S320000x1_0 : (⟨S320000, .i32⟩ : BufTy).Contents (Elt F) → (⟨S320000x1, .i32⟩ : BufTy).Contents (Elt F)),
    binary main_arg0 main_v9 main_v10 ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)),
    nullary main_cst (constant S_ .f32 0x00000000#32),
    unary main_cst main_v11 (broadcastInDim S20000x512 ![] bcast_S_S20000x512 : (⟨S_, .f32⟩ : BufTy).Contents (Elt F) → (⟨S20000x512, .f32⟩ : BufTy).Contents (Elt F)),
    unary main_v3 main_v12 (broadcastInDim S320000x1 ![0] bcast_S320000_S320000x1_0 : (⟨S320000, .i32⟩ : BufTy).Contents (Elt F) → (⟨S320000x1, .i32⟩ : BufTy).Contents (Elt F)),
    ternary main_v11 main_v12 main_v10 main_v13 ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)),
    binary main_arg0 main_v13 main_v14 (addf : (⟨S20000x512, .f32⟩ : BufTy).Contents (Elt F) → (⟨S20000x512, .f32⟩ : BufTy).Contents (Elt F) → (⟨S20000x512, .f32⟩ : BufTy).Contents (Elt F)) ]

/-- The first layer on that array, %15 … %66: the slices of the stacked parameters, the first product and bias, the
    parametric rectifier (a select between x and a·x), the normalisation, the second product and bias, the parametric
    rectifier again, the rectifier. -/
abbrev rM0 : List (HloOp τ sig (Elt F)) :=
  [ unary main_arg5 main_v15 ((extractStridedSlice S1x512x512 ![0, 0, 0] · slices_S3x512x512_S1x512x512_0_0_0) : (⟨S3x512x512, .f32⟩ : BufTy).Contents (Elt F) → (⟨S1x512x512, .f32⟩ : BufTy).Contents (Elt F)),
    reshape main_v15 main_v16 rfl shapeCasts_S1x512x512_S512x512,
    binary main_v14 main_v16 main_v17 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg6 main_v18 ((extractStridedSlice S1x512 ![0, 0] · slices_S3x512_S1x512_0_0) : (⟨S3x512, .f32⟩ : BufTy).Contents (Elt F) → (⟨S1x512, .f32⟩ : BufTy).Contents (Elt F)),
    reshape main_v18 main_v19 rfl shapeCasts_S1x512_S512,
    unary main_v19 main_v20 (broadcastInDim S1x512 ![1] bcast_S512_S1x512_1 : (⟨S512, .f32⟩ : BufTy).Contents (Elt F) → (⟨S1x512, .f32⟩ : BufTy).Contents (Elt F)),
    unary main_v20 main_v21 (broadcastInDim S20000x512 ![0, 1] bcast_S1x512_S20000x512_0_1 : (⟨S1x512, .f32⟩ : BufTy).Contents (Elt F) → (⟨S20000x512, .f32⟩ : BufTy).Contents (Elt F)),
    binary main_v17 main_v21 main_v22 (addf : (⟨S20000x512, .f32⟩ : BufTy).Contents (Elt F) → (⟨S20000x512, .f32⟩ : BufTy).Contents (Elt F) → (⟨S20000x512, .f32⟩ : BufTy).Contents (Elt F)),
    unary main_arg7 main_v23 ((extractStridedSlice S1 ![0] · slices_S3_S1_0) : (⟨S3, .f32⟩ : BufTy).Contents (Elt F) → (⟨S1, .f32⟩ : BufTy).Contents (Elt F)),
    reshape main_v23 main_v24 rfl shapeCasts_S1_S_,
    nullary main_cst_1 (constant S_ .f32 0x00000000#32),
    unary main_cst_1 main_v25 (broadcastInDim S20000x512 ![] bcast_S_S20000x512 : (⟨S_, .f32⟩ : BufTy).Contents (Elt F) → (⟨S20000x512, .f32⟩ : BufTy).Contents (Elt F)),
    binary main_v22 main_v25 main_v26 (cmpf .oge : (⟨S20000x512, .f32⟩ : BufTy).Contents (Elt F) → (⟨S20000x512, .f32⟩ : BufTy).Contents (Elt F) → (⟨S20000x512, .i1⟩ : BufTy).Contents (Elt F)),
    unary main_v24 main_v27 (broadcastInDim S20000x512 ![] bcast_S_S20000x512 : (⟨S_, .f32⟩ : BufTy).Contents (Elt F) → (⟨S20000x512, .f32⟩ : BufTy).Contents (Elt F)),
    binary main_v27 main_v22 main_v28 (mulf : (⟨S20000x512, .f32⟩ : BufTy).Contents (Elt F) → (⟨S20000x512, .f32⟩ : BufTy).Contents (Elt F) → (⟨S20000x512, .f32⟩ : BufTy).Contents (Elt F)),
    TRef.ternary (TRef.of (T := ⟨S20000x512, .i1⟩) main_v26) (TRef.of (T := ⟨S20000x512, .f32⟩) main_v22) (TRef.of (T := ⟨S20000x512, .f32⟩) main_v28) (TRef.of (T := ⟨S20000x512, .f32⟩) main_v29) select,
    unary main_arg10 main_v30 ((extractStridedSlice S1x512 ![0, 0] · slices_S3x512_S1x512_0_0) : (⟨S3x512, .f32⟩ : BufTy).Contents (Elt F) → (⟨S1x512, .f32⟩ : BufTy).Contents (Elt F)),
    reshape main_v30 main_v31 rfl shapeCasts_S1x512_S512,
    unary main_v31 main_v32 (broadcastInDim S1x512 ![1] bcast_S512_S1x512_1 : (⟨S512, .f32⟩ : BufTy).Contents (Elt F) → (⟨S1x512, .f32⟩ : BufTy).Contents (Elt F)),
    unary main_v32 main_v33 (broadcastInDim S20000x512 ![0, 1] bcast_S1x512_S20000x512_0_1 : (⟨S1x512, .f32⟩ : BufTy).Contents (Elt F) → (⟨S20000x512, .f32⟩ : BufTy).Contents (Elt F)),
    binary main_v29 main_v33 main_v34 (subf : (⟨S20000x512, .f32⟩ : BufTy).Contents (Elt F) → (⟨S20000x512, .f32⟩ : BufTy).Contents (Elt F) → (⟨S20000x512, .f32⟩ : BufTy).Contents (Elt F)),
    unary main_arg8 main_v35 ((extractStridedSlice S1x512 ![0, 0] · slices_S3x512_S1x512_0_0) : (⟨S3x512, .f32⟩ : BufTy).Contents (Elt F) → (⟨S1x512, .f32⟩ : BufTy).Contents (Elt F)),
    reshape main_v35 main_v36 rfl shapeCasts_S1x512_S512,
    unary main_arg11 main_v37 ((extractStridedSlice S1x512 ![0, 0] · slices_S3x512_S1x512_0_0) : (⟨S3x512, .f32⟩ : BufTy).Contents (Elt F) → (⟨S1x512, .f32⟩ : BufTy).Contents (Elt F)),
    reshape main_v37 main_v38 rfl shapeCasts_S1x512_S512,
    nullary main_cst_2 (constant S_ .f32 0x3727C5AC#32),
    unary main_cst_2 main_v39 (broadcastInDim S512 ![] bcast_S_S512 : (⟨S_, .f32⟩ : BufTy).Contents (Elt F) → (⟨S512, .f32⟩ : BufTy).Contents (Elt F)),
    binary main_v38 main_v39 main_v40 (addf : (⟨S512, .f32⟩ : BufTy).Contents (Elt F) → (⟨S512, .f32⟩ : BufTy).Contents (Elt F) → (⟨S512, .f32⟩ : BufTy).Contents (Elt F)),
    unary main_v40 main_v41 (Host.sqrt : (⟨S512, .f32⟩ : BufTy).Contents (Elt F) → (⟨S512, .f32⟩ : BufTy).Contents (Elt F)),
    binary main_v36 main_v41 main_v42 (Host.divf : (⟨S512, .f32⟩ : BufTy).Contents (Elt F) → (⟨S512, .f32⟩ : BufTy).Contents (Elt F) → (⟨S512, .f32⟩ : BufTy).Contents (Elt F)),
    unary main_v42 main_v43 (broadcastInDim S1x512 ![1] bcast_S512_S1x512_1 : (⟨S512, .f32⟩ : BufTy).Contents (Elt F) → (⟨S1x512, .f32⟩ : BufTy).Contents (Elt F)),
    unary main_v43 main_v44 (broadcastInDim S20000x512 ![0, 1] bcast_S1x512_S20000x512_0_1 : (⟨S1x512, .f32⟩ : BufTy).Contents (Elt F) → (⟨S20000x512, .f32⟩ : BufTy).Contents (Elt F)),
    binary main_v34 main_v44 main_v45 (mulf : (⟨S20000x512, .f32⟩ : BufTy).Contents (Elt F) → (⟨S20000x512, .f32⟩ : BufTy).Contents (Elt F) → (⟨S20000x512, .f32⟩ : BufTy).Contents (Elt F)),
    unary main_arg9 main_v46 ((extractStridedSlice S1x512 ![0, 0] · slices_S3x512_S1x512_0_0) : (⟨S3x512, .f32⟩ : BufTy).Contents (Elt F) → (⟨S1x512, .f32⟩ : BufTy).Contents (Elt F)),
    reshape main_v46 main_v47 rfl shapeCasts_S1x512_S512,
    unary main_v47 main_v48 (broadcastInDim S1x512 ![1] bcast_S512_S1x512_1 : (⟨S512, .f32⟩ : BufTy).Contents (Elt F) → (⟨S1x512, .f32⟩ : BufTy).Contents (Elt F)),
    unary main_v48 main_v49 (broadcastInDim S20000x512 ![0, 1] bcast_S1x512_S20000x512_0_1 : (⟨S1x512, .f32⟩ : BufTy).Contents (Elt F) → (⟨S20000x512, .f32⟩ : BufTy).Contents (Elt F)),
    binary main_v45 main_v49 main_v50 (addf : (⟨S20000x512, .f32⟩ : BufTy).Contents (Elt F) → (⟨S20000x512, .f32⟩ : BufTy).Contents (Elt F) → (⟨S20000x512, .f32⟩ : BufTy).Contents (Elt F)),
    unary main_arg12 main_v51 ((extractStridedSlice S1x512x512 ![0, 0, 0] · slices_S3x512x512_S1x512x512_0_0_0) : (⟨S3x512x512, .f32⟩ : BufTy).Contents (Elt F) → (⟨S1x512x512, .f32⟩ : BufTy).Contents (Elt F)),
    reshape main_v51 main_v52 rfl shapeCasts_S1x512x512_S512x512,
    binary main_v50 main_v52 main_v53 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg13 main_v54 ((extractStridedSlice S1x512 ![0, 0] · slices_S3x512_S1x512_0_0) : (⟨S3x512, .f32⟩ : BufTy).Contents (Elt F) → (⟨S1x512, .f32⟩ : BufTy).Contents (Elt F)),
    reshape main_v54 main_v55 rfl shapeCasts_S1x512_S512,
    unary main_v55 main_v56 (broadcastInDim S1x512 ![1] bcast_S512_S1x512_1 : (⟨S512, .f32⟩ : BufTy).Contents (Elt F) → (⟨S1x512, .f32⟩ : BufTy).Contents (Elt F)),
    unary main_v56 main_v57 (broadcastInDim S20000x512 ![0, 1] bcast_S1x512_S20000x512_0_1 : (⟨S1x512, .f32⟩ : BufTy).Contents (Elt F) → (⟨S20000x512, .f32⟩ : BufTy).Contents (Elt F)),
    binary main_v53 main_v57 main_v58 (addf : (⟨S20000x512, .f32⟩ : BufTy).Contents (Elt F) → (⟨S20000x512, .f32⟩ : BufTy).Contents (Elt F) → (⟨S20000x512, .f32⟩ : BufTy).Contents (Elt F)),
    unary main_arg14 main_v59 ((extractStridedSlice S1 ![0] · slices_S3_S1_0) : (⟨S3, .f32⟩ : BufTy).Contents (Elt F) → (⟨S1, .f32⟩ : BufTy).Contents (Elt F)),
    reshape main_v59 main_v60 rfl shapeCasts_S1_S_,
    nullary main_cst_3 (constant S_ .f32 0x00000000#32),
    unary main_cst_3 main_v61 (broadcastInDim S20000x512 ![] bcast_S_S20000x512 : (⟨S_, .f32⟩ : BufTy).Contents (Elt F) → (⟨S20000x512, .f32⟩ : BufTy).Contents (Elt F)),
    binary main_v58 main_v61 main_v62 (cmpf .oge : (⟨S20000x512, .f32⟩ : BufTy).Contents (Elt F) → (⟨S20000x512, .f32⟩ : BufTy).Contents (Elt F) → (⟨S20000x512, .i1⟩ : BufTy).Contents (Elt F)),
    unary main_v60 main_v63 (broadcastInDim S20000x512 ![] bcast_S_S20000x512 : (⟨S_, .f32⟩ : BufTy).Contents (Elt F) → (⟨S20000x512, .f32⟩ : BufTy).Contents (Elt F)),
    binary main_v63 main_v58 main_v64 (mulf : (⟨S20000x512, .f32⟩ : BufTy).Contents (Elt F) → (⟨S20000x512, .f32⟩ : BufTy).Contents (Elt F) → (⟨S20000x512, .f32⟩ : BufTy).Contents (Elt F)),
    TRef.ternary (TRef.of (T := ⟨S20000x512, .i1⟩) main_v62) (TRef.of (T := ⟨S20000x512, .f32⟩) main_v58) (TRef.of (T := ⟨S20000x512, .f32⟩) main_v64) (TRef.of (T := ⟨S20000x512, .f32⟩) main_v65) select,
    TRef.nullary (TRef.of (T := ⟨S_, .f32⟩) main_call2_cst) (constant S_ .f32 0x00000000#32),
    TRef.unary (TRef.of (T := ⟨S_, .f32⟩) main_call2_cst) (TRef.of (T := ⟨S20000x512, .f32⟩) main_call2_v0) (broadcastInDim S20000x512 ![] bcast_S_S20000x512),
    TRef.binary (TRef.of (T := ⟨S20000x512, .f32⟩) main_v65) (TRef.of (T := ⟨S20000x512, .f32⟩) main_call2_v0) (TRef.of (T := ⟨S20000x512, .f32⟩) main_v66) maximumf ]

/-- The second gather and sum over the edges, of the first layer's output, and its sum with that output: up to %77. -/
abbrev rA1 : List (HloOp τ sig (Elt F)) :=
  [ nullary main_c_4 (constantI S_ 32 0#32),
    unary main_c_4 main_v67 (broadcastInDim S320000 ![] bcast_S_S320000 : (⟨S_, .i32⟩ : BufTy).Contents (Elt F) → (⟨S320000, .i32⟩ : BufTy).Contents (Elt F)),
    binary main_v1 main_v67 main_v68 (cmpi .slt : (⟨S320000, .i32⟩ : BufTy).Contents (Elt F) → (⟨S320000, .i32⟩ : BufTy).Contents (Elt F) → (⟨S320000, .i1⟩ : BufTy).Contents (Elt F)),
    nullary main_c_5 (constantI S_ 32 20000#32),
    unary main_c_5 main_v69 (broadcastInDim S320000 ![] bcast_S_S320000 : (⟨S_, .i32⟩ : BufTy).Contents (Elt F) → (⟨S320000, .i32⟩ : BufTy).Contents (Elt F)),
    binary main_v1 main_v69 main_v70 (addi : (⟨S320000, .i32⟩ : BufTy).Contents (Elt F) → (⟨S320000, .i32⟩ : BufTy).Contents (Elt F) → (⟨S320000, .i32⟩ : BufTy).Contents (Elt F)),
    ternary main_v68 main_v70 main_v1 main_v71 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v71 main_v72 (broadcastInDim S320000x1 ![0] bcast_S320000_S320000x1_0 : (⟨S320000, .i32⟩ : BufTy).Contents (Elt F) → (⟨S320000x1, .i32⟩ : BufTy).Contents (Elt F)),
    binary main_v66 main_v72 main_v73 ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)),
    nullary main_cst_6 (constant S_ .f32 0x00000000#32),
    unary main_cst_6 main_v74 (broadcastInDim S20000x512 ![] bcast_S_S20000x512 : (⟨S_, .f32⟩ : BufTy).Contents (Elt F) → (⟨S20000x512, .f32⟩ : BufTy).Contents (Elt F)),
    unary main_v3 main_v75 (broadcastInDim S320000x1 ![0] bcast_S320000_S320000x1_0 : (⟨S320000, .i32⟩ : BufTy).Contents (Elt F) → (⟨S320000x1, .i32⟩ : BufTy).Contents (Elt F)),
    ternary main_v74 main_v75 main_v73 main_v76 ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)),
    binary main_v66 main_v76 main_v77 (addf : (⟨S20000x512, .f32⟩ : BufTy).Contents (Elt F) → (⟨S20000x512, .f32⟩ : BufTy).Contents (Elt F) → (⟨S20000x512, .f32⟩ : BufTy).Contents (Elt F)) ]

/-- The second layer, %78 … %129. -/
abbrev rM1 : List (HloOp τ sig (Elt F)) :=
  [ unary main_arg5 main_v78 ((extractStridedSlice S1x512x512 ![1, 0, 0] · slices_S3x512x512_S1x512x512_1_0_0) : (⟨S3x512x512, .f32⟩ : BufTy).Contents (Elt F) → (⟨S1x512x512, .f32⟩ : BufTy).Contents (Elt F)),
    reshape main_v78 main_v79 rfl shapeCasts_S1x512x512_S512x512,
    binary main_v77 main_v79 main_v80 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg6 main_v81 ((extractStridedSlice S1x512 ![1, 0] · slices_S3x512_S1x512_1_0) : (⟨S3x512, .f32⟩ : BufTy).Contents (Elt F) → (⟨S1x512, .f32⟩ : BufTy).Contents (Elt F)),
    reshape main_v81 main_v82 rfl shapeCasts_S1x512_S512,
    unary main_v82 main_v83 (broadcastInDim S1x512 ![1] bcast_S512_S1x512_1 : (⟨S512, .f32⟩ : BufTy).Contents (Elt F) → (⟨S1x512, .f32⟩ : BufTy).Contents (Elt F)),
    unary main_v83 main_v84 (broadcastInDim S20000x512 ![0, 1] bcast_S1x512_S20000x512_0_1 : (⟨S1x512, .f32⟩ : BufTy).Contents (Elt F) → (⟨S20000x512, .f32⟩ : BufTy).Contents (Elt F)),
    binary main_v80 main_v84 main_v85 (addf : (⟨S20000x512, .f32⟩ : BufTy).Contents (Elt F) → (⟨S20000x512, .f32⟩ : BufTy).Contents (Elt F) → (⟨S20000x512, .f32⟩ : BufTy).Contents (Elt F)),
    unary main_arg7 main_v86 ((extractStridedSlice S1 ![1] · slices_S3_S1_1) : (⟨S3, .f32⟩ : BufTy).Contents (Elt F) → (⟨S1, .f32⟩ : BufTy).Contents (Elt F)),
    reshape main_v86 main_v87 rfl shapeCasts_S1_S_,
    nullary main_cst_7 (constant S_ .f32 0x00000000#32),
    unary main_cst_7 main_v88 (broadcastInDim S20000x512 ![] bcast_S_S20000x512 : (⟨S_, .f32⟩ : BufTy).Contents (Elt F) → (⟨S20000x512, .f32⟩ : BufTy).Contents (Elt F)),
    binary main_v85 main_v88 main_v89 (cmpf .oge : (⟨S20000x512, .f32⟩ : BufTy).Contents (Elt F) → (⟨S20000x512, .f32⟩ : BufTy).Contents (Elt F) → (⟨S20000x512, .i1⟩ : BufTy).Contents (Elt F)),
    unary main_v87 main_v90 (broadcastInDim S20000x512 ![] bcast_S_S20000x512 : (⟨S_, .f32⟩ : BufTy).Contents (Elt F) → (⟨S20000x512, .f32⟩ : BufTy).Contents (Elt F)),
    binary main_v90 main_v85 main_v91 (mulf : (⟨S20000x512, .f32⟩ : BufTy).Contents (Elt F) → (⟨S20000x512, .f32⟩ : BufTy).Contents (Elt F) → (⟨S20000x512, .f32⟩ : BufTy).Contents (Elt F)),
    TRef.ternary (TRef.of (T := ⟨S20000x512, .i1⟩) main_v89) (TRef.of (T := ⟨S20000x512, .f32⟩) main_v85) (TRef.of (T := ⟨S20000x512, .f32⟩) main_v91) (TRef.of (T := ⟨S20000x512, .f32⟩) main_v92) select,
    unary main_arg10 main_v93 ((extractStridedSlice S1x512 ![1, 0] · slices_S3x512_S1x512_1_0) : (⟨S3x512, .f32⟩ : BufTy).Contents (Elt F) → (⟨S1x512, .f32⟩ : BufTy).Contents (Elt F)),
    reshape main_v93 main_v94 rfl shapeCasts_S1x512_S512,
    unary main_v94 main_v95 (broadcastInDim S1x512 ![1] bcast_S512_S1x512_1 : (⟨S512, .f32⟩ : BufTy).Contents (Elt F) → (⟨S1x512, .f32⟩ : BufTy).Contents (Elt F)),
    unary main_v95 main_v96 (broadcastInDim S20000x512 ![0, 1] bcast_S1x512_S20000x512_0_1 : (⟨S1x512, .f32⟩ : BufTy).Contents (Elt F) → (⟨S20000x512, .f32⟩ : BufTy).Contents (Elt F)),
    binary main_v92 main_v96 main_v97 (subf : (⟨S20000x512, .f32⟩ : BufTy).Contents (Elt F) → (⟨S20000x512, .f32⟩ : BufTy).Contents (Elt F) → (⟨S20000x512, .f32⟩ : BufTy).Contents (Elt F)),
    unary main_arg8 main_v98 ((extractStridedSlice S1x512 ![1, 0] · slices_S3x512_S1x512_1_0) : (⟨S3x512, .f32⟩ : BufTy).Contents (Elt F) → (⟨S1x512, .f32⟩ : BufTy).Contents (Elt F)),
    reshape main_v98 main_v99 rfl shapeCasts_S1x512_S512,
    unary main_arg11 main_v100 ((extractStridedSlice S1x512 ![1, 0] · slices_S3x512_S1x512_1_0) : (⟨S3x512, .f32⟩ : BufTy).Contents (Elt F) → (⟨S1x512, .f32⟩ : BufTy).Contents (Elt F)),
    reshape main_v100 main_v101 rfl shapeCasts_S1x512_S512,
    nullary main_cst_8 (constant S_ .f32 0x3727C5AC#32),
    unary main_cst_8 main_v102 (broadcastInDim S512 ![] bcast_S_S512 : (⟨S_, .f32⟩ : BufTy).Contents (Elt F) → (⟨S512, .f32⟩ : BufTy).Contents (Elt F)),
    binary main_v101 main_v102 main_v103 (addf : (⟨S512, .f32⟩ : BufTy).Contents (Elt F) → (⟨S512, .f32⟩ : BufTy).Contents (Elt F) → (⟨S512, .f32⟩ : BufTy).Contents (Elt F)),
    unary main_v103 main_v104 (Host.sqrt : (⟨S512, .f32⟩ : BufTy).Contents (Elt F) → (⟨S512, .f32⟩ : BufTy).Contents (Elt F)),
    binary main_v99 main_v104 main_v105 (Host.divf : (⟨S512, .f32⟩ : BufTy).Contents (Elt F) → (⟨S512, .f32⟩ : BufTy).Contents (Elt F) → (⟨S512, .f32⟩ : BufTy).Contents (Elt F)),
    unary main_v105 main_v106 (broadcastInDim S1x512 ![1] bcast_S512_S1x512_1 : (⟨S512, .f32⟩ : BufTy).Contents (Elt F) → (⟨S1x512, .f32⟩ : BufTy).Contents (Elt F)),
    unary main_v106 main_v107 (broadcastInDim S20000x512 ![0, 1] bcast_S1x512_S20000x512_0_1 : (⟨S1x512, .f32⟩ : BufTy).Contents (Elt F) → (⟨S20000x512, .f32⟩ : BufTy).Contents (Elt F)),
    binary main_v97 main_v107 main_v108 (mulf : (⟨S20000x512, .f32⟩ : BufTy).Contents (Elt F) → (⟨S20000x512, .f32⟩ : BufTy).Contents (Elt F) → (⟨S20000x512, .f32⟩ : BufTy).Contents (Elt F)),
    unary main_arg9 main_v109 ((extractStridedSlice S1x512 ![1, 0] · slices_S3x512_S1x512_1_0) : (⟨S3x512, .f32⟩ : BufTy).Contents (Elt F) → (⟨S1x512, .f32⟩ : BufTy).Contents (Elt F)),
    reshape main_v109 main_v110 rfl shapeCasts_S1x512_S512,
    unary main_v110 main_v111 (broadcastInDim S1x512 ![1] bcast_S512_S1x512_1 : (⟨S512, .f32⟩ : BufTy).Contents (Elt F) → (⟨S1x512, .f32⟩ : BufTy).Contents (Elt F)),
    unary main_v111 main_v112 (broadcastInDim S20000x512 ![0, 1] bcast_S1x512_S20000x512_0_1 : (⟨S1x512, .f32⟩ : BufTy).Contents (Elt F) → (⟨S20000x512, .f32⟩ : BufTy).Contents (Elt F)),
    binary main_v108 main_v112 main_v113 (addf : (⟨S20000x512, .f32⟩ : BufTy).Contents (Elt F) → (⟨S20000x512, .f32⟩ : BufTy).Contents (Elt F) → (⟨S20000x512, .f32⟩ : BufTy).Contents (Elt F)),
    unary main_arg12 main_v114 ((extractStridedSlice S1x512x512 ![1, 0, 0] · slices_S3x512x512_S1x512x512_1_0_0) : (⟨S3x512x512, .f32⟩ : BufTy).Contents (Elt F) → (⟨S1x512x512, .f32⟩ : BufTy).Contents (Elt F)),
    reshape main_v114 main_v115 rfl shapeCasts_S1x512x512_S512x512,
    binary main_v113 main_v115 main_v116 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg13 main_v117 ((extractStridedSlice S1x512 ![1, 0] · slices_S3x512_S1x512_1_0) : (⟨S3x512, .f32⟩ : BufTy).Contents (Elt F) → (⟨S1x512, .f32⟩ : BufTy).Contents (Elt F)),
    reshape main_v117 main_v118 rfl shapeCasts_S1x512_S512,
    unary main_v118 main_v119 (broadcastInDim S1x512 ![1] bcast_S512_S1x512_1 : (⟨S512, .f32⟩ : BufTy).Contents (Elt F) → (⟨S1x512, .f32⟩ : BufTy).Contents (Elt F)),
    unary main_v119 main_v120 (broadcastInDim S20000x512 ![0, 1] bcast_S1x512_S20000x512_0_1 : (⟨S1x512, .f32⟩ : BufTy).Contents (Elt F) → (⟨S20000x512, .f32⟩ : BufTy).Contents (Elt F)),
    binary main_v116 main_v120 main_v121 (addf : (⟨S20000x512, .f32⟩ : BufTy).Contents (Elt F) → (⟨S20000x512, .f32⟩ : BufTy).Contents (Elt F) → (⟨S20000x512, .f32⟩ : BufTy).Contents (Elt F)),
    unary main_arg14 main_v122 ((extractStridedSlice S1 ![1] · slices_S3_S1_1) : (⟨S3, .f32⟩ : BufTy).Contents (Elt F) → (⟨S1, .f32⟩ : BufTy).Contents (Elt F)),
    reshape main_v122 main_v123 rfl shapeCasts_S1_S_,
    nullary main_cst_9 (constant S_ .f32 0x00000000#32),
    unary main_cst_9 main_v124 (broadcastInDim S20000x512 ![] bcast_S_S20000x512 : (⟨S_, .f32⟩ : BufTy).Contents (Elt F) → (⟨S20000x512, .f32⟩ : BufTy).Contents (Elt F)),
    binary main_v121 main_v124 main_v125 (cmpf .oge : (⟨S20000x512, .f32⟩ : BufTy).Contents (Elt F) → (⟨S20000x512, .f32⟩ : BufTy).Contents (Elt F) → (⟨S20000x512, .i1⟩ : BufTy).Contents (Elt F)),
    unary main_v123 main_v126 (broadcastInDim S20000x512 ![] bcast_S_S20000x512 : (⟨S_, .f32⟩ : BufTy).Contents (Elt F) → (⟨S20000x512, .f32⟩ : BufTy).Contents (Elt F)),
    binary main_v126 main_v121 main_v127 (mulf : (⟨S20000x512, .f32⟩ : BufTy).Contents (Elt F) → (⟨S20000x512, .f32⟩ : BufTy).Contents (Elt F) → (⟨S20000x512, .f32⟩ : BufTy).Contents (Elt F)),
    TRef.ternary (TRef.of (T := ⟨S20000x512, .i1⟩) main_v125) (TRef.of (T := ⟨S20000x512, .f32⟩) main_v121) (TRef.of (T := ⟨S20000x512, .f32⟩) main_v127) (TRef.of (T := ⟨S20000x512, .f32⟩) main_v128) select,
    TRef.nullary (TRef.of (T := ⟨S_, .f32⟩) main_call5_cst) (constant S_ .f32 0x00000000#32),
    TRef.unary (TRef.of (T := ⟨S_, .f32⟩) main_call5_cst) (TRef.of (T := ⟨S20000x512, .f32⟩) main_call5_v0) (broadcastInDim S20000x512 ![] bcast_S_S20000x512),
    TRef.binary (TRef.of (T := ⟨S20000x512, .f32⟩) main_v128) (TRef.of (T := ⟨S20000x512, .f32⟩) main_call5_v0) (TRef.of (T := ⟨S20000x512, .f32⟩) main_v129) maximumf ]

/-- The third gather and sum over the edges, of the second layer's output, and its sum with that output: up to %140. -/
abbrev rA2 : List (HloOp τ sig (Elt F)) :=
  [ nullary main_c_10 (constantI S_ 32 0#32),
    unary main_c_10 main_v130 (broadcastInDim S320000 ![] bcast_S_S320000 : (⟨S_, .i32⟩ : BufTy).Contents (Elt F) → (⟨S320000, .i32⟩ : BufTy).Contents (Elt F)),
    binary main_v1 main_v130 main_v131 (cmpi .slt : (⟨S320000, .i32⟩ : BufTy).Contents (Elt F) → (⟨S320000, .i32⟩ : BufTy).Contents (Elt F) → (⟨S320000, .i1⟩ : BufTy).Contents (Elt F)),
    nullary main_c_11 (constantI S_ 32 20000#32),
    unary main_c_11 main_v132 (broadcastInDim S320000 ![] bcast_S_S320000 : (⟨S_, .i32⟩ : BufTy).Contents (Elt F) → (⟨S320000, .i32⟩ : BufTy).Contents (Elt F)),
    binary main_v1 main_v132 main_v133 (addi : (⟨S320000, .i32⟩ : BufTy).Contents (Elt F) → (⟨S320000, .i32⟩ : BufTy).Contents (Elt F) → (⟨S320000, .i32⟩ : BufTy).Contents (Elt F)),
    ternary main_v131 main_v133 main_v1 main_v134 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v134 main_v135 (broadcastInDim S320000x1 ![0] bcast_S320000_S320000x1_0 : (⟨S320000, .i32⟩ : BufTy).Contents (Elt F) → (⟨S320000x1, .i32⟩ : BufTy).Contents (Elt F)),
    binary main_v129 main_v135 main_v136 ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)),
    nullary main_cst_12 (constant S_ .f32 0x00000000#32),
    unary main_cst_12 main_v137 (broadcastInDim S20000x512 ![] bcast_S_S20000x512 : (⟨S_, .f32⟩ : BufTy).Contents (Elt F) → (⟨S20000x512, .f32⟩ : BufTy).Contents (Elt F)),
    unary main_v3 main_v138 (broadcastInDim S320000x1 ![0] bcast_S320000_S320000x1_0 : (⟨S320000, .i32⟩ : BufTy).Contents (Elt F) → (⟨S320000x1, .i32⟩ : BufTy).Contents (Elt F)),
    ternary main_v137 main_v138 main_v136 main_v139 ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)),
    binary main_v129 main_v139 main_v140 (addf : (⟨S20000x512, .f32⟩ : BufTy).Contents (Elt F) → (⟨S20000x512, .f32⟩ : BufTy).Contents (Elt F) → (⟨S20000x512, .f32⟩ : BufTy).Contents (Elt F)) ]

/-- The third layer, %141 … %192. -/
abbrev rM2 : List (HloOp τ sig (Elt F)) :=
  [ unary main_arg5 main_v141 ((extractStridedSlice S1x512x512 ![2, 0, 0] · slices_S3x512x512_S1x512x512_2_0_0) : (⟨S3x512x512, .f32⟩ : BufTy).Contents (Elt F) → (⟨S1x512x512, .f32⟩ : BufTy).Contents (Elt F)),
    reshape main_v141 main_v142 rfl shapeCasts_S1x512x512_S512x512,
    binary main_v140 main_v142 main_v143 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg6 main_v144 ((extractStridedSlice S1x512 ![2, 0] · slices_S3x512_S1x512_2_0) : (⟨S3x512, .f32⟩ : BufTy).Contents (Elt F) → (⟨S1x512, .f32⟩ : BufTy).Contents (Elt F)),
    reshape main_v144 main_v145 rfl shapeCasts_S1x512_S512,
    unary main_v145 main_v146 (broadcastInDim S1x512 ![1] bcast_S512_S1x512_1 : (⟨S512, .f32⟩ : BufTy).Contents (Elt F) → (⟨S1x512, .f32⟩ : BufTy).Contents (Elt F)),
    unary main_v146 main_v147 (broadcastInDim S20000x512 ![0, 1] bcast_S1x512_S20000x512_0_1 : (⟨S1x512, .f32⟩ : BufTy).Contents (Elt F) → (⟨S20000x512, .f32⟩ : BufTy).Contents (Elt F)),
    binary main_v143 main_v147 main_v148 (addf : (⟨S20000x512, .f32⟩ : BufTy).Contents (Elt F) → (⟨S20000x512, .f32⟩ : BufTy).Contents (Elt F) → (⟨S20000x512, .f32⟩ : BufTy).Contents (Elt F)),
    unary main_arg7 main_v149 ((extractStridedSlice S1 ![2] · slices_S3_S1_2) : (⟨S3, .f32⟩ : BufTy).Contents (Elt F) → (⟨S1, .f32⟩ : BufTy).Contents (Elt F)),
    reshape main_v149 main_v150 rfl shapeCasts_S1_S_,
    nullary main_cst_13 (constant S_ .f32 0x00000000#32),
    unary main_cst_13 main_v151 (broadcastInDim S20000x512 ![] bcast_S_S20000x512 : (⟨S_, .f32⟩ : BufTy).Contents (Elt F) → (⟨S20000x512, .f32⟩ : BufTy).Contents (Elt F)),
    binary main_v148 main_v151 main_v152 (cmpf .oge : (⟨S20000x512, .f32⟩ : BufTy).Contents (Elt F) → (⟨S20000x512, .f32⟩ : BufTy).Contents (Elt F) → (⟨S20000x512, .i1⟩ : BufTy).Contents (Elt F)),
    unary main_v150 main_v153 (broadcastInDim S20000x512 ![] bcast_S_S20000x512 : (⟨S_, .f32⟩ : BufTy).Contents (Elt F) → (⟨S20000x512, .f32⟩ : BufTy).Contents (Elt F)),
    binary main_v153 main_v148 main_v154 (mulf : (⟨S20000x512, .f32⟩ : BufTy).Contents (Elt F) → (⟨S20000x512, .f32⟩ : BufTy).Contents (Elt F) → (⟨S20000x512, .f32⟩ : BufTy).Contents (Elt F)),
    TRef.ternary (TRef.of (T := ⟨S20000x512, .i1⟩) main_v152) (TRef.of (T := ⟨S20000x512, .f32⟩) main_v148) (TRef.of (T := ⟨S20000x512, .f32⟩) main_v154) (TRef.of (T := ⟨S20000x512, .f32⟩) main_v155) select,
    unary main_arg10 main_v156 ((extractStridedSlice S1x512 ![2, 0] · slices_S3x512_S1x512_2_0) : (⟨S3x512, .f32⟩ : BufTy).Contents (Elt F) → (⟨S1x512, .f32⟩ : BufTy).Contents (Elt F)),
    reshape main_v156 main_v157 rfl shapeCasts_S1x512_S512,
    unary main_v157 main_v158 (broadcastInDim S1x512 ![1] bcast_S512_S1x512_1 : (⟨S512, .f32⟩ : BufTy).Contents (Elt F) → (⟨S1x512, .f32⟩ : BufTy).Contents (Elt F)),
    unary main_v158 main_v159 (broadcastInDim S20000x512 ![0, 1] bcast_S1x512_S20000x512_0_1 : (⟨S1x512, .f32⟩ : BufTy).Contents (Elt F) → (⟨S20000x512, .f32⟩ : BufTy).Contents (Elt F)),
    binary main_v155 main_v159 main_v160 (subf : (⟨S20000x512, .f32⟩ : BufTy).Contents (Elt F) → (⟨S20000x512, .f32⟩ : BufTy).Contents (Elt F) → (⟨S20000x512, .f32⟩ : BufTy).Contents (Elt F)),
    unary main_arg8 main_v161 ((extractStridedSlice S1x512 ![2, 0] · slices_S3x512_S1x512_2_0) : (⟨S3x512, .f32⟩ : BufTy).Contents (Elt F) → (⟨S1x512, .f32⟩ : BufTy).Contents (Elt F)),
    reshape main_v161 main_v162 rfl shapeCasts_S1x512_S512,
    unary main_arg11 main_v163 ((extractStridedSlice S1x512 ![2, 0] · slices_S3x512_S1x512_2_0) : (⟨S3x512, .f32⟩ : BufTy).Contents (Elt F) → (⟨S1x512, .f32⟩ : BufTy).Contents (Elt F)),
    reshape main_v163 main_v164 rfl shapeCasts_S1x512_S512,
    nullary main_cst_14 (constant S_ .f32 0x3727C5AC#32),
    unary main_cst_14 main_v165 (broadcastInDim S512 ![] bcast_S_S512 : (⟨S_, .f32⟩ : BufTy).Contents (Elt F) → (⟨S512, .f32⟩ : BufTy).Contents (Elt F)),
    binary main_v164 main_v165 main_v166 (addf : (⟨S512, .f32⟩ : BufTy).Contents (Elt F) → (⟨S512, .f32⟩ : BufTy).Contents (Elt F) → (⟨S512, .f32⟩ : BufTy).Contents (Elt F)),
    unary main_v166 main_v167 (Host.sqrt : (⟨S512, .f32⟩ : BufTy).Contents (Elt F) → (⟨S512, .f32⟩ : BufTy).Contents (Elt F)),
    binary main_v162 main_v167 main_v168 (Host.divf : (⟨S512, .f32⟩ : BufTy).Contents (Elt F) → (⟨S512, .f32⟩ : BufTy).Contents (Elt F) → (⟨S512, .f32⟩ : BufTy).Contents (Elt F)),
    unary main_v168 main_v169 (broadcastInDim S1x512 ![1] bcast_S512_S1x512_1 : (⟨S512, .f32⟩ : BufTy).Contents (Elt F) → (⟨S1x512, .f32⟩ : BufTy).Contents (Elt F)),
    unary main_v169 main_v170 (broadcastInDim S20000x512 ![0, 1] bcast_S1x512_S20000x512_0_1 : (⟨S1x512, .f32⟩ : BufTy).Contents (Elt F) → (⟨S20000x512, .f32⟩ : BufTy).Contents (Elt F)),
    binary main_v160 main_v170 main_v171 (mulf : (⟨S20000x512, .f32⟩ : BufTy).Contents (Elt F) → (⟨S20000x512, .f32⟩ : BufTy).Contents (Elt F) → (⟨S20000x512, .f32⟩ : BufTy).Contents (Elt F)),
    unary main_arg9 main_v172 ((extractStridedSlice S1x512 ![2, 0] · slices_S3x512_S1x512_2_0) : (⟨S3x512, .f32⟩ : BufTy).Contents (Elt F) → (⟨S1x512, .f32⟩ : BufTy).Contents (Elt F)),
    reshape main_v172 main_v173 rfl shapeCasts_S1x512_S512,
    unary main_v173 main_v174 (broadcastInDim S1x512 ![1] bcast_S512_S1x512_1 : (⟨S512, .f32⟩ : BufTy).Contents (Elt F) → (⟨S1x512, .f32⟩ : BufTy).Contents (Elt F)),
    unary main_v174 main_v175 (broadcastInDim S20000x512 ![0, 1] bcast_S1x512_S20000x512_0_1 : (⟨S1x512, .f32⟩ : BufTy).Contents (Elt F) → (⟨S20000x512, .f32⟩ : BufTy).Contents (Elt F)),
    binary main_v171 main_v175 main_v176 (addf : (⟨S20000x512, .f32⟩ : BufTy).Contents (Elt F) → (⟨S20000x512, .f32⟩ : BufTy).Contents (Elt F) → (⟨S20000x512, .f32⟩ : BufTy).Contents (Elt F)),
    unary main_arg12 main_v177 ((extractStridedSlice S1x512x512 ![2, 0, 0] · slices_S3x512x512_S1x512x512_2_0_0) : (⟨S3x512x512, .f32⟩ : BufTy).Contents (Elt F) → (⟨S1x512x512, .f32⟩ : BufTy).Contents (Elt F)),
    reshape main_v177 main_v178 rfl shapeCasts_S1x512x512_S512x512,
    binary main_v176 main_v178 main_v179 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg13 main_v180 ((extractStridedSlice S1x512 ![2, 0] · slices_S3x512_S1x512_2_0) : (⟨S3x512, .f32⟩ : BufTy).Contents (Elt F) → (⟨S1x512, .f32⟩ : BufTy).Contents (Elt F)),
    reshape main_v180 main_v181 rfl shapeCasts_S1x512_S512,
    unary main_v181 main_v182 (broadcastInDim S1x512 ![1] bcast_S512_S1x512_1 : (⟨S512, .f32⟩ : BufTy).Contents (Elt F) → (⟨S1x512, .f32⟩ : BufTy).Contents (Elt F)),
    unary main_v182 main_v183 (broadcastInDim S20000x512 ![0, 1] bcast_S1x512_S20000x512_0_1 : (⟨S1x512, .f32⟩ : BufTy).Contents (Elt F) → (⟨S20000x512, .f32⟩ : BufTy).Contents (Elt F)),
    binary main_v179 main_v183 main_v184 (addf : (⟨S20000x512, .f32⟩ : BufTy).Contents (Elt F) → (⟨S20000x512, .f32⟩ : BufTy).Contents (Elt F) → (⟨S20000x512, .f32⟩ : BufTy).Contents (Elt F)),
    unary main_arg14 main_v185 ((extractStridedSlice S1 ![2] · slices_S3_S1_2) : (⟨S3, .f32⟩ : BufTy).Contents (Elt F) → (⟨S1, .f32⟩ : BufTy).Contents (Elt F)),
    reshape main_v185 main_v186 rfl shapeCasts_S1_S_,
    nullary main_cst_15 (constant S_ .f32 0x00000000#32),
    unary main_cst_15 main_v187 (broadcastInDim S20000x512 ![] bcast_S_S20000x512 : (⟨S_, .f32⟩ : BufTy).Contents (Elt F) → (⟨S20000x512, .f32⟩ : BufTy).Contents (Elt F)),
    binary main_v184 main_v187 main_v188 (cmpf .oge : (⟨S20000x512, .f32⟩ : BufTy).Contents (Elt F) → (⟨S20000x512, .f32⟩ : BufTy).Contents (Elt F) → (⟨S20000x512, .i1⟩ : BufTy).Contents (Elt F)),
    unary main_v186 main_v189 (broadcastInDim S20000x512 ![] bcast_S_S20000x512 : (⟨S_, .f32⟩ : BufTy).Contents (Elt F) → (⟨S20000x512, .f32⟩ : BufTy).Contents (Elt F)),
    binary main_v189 main_v184 main_v190 (mulf : (⟨S20000x512, .f32⟩ : BufTy).Contents (Elt F) → (⟨S20000x512, .f32⟩ : BufTy).Contents (Elt F) → (⟨S20000x512, .f32⟩ : BufTy).Contents (Elt F)),
    TRef.ternary (TRef.of (T := ⟨S20000x512, .i1⟩) main_v188) (TRef.of (T := ⟨S20000x512, .f32⟩) main_v184) (TRef.of (T := ⟨S20000x512, .f32⟩) main_v190) (TRef.of (T := ⟨S20000x512, .f32⟩) main_v191) select,
    TRef.nullary (TRef.of (T := ⟨S_, .f32⟩) main_call8_cst) (constant S_ .f32 0x00000000#32),
    TRef.unary (TRef.of (T := ⟨S_, .f32⟩) main_call8_cst) (TRef.of (T := ⟨S20000x512, .f32⟩) main_call8_v0) (broadcastInDim S20000x512 ![] bcast_S_S20000x512),
    TRef.binary (TRef.of (T := ⟨S20000x512, .f32⟩) main_v191) (TRef.of (T := ⟨S20000x512, .f32⟩) main_call8_v0) (TRef.of (T := ⟨S20000x512, .f32⟩) main_v192) maximumf ]

/-- The rest, %193 … %212: the sum of the rows of each graph, the concatenation with the two other inputs, and the head's
    two dense layers with the rectifier and the logistic function. -/
abbrev rT : List (HloOp τ sig (Elt F)) :=
  [ nullary main_cst_16 (constant S_ .f32 0x00000000#32),
    unary main_cst_16 main_v193 (broadcastInDim S400x512 ![] bcast_S_S400x512 : (⟨S_, .f32⟩ : BufTy).Contents (Elt F) → (⟨S400x512, .f32⟩ : BufTy).Contents (Elt F)),
    unary main_arg2 main_v194 (broadcastInDim S20000x1 ![0] bcast_S20000_S20000x1_0 : (⟨S20000, .i32⟩ : BufTy).Contents (Elt F) → (⟨S20000x1, .i32⟩ : BufTy).Contents (Elt F)),
    ternary main_v193 main_v194 main_v192 main_v195 ((fun x i u => Host.scatterAdd scatter_S400x512_S20000x1_S20000x512_1_0_0_1 x i u) : (⟨S400x512, .f32⟩ : BufTy).Contents (Elt F) → (⟨S20000x1, .i32⟩ : BufTy).Contents (Elt F) → (⟨S20000x512, .f32⟩ : BufTy).Contents (Elt F) → (⟨S400x512, .f32⟩ : BufTy).Contents (Elt F)),
    reshape main_arg4 main_v196 rfl shapeCasts_S400x50x50_S400x2500,
    nary ![main_v195, main_arg3, main_v196] main_v197 (fun u => concatenate S400x3020 1 [⟨S400x512, u 0⟩, ⟨S400x8, u 1⟩, ⟨S400x2500, u 2⟩] concatenates_S400x512_S400x8_S400x2500_S400x3020_d1),
    binary main_v197 main_arg15 main_v198 ((fun l r => Host.dotGeneral dot_S400x3020_S3020x256_S400x256_1_0_0_1_n_n none l r) : (⟨S400x3020, .f32⟩ : BufTy).Contents (Elt F) → (⟨S3020x256, .f32⟩ : BufTy).Contents (Elt F) → (⟨S400x256, .f32⟩ : BufTy).Contents (Elt F)),
    unary main_arg16 main_v199 (broadcastInDim S1x256 ![1] bcast_S256_S1x256_1 : (⟨S256, .f32⟩ : BufTy).Contents (Elt F) → (⟨S1x256, .f32⟩ : BufTy).Contents (Elt F)),
    unary main_v199 main_v200 (broadcastInDim S400x256 ![0, 1] bcast_S1x256_S400x256_0_1 : (⟨S1x256, .f32⟩ : BufTy).Contents (Elt F) → (⟨S400x256, .f32⟩ : BufTy).Contents (Elt F)),
    binary main_v198 main_v200 main_v201 (addf : (⟨S400x256, .f32⟩ : BufTy).Contents (Elt F) → (⟨S400x256, .f32⟩ : BufTy).Contents (Elt F) → (⟨S400x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S400x256, .f32⟩) main_call9_v0) (broadcastInDim S400x256 ![] bcast_S_S400x256),
    TRef.binary (TRef.of (T := ⟨S400x256, .f32⟩) main_v201) (TRef.of (T := ⟨S400x256, .f32⟩) main_call9_v0) (TRef.of (T := ⟨S400x256, .f32⟩) main_v202) maximumf,
    binary main_v202 main_arg17 main_v203 ((fun l r => Host.dotGeneral dot_S400x256_S256x1_S400x1_1_0_0_1_n_n none l r) : (⟨S400x256, .f32⟩ : BufTy).Contents (Elt F) → (⟨S256x1, .f32⟩ : BufTy).Contents (Elt F) → (⟨S400x1, .f32⟩ : BufTy).Contents (Elt F)),
    unary main_arg18 main_v204 (broadcastInDim S1x1 ![1] bcast_S1_S1x1_1 : (⟨S1, .f32⟩ : BufTy).Contents (Elt F) → (⟨S1x1, .f32⟩ : BufTy).Contents (Elt F)),
    unary main_v204 main_v205 (broadcastInDim S400x1 ![0, 1] bcast_S1x1_S400x1_0_1 : (⟨S1x1, .f32⟩ : BufTy).Contents (Elt F) → (⟨S400x1, .f32⟩ : BufTy).Contents (Elt F)),
    binary main_v203 main_v205 main_v206 (addf : (⟨S400x1, .f32⟩ : BufTy).Contents (Elt F) → (⟨S400x1, .f32⟩ : BufTy).Contents (Elt F) → (⟨S400x1, .f32⟩ : BufTy).Contents (Elt F)),
    unary main_v206 main_v207 (Host.negf : (⟨S400x1, .f32⟩ : BufTy).Contents (Elt F) → (⟨S400x1, .f32⟩ : BufTy).Contents (Elt F)),
    unary main_v207 main_v208 (Host.exp : (⟨S400x1, .f32⟩ : BufTy).Contents (Elt F) → (⟨S400x1, .f32⟩ : BufTy).Contents (Elt F)),
    nullary main_cst_17 (constant S_ .f32 0x3F800000#32),
    unary main_cst_17 main_v209 (broadcastInDim S400x1 ![] bcast_S_S400x1 : (⟨S_, .f32⟩ : BufTy).Contents (Elt F) → (⟨S400x1, .f32⟩ : BufTy).Contents (Elt F)),
    binary main_v209 main_v208 main_v210 (addf : (⟨S400x1, .f32⟩ : BufTy).Contents (Elt F) → (⟨S400x1, .f32⟩ : BufTy).Contents (Elt F) → (⟨S400x1, .f32⟩ : BufTy).Contents (Elt F)),
    nullary main_cst_18 (constant S_ .f32 0x3F800000#32),
    unary main_cst_18 main_v211 (broadcastInDim S400x1 ![] bcast_S_S400x1 : (⟨S_, .f32⟩ : BufTy).Contents (Elt F) → (⟨S400x1, .f32⟩ : BufTy).Contents (Elt F)),
    binary main_v211 main_v210 main_v212 (Host.divf : (⟨S400x1, .f32⟩ : BufTy).Contents (Elt F) → (⟨S400x1, .f32⟩ : BufTy).Contents (Elt F) → (⟨S400x1, .f32⟩ : BufTy).Contents (Elt F)) ]

/-- @main's 242 operations, in order: the seven stretches one after the other. -/
abbrev ops : List (HloOp τ sig (Elt F)) := rA0 ++ rM0 ++ rA1 ++ rM1 ++ rA2 ++ rM2 ++ rT

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! Every operation's buffers are TensorCore references, stretch by stretch. -/
theorem rA0_sub : (rA0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem rM0_sub : (rM0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., binary_bufs_sub .., ternary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., binary_bufs_sub .., ternary_bufs_sub .., nullary_bufs_sub .., unary_bufs_sub .., binary_bufs_sub ..⟩
theorem rA1_sub : (rA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem rM1_sub : (rM1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., binary_bufs_sub .., ternary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., binary_bufs_sub .., ternary_bufs_sub .., nullary_bufs_sub .., unary_bufs_sub .., binary_bufs_sub ..⟩
theorem rA2_sub : (rA2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem rM2_sub : (rM2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., binary_bufs_sub .., ternary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., binary_bufs_sub .., ternary_bufs_sub .., nullary_bufs_sub .., unary_bufs_sub .., binary_bufs_sub ..⟩
theorem rT_sub : (rT : List (HloOp τ sig (Elt F))).Forall fun op => op.bufs ⊆ tcRefs τ sig :=
  ⟨nullary_bufs_sub .., unary_bufs_sub .., unary_bufs_sub .., ternary_bufs_sub .., reshape_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr
    ⟨List.forall_append.mpr ⟨rA0_sub, rM0_sub⟩, rA1_sub⟩, rM1_sub⟩, rA2_sub⟩, rM2_sub⟩, rT_sub⟩

/-! Every operation determines its results (none only allocates), stretch by stretch. -/
theorem rA0_fresh : (rA0 : List (HloOp τ sig (Elt F))).Forall fun op => op.fresh = ∅ := by
  simp only [List.Forall]; repeat' constructor
theorem rM0_fresh : (rM0 : List (HloOp τ sig (Elt F))).Forall fun op => op.fresh = ∅ := by
  simp only [List.Forall]; repeat' constructor
theorem rA1_fresh : (rA1 : List (HloOp τ sig (Elt F))).Forall fun op => op.fresh = ∅ := by
  simp only [List.Forall]; repeat' constructor
theorem rM1_fresh : (rM1 : List (HloOp τ sig (Elt F))).Forall fun op => op.fresh = ∅ := by
  simp only [List.Forall]; repeat' constructor
theorem rA2_fresh : (rA2 : List (HloOp τ sig (Elt F))).Forall fun op => op.fresh = ∅ := by
  simp only [List.Forall]; repeat' constructor
theorem rM2_fresh : (rM2 : List (HloOp τ sig (Elt F))).Forall fun op => op.fresh = ∅ := by
  simp only [List.Forall]; repeat' constructor
theorem rT_fresh : (rT : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp (List.forall_append.mpr ⟨List.forall_append.mpr ⟨List.forall_append.mpr ⟨List.forall_append.mpr
    ⟨List.forall_append.mpr ⟨List.forall_append.mpr ⟨rA0_fresh, rM0_fresh⟩, rA1_fresh⟩, rM1_fresh⟩, rA2_fresh⟩, rM2_fresh⟩, rT_fresh⟩)

/-! ## The contents between stretches -/

/-- A core's buffers at launch. -/
def Q0 (m : (ℓ : Loc nD τ sig) → Buf (Elt F) ℓ) (c : Dev nD) : Valuation τ sig (Elt F) := fun b => m (c, b)
/-- After the first sum over the edges. -/
def Q1 (m : (ℓ : Loc nD τ sig) → Buf (Elt F) ℓ) (c : Dev nD) : Valuation τ sig (Elt F) := after rA0 (Q0 m c)
/-- After the first layer. -/
def Q2 (m : (ℓ : Loc nD τ sig) → Buf (Elt F) ℓ) (c : Dev nD) : Valuation τ sig (Elt F) := after rM0 (Q1 m c)
/-- After the second sum over the edges. -/
def Q3 (m : (ℓ : Loc nD τ sig) → Buf (Elt F) ℓ) (c : Dev nD) : Valuation τ sig (Elt F) := after rA1 (Q2 m c)
/-- After the second layer. -/
def Q4 (m : (ℓ : Loc nD τ sig) → Buf (Elt F) ℓ) (c : Dev nD) : Valuation τ sig (Elt F) := after rM1 (Q3 m c)
/-- After the third sum over the edges. -/
def Q5 (m : (ℓ : Loc nD τ sig) → Buf (Elt F) ℓ) (c : Dev nD) : Valuation τ sig (Elt F) := after rA2 (Q4 m c)
/-- After the third layer. -/
def Q6 (m : (ℓ : Loc nD τ sig) → Buf (Elt F) ℓ) (c : Dev nD) : Valuation τ sig (Elt F) := after rM2 (Q5 m c)
/-- After the pooling and the head: at the return. -/
def Q7 (m : (ℓ : Loc nD τ sig) → Buf (Elt F) ℓ) (c : Dev nD) : Valuation τ sig (Elt F) := after rT (Q6 m c)

theorem Q0_eq (m : (ℓ : Loc nD τ sig) → Buf (Elt F) ℓ) (c : Dev nD) (b : DevRef τ sig) : Q0 m c b = m (c, b) := rfl
theorem Q1_eq (m : (ℓ : Loc nD τ sig) → Buf (Elt F) ℓ) (c : Dev nD) : Q1 m c = after rA0 (Q0 m c) := rfl
theorem Q2_eq (m : (ℓ : Loc nD τ sig) → Buf (Elt F) ℓ) (c : Dev nD) : Q2 m c = after rM0 (Q1 m c) := rfl
theorem Q3_eq (m : (ℓ : Loc nD τ sig) → Buf (Elt F) ℓ) (c : Dev nD) : Q3 m c = after rA1 (Q2 m c) := rfl
theorem Q4_eq (m : (ℓ : Loc nD τ sig) → Buf (Elt F) ℓ) (c : Dev nD) : Q4 m c = after rM1 (Q3 m c) := rfl
theorem Q5_eq (m : (ℓ : Loc nD τ sig) → Buf (Elt F) ℓ) (c : Dev nD) : Q5 m c = after rA2 (Q4 m c) := rfl
theorem Q6_eq (m : (ℓ : Loc nD τ sig) → Buf (Elt F) ℓ) (c : Dev nD) : Q6 m c = after rM2 (Q5 m c) := rfl
theorem Q7_eq (m : (ℓ : Loc nD τ sig) → Buf (Elt F) ℓ) (c : Dev nD) : Q7 m c = after rT (Q6 m c) := rfl

/-- The whole line applied to the launch contents is the last of the chain. -/
theorem after_ops (m : (ℓ : Loc nD τ sig) → Buf (Elt F) ℓ) (c : Dev nD) : after ops (Q0 m c) = Q7 m c := by
  rw [Q7_eq, Q6_eq, Q5_eq, Q4_eq, Q3_eq, Q2_eq, Q1_eq]
  simp only [ops, StableHlo.after_append]

/-! ## The run -/

/-- On every device, for any float values, from any memory with zero counters: every weakly fair execution of @main
    terminates with every buffer of every core at the last of the chain of contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD, ∀ b : Ref sig .tc,
      r.2.mem ((c.tc : Thread nD τ).loc b) = Q7 m c (Proc.devRef .tc b) :=
  (θ_run defs _ _).mono (fun _ h c b => (h c b).trans (congrFun (after_ops m c) (Proc.devRef .tc b)))
    (run_seq scopedRefs_eq scopedSems_eq defs main (fun _ => ops) main_eq (fun _ => ops_sub) m ρ (fun _ => ops_fresh))

end Cert.ReferenceIdeal.Stretches

end
-- ==== Proof.RefKeeps.lean ====
/-
  What the reference program's stretches leave as they found it, and the arguments at the return.

  A stretch of host operations writes the buffers its operations name as results and no other.  So a buffer that is
  not among a stretch's results holds after the stretch what it held before: a result of an earlier stretch (the edge
  list's two columns, a layer's output) can be read at any later point of the chain of contents, and an argument, which
  is no operation's result, holds at the return what it held at launch.
-/
import proofs.«142629_j73753178406914_1_alg».proof.Proof.RefRun

set_option maxRecDepth 8192

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-! ## What a stretch leaves as it found it -/

/-- The references the operations of `rA0` write. -/
abbrev rA0_W : List (Ref sig .tc) := [main_v0, main_v1, main_v2, main_v3, main_c, main_v4, main_v5, main_c_0, main_v6, main_v7, main_v8, main_v9, main_v10, main_cst, main_v11, main_v12, main_v13, main_v14]
theorem rA0_writes : (rA0 : List (HloOp τ sig (Elt F))).Forall fun op => op.writes ⊆ (rA0_W.map (Proc.devRef (τ := τ) .tc)).toFinset := by
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A buffer `rA0` does not write holds after it what it held before. -/
theorem Q1_keep (m : (ℓ : Loc nD τ sig) → Buf (Elt F) ℓ) (c : Dev nD) (r : Ref sig .tc) (h : r ∉ rA0_W) :
    Q1 m c (Proc.devRef .tc r) = Q0 m c (Proc.devRef .tc r) :=
  after_of_writes_sub rA0 _ rA0_writes h

/-- The references the operations of `rM0` write. -/
abbrev rM0_W : List (Ref sig .tc) := [main_v15, main_v16, main_v17, main_v18, main_v19, main_v20, main_v21, main_v22, main_v23, main_v24, main_cst_1, main_v25, main_v26, main_v27, main_v28, main_v29, main_v30, main_v31, main_v32, main_v33, main_v34, main_v35, main_v36, main_v37, main_v38, main_cst_2, main_v39, main_v40, main_v41, main_v42, main_v43, main_v44, main_v45, main_v46, main_v47, main_v48, main_v49, main_v50, main_v51, main_v52, main_v53, main_v54, main_v55, main_v56, main_v57, main_v58, main_v59, main_v60, main_cst_3, main_v61, main_v62, main_v63, main_v64, main_v65, main_call2_cst, main_call2_v0, main_v66]
theorem rM0_writes : (rM0 : List (HloOp τ sig (Elt F))).Forall fun op => op.writes ⊆ (rM0_W.map (Proc.devRef (τ := τ) .tc)).toFinset := by
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A buffer `rM0` does not write holds after it what it held before. -/
theorem Q2_keep (m : (ℓ : Loc nD τ sig) → Buf (Elt F) ℓ) (c : Dev nD) (r : Ref sig .tc) (h : r ∉ rM0_W) :
    Q2 m c (Proc.devRef .tc r) = Q1 m c (Proc.devRef .tc r) :=
  after_of_writes_sub rM0 _ rM0_writes h

/-- The references the operations of `rA1` write. -/
abbrev rA1_W : List (Ref sig .tc) := [main_c_4, main_v67, main_v68, main_c_5, main_v69, main_v70, main_v71, main_v72, main_v73, main_cst_6, main_v74, main_v75, main_v76, main_v77]
theorem rA1_writes : (rA1 : List (HloOp τ sig (Elt F))).Forall fun op => op.writes ⊆ (rA1_W.map (Proc.devRef (τ := τ) .tc)).toFinset := by
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A buffer `rA1` does not write holds after it what it held before. -/
theorem Q3_keep (m : (ℓ : Loc nD τ sig) → Buf (Elt F) ℓ) (c : Dev nD) (r : Ref sig .tc) (h : r ∉ rA1_W) :
    Q3 m c (Proc.devRef .tc r) = Q2 m c (Proc.devRef .tc r) :=
  after_of_writes_sub rA1 _ rA1_writes h

/-- The references the operations of `rM1` write. -/
abbrev rM1_W : List (Ref sig .tc) := [main_v78, main_v79, main_v80, main_v81, main_v82, main_v83, main_v84, main_v85, main_v86, main_v87, main_cst_7, main_v88, main_v89, main_v90, main_v91, main_v92, main_v93, main_v94, main_v95, main_v96, main_v97, main_v98, main_v99, main_v100, main_v101, main_cst_8, main_v102, main_v103, main_v104, main_v105, main_v106, main_v107, main_v108, main_v109, main_v110, main_v111, main_v112, main_v113, main_v114, main_v115, main_v116, main_v117, main_v118, main_v119, main_v120, main_v121, main_v122, main_v123, main_cst_9, main_v124, main_v125, main_v126, main_v127, main_v128, main_call5_cst, main_call5_v0, main_v129]
theorem rM1_writes : (rM1 : List (HloOp τ sig (Elt F))).Forall fun op => op.writes ⊆ (rM1_W.map (Proc.devRef (τ := τ) .tc)).toFinset := by
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A buffer `rM1` does not write holds after it what it held before. -/
theorem Q4_keep (m : (ℓ : Loc nD τ sig) → Buf (Elt F) ℓ) (c : Dev nD) (r : Ref sig .tc) (h : r ∉ rM1_W) :
    Q4 m c (Proc.devRef .tc r) = Q3 m c (Proc.devRef .tc r) :=
  after_of_writes_sub rM1 _ rM1_writes h

/-- The references the operations of `rA2` write. -/
abbrev rA2_W : List (Ref sig .tc) := [main_c_10, main_v130, main_v131, main_c_11, main_v132, main_v133, main_v134, main_v135, main_v136, main_cst_12, main_v137, main_v138, main_v139, main_v140]
theorem rA2_writes : (rA2 : List (HloOp τ sig (Elt F))).Forall fun op => op.writes ⊆ (rA2_W.map (Proc.devRef (τ := τ) .tc)).toFinset := by
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A buffer `rA2` does not write holds after it what it held before. -/
theorem Q5_keep (m : (ℓ : Loc nD τ sig) → Buf (Elt F) ℓ) (c : Dev nD) (r : Ref sig .tc) (h : r ∉ rA2_W) :
    Q5 m c (Proc.devRef .tc r) = Q4 m c (Proc.devRef .tc r) :=
  after_of_writes_sub rA2 _ rA2_writes h

/-- The references the operations of `rM2` write. -/
abbrev rM2_W : List (Ref sig .tc) := [main_v141, main_v142, main_v143, main_v144, main_v145, main_v146, main_v147, main_v148, main_v149, main_v150, main_cst_13, main_v151, main_v152, main_v153, main_v154, main_v155, main_v156, main_v157, main_v158, main_v159, main_v160, main_v161, main_v162, main_v163, main_v164, main_cst_14, main_v165, main_v166, main_v167, main_v168, main_v169, main_v170, main_v171, main_v172, main_v173, main_v174, main_v175, main_v176, main_v177, main_v178, main_v179, main_v180, main_v181, main_v182, main_v183, main_v184, main_v185, main_v186, main_cst_15, main_v187, main_v188, main_v189, main_v190, main_v191, main_call8_cst, main_call8_v0, main_v192]
theorem rM2_writes : (rM2 : List (HloOp τ sig (Elt F))).Forall fun op => op.writes ⊆ (rM2_W.map (Proc.devRef (τ := τ) .tc)).toFinset := by
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A buffer `rM2` does not write holds after it what it held before. -/
theorem Q6_keep (m : (ℓ : Loc nD τ sig) → Buf (Elt F) ℓ) (c : Dev nD) (r : Ref sig .tc) (h : r ∉ rM2_W) :
    Q6 m c (Proc.devRef .tc r) = Q5 m c (Proc.devRef .tc r) :=
  after_of_writes_sub rM2 _ rM2_writes h

/-- The references the operations of `rT` write. -/
abbrev rT_W : List (Ref sig .tc) := [main_cst_16, main_v193, main_v194, main_v195, main_v196, main_v197, main_v198, main_v199, main_v200, main_v201, main_call9_cst, main_call9_v0, main_v202, main_v203, main_v204, main_v205, main_v206, main_v207, main_v208, main_cst_17, main_v209, main_v210, main_cst_18, main_v211, main_v212]
theorem rT_writes : (rT : List (HloOp τ sig (Elt F))).Forall fun op => op.writes ⊆ (rT_W.map (Proc.devRef (τ := τ) .tc)).toFinset := by
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A buffer `rT` does not write holds after it what it held before. -/
theorem Q7_keep (m : (ℓ : Loc nD τ sig) → Buf (Elt F) ℓ) (c : Dev nD) (r : Ref sig .tc) (h : r ∉ rT_W) :
    Q7 m c (Proc.devRef .tc r) = Q6 m c (Proc.devRef .tc r) :=
  after_of_writes_sub rT _ rT_writes h

/-- A buffer no stretch writes holds at the return what it held at launch. -/
theorem Q7_keeps (m : (ℓ : Loc nD τ sig) → Buf (Elt F) ℓ) (c : Dev nD) (r : Ref sig .tc)
    (h0 : r ∉ rA0_W) (h1 : r ∉ rM0_W) (h2 : r ∉ rA1_W) (h3 : r ∉ rM1_W) (h4 : r ∉ rA2_W) (h5 : r ∉ rM2_W) (h6 : r ∉ rT_W) :
    Q7 m c (Proc.devRef .tc r) = m ((c.tc : Thread nD τ).loc r) :=
  (Q7_keep m c r h6).trans <| (Q6_keep m c r h5).trans <| (Q5_keep m c r h4).trans <| (Q4_keep m c r h3).trans <|
    (Q3_keep m c r h2).trans <| (Q2_keep m c r h1).trans <| (Q1_keep m c r h0).trans rfl

/-! ## The arguments

No operation's result is an argument: each of the nineteen argument arrays holds at the return what it held at launch. -/

theorem Q7_main_arg0 (m : (ℓ : Loc nD τ sig) → Buf (Elt F) ℓ) (c : Dev nD) :
    Q7 m c (Proc.devRef .tc main_arg0) = m ((c.tc : Thread nD τ).loc main_arg0) :=
  Q7_keeps m c main_arg0 (by decide) (by decide) (by decide) (by decide) (by decide) (by decide) (by decide)
theorem Q7_main_arg1 (m : (ℓ : Loc nD τ sig) → Buf (Elt F) ℓ) (c : Dev nD) :
    Q7 m c (Proc.devRef .tc main_arg1) = m ((c.tc : Thread nD τ).loc main_arg1) :=
  Q7_keeps m c main_arg1 (by decide) (by decide) (by decide) (by decide) (by decide) (by decide) (by decide)
theorem Q7_main_arg2 (m : (ℓ : Loc nD τ sig) → Buf (Elt F) ℓ) (c : Dev nD) :
    Q7 m c (Proc.devRef .tc main_arg2) = m ((c.tc : Thread nD τ).loc main_arg2) :=
  Q7_keeps m c main_arg2 (by decide) (by decide) (by decide) (by decide) (by decide) (by decide) (by decide)
theorem Q7_main_arg3 (m : (ℓ : Loc nD τ sig) → Buf (Elt F) ℓ) (c : Dev nD) :
    Q7 m c (Proc.devRef .tc main_arg3) = m ((c.tc : Thread nD τ).loc main_arg3) :=
  Q7_keeps m c main_arg3 (by decide) (by decide) (by decide) (by decide) (by decide) (by decide) (by decide)
theorem Q7_main_arg4 (m : (ℓ : Loc nD τ sig) → Buf (Elt F) ℓ) (c : Dev nD) :
    Q7 m c (Proc.devRef .tc main_arg4) = m ((c.tc : Thread nD τ).loc main_arg4) :=
  Q7_keeps m c main_arg4 (by decide) (by decide) (by decide) (by decide) (by decide) (by decide) (by decide)
theorem Q7_main_arg5 (m : (ℓ : Loc nD τ sig) → Buf (Elt F) ℓ) (c : Dev nD) :
    Q7 m c (Proc.devRef .tc main_arg5) = m ((c.tc : Thread nD τ).loc main_arg5) :=
  Q7_keeps m c main_arg5 (by decide) (by decide) (by decide) (by decide) (by decide) (by decide) (by decide)
theorem Q7_main_arg6 (m : (ℓ : Loc nD τ sig) → Buf (Elt F) ℓ) (c : Dev nD) :
    Q7 m c (Proc.devRef .tc main_arg6) = m ((c.tc : Thread nD τ).loc main_arg6) :=
  Q7_keeps m c main_arg6 (by decide) (by decide) (by decide) (by decide) (by decide) (by decide) (by decide)
theorem Q7_main_arg7 (m : (ℓ : Loc nD τ sig) → Buf (Elt F) ℓ) (c : Dev nD) :
    Q7 m c (Proc.devRef .tc main_arg7) = m ((c.tc : Thread nD τ).loc main_arg7) :=
  Q7_keeps m c main_arg7 (by decide) (by decide) (by decide) (by decide) (by decide) (by decide) (by decide)
theorem Q7_main_arg8 (m : (ℓ : Loc nD τ sig) → Buf (Elt F) ℓ) (c : Dev nD) :
    Q7 m c (Proc.devRef .tc main_arg8) = m ((c.tc : Thread nD τ).loc main_arg8) :=
  Q7_keeps m c main_arg8 (by decide) (by decide) (by decide) (by decide) (by decide) (by decide) (by decide)
theorem Q7_main_arg9 (m : (ℓ : Loc nD τ sig) → Buf (Elt F) ℓ) (c : Dev nD) :
    Q7 m c (Proc.devRef .tc main_arg9) = m ((c.tc : Thread nD τ).loc main_arg9) :=
  Q7_keeps m c main_arg9 (by decide) (by decide) (by decide) (by decide) (by decide) (by decide) (by decide)
theorem Q7_main_arg10 (m : (ℓ : Loc nD τ sig) → Buf (Elt F) ℓ) (c : Dev nD) :
    Q7 m c (Proc.devRef .tc main_arg10) = m ((c.tc : Thread nD τ).loc main_arg10) :=
  Q7_keeps m c main_arg10 (by decide) (by decide) (by decide) (by decide) (by decide) (by decide) (by decide)
theorem Q7_main_arg11 (m : (ℓ : Loc nD τ sig) → Buf (Elt F) ℓ) (c : Dev nD) :
    Q7 m c (Proc.devRef .tc main_arg11) = m ((c.tc : Thread nD τ).loc main_arg11) :=
  Q7_keeps m c main_arg11 (by decide) (by decide) (by decide) (by decide) (by decide) (by decide) (by decide)
theorem Q7_main_arg12 (m : (ℓ : Loc nD τ sig) → Buf (Elt F) ℓ) (c : Dev nD) :
    Q7 m c (Proc.devRef .tc main_arg12) = m ((c.tc : Thread nD τ).loc main_arg12) :=
  Q7_keeps m c main_arg12 (by decide) (by decide) (by decide) (by decide) (by decide) (by decide) (by decide)
theorem Q7_main_arg13 (m : (ℓ : Loc nD τ sig) → Buf (Elt F) ℓ) (c : Dev nD) :
    Q7 m c (Proc.devRef .tc main_arg13) = m ((c.tc : Thread nD τ).loc main_arg13) :=
  Q7_keeps m c main_arg13 (by decide) (by decide) (by decide) (by decide) (by decide) (by decide) (by decide)
theorem Q7_main_arg14 (m : (ℓ : Loc nD τ sig) → Buf (Elt F) ℓ) (c : Dev nD) :
    Q7 m c (Proc.devRef .tc main_arg14) = m ((c.tc : Thread nD τ).loc main_arg14) :=
  Q7_keeps m c main_arg14 (by decide) (by decide) (by decide) (by decide) (by decide) (by decide) (by decide)
theorem Q7_main_arg15 (m : (ℓ : Loc nD τ sig) → Buf (Elt F) ℓ) (c : Dev nD) :
    Q7 m c (Proc.devRef .tc main_arg15) = m ((c.tc : Thread nD τ).loc main_arg15) :=
  Q7_keeps m c main_arg15 (by decide) (by decide) (by decide) (by decide) (by decide) (by decide) (by decide)
theorem Q7_main_arg16 (m : (ℓ : Loc nD τ sig) → Buf (Elt F) ℓ) (c : Dev nD) :
    Q7 m c (Proc.devRef .tc main_arg16) = m ((c.tc : Thread nD τ).loc main_arg16) :=
  Q7_keeps m c main_arg16 (by decide) (by decide) (by decide) (by decide) (by decide) (by decide) (by decide)
theorem Q7_main_arg17 (m : (ℓ : Loc nD τ sig) → Buf (Elt F) ℓ) (c : Dev nD) :
    Q7 m c (Proc.devRef .tc main_arg17) = m ((c.tc : Thread nD τ).loc main_arg17) :=
  Q7_keeps m c main_arg17 (by decide) (by decide) (by decide) (by decide) (by decide) (by decide) (by decide)
theorem Q7_main_arg18 (m : (ℓ : Loc nD τ sig) → Buf (Elt F) ℓ) (c : Dev nD) :
    Q7 m c (Proc.devRef .tc main_arg18) = m ((c.tc : Thread nD τ).loc main_arg18) :=
  Q7_keeps m c main_arg18 (by decide) (by decide) (by decide) (by decide) (by decide) (by decide) (by decide)

end Cert.ReferenceIdeal.Stretches

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibDense.lean ====
/-
  A dense layer read one entry at a time, at the exact (extended-real) values.

  A dense layer sends a row r of K numbers to the N numbers  (r · W)(q) + b(q),  W a K×N matrix and b a bias of N
  numbers; the rectifier then replaces each by its maximum with zero.  On the vector unit a block of M rows goes
  through the layer at once: the M×K block times W into a zero accumulator, plus the bias — kept as a 1×N array —
  spread over the M rows.  Entry (p, q) of that block is the layer applied to row p of the block, at q: rows do not
  mix.  Stated once for every M, K, N.
-/
import Idealize.ShloMosaic.Lib.ValueIdx
import Idealize.ShloMosaic.Lib.ValueLayout
import Idealize.ShloMosaic.Lib.Pipeline.Value
import Idealize.ShloMosaic.PureOps.Ideal.Laws
import proofs.«142629_j73753178406914_1_alg».proof.Proof.LibRowDot

noncomputable section

open scoped BigOperators

namespace Cert.Dense

open Idealize.ShloMosaic Idealize.ShloMosaic.ValueIdx Cert.RowDot

/-- A dense layer on one row: entry q is (row · W)(q) + b(q). -/
def dense {K N : Nat} (W : (⟨2, ![K, N]⟩ : Shape).Idx → EReal) (b : Fin N → EReal) (row : Fin K → EReal) : Fin N → EReal :=
  fun q => rowDot row W q + b q

/-- The rectifier of a row: each entry's maximum with the number the all-zero f32 word denotes. -/
def relu {N : Nat} (v : Fin N → EReal) : Fin N → EReal := fun q => max (v q) (Ideal.ofBits .f32 0x00000000#32)

/-- A bias kept as a 1×N array, as a function of the column. -/
def biasRow {N : Nat} (b : (⟨2, ![1, N]⟩ : Shape).Idx → EReal) : Fin N → EReal := fun q => b (ix2 (0 : Fin 1) q)

/-- A bias kept as a length-N array, as a function of the column. -/
def biasVec {N : Nat} (b : (⟨1, ![N]⟩ : Shape).Idx → EReal) : Fin N → EReal := fun q => b (ix1 q)

/-- A length-N bias recast as a 1×N array is the same bias. -/
theorem biasRow_shapeCast {N : Nat} (b : (⟨1, ![N]⟩ : Shape).Idx → EReal) (h : (⟨1, ![N]⟩ : Shape).ShapeCasts ⟨2, ![1, N]⟩) :
    biasRow (shapeCast ⟨2, ![1, N]⟩ b h) = biasVec b :=
  funext fun q => shapeCast_a_1a_apply b h 0 q

/-- The vector unit's product of a block of M rows with a recast K×N matrix into zero, at entry (p, q): row p times W. -/
theorem matmul_block_apply {M K N : Nat} {φ₁ φ₂ : FTy} (prec : Option ContractPrecision)
    (a : FVec Ideal (⟨2, ![M, K]⟩ : Shape) φ₁) (w : FVec Ideal (⟨2, ![K, N]⟩ : Shape) φ₂)
    (hw : (⟨2, ![K, N]⟩ : Shape).ShapeCasts ⟨2, ![K, N]⟩) (p : Fin M) (q : Fin N) :
    matmul (DotDims.plain M K N) prec a (shapeCast ⟨2, ![K, N]⟩ w hw)
        (constant (F := Ideal) ⟨2, ![M, N]⟩ .f32 0x00000000#32) (ix2 p q)
      = rowDot (rowOf a p) w q := by
  rw [shapeCast_self]
  exact matmul_plain_zero_apply prec a w (ix2 p q)

/-- The vector unit's layer on a block of M rows, at entry (p, q): the layer applied to row p of the block. -/
theorem dense_block_apply {M K N : Nat} {φ₁ φ₂ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (p : Fin M) (q : Fin N) :
    addf (matmul (DotDims.plain M K N) prec a (shapeCast ⟨2, ![K, N]⟩ w hw)
        (constant (F := Ideal) ⟨2, ![M, N]⟩ .f32 0x00000000#32))
      (broadcastTo ⟨2, ![M, N]⟩ (shapeCast ⟨2, ![1, N]⟩ b hb) hbc) (ix2 p q)
      = dense w (biasRow b) (rowOf a p) q := by
  show matmul (DotDims.plain M K N) prec a (shapeCast ⟨2, ![K, N]⟩ w hw)
        (constant (F := Ideal) ⟨2, ![M, N]⟩ .f32 0x00000000#32) (ix2 p q)
      + broadcastTo ⟨2, ![M, N]⟩ (shapeCast ⟨2, ![1, N]⟩ b hb) hbc (ix2 p q) = _
  rw [matmul_block_apply, broadcastTo_1b_ab_apply, shapeCast_self]
  rfl

/-- The same with the rectifier and a change of float format after it (which keeps every value). -/
theorem relu_dense_block_apply {M K N : Nat} {φ₁ φ₂ ψ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (hψ : ψ.bits < FTy.f32.bits) (p : Fin M) (q : Fin N) :
    (truncf ψ (maximumf (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc))
      (broadcast ⟨2, ![M, N]⟩ (Scalar.ofBits (F := Ideal) .f32 0x00000000#32))) hψ : FVec Ideal ⟨2, ![M, N]⟩ ψ) (ix2 p q)
      = relu (dense w (biasRow b) (rowOf a p)) q := by
  show max (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc) (ix2 p q)) (Ideal.ofBits .f32 0x00000000#32) = _
  rw [dense_block_apply]
  rfl

end Cert.Dense

end
-- ==== Proof.LayerSpec.lean ====
/-
  One layer of the network on one row of node features, as a function on the extended reals, and the one law that
  joins the kernel's spelling of it to the reference's.

  A layer sends a row u of 512 numbers (a node's features plus the sum of its neighbours') to
      z  = prelu a₁ (u·W₁ + b₁),    z' = (z − μ) · s + β,    out = max (prelu a₂ (z'·W₂ + b₂)) 0,
  prelu a x being x where x ≥ 0 and a·x elsewhere, and s the batch normalisation's scale per column. The kernel
  computes the scale as γ · rsqrt (σ² + ε), the reference as γ / sqrt (σ² + ε). For a variance σ² that is a
  nonnegative real, σ² + ε is a positive real y, both are γ · (√y)⁻¹, and that is the whole of the difference between
  the two programs. (For σ² + ε ≤ 0 the two spellings differ: a square root of a negative number and a quotient by
  zero have conventional values that the reciprocal square root does not share; the claim is made where the variance is
  nonnegative.)
-/
import Idealize.ShloMosaic.Lib.ValueIdx
import Idealize.ShloMosaic.PureOps.Ideal.Laws
import proofs.«142629_j73753178406914_1_alg».proof.Proof.LibRowDot
import proofs.«142629_j73753178406914_1_alg».proof.Proof.LibDense

noncomputable section

open scoped BigOperators

namespace Cert.Gin

open Idealize.ShloMosaic Idealize.ShloMosaic.ValueIdx Cert.RowDot Cert.Dense

/-- The number the all-zero f32 word denotes. -/
abbrev zeroW : EReal := Ideal.ofBits .f32 0x00000000#32
/-- The normalisation's ε: the number the f32 word of 1e-5 denotes. -/
abbrev epsW : EReal := Ideal.ofBits .f32 0x3727C5AC#32

/-- ε is a positive real: sign bit clear, a normal exponent. -/
theorem eps_real : ∃ e : ℝ, 0 < e ∧ epsW = (e : EReal) := by
  refine ⟨((2 ^ 23 + 2606508 : ℕ) : ℝ) * (2 : ℝ) ^ ((110 : ℤ) - 127 - 23), by positivity, ?_⟩
  simp [Ideal.ofBits, Ideal.ieee, -EReal.coe_mul]

/-- The scale as the kernel spells it. -/
def scaleK (g v : EReal) : EReal := g * Ideal.rsqrt (v + epsW)
/-- The scale as the reference spells it. -/
def scaleR (g v : EReal) : EReal := Ideal.div g (Ideal.sqrt (v + epsW))

/-- At a variance that is a nonnegative real the two spellings are one number, whatever γ is. -/
theorem scale_eq (g : EReal) (v : ℝ) (hv : 0 ≤ v) : scaleK g (v : EReal) = scaleR g (v : EReal) := by
  obtain ⟨e, he, hE⟩ := eps_real
  unfold scaleK scaleR
  rw [hE, ← EReal.coe_add]
  have hy : 0 < v + e := by linarith
  rw [Ideal.rsqrt_coe, Ideal.sqrt_coe, if_neg (not_lt.mpr hy.le), if_neg hy.ne', if_neg (not_lt.mpr hy.le),
    Ideal.div_coe (Real.sqrt_ne_zero'.mpr hy) g, one_div]

/-- The parametric rectifier: x where x ≥ 0, a·x elsewhere. -/
def prelu (a x : EReal) : EReal :=
  Scalar.select (FloatOps.cmpf (F := Ideal) (φ := .f32) .oge x zeroW) x (a * x)

/-- One layer on one row, at column q, for a given scale row s. -/
def layerRow (s : Fin 512 → EReal) (W₁ : (⟨2, ![512, 512]⟩ : Shape).Idx → EReal) (b₁ : Fin 512 → EReal) (a₁ : EReal)
    (β μ : Fin 512 → EReal) (W₂ : (⟨2, ![512, 512]⟩ : Shape).Idx → EReal) (b₂ : Fin 512 → EReal) (a₂ : EReal)
    (u : Fin 512 → EReal) : Fin 512 → EReal :=
  fun q => max (prelu a₂ (dense W₂ b₂ (fun k => (prelu a₁ (dense W₁ b₁ u k) - μ k) * s k + β k) q)) zeroW

/-- With nonnegative real variances the layer is the same function under either spelling of the scale. -/
theorem layerRow_scale (γ σ2 : Fin 512 → EReal) (hσ : ∀ k, ∃ v : ℝ, 0 ≤ v ∧ σ2 k = (v : EReal))
    (W₁ : (⟨2, ![512, 512]⟩ : Shape).Idx → EReal) (b₁ : Fin 512 → EReal) (a₁ : EReal)
    (β μ : Fin 512 → EReal) (W₂ : (⟨2, ![512, 512]⟩ : Shape).Idx → EReal) (b₂ : Fin 512 → EReal) (a₂ : EReal)
    (u : Fin 512 → EReal) :
    layerRow (fun k => scaleK (γ k) (σ2 k)) W₁ b₁ a₁ β μ W₂ b₂ a₂ u
      = layerRow (fun k => scaleR (γ k) (σ2 k)) W₁ b₁ a₁ β μ W₂ b₂ a₂ u := by
  have hs : (fun k => scaleK (γ k) (σ2 k)) = fun k => scaleR (γ k) (σ2 k) :=
    funext fun k => by obtain ⟨v, hv, e⟩ := hσ k; rw [e]; exact scale_eq (γ k) v hv
  rw [hs]

end Cert.Gin

end
-- ==== Proof.LayerPayload.lean ====
/-
  The arithmetic of the three kernel bodies at one entry of a block.

  Each body's one store is a pure function of the twelve blocks it loaded. Read at entry (p, q) of the 1000×512 block it
  is the layer of LayerSpec applied to row p of h + agg, at column q, with the scale in the kernel's spelling
  γ · rsqrt (σ² + ε): the two products are a row times a matrix (the operands' change of float format keeps every
  value), a parameter kept as a 1×512 row is read at its column, a slope kept as a 1×1 array at its one entry, and
  everything else is entry by entry. Rows of the block do not mix.
-/
import proofs.«142629_j73753178406914_1_alg».proof.Proof.Gen.KernelIdeal.Skeleton
import proofs.«142629_j73753178406914_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Payload

open Cert.KernelIdeal Cert.KernelIdeal.Gen
open Idealize.ShloMosaic Idealize.ShloMosaic.ValueIdx Cert.RowDot Cert.Dense Cert.Gin

/-- The reciprocal square root of an array, at an index. -/
theorem rsqrt_apply {s : Shape} {φ : FTy} (a : FVec Ideal s φ) (i : s.Idx) : rsqrt a i = Ideal.rsqrt (a i) := rfl

/-- The vector unit's product of a block of 1000 rows with a 512×512 matrix into zero, both operands after a change
    of format that keeps every value, at entry (p, q): row p times the matrix, at column q. -/
theorem block_dot (a : FVec Ideal S1000x512 .f32) (w : Vec Ideal S512x512 .f32) (p : Fin 1000) (q : Fin 512) :
    matmul dot_S1000x512_S512x512_S1000x512_1_0_0_1_n_n none (truncf .bf16 a bitsLt_bf16_f32)
        (truncf .bf16 w bitsLt_bf16_f32) (constant (F := Ideal) S1000x512 .f32 0x00000000#32) (ix2 p q)
      = rowDot (rowOf a p) w q :=
  matmul_plain_zero_apply (M := 1000) (K := 512) (N := 512) (φ₁ := .bf16) (φ₂ := .bf16) none
    (truncf .bf16 a bitsLt_bf16_f32) (truncf .bf16 w bitsLt_bf16_f32) (ix2 p q)

/-! ## Layer 1 -/

/-- The normalised hidden row of layer 1, at entry (p, k) of the block. -/
theorem inner0_apply (xh xagg : Vec Ideal S1000x512 .f32) (xw1 : Vec Ideal S512x512 .f32) (xb1 : Vec Ideal S1x512 .f32)
    (xa1 : Vec Ideal S1x1 .f32) (xg xvar xmean xbeta : Vec Ideal S1x512 .f32) (p : Fin 1000) (k : Fin 512) :
    k0_pay2 (F := Ideal) xh xagg xw1 xb1 xa1 xg xvar xmean xbeta (ix2 p k)
      = (prelu (extractAt ![0, 0] xa1 inpos_S1x1_p0_0) (dense xw1 (biasRow xb1) (fun l => xh (ix2 p l) + xagg (ix2 p l)) k) - biasRow xmean k)
          * scaleK (biasRow xg k) (biasRow xvar k) + biasRow xbeta k := by
  unfold k0_pay2
  simp only [maximumf_apply, addf_apply, mulf_apply, subf_apply, select_apply, cmpf_apply, broadcast_apply, broadcastTo_1b_ab_apply,
    shapeCast_self, rsqrt_apply, block_dot]
  rfl

/-- What the body stores, at entry (p, q) of the block: the layer applied to row p of h + agg, at column q. -/
theorem stored0_apply (xh xagg : Vec Ideal S1000x512 .f32) (xw1 : Vec Ideal S512x512 .f32) (xb1 : Vec Ideal S1x512 .f32)
    (xa1 : Vec Ideal S1x1 .f32) (xg xbeta xmean xvar : Vec Ideal S1x512 .f32) (xw2 : Vec Ideal S512x512 .f32)
    (xb2 : Vec Ideal S1x512 .f32) (xa2 : Vec Ideal S1x1 .f32) (p : Fin 1000) (q : Fin 512) :
    k0_pay1 (F := Ideal) (k0_pay2 xh xagg xw1 xb1 xa1 xg xvar xmean xbeta) xw2 xb2 xa2 (ix2 p q)
      = layerRow (fun k => scaleK (biasRow xg k) (biasRow xvar k)) xw1 (biasRow xb1) (extractAt ![0, 0] xa1 inpos_S1x1_p0_0)
          (biasRow xbeta) (biasRow xmean) xw2 (biasRow xb2) (extractAt ![0, 0] xa2 inpos_S1x1_p0_0)
          (fun l => xh (ix2 p l) + xagg (ix2 p l)) q := by
  have hrow : rowOf (k0_pay2 (F := Ideal) xh xagg xw1 xb1 xa1 xg xvar xmean xbeta) p
      = fun k => (prelu (extractAt ![0, 0] xa1 inpos_S1x1_p0_0) (dense xw1 (biasRow xb1) (fun l => xh (ix2 p l) + xagg (ix2 p l)) k) - biasRow xmean k)
          * scaleK (biasRow xg k) (biasRow xvar k) + biasRow xbeta k :=
    funext fun k => inner0_apply xh xagg xw1 xb1 xa1 xg xvar xmean xbeta p k
  unfold k0_pay1
  simp only [maximumf_apply, addf_apply, mulf_apply, subf_apply, select_apply, cmpf_apply, broadcast_apply, broadcastTo_1b_ab_apply,
    shapeCast_self, rsqrt_apply, block_dot]
  rw [hrow]
  rfl

/-! ## Layer 2 -/

/-- The normalised hidden row of layer 2 before the shift, at entry (p, k) of the block. -/
theorem inner1_apply (xh xagg : Vec Ideal S1000x512 .f32) (xw1 : Vec Ideal S512x512 .f32) (xb1 : Vec Ideal S1x512 .f32)
    (xa1 : Vec Ideal S1x1 .f32) (xg xvar xmean : Vec Ideal S1x512 .f32) (p : Fin 1000) (k : Fin 512) :
    k1_pay2 (F := Ideal) xh xagg xw1 xb1 xa1 xg xvar xmean (ix2 p k)
      = (prelu (extractAt ![0, 0] xa1 inpos_S1x1_p0_0) (dense xw1 (biasRow xb1) (fun l => xh (ix2 p l) + xagg (ix2 p l)) k) - biasRow xmean k)
          * scaleK (biasRow xg k) (biasRow xvar k) := by
  unfold k1_pay2
  simp only [maximumf_apply, addf_apply, mulf_apply, subf_apply, select_apply, cmpf_apply, broadcast_apply, broadcastTo_1b_ab_apply,
    shapeCast_self, rsqrt_apply, block_dot]
  rfl

/-- What the body stores, at entry (p, q) of the block: the layer applied to row p of h + agg, at column q. -/
theorem stored1_apply (xh xagg : Vec Ideal S1000x512 .f32) (xw1 : Vec Ideal S512x512 .f32) (xb1 : Vec Ideal S1x512 .f32)
    (xa1 : Vec Ideal S1x1 .f32) (xg xbeta xmean xvar : Vec Ideal S1x512 .f32) (xw2 : Vec Ideal S512x512 .f32)
    (xb2 : Vec Ideal S1x512 .f32) (xa2 : Vec Ideal S1x1 .f32) (p : Fin 1000) (q : Fin 512) :
    k1_pay1 (F := Ideal) (k1_pay2 xh xagg xw1 xb1 xa1 xg xvar xmean) (k1_pay3 xbeta) xw2 xb2 xa2 (ix2 p q)
      = layerRow (fun k => scaleK (biasRow xg k) (biasRow xvar k)) xw1 (biasRow xb1) (extractAt ![0, 0] xa1 inpos_S1x1_p0_0)
          (biasRow xbeta) (biasRow xmean) xw2 (biasRow xb2) (extractAt ![0, 0] xa2 inpos_S1x1_p0_0)
          (fun l => xh (ix2 p l) + xagg (ix2 p l)) q := by
  have hrow : rowOf (addf (k1_pay2 (F := Ideal) xh xagg xw1 xb1 xa1 xg xvar xmean) (k1_pay3 xbeta)) p
      = fun k => (prelu (extractAt ![0, 0] xa1 inpos_S1x1_p0_0) (dense xw1 (biasRow xb1) (fun l => xh (ix2 p l) + xagg (ix2 p l)) k) - biasRow xmean k)
          * scaleK (biasRow xg k) (biasRow xvar k) + biasRow xbeta k :=
    funext fun k => by
      show k1_pay2 (F := Ideal) xh xagg xw1 xb1 xa1 xg xvar xmean (ix2 p k) + k1_pay3 (F := Ideal) xbeta (ix2 p k) = _
      rw [inner1_apply]
      unfold k1_pay3
      simp only [broadcastTo_1b_ab_apply, shapeCast_self]
      rfl
  unfold k1_pay1
  simp only [maximumf_apply, addf_apply, mulf_apply, subf_apply, select_apply, cmpf_apply, broadcast_apply, broadcastTo_1b_ab_apply,
    shapeCast_self, rsqrt_apply, block_dot]
  rw [hrow]
  rfl

/-! ## Layer 3 -/

/-- The normalised hidden row of layer 3 before the shift, at entry (p, k) of the block. -/
theorem inner2_apply (xh xagg : Vec Ideal S1000x512 .f32) (xw1 : Vec Ideal S512x512 .f32) (xb1 : Vec Ideal S1x512 .f32)
    (xa1 : Vec Ideal S1x1 .f32) (xg xvar xmean : Vec Ideal S1x512 .f32) (p : Fin 1000) (k : Fin 512) :
    k2_pay2 (F := Ideal) xh xagg xw1 xb1 xa1 xg xvar xmean (ix2 p k)
      = (prelu (extractAt ![0, 0] xa1 inpos_S1x1_p0_0) (dense xw1 (biasRow xb1) (fun l => xh (ix2 p l) + xagg (ix2 p l)) k) - biasRow xmean k)
          * scaleK (biasRow xg k) (biasRow xvar k) := by
  unfold k2_pay2
  simp only [maximumf_apply, addf_apply, mulf_apply, subf_apply, select_apply, cmpf_apply, broadcast_apply, broadcastTo_1b_ab_apply,
    shapeCast_self, rsqrt_apply, block_dot]
  rfl

/-- What the body stores, at entry (p, q) of the block: the layer applied to row p of h + agg, at column q. -/
theorem stored2_apply (xh xagg : Vec Ideal S1000x512 .f32) (xw1 : Vec Ideal S512x512 .f32) (xb1 : Vec Ideal S1x512 .f32)
    (xa1 : Vec Ideal S1x1 .f32) (xg xbeta xmean xvar : Vec Ideal S1x512 .f32) (xw2 : Vec Ideal S512x512 .f32)
    (xb2 : Vec Ideal S1x512 .f32) (xa2 : Vec Ideal S1x1 .f32) (p : Fin 1000) (q : Fin 512) :
    k2_pay1 (F := Ideal) (k2_pay2 xh xagg xw1 xb1 xa1 xg xvar xmean) (k2_pay3 xbeta) xw2 xb2 xa2 (ix2 p q)
      = layerRow (fun k => scaleK (biasRow xg k) (biasRow xvar k)) xw1 (biasRow xb1) (extractAt ![0, 0] xa1 inpos_S1x1_p0_0)
          (biasRow xbeta) (biasRow xmean) xw2 (biasRow xb2) (extractAt ![0, 0] xa2 inpos_S1x1_p0_0)
          (fun l => xh (ix2 p l) + xagg (ix2 p l)) q := by
  have hrow : rowOf (addf (k2_pay2 (F := Ideal) xh xagg xw1 xb1 xa1 xg xvar xmean) (k2_pay3 xbeta)) p
      = fun k => (prelu (extractAt ![0, 0] xa1 inpos_S1x1_p0_0) (dense xw1 (biasRow xb1) (fun l => xh (ix2 p l) + xagg (ix2 p l)) k) - biasRow xmean k)
          * scaleK (biasRow xg k) (biasRow xvar k) + biasRow xbeta k :=
    funext fun k => by
      show k2_pay2 (F := Ideal) xh xagg xw1 xb1 xa1 xg xvar xmean (ix2 p k) + k2_pay3 (F := Ideal) xbeta (ix2 p k) = _
      rw [inner2_apply]
      unfold k2_pay3
      simp only [broadcastTo_1b_ab_apply, shapeCast_self]
      rfl
  unfold k2_pay1
  simp only [maximumf_apply, addf_apply, mulf_apply, subf_apply, select_apply, cmpf_apply, broadcast_apply, broadcastTo_1b_ab_apply,
    shapeCast_self, rsqrt_apply, block_dot]
  rw [hrow]
  rfl

end Cert.KernelIdeal.Payload

end
-- ==== Proof.LayerArray.lean ====
/-
  From blocks to arrays: what each of the three regions leaves in its output array.

  A region's grid has twenty points; point t takes rows 1000·t … 1000·t + 999 of the node features and of the
  neighbour sums, the whole of the ten parameter arrays, and writes rows 1000·t … 1000·t + 999 of the output. What it
  writes is the layer of LayerSpec applied to each of its rows, so the output array, whose twenty row blocks the points
  cover, is the layer applied to every row of h + agg: one whole-array function of the buffers the region found.
-/
import proofs.«142629_j73753178406914_1_alg».proof.Proof.KernelRun
import proofs.«142629_j73753178406914_1_alg».proof.Proof.LayerPayload
import Idealize.ShloMosaic.Lib.Pipeline.Value

set_option maxRecDepth 16384

noncomputable section

open scoped BigOperators

namespace Cert.KernelIdeal.Layer

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.RowDot Cert.Dense Cert.Gin

theorem zeros2 : (![0, 0] : Fin 2 → Nat) = fun _ => 0 := funext fun a => by fin_cases a <;> rfl

/-- Row r of h + agg, as a function of the column. -/
def sumRow (h agg : (⟨2, ![20000, 512]⟩ : Shape).Idx → EReal) (r : Fin 20000) : Fin 512 → EReal :=
  fun l => h (ix2 r l) + agg (ix2 r l)

/-! ## Layer 1 -/

/-- What the body stores, at an entry of the block (the whole-buffer loads and the one whole-buffer store opened). -/
theorem out0_apply (xh xagg : Vec Ideal S1000x512 .f32) (xw1 : Vec Ideal S512x512 .f32) (xb1 : Vec Ideal S1x512 .f32)
    (xa1 : Vec Ideal S1x1 .f32) (xg xbeta xmean xvar : Vec Ideal S1x512 .f32) (xw2 : Vec Ideal S512x512 .f32)
    (xb2 : Vec Ideal S1x512 .f32) (xa2 : Vec Ideal S1x1 .f32) (p : Fin 1000) (q : Fin 512) :
    out0 (F := Ideal) xh xagg xw1 xb1 xa1 xg xbeta xmean xvar xw2 xb2 xa2 (ix2 p q)
      = layerRow (fun k => scaleK (biasRow xg k) (biasRow xvar k)) xw1 (biasRow xb1) (extractAt ![0, 0] xa1 inpos_S1x1_p0_0)
          (biasRow xbeta) (biasRow xmean) xw2 (biasRow xb2) (extractAt ![0, 0] xa2 inpos_S1x1_p0_0)
          (fun l => xh (ix2 p l) + xagg (ix2 p l)) q := by
  unfold out0
  rw [View.canon_unit_zero zeros2]
  simp only [View.ld_unit_zero (S := S1000x512) zeros2, View.ld_unit_zero (S := S512x512) zeros2,
    View.ld_unit_zero (S := S1x512) zeros2, View.ld_unit_zero (S := S1x1) zeros2]
  exact Payload.stored0_apply xh xagg xw1 xb1 xa1 xg xbeta xmean xvar xw2 xb2 xa2 p q

section
variable (V : (c : Dev nD) → (b : Ref sig .tc) → Buf (Elt Ideal) ((c : Thread nD τ).loc b))

/-- The layer's output array as one function of the buffers the region finds: row r is the layer applied to row r of
    h + agg, with the parameter rows and matrices the region's other ten windows hold. -/
def G0 (c : Dev nD) : S20000x512.Idx → EReal := fun i =>
  layerRow (fun k => scaleK (biasRow (V c (Pipeline.arrRef spec0 5) : S1x512.Idx → EReal) k) (biasRow (V c (Pipeline.arrRef spec0 8) : S1x512.Idx → EReal) k)) (V c (Pipeline.arrRef spec0 2) : S512x512.Idx → EReal) (biasRow (V c (Pipeline.arrRef spec0 3) : S1x512.Idx → EReal))
    (extractAt ![0, 0] (V c (Pipeline.arrRef spec0 4) : S1x1.Idx → EReal) inpos_S1x1_p0_0) (biasRow (V c (Pipeline.arrRef spec0 6) : S1x512.Idx → EReal)) (biasRow (V c (Pipeline.arrRef spec0 7) : S1x512.Idx → EReal)) (V c (Pipeline.arrRef spec0 9) : S512x512.Idx → EReal) (biasRow (V c (Pipeline.arrRef spec0 10) : S1x512.Idx → EReal))
    (extractAt ![0, 0] (V c (Pipeline.arrRef spec0 11) : S1x1.Idx → EReal) inpos_S1x1_p0_0)
    (sumRow (V c (Pipeline.arrRef spec0 0) : S20000x512.Idx → EReal) (V c (Pipeline.arrRef spec0 1) : S20000x512.Idx → EReal) (i 0)) (i 1)

/-! A resident window's block is its whole array at every point (its index map is constantly zero); a row-blocked
window's block at point t is rows 1000·t … 1000·t + 999 of its array. -/
theorem whole0_2 (c : Dev nD) (t : Fin cfg0.N) : (blk0 V c 2 t : Vec Ideal S512x512 .f32) = (V c (Pipeline.arrRef spec0 2) : S512x512.Idx → EReal) := by
  obtain ⟨e0, e1⟩ := (by decide +kernel : ∀ t : Fin grid0.N, win0_2.index t (0 : Fin 2) = 0 ∧ win0_2.index t (1 : Fin 2) = 0) t
  funext x
  unfold blk0
  rw [View.read_apply]
  show (V c (Pipeline.arrRef spec0 2) : S512x512.Idx → EReal) _ = (V c (Pipeline.arrRef spec0 2) : S512x512.Idx → EReal) x
  congr 1
  funext a
  apply Fin.ext
  match a with
  | ⟨0, _⟩ => show win0_2.index t (0 : Fin 2) * 512 + 1 * (x 0).val = (x 0).val; rw [e0]; omega
  | ⟨1, _⟩ => show win0_2.index t (1 : Fin 2) * 512 + 1 * (x 1).val = (x 1).val; rw [e1]; omega
theorem whole0_3 (c : Dev nD) (t : Fin cfg0.N) : (blk0 V c 3 t : Vec Ideal S1x512 .f32) = (V c (Pipeline.arrRef spec0 3) : S1x512.Idx → EReal) := by
  obtain ⟨e0, e1⟩ := (by decide +kernel : ∀ t : Fin grid0.N, win0_3.index t (0 : Fin 2) = 0 ∧ win0_3.index t (1 : Fin 2) = 0) t
  funext x
  unfold blk0
  rw [View.read_apply]
  show (V c (Pipeline.arrRef spec0 3) : S1x512.Idx → EReal) _ = (V c (Pipeline.arrRef spec0 3) : S1x512.Idx → EReal) x
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 512 + 1 * (x 1).val = (x 1).val; rw [e1]; omega
theorem whole0_4 (c : Dev nD) (t : Fin cfg0.N) : (blk0 V c 4 t : Vec Ideal S1x1 .f32) = (V c (Pipeline.arrRef spec0 4) : S1x1.Idx → EReal) := by
  obtain ⟨e0, e1⟩ := (by decide +kernel : ∀ t : Fin grid0.N, win0_4.index t (0 : Fin 2) = 0 ∧ win0_4.index t (1 : Fin 2) = 0) t
  funext x
  unfold blk0
  rw [View.read_apply]
  show (V c (Pipeline.arrRef spec0 4) : S1x1.Idx → EReal) _ = (V c (Pipeline.arrRef spec0 4) : S1x1.Idx → EReal) x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 1 + 1 * (x 1).val = (x 1).val; rw [e1]; omega
theorem whole0_5 (c : Dev nD) (t : Fin cfg0.N) : (blk0 V c 5 t : Vec Ideal S1x512 .f32) = (V c (Pipeline.arrRef spec0 5) : S1x512.Idx → EReal) := by
  obtain ⟨e0, e1⟩ := (by decide +kernel : ∀ t : Fin grid0.N, win0_5.index t (0 : Fin 2) = 0 ∧ win0_5.index t (1 : Fin 2) = 0) t
  funext x
  unfold blk0
  rw [View.read_apply]
  show (V c (Pipeline.arrRef spec0 5) : S1x512.Idx → EReal) _ = (V c (Pipeline.arrRef spec0 5) : S1x512.Idx → EReal) x
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 512 + 1 * (x 1).val = (x 1).val; rw [e1]; omega
theorem whole0_6 (c : Dev nD) (t : Fin cfg0.N) : (blk0 V c 6 t : Vec Ideal S1x512 .f32) = (V c (Pipeline.arrRef spec0 6) : S1x512.Idx → EReal) := by
  obtain ⟨e0, e1⟩ := (by decide +kernel : ∀ t : Fin grid0.N, win0_6.index t (0 : Fin 2) = 0 ∧ win0_6.index t (1 : Fin 2) = 0) t
  funext x
  unfold blk0
  rw [View.read_apply]
  show (V c (Pipeline.arrRef spec0 6) : S1x512.Idx → EReal) _ = (V c (Pipeline.arrRef spec0 6) : S1x512.Idx → EReal) x
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 512 + 1 * (x 1).val = (x 1).val; rw [e1]; omega
theorem whole0_7 (c : Dev nD) (t : Fin cfg0.N) : (blk0 V c 7 t : Vec Ideal S1x512 .f32) = (V c (Pipeline.arrRef spec0 7) : S1x512.Idx → EReal) := by
  obtain ⟨e0, e1⟩ := (by decide +kernel : ∀ t : Fin grid0.N, win0_7.index t (0 : Fin 2) = 0 ∧ win0_7.index t (1 : Fin 2) = 0) t
  funext x
  unfold blk0
  rw [View.read_apply]
  show (V c (Pipeline.arrRef spec0 7) : S1x512.Idx → EReal) _ = (V c (Pipeline.arrRef spec0 7) : S1x512.Idx → EReal) x
  congr 1
  funext a
  apply Fin.ext
  match a with
  | ⟨0, _⟩ => show win0_7.index t (0 : Fin 2) * 1 + 1 * (x 0).val = (x 0).val; rw [e0]; omega
  | ⟨1, _⟩ => show win0_7.index t (1 : Fin 2) * 512 + 1 * (x 1).val = (x 1).val; rw [e1]; omega
theorem whole0_8 (c : Dev nD) (t : Fin cfg0.N) : (blk0 V c 8 t : Vec Ideal S1x512 .f32) = (V c (Pipeline.arrRef spec0 8) : S1x512.Idx → EReal) := by
  obtain ⟨e0, e1⟩ := (by decide +kernel : ∀ t : Fin grid0.N, win0_8.index t (0 : Fin 2) = 0 ∧ win0_8.index t (1 : Fin 2) = 0) t
  funext x
  unfold blk0
  rw [View.read_apply]
  show (V c (Pipeline.arrRef spec0 8) : S1x512.Idx → EReal) _ = (V c (Pipeline.arrRef spec0 8) : S1x512.Idx → EReal) x
  congr 1
  funext a
  apply Fin.ext
  match a with
  | ⟨0, _⟩ => show win0_8.index t (0 : Fin 2) * 1 + 1 * (x 0).val = (x 0).val; rw [e0]; omega
  | ⟨1, _⟩ => show win0_8.index t (1 : Fin 2) * 512 + 1 * (x 1).val = (x 1).val; rw [e1]; omega
theorem whole0_9 (c : Dev nD) (t : Fin cfg0.N) : (blk0 V c 9 t : Vec Ideal S512x512 .f32) = (V c (Pipeline.arrRef spec0 9) : S512x512.Idx → EReal) := by
  obtain ⟨e0, e1⟩ := (by decide +kernel : ∀ t : Fin grid0.N, win0_9.index t (0 : Fin 2) = 0 ∧ win0_9.index t (1 : Fin 2) = 0) t
  funext x
  unfold blk0
  rw [View.read_apply]
  show (V c (Pipeline.arrRef spec0 9) : S512x512.Idx → EReal) _ = (V c (Pipeline.arrRef spec0 9) : S512x512.Idx → EReal) x
  congr 1
  funext a
  apply Fin.ext
  match a with
  | ⟨0, _⟩ => show win0_9.index t (0 : Fin 2) * 512 + 1 * (x 0).val = (x 0).val; rw [e0]; omega
  | ⟨1, _⟩ => show win0_9.index t (1 : Fin 2) * 512 + 1 * (x 1).val = (x 1).val; rw [e1]; omega
theorem whole0_10 (c : Dev nD) (t : Fin cfg0.N) : (blk0 V c 10 t : Vec Ideal S1x512 .f32) = (V c (Pipeline.arrRef spec0 10) : S1x512.Idx → EReal) := by
  obtain ⟨e0, e1⟩ := (by decide +kernel : ∀ t : Fin grid0.N, win0_10.index t (0 : Fin 2) = 0 ∧ win0_10.index t (1 : Fin 2) = 0) t
  funext x
  unfold blk0
  rw [View.read_apply]
  show (V c (Pipeline.arrRef spec0 10) : S1x512.Idx → EReal) _ = (V c (Pipeline.arrRef spec0 10) : S1x512.Idx → EReal) x
  congr 1
  funext a
  apply Fin.ext
  match a with
  | ⟨0, _⟩ => show win0_10.index t (0 : Fin 2) * 1 + 1 * (x 0).val = (x 0).val; rw [e0]; omega
  | ⟨1, _⟩ => show win0_10.index t (1 : Fin 2) * 512 + 1 * (x 1).val = (x 1).val; rw [e1]; omega
theorem whole0_11 (c : Dev nD) (t : Fin cfg0.N) : (blk0 V c 11 t : Vec Ideal S1x1 .f32) = (V c (Pipeline.arrRef spec0 11) : S1x1.Idx → EReal) := by
  obtain ⟨e0, e1⟩ := (by decide +kernel : ∀ t : Fin grid0.N, win0_11.index t (0 : Fin 2) = 0 ∧ win0_11.index t (1 : Fin 2) = 0) t
  funext x
  unfold blk0
  rw [View.read_apply]
  show (V c (Pipeline.arrRef spec0 11) : S1x1.Idx → EReal) _ = (V c (Pipeline.arrRef spec0 11) : S1x1.Idx → EReal) x
  congr 1
  funext a
  apply Fin.ext
  match a with
  | ⟨0, _⟩ => show win0_11.index t (0 : Fin 2) * 1 + 1 * (x 0).val = (x 0).val; rw [e0]; omega
  | ⟨1, _⟩ => show win0_11.index t (1 : Fin 2) * 1 + 1 * (x 1).val = (x 1).val; rw [e1]; omega
theorem rows0_0 (c : Dev nD) (t : Fin cfg0.N) (x : S1000x512.Idx) (i : S20000x512.Idx)
    (h0 : (i 0).val = 1000 * t.val + (x 0).val) (h1 : (i 1).val = (x 1).val) :
    (blk0 V c 0 t : Vec Ideal S1000x512 .f32) x = (V c (Pipeline.arrRef spec0 0) : S20000x512.Idx → EReal) i := by
  obtain ⟨e0, e1⟩ := (by decide +kernel : ∀ t : Fin grid0.N, win0_0.index t (0 : Fin 2) = t.val ∧ win0_0.index t (1 : Fin 2) = 0) t
  unfold blk0
  rw [View.read_apply]
  show (V c (Pipeline.arrRef spec0 0) : S20000x512.Idx → EReal) _ = (V c (Pipeline.arrRef spec0 0) : S20000x512.Idx → EReal) i
  congr 1
  funext a
  apply Fin.ext
  match a with
  | ⟨0, _⟩ => show win0_0.index t (0 : Fin 2) * 1000 + 1 * (x 0).val = (i 0).val; rw [e0, h0]; omega
  | ⟨1, _⟩ => show win0_0.index t (1 : Fin 2) * 512 + 1 * (x 1).val = (i 1).val; rw [e1, h1]; omega
theorem rows0_1 (c : Dev nD) (t : Fin cfg0.N) (x : S1000x512.Idx) (i : S20000x512.Idx)
    (h0 : (i 0).val = 1000 * t.val + (x 0).val) (h1 : (i 1).val = (x 1).val) :
    (blk0 V c 1 t : Vec Ideal S1000x512 .f32) x = (V c (Pipeline.arrRef spec0 1) : S20000x512.Idx → EReal) i := by
  obtain ⟨e0, e1⟩ := (by decide +kernel : ∀ t : Fin grid0.N, win0_1.index t (0 : Fin 2) = t.val ∧ win0_1.index t (1 : Fin 2) = 0) t
  unfold blk0
  rw [View.read_apply]
  show (V c (Pipeline.arrRef spec0 1) : S20000x512.Idx → EReal) _ = (V c (Pipeline.arrRef spec0 1) : S20000x512.Idx → EReal) i
  congr 1
  funext a
  apply Fin.ext
  match a with
  | ⟨0, _⟩ => show win0_1.index t (0 : Fin 2) * 1000 + 1 * (x 0).val = (i 0).val; rw [e0, h0]; omega
  | ⟨1, _⟩ => show win0_1.index t (1 : Fin 2) * 512 + 1 * (x 1).val = (i 1).val; rw [e1, h1]; omega

/-- An index of the output array lies in point t's block iff each coordinate is in the block's range on its axis. -/
theorem mem_out0 (t : Fin cfg0.N) (i : S20000x512.Idx) :
    i ∈ ((cfg0.win 12).blk t).view.set ↔ ∀ a : Fin 2, win0_12.index t a * S1000x512.size a ≤ (i a).val ∧ (i a).val < win0_12.index t a * S1000x512.size a + S1000x512.size a := by
  show i ∈ ((View.whole main_v42).slice (win0_12.rect t)).set ↔ _
  rw [View.set_slice_whole, Rect.mem_set_unit]
  exact Iff.rfl

set_option maxHeartbeats 1000000 in
/-- What point t writes back is block t of G. -/
theorem flushed0 (c : Dev nD) (t : Fin cfg0.N) :
    (dat0 V c).flushed 12 t = ((cfg0.win 12).blk t).view.read (Elt Ideal) (G0 V c) := by
  obtain ⟨e0, e1⟩ := (by decide +kernel : ∀ t : Fin grid0.N, win0_12.index t (0 : Fin 2) = t.val ∧ win0_12.index t (1 : Fin 2) = 0) t
  show (cfg0.win 12).cut (grid0.coords t) ((dat0 V c).after 12 t) = _
  rw [after0_12]
  funext j
  obtain ⟨p, q, rfl⟩ : ∃ (p : Fin 1000) (q : Fin 512), j = ix2 p q := ⟨j 0, j 1, eq_ix2 j⟩
  rw [View.read_apply]
  show out0 (F := Ideal) (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (ix2 p q) = G0 V c (((cfg0.win 12).blk t).view.emb (ix2 p q))
  refine (out0_apply (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) p q).trans ?_
  rw [whole0_2 V c t, whole0_3 V c t, whole0_4 V c t, whole0_5 V c t, whole0_6 V c t, whole0_7 V c t, whole0_8 V c t, whole0_9 V c t, whole0_10 V c t, whole0_11 V c t]
  have hr : ((((cfg0.win 12).blk t).view.emb (ix2 p q)) 0).val = 1000 * t.val + p.val := by
    show win0_12.index t (0 : Fin 2) * 1000 + 1 * p.val = _; rw [e0]; omega
  have hq : (((cfg0.win 12).blk t).view.emb (ix2 p q)) 1 = q := Fin.ext (by
    show win0_12.index t (1 : Fin 2) * 512 + 1 * q.val = _; rw [e1]; omega)
  unfold G0
  rw [hq]
  congr 1
  funext l
  exact congrArg₂ (fun a b : EReal => a + b)
    (rows0_0 V c t (ix2 p l) (ix2 ((((cfg0.win 12).blk t).view.emb (ix2 p q)) 0) l) hr rfl)
    (rows0_1 V c t (ix2 p l) (ix2 ((((cfg0.win 12).blk t).view.emb (ix2 p q)) 0) l) hr rfl)

/-- The twenty blocks of a thousand rows cover the array: row r is in the block of point r / 1000. -/
theorem covered0 (i : S20000x512.Idx) :
    ∃ t : Fin cfg0.N, (cfg0.win 12).flush t = true ∧ i ∈ ((cfg0.win 12).blk t).view.set := by
  have h0 : (i 0).val < 20000 := (i 0).isLt
  have h1 : (i 1).val < 512 := (i 1).isLt
  have hN : cfg0.N = 20 := N_0
  let t : Fin cfg0.N := ⟨(i 0).val / 1000, by rw [hN]; omega⟩
  obtain ⟨e0, e1⟩ := (by decide +kernel : ∀ t : Fin grid0.N, win0_12.index t (0 : Fin 2) = t.val ∧ win0_12.index t (1 : Fin 2) = 0) t
  refine ⟨t, flush0_12 t, ?_⟩
  rw [mem_out0]
  intro a
  match a with
  | ⟨0, _⟩ =>
    show win0_12.index t (0 : Fin 2) * 1000 ≤ (i 0).val ∧ (i 0).val < win0_12.index t (0 : Fin 2) * 1000 + 1000
    rw [e0]; show (i 0).val / 1000 * 1000 ≤ (i 0).val ∧ (i 0).val < (i 0).val / 1000 * 1000 + 1000; omega
  | ⟨1, _⟩ =>
    show win0_12.index t (1 : Fin 2) * 512 ≤ (i 1).val ∧ (i 1).val < win0_12.index t (1 : Fin 2) * 512 + 512
    rw [e1]; omega

/-- The output array after the region is G of the buffers the region found. -/
theorem left0 (c : Dev nD) : (dat0 V c).arrAt 12 cfg0.N = G0 V c :=
  (dat0 V c).arrAt_eq_of_cover 12 (G0 V c) (fun t _ => flushed0 V c t) covered0

end

/-! ## Layer 2 -/

/-- What the body stores, at an entry of the block (the whole-buffer loads and the one whole-buffer store opened). -/
theorem out1_apply (xh xagg : Vec Ideal S1000x512 .f32) (xw1 : Vec Ideal S512x512 .f32) (xb1 : Vec Ideal S1x512 .f32)
    (xa1 : Vec Ideal S1x1 .f32) (xg xbeta xmean xvar : Vec Ideal S1x512 .f32) (xw2 : Vec Ideal S512x512 .f32)
    (xb2 : Vec Ideal S1x512 .f32) (xa2 : Vec Ideal S1x1 .f32) (p : Fin 1000) (q : Fin 512) :
    out1 (F := Ideal) xh xagg xw1 xb1 xa1 xg xbeta xmean xvar xw2 xb2 xa2 (ix2 p q)
      = layerRow (fun k => scaleK (biasRow xg k) (biasRow xvar k)) xw1 (biasRow xb1) (extractAt ![0, 0] xa1 inpos_S1x1_p0_0)
          (biasRow xbeta) (biasRow xmean) xw2 (biasRow xb2) (extractAt ![0, 0] xa2 inpos_S1x1_p0_0)
          (fun l => xh (ix2 p l) + xagg (ix2 p l)) q := by
  unfold out1
  rw [View.canon_unit_zero zeros2]
  simp only [View.ld_unit_zero (S := S1000x512) zeros2, View.ld_unit_zero (S := S512x512) zeros2,
    View.ld_unit_zero (S := S1x512) zeros2, View.ld_unit_zero (S := S1x1) zeros2]
  exact Payload.stored1_apply xh xagg xw1 xb1 xa1 xg xbeta xmean xvar xw2 xb2 xa2 p q

section
variable (V : (c : Dev nD) → (b : Ref sig .tc) → Buf (Elt Ideal) ((c : Thread nD τ).loc b))

/-- The layer's output array as one function of the buffers the region finds: row r is the layer applied to row r of
    h + agg, with the parameter rows and matrices the region's other ten windows hold. -/
def G1 (c : Dev nD) : S20000x512.Idx → EReal := fun i =>
  layerRow (fun k => scaleK (biasRow (V c (Pipeline.arrRef spec1 5) : S1x512.Idx → EReal) k) (biasRow (V c (Pipeline.arrRef spec1 8) : S1x512.Idx → EReal) k)) (V c (Pipeline.arrRef spec1 2) : S512x512.Idx → EReal) (biasRow (V c (Pipeline.arrRef spec1 3) : S1x512.Idx → EReal))
    (extractAt ![0, 0] (V c (Pipeline.arrRef spec1 4) : S1x1.Idx → EReal) inpos_S1x1_p0_0) (biasRow (V c (Pipeline.arrRef spec1 6) : S1x512.Idx → EReal)) (biasRow (V c (Pipeline.arrRef spec1 7) : S1x512.Idx → EReal)) (V c (Pipeline.arrRef spec1 9) : S512x512.Idx → EReal) (biasRow (V c (Pipeline.arrRef spec1 10) : S1x512.Idx → EReal))
    (extractAt ![0, 0] (V c (Pipeline.arrRef spec1 11) : S1x1.Idx → EReal) inpos_S1x1_p0_0)
    (sumRow (V c (Pipeline.arrRef spec1 0) : S20000x512.Idx → EReal) (V c (Pipeline.arrRef spec1 1) : S20000x512.Idx → EReal) (i 0)) (i 1)

/-! A resident window's block is its whole array at every point (its index map is constantly zero); a row-blocked
window's block at point t is rows 1000·t … 1000·t + 999 of its array. -/
theorem whole1_2 (c : Dev nD) (t : Fin cfg1.N) : (blk1 V c 2 t : Vec Ideal S512x512 .f32) = (V c (Pipeline.arrRef spec1 2) : S512x512.Idx → EReal) := by
  obtain ⟨e0, e1⟩ := (by decide +kernel : ∀ t : Fin grid1.N, win1_2.index t (0 : Fin 2) = 0 ∧ win1_2.index t (1 : Fin 2) = 0) t
  funext x
  unfold blk1
  rw [View.read_apply]
  show (V c (Pipeline.arrRef spec1 2) : S512x512.Idx → EReal) _ = (V c (Pipeline.arrRef spec1 2) : S512x512.Idx → EReal) x
  congr 1
  funext a
  apply Fin.ext
  match a with
  | ⟨0, _⟩ => show win1_2.index t (0 : Fin 2) * 512 + 1 * (x 0).val = (x 0).val; rw [e0]; omega
  | ⟨1, _⟩ => show win1_2.index t (1 : Fin 2) * 512 + 1 * (x 1).val = (x 1).val; rw [e1]; omega
theorem whole1_3 (c : Dev nD) (t : Fin cfg1.N) : (blk1 V c 3 t : Vec Ideal S1x512 .f32) = (V c (Pipeline.arrRef spec1 3) : S1x512.Idx → EReal) := by
  obtain ⟨e0, e1⟩ := (by decide +kernel : ∀ t : Fin grid1.N, win1_3.index t (0 : Fin 2) = 0 ∧ win1_3.index t (1 : Fin 2) = 0) t
  funext x
  unfold blk1
  rw [View.read_apply]
  show (V c (Pipeline.arrRef spec1 3) : S1x512.Idx → EReal) _ = (V c (Pipeline.arrRef spec1 3) : S1x512.Idx → EReal) x
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 512 + 1 * (x 1).val = (x 1).val; rw [e1]; omega
theorem whole1_4 (c : Dev nD) (t : Fin cfg1.N) : (blk1 V c 4 t : Vec Ideal S1x1 .f32) = (V c (Pipeline.arrRef spec1 4) : S1x1.Idx → EReal) := by
  obtain ⟨e0, e1⟩ := (by decide +kernel : ∀ t : Fin grid1.N, win1_4.index t (0 : Fin 2) = 0 ∧ win1_4.index t (1 : Fin 2) = 0) t
  funext x
  unfold blk1
  rw [View.read_apply]
  show (V c (Pipeline.arrRef spec1 4) : S1x1.Idx → EReal) _ = (V c (Pipeline.arrRef spec1 4) : S1x1.Idx → EReal) x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 1 + 1 * (x 1).val = (x 1).val; rw [e1]; omega
theorem whole1_5 (c : Dev nD) (t : Fin cfg1.N) : (blk1 V c 5 t : Vec Ideal S1x512 .f32) = (V c (Pipeline.arrRef spec1 5) : S1x512.Idx → EReal) := by
  obtain ⟨e0, e1⟩ := (by decide +kernel : ∀ t : Fin grid1.N, win1_5.index t (0 : Fin 2) = 0 ∧ win1_5.index t (1 : Fin 2) = 0) t
  funext x
  unfold blk1
  rw [View.read_apply]
  show (V c (Pipeline.arrRef spec1 5) : S1x512.Idx → EReal) _ = (V c (Pipeline.arrRef spec1 5) : S1x512.Idx → EReal) x
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 512 + 1 * (x 1).val = (x 1).val; rw [e1]; omega
theorem whole1_6 (c : Dev nD) (t : Fin cfg1.N) : (blk1 V c 6 t : Vec Ideal S1x512 .f32) = (V c (Pipeline.arrRef spec1 6) : S1x512.Idx → EReal) := by
  obtain ⟨e0, e1⟩ := (by decide +kernel : ∀ t : Fin grid1.N, win1_6.index t (0 : Fin 2) = 0 ∧ win1_6.index t (1 : Fin 2) = 0) t
  funext x
  unfold blk1
  rw [View.read_apply]
  show (V c (Pipeline.arrRef spec1 6) : S1x512.Idx → EReal) _ = (V c (Pipeline.arrRef spec1 6) : S1x512.Idx → EReal) x
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 512 + 1 * (x 1).val = (x 1).val; rw [e1]; omega
theorem whole1_7 (c : Dev nD) (t : Fin cfg1.N) : (blk1 V c 7 t : Vec Ideal S1x512 .f32) = (V c (Pipeline.arrRef spec1 7) : S1x512.Idx → EReal) := by
  obtain ⟨e0, e1⟩ := (by decide +kernel : ∀ t : Fin grid1.N, win1_7.index t (0 : Fin 2) = 0 ∧ win1_7.index t (1 : Fin 2) = 0) t
  funext x
  unfold blk1
  rw [View.read_apply]
  show (V c (Pipeline.arrRef spec1 7) : S1x512.Idx → EReal) _ = (V c (Pipeline.arrRef spec1 7) : S1x512.Idx → EReal) x
  congr 1
  funext a
  apply Fin.ext
  match a with
  | ⟨0, _⟩ => show win1_7.index t (0 : Fin 2) * 1 + 1 * (x 0).val = (x 0).val; rw [e0]; omega
  | ⟨1, _⟩ => show win1_7.index t (1 : Fin 2) * 512 + 1 * (x 1).val = (x 1).val; rw [e1]; omega
theorem whole1_8 (c : Dev nD) (t : Fin cfg1.N) : (blk1 V c 8 t : Vec Ideal S1x512 .f32) = (V c (Pipeline.arrRef spec1 8) : S1x512.Idx → EReal) := by
  obtain ⟨e0, e1⟩ := (by decide +kernel : ∀ t : Fin grid1.N, win1_8.index t (0 : Fin 2) = 0 ∧ win1_8.index t (1 : Fin 2) = 0) t
  funext x
  unfold blk1
  rw [View.read_apply]
  show (V c (Pipeline.arrRef spec1 8) : S1x512.Idx → EReal) _ = (V c (Pipeline.arrRef spec1 8) : S1x512.Idx → EReal) x
  congr 1
  funext a
  apply Fin.ext
  match a with
  | ⟨0, _⟩ => show win1_8.index t (0 : Fin 2) * 1 + 1 * (x 0).val = (x 0).val; rw [e0]; omega
  | ⟨1, _⟩ => show win1_8.index t (1 : Fin 2) * 512 + 1 * (x 1).val = (x 1).val; rw [e1]; omega
theorem whole1_9 (c : Dev nD) (t : Fin cfg1.N) : (blk1 V c 9 t : Vec Ideal S512x512 .f32) = (V c (Pipeline.arrRef spec1 9) : S512x512.Idx → EReal) := by
  obtain ⟨e0, e1⟩ := (by decide +kernel : ∀ t : Fin grid1.N, win1_9.index t (0 : Fin 2) = 0 ∧ win1_9.index t (1 : Fin 2) = 0) t
  funext x
  unfold blk1
  rw [View.read_apply]
  show (V c (Pipeline.arrRef spec1 9) : S512x512.Idx → EReal) _ = (V c (Pipeline.arrRef spec1 9) : S512x512.Idx → EReal) x
  congr 1
  funext a
  apply Fin.ext
  match a with
  | ⟨0, _⟩ => show win1_9.index t (0 : Fin 2) * 512 + 1 * (x 0).val = (x 0).val; rw [e0]; omega
  | ⟨1, _⟩ => show win1_9.index t (1 : Fin 2) * 512 + 1 * (x 1).val = (x 1).val; rw [e1]; omega
theorem whole1_10 (c : Dev nD) (t : Fin cfg1.N) : (blk1 V c 10 t : Vec Ideal S1x512 .f32) = (V c (Pipeline.arrRef spec1 10) : S1x512.Idx → EReal) := by
  obtain ⟨e0, e1⟩ := (by decide +kernel : ∀ t : Fin grid1.N, win1_10.index t (0 : Fin 2) = 0 ∧ win1_10.index t (1 : Fin 2) = 0) t
  funext x
  unfold blk1
  rw [View.read_apply]
  show (V c (Pipeline.arrRef spec1 10) : S1x512.Idx → EReal) _ = (V c (Pipeline.arrRef spec1 10) : S1x512.Idx → EReal) x
  congr 1
  funext a
  apply Fin.ext
  match a with
  | ⟨0, _⟩ => show win1_10.index t (0 : Fin 2) * 1 + 1 * (x 0).val = (x 0).val; rw [e0]; omega
  | ⟨1, _⟩ => show win1_10.index t (1 : Fin 2) * 512 + 1 * (x 1).val = (x 1).val; rw [e1]; omega
theorem whole1_11 (c : Dev nD) (t : Fin cfg1.N) : (blk1 V c 11 t : Vec Ideal S1x1 .f32) = (V c (Pipeline.arrRef spec1 11) : S1x1.Idx → EReal) := by
  obtain ⟨e0, e1⟩ := (by decide +kernel : ∀ t : Fin grid1.N, win1_11.index t (0 : Fin 2) = 0 ∧ win1_11.index t (1 : Fin 2) = 0) t
  funext x
  unfold blk1
  rw [View.read_apply]
  show (V c (Pipeline.arrRef spec1 11) : S1x1.Idx → EReal) _ = (V c (Pipeline.arrRef spec1 11) : S1x1.Idx → EReal) x
  congr 1
  funext a
  apply Fin.ext
  match a with
  | ⟨0, _⟩ => show win1_11.index t (0 : Fin 2) * 1 + 1 * (x 0).val = (x 0).val; rw [e0]; omega
  | ⟨1, _⟩ => show win1_11.index t (1 : Fin 2) * 1 + 1 * (x 1).val = (x 1).val; rw [e1]; omega
theorem rows1_0 (c : Dev nD) (t : Fin cfg1.N) (x : S1000x512.Idx) (i : S20000x512.Idx)
    (h0 : (i 0).val = 1000 * t.val + (x 0).val) (h1 : (i 1).val = (x 1).val) :
    (blk1 V c 0 t : Vec Ideal S1000x512 .f32) x = (V c (Pipeline.arrRef spec1 0) : S20000x512.Idx → EReal) i := by
  obtain ⟨e0, e1⟩ := (by decide +kernel : ∀ t : Fin grid1.N, win1_0.index t (0 : Fin 2) = t.val ∧ win1_0.index t (1 : Fin 2) = 0) t
  unfold blk1
  rw [View.read_apply]
  show (V c (Pipeline.arrRef spec1 0) : S20000x512.Idx → EReal) _ = (V c (Pipeline.arrRef spec1 0) : S20000x512.Idx → EReal) i
  congr 1
  funext a
  apply Fin.ext
  match a with
  | ⟨0, _⟩ => show win1_0.index t (0 : Fin 2) * 1000 + 1 * (x 0).val = (i 0).val; rw [e0, h0]; omega
  | ⟨1, _⟩ => show win1_0.index t (1 : Fin 2) * 512 + 1 * (x 1).val = (i 1).val; rw [e1, h1]; omega
theorem rows1_1 (c : Dev nD) (t : Fin cfg1.N) (x : S1000x512.Idx) (i : S20000x512.Idx)
    (h0 : (i 0).val = 1000 * t.val + (x 0).val) (h1 : (i 1).val = (x 1).val) :
    (blk1 V c 1 t : Vec Ideal S1000x512 .f32) x = (V c (Pipeline.arrRef spec1 1) : S20000x512.Idx → EReal) i := by
  obtain ⟨e0, e1⟩ := (by decide +kernel : ∀ t : Fin grid1.N, win1_1.index t (0 : Fin 2) = t.val ∧ win1_1.index t (1 : Fin 2) = 0) t
  unfold blk1
  rw [View.read_apply]
  show (V c (Pipeline.arrRef spec1 1) : S20000x512.Idx → EReal) _ = (V c (Pipeline.arrRef spec1 1) : S20000x512.Idx → EReal) i
  congr 1
  funext a
  apply Fin.ext
  match a with
  | ⟨0, _⟩ => show win1_1.index t (0 : Fin 2) * 1000 + 1 * (x 0).val = (i 0).val; rw [e0, h0]; omega
  | ⟨1, _⟩ => show win1_1.index t (1 : Fin 2) * 512 + 1 * (x 1).val = (i 1).val; rw [e1, h1]; omega

/-- An index of the output array lies in point t's block iff each coordinate is in the block's range on its axis. -/
theorem mem_out1 (t : Fin cfg1.N) (i : S20000x512.Idx) :
    i ∈ ((cfg1.win 12).blk t).view.set ↔ ∀ a : Fin 2, win1_12.index t a * S1000x512.size a ≤ (i a).val ∧ (i a).val < win1_12.index t a * S1000x512.size a + S1000x512.size a := by
  show i ∈ ((View.whole main_v81).slice (win1_12.rect t)).set ↔ _
  rw [View.set_slice_whole, Rect.mem_set_unit]
  exact Iff.rfl

set_option maxHeartbeats 1000000 in
/-- What point t writes back is block t of G. -/
theorem flushed1 (c : Dev nD) (t : Fin cfg1.N) :
    (dat1 V c).flushed 12 t = ((cfg1.win 12).blk t).view.read (Elt Ideal) (G1 V c) := by
  obtain ⟨e0, e1⟩ := (by decide +kernel : ∀ t : Fin grid1.N, win1_12.index t (0 : Fin 2) = t.val ∧ win1_12.index t (1 : Fin 2) = 0) t
  show (cfg1.win 12).cut (grid1.coords t) ((dat1 V c).after 12 t) = _
  rw [after1_12]
  funext j
  obtain ⟨p, q, rfl⟩ : ∃ (p : Fin 1000) (q : Fin 512), j = ix2 p q := ⟨j 0, j 1, eq_ix2 j⟩
  rw [View.read_apply]
  show out1 (F := Ideal) (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (ix2 p q) = G1 V c (((cfg1.win 12).blk t).view.emb (ix2 p q))
  refine (out1_apply (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) p q).trans ?_
  rw [whole1_2 V c t, whole1_3 V c t, whole1_4 V c t, whole1_5 V c t, whole1_6 V c t, whole1_7 V c t, whole1_8 V c t, whole1_9 V c t, whole1_10 V c t, whole1_11 V c t]
  have hr : ((((cfg1.win 12).blk t).view.emb (ix2 p q)) 0).val = 1000 * t.val + p.val := by
    show win1_12.index t (0 : Fin 2) * 1000 + 1 * p.val = _; rw [e0]; omega
  have hq : (((cfg1.win 12).blk t).view.emb (ix2 p q)) 1 = q := Fin.ext (by
    show win1_12.index t (1 : Fin 2) * 512 + 1 * q.val = _; rw [e1]; omega)
  unfold G1
  rw [hq]
  congr 1
  funext l
  exact congrArg₂ (fun a b : EReal => a + b)
    (rows1_0 V c t (ix2 p l) (ix2 ((((cfg1.win 12).blk t).view.emb (ix2 p q)) 0) l) hr rfl)
    (rows1_1 V c t (ix2 p l) (ix2 ((((cfg1.win 12).blk t).view.emb (ix2 p q)) 0) l) hr rfl)

/-- The twenty blocks of a thousand rows cover the array: row r is in the block of point r / 1000. -/
theorem covered1 (i : S20000x512.Idx) :
    ∃ t : Fin cfg1.N, (cfg1.win 12).flush t = true ∧ i ∈ ((cfg1.win 12).blk t).view.set := by
  have h0 : (i 0).val < 20000 := (i 0).isLt
  have h1 : (i 1).val < 512 := (i 1).isLt
  have hN : cfg1.N = 20 := N_1
  let t : Fin cfg1.N := ⟨(i 0).val / 1000, by rw [hN]; omega⟩
  obtain ⟨e0, e1⟩ := (by decide +kernel : ∀ t : Fin grid1.N, win1_12.index t (0 : Fin 2) = t.val ∧ win1_12.index t (1 : Fin 2) = 0) t
  refine ⟨t, flush1_12 t, ?_⟩
  rw [mem_out1]
  intro a
  match a with
  | ⟨0, _⟩ =>
    show win1_12.index t (0 : Fin 2) * 1000 ≤ (i 0).val ∧ (i 0).val < win1_12.index t (0 : Fin 2) * 1000 + 1000
    rw [e0]; show (i 0).val / 1000 * 1000 ≤ (i 0).val ∧ (i 0).val < (i 0).val / 1000 * 1000 + 1000; omega
  | ⟨1, _⟩ =>
    show win1_12.index t (1 : Fin 2) * 512 ≤ (i 1).val ∧ (i 1).val < win1_12.index t (1 : Fin 2) * 512 + 512
    rw [e1]; omega

/-- The output array after the region is G of the buffers the region found. -/
theorem left1 (c : Dev nD) : (dat1 V c).arrAt 12 cfg1.N = G1 V c :=
  (dat1 V c).arrAt_eq_of_cover 12 (G1 V c) (fun t _ => flushed1 V c t) covered1

end

/-! ## Layer 3 -/

/-- What the body stores, at an entry of the block (the whole-buffer loads and the one whole-buffer store opened). -/
theorem out2_apply (xh xagg : Vec Ideal S1000x512 .f32) (xw1 : Vec Ideal S512x512 .f32) (xb1 : Vec Ideal S1x512 .f32)
    (xa1 : Vec Ideal S1x1 .f32) (xg xbeta xmean xvar : Vec Ideal S1x512 .f32) (xw2 : Vec Ideal S512x512 .f32)
    (xb2 : Vec Ideal S1x512 .f32) (xa2 : Vec Ideal S1x1 .f32) (p : Fin 1000) (q : Fin 512) :
    out2 (F := Ideal) xh xagg xw1 xb1 xa1 xg xbeta xmean xvar xw2 xb2 xa2 (ix2 p q)
      = layerRow (fun k => scaleK (biasRow xg k) (biasRow xvar k)) xw1 (biasRow xb1) (extractAt ![0, 0] xa1 inpos_S1x1_p0_0)
          (biasRow xbeta) (biasRow xmean) xw2 (biasRow xb2) (extractAt ![0, 0] xa2 inpos_S1x1_p0_0)
          (fun l => xh (ix2 p l) + xagg (ix2 p l)) q := by
  unfold out2
  rw [View.canon_unit_zero zeros2]
  simp only [View.ld_unit_zero (S := S1000x512) zeros2, View.ld_unit_zero (S := S512x512) zeros2,
    View.ld_unit_zero (S := S1x512) zeros2, View.ld_unit_zero (S := S1x1) zeros2]
  exact Payload.stored2_apply xh xagg xw1 xb1 xa1 xg xbeta xmean xvar xw2 xb2 xa2 p q

section
variable (V : (c : Dev nD) → (b : Ref sig .tc) → Buf (Elt Ideal) ((c : Thread nD τ).loc b))

/-- The layer's output array as one function of the buffers the region finds: row r is the layer applied to row r of
    h + agg, with the parameter rows and matrices the region's other ten windows hold. -/
def G2 (c : Dev nD) : S20000x512.Idx → EReal := fun i =>
  layerRow (fun k => scaleK (biasRow (V c (Pipeline.arrRef spec2 5) : S1x512.Idx → EReal) k) (biasRow (V c (Pipeline.arrRef spec2 8) : S1x512.Idx → EReal) k)) (V c (Pipeline.arrRef spec2 2) : S512x512.Idx → EReal) (biasRow (V c (Pipeline.arrRef spec2 3) : S1x512.Idx → EReal))
    (extractAt ![0, 0] (V c (Pipeline.arrRef spec2 4) : S1x1.Idx → EReal) inpos_S1x1_p0_0) (biasRow (V c (Pipeline.arrRef spec2 6) : S1x512.Idx → EReal)) (biasRow (V c (Pipeline.arrRef spec2 7) : S1x512.Idx → EReal)) (V c (Pipeline.arrRef spec2 9) : S512x512.Idx → EReal) (biasRow (V c (Pipeline.arrRef spec2 10) : S1x512.Idx → EReal))
    (extractAt ![0, 0] (V c (Pipeline.arrRef spec2 11) : S1x1.Idx → EReal) inpos_S1x1_p0_0)
    (sumRow (V c (Pipeline.arrRef spec2 0) : S20000x512.Idx → EReal) (V c (Pipeline.arrRef spec2 1) : S20000x512.Idx → EReal) (i 0)) (i 1)

/-! A resident window's block is its whole array at every point (its index map is constantly zero); a row-blocked
window's block at point t is rows 1000·t … 1000·t + 999 of its array. -/
theorem whole2_2 (c : Dev nD) (t : Fin cfg2.N) : (blk2 V c 2 t : Vec Ideal S512x512 .f32) = (V c (Pipeline.arrRef spec2 2) : S512x512.Idx → EReal) := by
  obtain ⟨e0, e1⟩ := (by decide +kernel : ∀ t : Fin grid2.N, win2_2.index t (0 : Fin 2) = 0 ∧ win2_2.index t (1 : Fin 2) = 0) t
  funext x
  unfold blk2
  rw [View.read_apply]
  show (V c (Pipeline.arrRef spec2 2) : S512x512.Idx → EReal) _ = (V c (Pipeline.arrRef spec2 2) : S512x512.Idx → EReal) x
  congr 1
  funext a
  apply Fin.ext
  match a with
  | ⟨0, _⟩ => show win2_2.index t (0 : Fin 2) * 512 + 1 * (x 0).val = (x 0).val; rw [e0]; omega
  | ⟨1, _⟩ => show win2_2.index t (1 : Fin 2) * 512 + 1 * (x 1).val = (x 1).val; rw [e1]; omega
theorem whole2_3 (c : Dev nD) (t : Fin cfg2.N) : (blk2 V c 3 t : Vec Ideal S1x512 .f32) = (V c (Pipeline.arrRef spec2 3) : S1x512.Idx → EReal) := by
  obtain ⟨e0, e1⟩ := (by decide +kernel : ∀ t : Fin grid2.N, win2_3.index t (0 : Fin 2) = 0 ∧ win2_3.index t (1 : Fin 2) = 0) t
  funext x
  unfold blk2
  rw [View.read_apply]
  show (V c (Pipeline.arrRef spec2 3) : S1x512.Idx → EReal) _ = (V c (Pipeline.arrRef spec2 3) : S1x512.Idx → EReal) x
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 512 + 1 * (x 1).val = (x 1).val; rw [e1]; omega
theorem whole2_4 (c : Dev nD) (t : Fin cfg2.N) : (blk2 V c 4 t : Vec Ideal S1x1 .f32) = (V c (Pipeline.arrRef spec2 4) : S1x1.Idx → EReal) := by
  obtain ⟨e0, e1⟩ := (by decide +kernel : ∀ t : Fin grid2.N, win2_4.index t (0 : Fin 2) = 0 ∧ win2_4.index t (1 : Fin 2) = 0) t
  funext x
  unfold blk2
  rw [View.read_apply]
  show (V c (Pipeline.arrRef spec2 4) : S1x1.Idx → EReal) _ = (V c (Pipeline.arrRef spec2 4) : S1x1.Idx → EReal) x
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 1 + 1 * (x 1).val = (x 1).val; rw [e1]; omega
theorem whole2_5 (c : Dev nD) (t : Fin cfg2.N) : (blk2 V c 5 t : Vec Ideal S1x512 .f32) = (V c (Pipeline.arrRef spec2 5) : S1x512.Idx → EReal) := by
  obtain ⟨e0, e1⟩ := (by decide +kernel : ∀ t : Fin grid2.N, win2_5.index t (0 : Fin 2) = 0 ∧ win2_5.index t (1 : Fin 2) = 0) t
  funext x
  unfold blk2
  rw [View.read_apply]
  show (V c (Pipeline.arrRef spec2 5) : S1x512.Idx → EReal) _ = (V c (Pipeline.arrRef spec2 5) : S1x512.Idx → EReal) x
  congr 1
  funext a
  apply Fin.ext
  match a with
  | ⟨0, _⟩ => show win2_5.index t (0 : Fin 2) * 1 + 1 * (x 0).val = (x 0).val; rw [e0]; omega
  | ⟨1, _⟩ => show win2_5.index t (1 : Fin 2) * 512 + 1 * (x 1).val = (x 1).val; rw [e1]; omega
theorem whole2_6 (c : Dev nD) (t : Fin cfg2.N) : (blk2 V c 6 t : Vec Ideal S1x512 .f32) = (V c (Pipeline.arrRef spec2 6) : S1x512.Idx → EReal) := by
  obtain ⟨e0, e1⟩ := (by decide +kernel : ∀ t : Fin grid2.N, win2_6.index t (0 : Fin 2) = 0 ∧ win2_6.index t (1 : Fin 2) = 0) t
  funext x
  unfold blk2
  rw [View.read_apply]
  show (V c (Pipeline.arrRef spec2 6) : S1x512.Idx → EReal) _ = (V c (Pipeline.arrRef spec2 6) : S1x512.Idx → EReal) x
  congr 1
  funext a
  apply Fin.ext
  match a with
  | ⟨0, _⟩ => show win2_6.index t (0 : Fin 2) * 1 + 1 * (x 0).val = (x 0).val; rw [e0]; omega
  | ⟨1, _⟩ => show win2_6.index t (1 : Fin 2) * 512 + 1 * (x 1).val = (x 1).val; rw [e1]; omega
theorem whole2_7 (c : Dev nD) (t : Fin cfg2.N) : (blk2 V c 7 t : Vec Ideal S1x512 .f32) = (V c (Pipeline.arrRef spec2 7) : S1x512.Idx → EReal) := by
  obtain ⟨e0, e1⟩ := (by decide +kernel : ∀ t : Fin grid2.N, win2_7.index t (0 : Fin 2) = 0 ∧ win2_7.index t (1 : Fin 2) = 0) t
  funext x
  unfold blk2
  rw [View.read_apply]
  show (V c (Pipeline.arrRef spec2 7) : S1x512.Idx → EReal) _ = (V c (Pipeline.arrRef spec2 7) : S1x512.Idx → EReal) x
  congr 1
  funext a
  apply Fin.ext
  match a with
  | ⟨0, _⟩ => show win2_7.index t (0 : Fin 2) * 1 + 1 * (x 0).val = (x 0).val; rw [e0]; omega
  | ⟨1, _⟩ => show win2_7.index t (1 : Fin 2) * 512 + 1 * (x 1).val = (x 1).val; rw [e1]; omega
theorem whole2_8 (c : Dev nD) (t : Fin cfg2.N) : (blk2 V c 8 t : Vec Ideal S1x512 .f32) = (V c (Pipeline.arrRef spec2 8) : S1x512.Idx → EReal) := by
  obtain ⟨e0, e1⟩ := (by decide +kernel : ∀ t : Fin grid2.N, win2_8.index t (0 : Fin 2) = 0 ∧ win2_8.index t (1 : Fin 2) = 0) t
  funext x
  unfold blk2
  rw [View.read_apply]
  show (V c (Pipeline.arrRef spec2 8) : S1x512.Idx → EReal) _ = (V c (Pipeline.arrRef spec2 8) : S1x512.Idx → EReal) x
  congr 1
  funext a
  apply Fin.ext
  match a with
  | ⟨0, _⟩ => show win2_8.index t (0 : Fin 2) * 1 + 1 * (x 0).val = (x 0).val; rw [e0]; omega
  | ⟨1, _⟩ => show win2_8.index t (1 : Fin 2) * 512 + 1 * (x 1).val = (x 1).val; rw [e1]; omega
theorem whole2_9 (c : Dev nD) (t : Fin cfg2.N) : (blk2 V c 9 t : Vec Ideal S512x512 .f32) = (V c (Pipeline.arrRef spec2 9) : S512x512.Idx → EReal) := by
  obtain ⟨e0, e1⟩ := (by decide +kernel : ∀ t : Fin grid2.N, win2_9.index t (0 : Fin 2) = 0 ∧ win2_9.index t (1 : Fin 2) = 0) t
  funext x
  unfold blk2
  rw [View.read_apply]
  show (V c (Pipeline.arrRef spec2 9) : S512x512.Idx → EReal) _ = (V c (Pipeline.arrRef spec2 9) : S512x512.Idx → EReal) x
  congr 1
  funext a
  apply Fin.ext
  match a with
  | ⟨0, _⟩ => show win2_9.index t (0 : Fin 2) * 512 + 1 * (x 0).val = (x 0).val; rw [e0]; omega
  | ⟨1, _⟩ => show win2_9.index t (1 : Fin 2) * 512 + 1 * (x 1).val = (x 1).val; rw [e1]; omega
theorem whole2_10 (c : Dev nD) (t : Fin cfg2.N) : (blk2 V c 10 t : Vec Ideal S1x512 .f32) = (V c (Pipeline.arrRef spec2 10) : S1x512.Idx → EReal) := by
  obtain ⟨e0, e1⟩ := (by decide +kernel : ∀ t : Fin grid2.N, win2_10.index t (0 : Fin 2) = 0 ∧ win2_10.index t (1 : Fin 2) = 0) t
  funext x
  unfold blk2
  rw [View.read_apply]
  show (V c (Pipeline.arrRef spec2 10) : S1x512.Idx → EReal) _ = (V c (Pipeline.arrRef spec2 10) : S1x512.Idx → EReal) x
  congr 1
  funext a
  apply Fin.ext
  match a with
  | ⟨0, _⟩ => show win2_10.index t (0 : Fin 2) * 1 + 1 * (x 0).val = (x 0).val; rw [e0]; omega
  | ⟨1, _⟩ => show win2_10.index t (1 : Fin 2) * 512 + 1 * (x 1).val = (x 1).val; rw [e1]; omega
theorem whole2_11 (c : Dev nD) (t : Fin cfg2.N) : (blk2 V c 11 t : Vec Ideal S1x1 .f32) = (V c (Pipeline.arrRef spec2 11) : S1x1.Idx → EReal) := by
  obtain ⟨e0, e1⟩ := (by decide +kernel : ∀ t : Fin grid2.N, win2_11.index t (0 : Fin 2) = 0 ∧ win2_11.index t (1 : Fin 2) = 0) t
  funext x
  unfold blk2
  rw [View.read_apply]
  show (V c (Pipeline.arrRef spec2 11) : S1x1.Idx → EReal) _ = (V c (Pipeline.arrRef spec2 11) : S1x1.Idx → EReal) x
  congr 1
  funext a
  apply Fin.ext
  match a with
  | ⟨0, _⟩ => show win2_11.index t (0 : Fin 2) * 1 + 1 * (x 0).val = (x 0).val; rw [e0]; omega
  | ⟨1, _⟩ => show win2_11.index t (1 : Fin 2) * 1 + 1 * (x 1).val = (x 1).val; rw [e1]; omega
theorem rows2_0 (c : Dev nD) (t : Fin cfg2.N) (x : S1000x512.Idx) (i : S20000x512.Idx)
    (h0 : (i 0).val = 1000 * t.val + (x 0).val) (h1 : (i 1).val = (x 1).val) :
    (blk2 V c 0 t : Vec Ideal S1000x512 .f32) x = (V c (Pipeline.arrRef spec2 0) : S20000x512.Idx → EReal) i := by
  obtain ⟨e0, e1⟩ := (by decide +kernel : ∀ t : Fin grid2.N, win2_0.index t (0 : Fin 2) = t.val ∧ win2_0.index t (1 : Fin 2) = 0) t
  unfold blk2
  rw [View.read_apply]
  show (V c (Pipeline.arrRef spec2 0) : S20000x512.Idx → EReal) _ = (V c (Pipeline.arrRef spec2 0) : S20000x512.Idx → EReal) i
  congr 1
  funext a
  apply Fin.ext
  match a with
  | ⟨0, _⟩ => show win2_0.index t (0 : Fin 2) * 1000 + 1 * (x 0).val = (i 0).val; rw [e0, h0]; omega
  | ⟨1, _⟩ => show win2_0.index t (1 : Fin 2) * 512 + 1 * (x 1).val = (i 1).val; rw [e1, h1]; omega
theorem rows2_1 (c : Dev nD) (t : Fin cfg2.N) (x : S1000x512.Idx) (i : S20000x512.Idx)
    (h0 : (i 0).val = 1000 * t.val + (x 0).val) (h1 : (i 1).val = (x 1).val) :
    (blk2 V c 1 t : Vec Ideal S1000x512 .f32) x = (V c (Pipeline.arrRef spec2 1) : S20000x512.Idx → EReal) i := by
  obtain ⟨e0, e1⟩ := (by decide +kernel : ∀ t : Fin grid2.N, win2_1.index t (0 : Fin 2) = t.val ∧ win2_1.index t (1 : Fin 2) = 0) t
  unfold blk2
  rw [View.read_apply]
  show (V c (Pipeline.arrRef spec2 1) : S20000x512.Idx → EReal) _ = (V c (Pipeline.arrRef spec2 1) : S20000x512.Idx → EReal) i
  congr 1
  funext a
  apply Fin.ext
  match a with
  | ⟨0, _⟩ => show win2_1.index t (0 : Fin 2) * 1000 + 1 * (x 0).val = (i 0).val; rw [e0, h0]; omega
  | ⟨1, _⟩ => show win2_1.index t (1 : Fin 2) * 512 + 1 * (x 1).val = (i 1).val; rw [e1, h1]; omega

/-- An index of the output array lies in point t's block iff each coordinate is in the block's range on its axis. -/
theorem mem_out2 (t : Fin cfg2.N) (i : S20000x512.Idx) :
    i ∈ ((cfg2.win 12).blk t).view.set ↔ ∀ a : Fin 2, win2_12.index t a * S1000x512.size a ≤ (i a).val ∧ (i a).val < win2_12.index t a * S1000x512.size a + S1000x512.size a := by
  show i ∈ ((View.whole main_v120).slice (win2_12.rect t)).set ↔ _
  rw [View.set_slice_whole, Rect.mem_set_unit]
  exact Iff.rfl

set_option maxHeartbeats 1000000 in
/-- What point t writes back is block t of G. -/
theorem flushed2 (c : Dev nD) (t : Fin cfg2.N) :
    (dat2 V c).flushed 12 t = ((cfg2.win 12).blk t).view.read (Elt Ideal) (G2 V c) := by
  obtain ⟨e0, e1⟩ := (by decide +kernel : ∀ t : Fin grid2.N, win2_12.index t (0 : Fin 2) = t.val ∧ win2_12.index t (1 : Fin 2) = 0) t
  show (cfg2.win 12).cut (grid2.coords t) ((dat2 V c).after 12 t) = _
  rw [after2_12]
  funext j
  obtain ⟨p, q, rfl⟩ : ∃ (p : Fin 1000) (q : Fin 512), j = ix2 p q := ⟨j 0, j 1, eq_ix2 j⟩
  rw [View.read_apply]
  show out2 (F := Ideal) (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (ix2 p q) = G2 V c (((cfg2.win 12).blk t).view.emb (ix2 p q))
  refine (out2_apply (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) p q).trans ?_
  rw [whole2_2 V c t, whole2_3 V c t, whole2_4 V c t, whole2_5 V c t, whole2_6 V c t, whole2_7 V c t, whole2_8 V c t, whole2_9 V c t, whole2_10 V c t, whole2_11 V c t]
  have hr : ((((cfg2.win 12).blk t).view.emb (ix2 p q)) 0).val = 1000 * t.val + p.val := by
    show win2_12.index t (0 : Fin 2) * 1000 + 1 * p.val = _; rw [e0]; omega
  have hq : (((cfg2.win 12).blk t).view.emb (ix2 p q)) 1 = q := Fin.ext (by
    show win2_12.index t (1 : Fin 2) * 512 + 1 * q.val = _; rw [e1]; omega)
  unfold G2
  rw [hq]
  congr 1
  funext l
  exact congrArg₂ (fun a b : EReal => a + b)
    (rows2_0 V c t (ix2 p l) (ix2 ((((cfg2.win 12).blk t).view.emb (ix2 p q)) 0) l) hr rfl)
    (rows2_1 V c t (ix2 p l) (ix2 ((((cfg2.win 12).blk t).view.emb (ix2 p q)) 0) l) hr rfl)

/-- The twenty blocks of a thousand rows cover the array: row r is in the block of point r / 1000. -/
theorem covered2 (i : S20000x512.Idx) :
    ∃ t : Fin cfg2.N, (cfg2.win 12).flush t = true ∧ i ∈ ((cfg2.win 12).blk t).view.set := by
  have h0 : (i 0).val < 20000 := (i 0).isLt
  have h1 : (i 1).val < 512 := (i 1).isLt
  have hN : cfg2.N = 20 := N_2
  let t : Fin cfg2.N := ⟨(i 0).val / 1000, by rw [hN]; omega⟩
  obtain ⟨e0, e1⟩ := (by decide +kernel : ∀ t : Fin grid2.N, win2_12.index t (0 : Fin 2) = t.val ∧ win2_12.index t (1 : Fin 2) = 0) t
  refine ⟨t, flush2_12 t, ?_⟩
  rw [mem_out2]
  intro a
  match a with
  | ⟨0, _⟩ =>
    show win2_12.index t (0 : Fin 2) * 1000 ≤ (i 0).val ∧ (i 0).val < win2_12.index t (0 : Fin 2) * 1000 + 1000
    rw [e0]; show (i 0).val / 1000 * 1000 ≤ (i 0).val ∧ (i 0).val < (i 0).val / 1000 * 1000 + 1000; omega
  | ⟨1, _⟩ =>
    show win2_12.index t (1 : Fin 2) * 512 ≤ (i 1).val ∧ (i 1).val < win2_12.index t (1 : Fin 2) * 512 + 512
    rw [e1]; omega

/-- The output array after the region is G of the buffers the region found. -/
theorem left2 (c : Dev nD) : (dat2 V c).arrAt 12 cfg2.N = G2 V c :=
  (dat2 V c).arrAt_eq_of_cover 12 (G2 V c) (fun t _ => flushed2 V c t) covered2

end

end Cert.KernelIdeal.Layer

end
-- ==== Proof.KernelGlue.lean ====
/-
  The contents of the buffers between the kernel program's items, as explicit terms of the launch contents.

  Before each layer's region a stretch of host operations prepares the region's operands: the sum over each node's
  incoming edges of the source nodes' feature rows (a gather along the edge list's source row, then a scatter-add along
  its destination row, into zeros), and the layer's slices of the stacked parameter arrays (the layer's [512, 512]
  matrix out of a [3, 512, 512] stack, its [1, 512] row out of a [3, 512] stack, its [1, 1] scalar out of a [3] stack).
  Each such operand is read off the stretch's operations, composed; an array no operation of a stretch writes is
  what it was before the stretch, and a region changes its output array only.
-/
import proofs.«142629_j73753178406914_1_alg».proof.Proof.KernelKeeps
import Idealize.ShloMosaic.PureOps.Ideal
import Idealize.ShloMosaic.PureOps.Ideal.Laws
import Idealize.ShloMosaic.Lib.IdealHost

set_option maxRecDepth 16384

noncomputable section

namespace Cert.KernelIdeal.Layer

open Cert.KernelIdeal Cert.KernelIdeal.Gen
open Idealize.ShloMosaic Idealize.ShloMosaic.TcCoe
open Idealize.SL Idealize.SL.Sem
open Idealize.ShloMosaic.Pipeline (Dat)

variable (m : (ℓ : Loc nD τ sig) → Buf (Elt Ideal) ℓ) (c : Dev nD)

/-! ## The launch contents of the arguments -/

/-- Node features. -/
abbrev arg0 : S20000x512.Idx → EReal := m ((c : Thread nD τ).loc main_arg0)
/-- The edge list: row 0 the source nodes, row 1 the destination nodes. -/
abbrev arg1 : S2x320000.Idx → BitVec 32 := m ((c : Thread nD τ).loc main_arg1)
/-- Each node's graph. -/
abbrev arg2 : S20000.Idx → BitVec 32 := m ((c : Thread nD τ).loc main_arg2)
abbrev arg3 : S400x8.Idx → EReal := m ((c : Thread nD τ).loc main_arg3)
abbrev arg4 : S400x50x50.Idx → EReal := m ((c : Thread nD τ).loc main_arg4)
/-- The layers' stacked parameters. -/
abbrev arg5 : S3x512x512.Idx → EReal := m ((c : Thread nD τ).loc main_arg5)
abbrev arg6 : S3x512.Idx → EReal := m ((c : Thread nD τ).loc main_arg6)
abbrev arg7 : S3.Idx → EReal := m ((c : Thread nD τ).loc main_arg7)
abbrev arg8 : S3x512.Idx → EReal := m ((c : Thread nD τ).loc main_arg8)
abbrev arg9 : S3x512.Idx → EReal := m ((c : Thread nD τ).loc main_arg9)
abbrev arg10 : S3x512.Idx → EReal := m ((c : Thread nD τ).loc main_arg10)
abbrev arg11 : S3x512.Idx → EReal := m ((c : Thread nD τ).loc main_arg11)
abbrev arg12 : S3x512x512.Idx → EReal := m ((c : Thread nD τ).loc main_arg12)
abbrev arg13 : S3x512.Idx → EReal := m ((c : Thread nD τ).loc main_arg13)
abbrev arg14 : S3.Idx → EReal := m ((c : Thread nD τ).loc main_arg14)
/-- The head's parameters. -/
abbrev arg15 : S3020x256.Idx → EReal := m ((c : Thread nD τ).loc main_arg15)
abbrev arg16 : S256.Idx → EReal := m ((c : Thread nD τ).loc main_arg16)
abbrev arg17 : S256x1.Idx → EReal := m ((c : Thread nD τ).loc main_arg17)
abbrev arg18 : S1.Idx → EReal := m ((c : Thread nD τ).loc main_arg18)

/-! ## The edge list's two rows, and the sum over incoming edges -/

/-- The source node of each edge: row 0 of the edge list. -/
abbrev edgeSrc : S320000.Idx → BitVec 32 :=
  shapeCast S320000 (extractStridedSlice S1x320000 ![0, 0] (arg1 m c) slices_S2x320000_S1x320000_0_0) shapeCasts_S1x320000_S320000
/-- The destination node of each edge: row 1 of the edge list. -/
abbrev edgeDst : S320000.Idx → BitVec 32 :=
  shapeCast S320000 (extractStridedSlice S1x320000 ![1, 0] (arg1 m c) slices_S2x320000_S1x320000_1_0) shapeCasts_S1x320000_S320000

/-- The sum, into each node's row, of the rows of h at the sources of the edges that end at the node: h gathered at
    the source indices (a negative index counted from the end, 20000 added to it), scatter-added at the destination
    indices into zeros. -/
abbrev aggWith (src dst : S320000.Idx → BitVec 32) (h : S20000x512.Idx → EReal) : S20000x512.Idx → EReal :=
  Host.scatterAdd scatter_S20000x512_S320000x1_S320000x512_1_0_0_1
    (broadcastInDim S20000x512 ![] bcast_S_S20000x512 (constant (F := Ideal) S_ .f32 0x00000000#32))
    (broadcastInDim S320000x1 ![0] bcast_S320000_S320000x1_0 dst)
    (Host.gather gather_S20000x512_S320000x1_S320000x512_1_0_n_n_0_1_1512 h
      (broadcastInDim S320000x1 ![0] bcast_S320000_S320000x1_0
        (select (cmpi .slt src (broadcastInDim S320000 ![] bcast_S_S320000 (constantI S_ 32 0#32)))
          (addi src (broadcastInDim S320000 ![] bcast_S_S320000 (constantI S_ 32 20000#32))) src)))
/-- The same along the launch's edge list. -/
abbrev aggOf (h : S20000x512.Idx → EReal) : S20000x512.Idx → EReal := aggWith (edgeSrc m c) (edgeDst m c) h

/-! ## After the first stretch -/

/-- No operation of the first stretch writes the node features. -/
theorem B1_arg0 : (B1 m c (Proc.devRef .tc main_arg0) : S20000x512.Idx → EReal) = arg0 m c :=
  (StableHlo.after_of_writes_sub hostOps0 _ hostOps0_writes (r := main_arg0) (by decide)).trans rfl

theorem B1_v1 : (B1 m c (Proc.devRef .tc main_v1) : S320000.Idx → BitVec 32) = edgeSrc m c := by
  show StableHlo.after hostOps0 (B0 m c) (Proc.devRef .tc main_v1) = _
  after_results_simp; rfl
theorem B1_v3 : (B1 m c (Proc.devRef .tc main_v3) : S320000.Idx → BitVec 32) = edgeDst m c := by
  show StableHlo.after hostOps0 (B0 m c) (Proc.devRef .tc main_v3) = _
  after_results_simp; rfl

/-- The first layer's neighbour sums: of the node features. -/
theorem B1_v13 : (B1 m c (Proc.devRef .tc main_v13) : S20000x512.Idx → EReal) = aggOf m c (arg0 m c) := by
  show StableHlo.after hostOps0 (B0 m c) (Proc.devRef .tc main_v13) = _
  after_results_simp; rfl

/-- W₁ of layer 0. -/
theorem B1_v15 : (B1 m c (Proc.devRef .tc main_v15) : S512x512.Idx → EReal)
    = shapeCast S512x512 (extractStridedSlice S1x512x512 ![0, 0, 0] (arg5 m c) slices_S3x512x512_S1x512x512_0_0_0) shapeCasts_S1x512x512_S512x512 := by
  show StableHlo.after hostOps0 (B0 m c) (Proc.devRef .tc main_v15) = _
  after_results_simp; rfl
/-- b₁ of layer 0, as a row. -/
theorem B1_v34 : (B1 m c (Proc.devRef .tc main_v34) : S1x512.Idx → EReal)
    = shapeCast S1x512 (shapeCast S512 (extractStridedSlice S1x512 ![0, 0] (arg6 m c) slices_S3x512_S1x512_0_0) shapeCasts_S1x512_S512) shapeCasts_S512_S1x512 := by
  show StableHlo.after hostOps0 (B0 m c) (Proc.devRef .tc main_v34) = _
  after_results_simp; rfl
/-- a₁ of layer 0. -/
theorem B1_v40 : (B1 m c (Proc.devRef .tc main_v40) : S1x1.Idx → EReal)
    = shapeCast S1x1 (shapeCast S_ (extractStridedSlice S1 ![0] (arg7 m c) slices_S3_S1_0) shapeCasts_S1_S_) shapeCasts_S_S1x1 := by
  show StableHlo.after hostOps0 (B0 m c) (Proc.devRef .tc main_v40) = _
  after_results_simp; rfl
/-- γ of layer 0, as a row. -/
theorem B1_v35 : (B1 m c (Proc.devRef .tc main_v35) : S1x512.Idx → EReal)
    = shapeCast S1x512 (shapeCast S512 (extractStridedSlice S1x512 ![0, 0] (arg8 m c) slices_S3x512_S1x512_0_0) shapeCasts_S1x512_S512) shapeCasts_S512_S1x512 := by
  show StableHlo.after hostOps0 (B0 m c) (Proc.devRef .tc main_v35) = _
  after_results_simp; rfl
/-- β of layer 0, as a row. -/
theorem B1_v36 : (B1 m c (Proc.devRef .tc main_v36) : S1x512.Idx → EReal)
    = shapeCast S1x512 (shapeCast S512 (extractStridedSlice S1x512 ![0, 0] (arg9 m c) slices_S3x512_S1x512_0_0) shapeCasts_S1x512_S512) shapeCasts_S512_S1x512 := by
  show StableHlo.after hostOps0 (B0 m c) (Proc.devRef .tc main_v36) = _
  after_results_simp; rfl
/-- μ of layer 0, as a row. -/
theorem B1_v37 : (B1 m c (Proc.devRef .tc main_v37) : S1x512.Idx → EReal)
    = shapeCast S1x512 (shapeCast S512 (extractStridedSlice S1x512 ![0, 0] (arg10 m c) slices_S3x512_S1x512_0_0) shapeCasts_S1x512_S512) shapeCasts_S512_S1x512 := by
  show StableHlo.after hostOps0 (B0 m c) (Proc.devRef .tc main_v37) = _
  after_results_simp; rfl
/-- σ² of layer 0, as a row. -/
theorem B1_v38 : (B1 m c (Proc.devRef .tc main_v38) : S1x512.Idx → EReal)
    = shapeCast S1x512 (shapeCast S512 (extractStridedSlice S1x512 ![0, 0] (arg11 m c) slices_S3x512_S1x512_0_0) shapeCasts_S1x512_S512) shapeCasts_S512_S1x512 := by
  show StableHlo.after hostOps0 (B0 m c) (Proc.devRef .tc main_v38) = _
  after_results_simp; rfl
/-- W₂ of layer 0. -/
theorem B1_v29 : (B1 m c (Proc.devRef .tc main_v29) : S512x512.Idx → EReal)
    = shapeCast S512x512 (extractStridedSlice S1x512x512 ![0, 0, 0] (arg12 m c) slices_S3x512x512_S1x512x512_0_0_0) shapeCasts_S1x512x512_S512x512 := by
  show StableHlo.after hostOps0 (B0 m c) (Proc.devRef .tc main_v29) = _
  after_results_simp; rfl
/-- b₂ of layer 0, as a row. -/
theorem B1_v39 : (B1 m c (Proc.devRef .tc main_v39) : S1x512.Idx → EReal)
    = shapeCast S1x512 (shapeCast S512 (extractStridedSlice S1x512 ![0, 0] (arg13 m c) slices_S3x512_S1x512_0_0) shapeCasts_S1x512_S512) shapeCasts_S512_S1x512 := by
  show StableHlo.after hostOps0 (B0 m c) (Proc.devRef .tc main_v39) = _
  after_results_simp; rfl
/-- a₂ of layer 0. -/
theorem B1_v41 : (B1 m c (Proc.devRef .tc main_v41) : S1x1.Idx → EReal)
    = shapeCast S1x1 (shapeCast S_ (extractStridedSlice S1 ![0] (arg14 m c) slices_S3_S1_0) shapeCasts_S1_S_) shapeCasts_S_S1x1 := by
  show StableHlo.after hostOps0 (B0 m c) (Proc.devRef .tc main_v41) = _
  after_results_simp; rfl

/-! ## What the earlier items leave alone

An argument is written by no host operation and is the output array of no region; the two rows of the edge list, cut
out by the first stretch, are written by nothing after it. -/

/-- After the first region: a buffer the first stretch does not write and the region has no window on. -/
theorem B2_launch (r : Ref sig .tc) (h0 : r ∉ hostOps0_W) (w0 : ∀ w, Pipeline.arrRef spec0 w ≠ r) :
    B2 m c (Proc.devRef .tc r) = m ((c : Thread nD τ).loc r) :=
  (B2_of_ne m c r w0).trans ((StableHlo.after_of_writes_sub hostOps0 _ hostOps0_writes h0).trans rfl)
/-- After the second region. -/
theorem B4_launch (r : Ref sig .tc) (h0 : r ∉ hostOps0_W) (w0 : ∀ w, Pipeline.arrRef spec0 w ≠ r)
    (h1 : r ∉ hostOps1_W) (w1 : ∀ w, Pipeline.arrRef spec1 w ≠ r) :
    B4 m c (Proc.devRef .tc r) = m ((c : Thread nD τ).loc r) :=
  (B4_of_ne m c r w1).trans ((StableHlo.after_of_writes_sub hostOps1 _ hostOps1_writes h1).trans (B2_launch m c r h0 w0))
/-- After the third region. -/
theorem B6_launch (r : Ref sig .tc) (h0 : r ∉ hostOps0_W) (w0 : ∀ w, Pipeline.arrRef spec0 w ≠ r)
    (h1 : r ∉ hostOps1_W) (w1 : ∀ w, Pipeline.arrRef spec1 w ≠ r)
    (h2 : r ∉ hostOps2_W) (w2 : ∀ w, Pipeline.arrRef spec2 w ≠ r) :
    B6 m c (Proc.devRef .tc r) = m ((c : Thread nD τ).loc r) :=
  (B6_of_ne m c r w2).trans ((StableHlo.after_of_writes_sub hostOps2 _ hostOps2_writes h2).trans (B4_launch m c r h0 w0 h1 w1))
theorem B2_arg5 : (B2 m c (Proc.devRef .tc main_arg5) : S3x512x512.Idx → EReal) = arg5 m c :=
  B2_launch m c main_arg5 (by decide) (by decide)
theorem B4_arg5 : (B4 m c (Proc.devRef .tc main_arg5) : S3x512x512.Idx → EReal) = arg5 m c :=
  B4_launch m c main_arg5 (by decide) (by decide) (by decide) (by decide)
theorem B2_arg6 : (B2 m c (Proc.devRef .tc main_arg6) : S3x512.Idx → EReal) = arg6 m c :=
  B2_launch m c main_arg6 (by decide) (by decide)
theorem B4_arg6 : (B4 m c (Proc.devRef .tc main_arg6) : S3x512.Idx → EReal) = arg6 m c :=
  B4_launch m c main_arg6 (by decide) (by decide) (by decide) (by decide)
theorem B2_arg7 : (B2 m c (Proc.devRef .tc main_arg7) : S3.Idx → EReal) = arg7 m c :=
  B2_launch m c main_arg7 (by decide) (by decide)
theorem B4_arg7 : (B4 m c (Proc.devRef .tc main_arg7) : S3.Idx → EReal) = arg7 m c :=
  B4_launch m c main_arg7 (by decide) (by decide) (by decide) (by decide)
theorem B2_arg8 : (B2 m c (Proc.devRef .tc main_arg8) : S3x512.Idx → EReal) = arg8 m c :=
  B2_launch m c main_arg8 (by decide) (by decide)
theorem B4_arg8 : (B4 m c (Proc.devRef .tc main_arg8) : S3x512.Idx → EReal) = arg8 m c :=
  B4_launch m c main_arg8 (by decide) (by decide) (by decide) (by decide)
theorem B2_arg9 : (B2 m c (Proc.devRef .tc main_arg9) : S3x512.Idx → EReal) = arg9 m c :=
  B2_launch m c main_arg9 (by decide) (by decide)
theorem B4_arg9 : (B4 m c (Proc.devRef .tc main_arg9) : S3x512.Idx → EReal) = arg9 m c :=
  B4_launch m c main_arg9 (by decide) (by decide) (by decide) (by decide)
theorem B2_arg10 : (B2 m c (Proc.devRef .tc main_arg10) : S3x512.Idx → EReal) = arg10 m c :=
  B2_launch m c main_arg10 (by decide) (by decide)
theorem B4_arg10 : (B4 m c (Proc.devRef .tc main_arg10) : S3x512.Idx → EReal) = arg10 m c :=
  B4_launch m c main_arg10 (by decide) (by decide) (by decide) (by decide)
theorem B2_arg11 : (B2 m c (Proc.devRef .tc main_arg11) : S3x512.Idx → EReal) = arg11 m c :=
  B2_launch m c main_arg11 (by decide) (by decide)
theorem B4_arg11 : (B4 m c (Proc.devRef .tc main_arg11) : S3x512.Idx → EReal) = arg11 m c :=
  B4_launch m c main_arg11 (by decide) (by decide) (by decide) (by decide)
theorem B2_arg12 : (B2 m c (Proc.devRef .tc main_arg12) : S3x512x512.Idx → EReal) = arg12 m c :=
  B2_launch m c main_arg12 (by decide) (by decide)
theorem B4_arg12 : (B4 m c (Proc.devRef .tc main_arg12) : S3x512x512.Idx → EReal) = arg12 m c :=
  B4_launch m c main_arg12 (by decide) (by decide) (by decide) (by decide)
theorem B2_arg13 : (B2 m c (Proc.devRef .tc main_arg13) : S3x512.Idx → EReal) = arg13 m c :=
  B2_launch m c main_arg13 (by decide) (by decide)
theorem B4_arg13 : (B4 m c (Proc.devRef .tc main_arg13) : S3x512.Idx → EReal) = arg13 m c :=
  B4_launch m c main_arg13 (by decide) (by decide) (by decide) (by decide)
theorem B2_arg14 : (B2 m c (Proc.devRef .tc main_arg14) : S3.Idx → EReal) = arg14 m c :=
  B2_launch m c main_arg14 (by decide) (by decide)
theorem B4_arg14 : (B4 m c (Proc.devRef .tc main_arg14) : S3.Idx → EReal) = arg14 m c :=
  B4_launch m c main_arg14 (by decide) (by decide) (by decide) (by decide)

/-- The edge list's rows after the first region, and after the second. -/
theorem B2_v1 : (B2 m c (Proc.devRef .tc main_v1) : S320000.Idx → BitVec 32) = edgeSrc m c :=
  (B2_of_ne m c main_v1 (by decide)).trans (B1_v1 m c)
theorem B2_v3 : (B2 m c (Proc.devRef .tc main_v3) : S320000.Idx → BitVec 32) = edgeDst m c :=
  (B2_of_ne m c main_v3 (by decide)).trans (B1_v3 m c)
theorem B4_v1 : (B4 m c (Proc.devRef .tc main_v1) : S320000.Idx → BitVec 32) = edgeSrc m c :=
  (B4_of_ne m c main_v1 (by decide)).trans
    ((StableHlo.after_of_writes_sub hostOps1 _ hostOps1_writes (r := main_v1) (by decide)).trans (B2_v1 m c))
theorem B4_v3 : (B4 m c (Proc.devRef .tc main_v3) : S320000.Idx → BitVec 32) = edgeDst m c :=
  (B4_of_ne m c main_v3 (by decide)).trans
    ((StableHlo.after_of_writes_sub hostOps1 _ hostOps1_writes (r := main_v3) (by decide)).trans (B2_v3 m c))

/-! ## After the second stretch -/

/-- The stretch does not write the previous layer's output. -/
theorem B3_v42 : (B3 m c (Proc.devRef .tc main_v42) : S20000x512.Idx → EReal) = B2 m c (Proc.devRef .tc main_v42) :=
  StableHlo.after_of_writes_sub hostOps1 _ hostOps1_writes (r := main_v42) (by decide)
/-- The layer's neighbour sums: of the previous layer's output. -/
theorem B3_v52 : (B3 m c (Proc.devRef .tc main_v52) : S20000x512.Idx → EReal)
    = aggOf m c (B2 m c (Proc.devRef .tc main_v42)) := by
  show StableHlo.after hostOps1 (B2 m c) (Proc.devRef .tc main_v52) = _
  after_results_simp
  rw [B2_v1 m c, B2_v3 m c]
/-- W₁ of layer 1. -/
theorem B3_v54 : (B3 m c (Proc.devRef .tc main_v54) : S512x512.Idx → EReal)
    = shapeCast S512x512 (extractStridedSlice S1x512x512 ![1, 0, 0] (arg5 m c) slices_S3x512x512_S1x512x512_1_0_0) shapeCasts_S1x512x512_S512x512 := by
  show StableHlo.after hostOps1 (B2 m c) (Proc.devRef .tc main_v54) = _
  after_results_simp
  rw [B2_arg5 m c]; rfl
/-- b₁ of layer 1, as a row. -/
theorem B3_v73 : (B3 m c (Proc.devRef .tc main_v73) : S1x512.Idx → EReal)
    = shapeCast S1x512 (shapeCast S512 (extractStridedSlice S1x512 ![1, 0] (arg6 m c) slices_S3x512_S1x512_1_0) shapeCasts_S1x512_S512) shapeCasts_S512_S1x512 := by
  show StableHlo.after hostOps1 (B2 m c) (Proc.devRef .tc main_v73) = _
  after_results_simp
  rw [B2_arg6 m c]; rfl
/-- a₁ of layer 1. -/
theorem B3_v79 : (B3 m c (Proc.devRef .tc main_v79) : S1x1.Idx → EReal)
    = shapeCast S1x1 (shapeCast S_ (extractStridedSlice S1 ![1] (arg7 m c) slices_S3_S1_1) shapeCasts_S1_S_) shapeCasts_S_S1x1 := by
  show StableHlo.after hostOps1 (B2 m c) (Proc.devRef .tc main_v79) = _
  after_results_simp
  rw [B2_arg7 m c]; rfl
/-- γ of layer 1, as a row. -/
theorem B3_v74 : (B3 m c (Proc.devRef .tc main_v74) : S1x512.Idx → EReal)
    = shapeCast S1x512 (shapeCast S512 (extractStridedSlice S1x512 ![1, 0] (arg8 m c) slices_S3x512_S1x512_1_0) shapeCasts_S1x512_S512) shapeCasts_S512_S1x512 := by
  show StableHlo.after hostOps1 (B2 m c) (Proc.devRef .tc main_v74) = _
  after_results_simp
  rw [B2_arg8 m c]; rfl
/-- β of layer 1, as a row. -/
theorem B3_v75 : (B3 m c (Proc.devRef .tc main_v75) : S1x512.Idx → EReal)
    = shapeCast S1x512 (shapeCast S512 (extractStridedSlice S1x512 ![1, 0] (arg9 m c) slices_S3x512_S1x512_1_0) shapeCasts_S1x512_S512) shapeCasts_S512_S1x512 := by
  show StableHlo.after hostOps1 (B2 m c) (Proc.devRef .tc main_v75) = _
  after_results_simp
  rw [B2_arg9 m c]; rfl
/-- μ of layer 1, as a row. -/
theorem B3_v76 : (B3 m c (Proc.devRef .tc main_v76) : S1x512.Idx → EReal)
    = shapeCast S1x512 (shapeCast S512 (extractStridedSlice S1x512 ![1, 0] (arg10 m c) slices_S3x512_S1x512_1_0) shapeCasts_S1x512_S512) shapeCasts_S512_S1x512 := by
  show StableHlo.after hostOps1 (B2 m c) (Proc.devRef .tc main_v76) = _
  after_results_simp
  rw [B2_arg10 m c]; rfl
/-- σ² of layer 1, as a row. -/
theorem B3_v77 : (B3 m c (Proc.devRef .tc main_v77) : S1x512.Idx → EReal)
    = shapeCast S1x512 (shapeCast S512 (extractStridedSlice S1x512 ![1, 0] (arg11 m c) slices_S3x512_S1x512_1_0) shapeCasts_S1x512_S512) shapeCasts_S512_S1x512 := by
  show StableHlo.after hostOps1 (B2 m c) (Proc.devRef .tc main_v77) = _
  after_results_simp
  rw [B2_arg11 m c]; rfl
/-- W₂ of layer 1. -/
theorem B3_v68 : (B3 m c (Proc.devRef .tc main_v68) : S512x512.Idx → EReal)
    = shapeCast S512x512 (extractStridedSlice S1x512x512 ![1, 0, 0] (arg12 m c) slices_S3x512x512_S1x512x512_1_0_0) shapeCasts_S1x512x512_S512x512 := by
  show StableHlo.after hostOps1 (B2 m c) (Proc.devRef .tc main_v68) = _
  after_results_simp
  rw [B2_arg12 m c]; rfl
/-- b₂ of layer 1, as a row. -/
theorem B3_v78 : (B3 m c (Proc.devRef .tc main_v78) : S1x512.Idx → EReal)
    = shapeCast S1x512 (shapeCast S512 (extractStridedSlice S1x512 ![1, 0] (arg13 m c) slices_S3x512_S1x512_1_0) shapeCasts_S1x512_S512) shapeCasts_S512_S1x512 := by
  show StableHlo.after hostOps1 (B2 m c) (Proc.devRef .tc main_v78) = _
  after_results_simp
  rw [B2_arg13 m c]; rfl
/-- a₂ of layer 1. -/
theorem B3_v80 : (B3 m c (Proc.devRef .tc main_v80) : S1x1.Idx → EReal)
    = shapeCast S1x1 (shapeCast S_ (extractStridedSlice S1 ![1] (arg14 m c) slices_S3_S1_1) shapeCasts_S1_S_) shapeCasts_S_S1x1 := by
  show StableHlo.after hostOps1 (B2 m c) (Proc.devRef .tc main_v80) = _
  after_results_simp
  rw [B2_arg14 m c]; rfl

/-! ## After the third stretch -/

/-- The stretch does not write the previous layer's output. -/
theorem B5_v81 : (B5 m c (Proc.devRef .tc main_v81) : S20000x512.Idx → EReal) = B4 m c (Proc.devRef .tc main_v81) :=
  StableHlo.after_of_writes_sub hostOps2 _ hostOps2_writes (r := main_v81) (by decide)
/-- The layer's neighbour sums: of the previous layer's output. -/
theorem B5_v91 : (B5 m c (Proc.devRef .tc main_v91) : S20000x512.Idx → EReal)
    = aggOf m c (B4 m c (Proc.devRef .tc main_v81)) := by
  show StableHlo.after hostOps2 (B4 m c) (Proc.devRef .tc main_v91) = _
  after_results_simp
  rw [B4_v1 m c, B4_v3 m c]
/-- W₁ of layer 2. -/
theorem B5_v93 : (B5 m c (Proc.devRef .tc main_v93) : S512x512.Idx → EReal)
    = shapeCast S512x512 (extractStridedSlice S1x512x512 ![2, 0, 0] (arg5 m c) slices_S3x512x512_S1x512x512_2_0_0) shapeCasts_S1x512x512_S512x512 := by
  show StableHlo.after hostOps2 (B4 m c) (Proc.devRef .tc main_v93) = _
  after_results_simp
  rw [B4_arg5 m c]; rfl
/-- b₁ of layer 2, as a row. -/
theorem B5_v112 : (B5 m c (Proc.devRef .tc main_v112) : S1x512.Idx → EReal)
    = shapeCast S1x512 (shapeCast S512 (extractStridedSlice S1x512 ![2, 0] (arg6 m c) slices_S3x512_S1x512_2_0) shapeCasts_S1x512_S512) shapeCasts_S512_S1x512 := by
  show StableHlo.after hostOps2 (B4 m c) (Proc.devRef .tc main_v112) = _
  after_results_simp
  rw [B4_arg6 m c]; rfl
/-- a₁ of layer 2. -/
theorem B5_v118 : (B5 m c (Proc.devRef .tc main_v118) : S1x1.Idx → EReal)
    = shapeCast S1x1 (shapeCast S_ (extractStridedSlice S1 ![2] (arg7 m c) slices_S3_S1_2) shapeCasts_S1_S_) shapeCasts_S_S1x1 := by
  show StableHlo.after hostOps2 (B4 m c) (Proc.devRef .tc main_v118) = _
  after_results_simp
  rw [B4_arg7 m c]; rfl
/-- γ of layer 2, as a row. -/
theorem B5_v113 : (B5 m c (Proc.devRef .tc main_v113) : S1x512.Idx → EReal)
    = shapeCast S1x512 (shapeCast S512 (extractStridedSlice S1x512 ![2, 0] (arg8 m c) slices_S3x512_S1x512_2_0) shapeCasts_S1x512_S512) shapeCasts_S512_S1x512 := by
  show StableHlo.after hostOps2 (B4 m c) (Proc.devRef .tc main_v113) = _
  after_results_simp
  rw [B4_arg8 m c]; rfl
/-- β of layer 2, as a row. -/
theorem B5_v114 : (B5 m c (Proc.devRef .tc main_v114) : S1x512.Idx → EReal)
    = shapeCast S1x512 (shapeCast S512 (extractStridedSlice S1x512 ![2, 0] (arg9 m c) slices_S3x512_S1x512_2_0) shapeCasts_S1x512_S512) shapeCasts_S512_S1x512 := by
  show StableHlo.after hostOps2 (B4 m c) (Proc.devRef .tc main_v114) = _
  after_results_simp
  rw [B4_arg9 m c]; rfl
/-- μ of layer 2, as a row. -/
theorem B5_v115 : (B5 m c (Proc.devRef .tc main_v115) : S1x512.Idx → EReal)
    = shapeCast S1x512 (shapeCast S512 (extractStridedSlice S1x512 ![2, 0] (arg10 m c) slices_S3x512_S1x512_2_0) shapeCasts_S1x512_S512) shapeCasts_S512_S1x512 := by
  show StableHlo.after hostOps2 (B4 m c) (Proc.devRef .tc main_v115) = _
  after_results_simp
  rw [B4_arg10 m c]; rfl
/-- σ² of layer 2, as a row. -/
theorem B5_v116 : (B5 m c (Proc.devRef .tc main_v116) : S1x512.Idx → EReal)
    = shapeCast S1x512 (shapeCast S512 (extractStridedSlice S1x512 ![2, 0] (arg11 m c) slices_S3x512_S1x512_2_0) shapeCasts_S1x512_S512) shapeCasts_S512_S1x512 := by
  show StableHlo.after hostOps2 (B4 m c) (Proc.devRef .tc main_v116) = _
  after_results_simp
  rw [B4_arg11 m c]; rfl
/-- W₂ of layer 2. -/
theorem B5_v107 : (B5 m c (Proc.devRef .tc main_v107) : S512x512.Idx → EReal)
    = shapeCast S512x512 (extractStridedSlice S1x512x512 ![2, 0, 0] (arg12 m c) slices_S3x512x512_S1x512x512_2_0_0) shapeCasts_S1x512x512_S512x512 := by
  show StableHlo.after hostOps2 (B4 m c) (Proc.devRef .tc main_v107) = _
  after_results_simp
  rw [B4_arg12 m c]; rfl
/-- b₂ of layer 2, as a row. -/
theorem B5_v117 : (B5 m c (Proc.devRef .tc main_v117) : S1x512.Idx → EReal)
    = shapeCast S1x512 (shapeCast S512 (extractStridedSlice S1x512 ![2, 0] (arg13 m c) slices_S3x512_S1x512_2_0) shapeCasts_S1x512_S512) shapeCasts_S512_S1x512 := by
  show StableHlo.after hostOps2 (B4 m c) (Proc.devRef .tc main_v117) = _
  after_results_simp
  rw [B4_arg13 m c]; rfl
/-- a₂ of layer 2. -/
theorem B5_v119 : (B5 m c (Proc.devRef .tc main_v119) : S1x1.Idx → EReal)
    = shapeCast S1x1 (shapeCast S_ (extractStridedSlice S1 ![2] (arg14 m c) slices_S3_S1_2) shapeCasts_S1_S_) shapeCasts_S_S1x1 := by
  show StableHlo.after hostOps2 (B4 m c) (Proc.devRef .tc main_v119) = _
  after_results_simp
  rw [B4_arg14 m c]; rfl

/-! ## The pooling and the head -/

/-- The sum of the rows of h over each graph's nodes: scatter-added at the nodes' graph indices into zeros. -/
abbrev pooledWith (seg : IVec S20000 32) (h : FVec Ideal S20000x512 .f32) : FVec Ideal S400x512 .f32 :=
  Host.scatterAdd scatter_S400x512_S20000x1_S20000x512_1_0_0_1
    (broadcastInDim S400x512 ![] bcast_S_S400x512 (constant (F := Ideal) S_ .f32 0x00000000#32))
    (broadcastInDim S20000x1 ![0] bcast_S20000_S20000x1_0 seg) h

/-- The first dense layer before its rectifier: the pooled rows, the graph features and the flattened adjacency side
    by side, times the weights, plus the bias row. -/
abbrev headPreWith (seg : IVec S20000 32) (a3 : FVec Ideal S400x8 .f32) (a4 : FVec Ideal S400x50x50 .f32)
    (w : FVec Ideal S3020x256 .f32) (b : FVec Ideal S256 .f32) (h : FVec Ideal S20000x512 .f32) : FVec Ideal S400x256 .f32 :=
  addf
    (Host.dotGeneral dot_S400x3020_S3020x256_S400x256_1_0_0_1_n_n none
      (concatenate S400x3020 1
        [⟨S400x512, pooledWith seg h⟩, ⟨S400x8, a3⟩, ⟨S400x2500, shapeCast S400x2500 a4 shapeCasts_S400x50x50_S400x2500⟩]
        concatenates_S400x512_S400x8_S400x2500_S400x3020_d1) w)
    (broadcastInDim S400x256 ![0, 1] bcast_S1x256_S400x256_0_1 (broadcastInDim S1x256 ![1] bcast_S256_S1x256_1 b))

/-- The rectifier: the maximum with zero. -/
abbrev reluOf (x : FVec Ideal S400x256 .f32) : FVec Ideal S400x256 .f32 :=
  maximumf x (broadcastInDim S400x256 ![] bcast_S_S400x256 (constant (F := Ideal) S_ .f32 0x00000000#32))

/-- The second dense layer and the logistic function, spelled 1 / (1 + exp (-(x·w + b))). -/
abbrev headOutWith (w : FVec Ideal S256x1 .f32) (b : FVec Ideal S1 .f32) (x : FVec Ideal S400x256 .f32) : FVec Ideal S400x1 .f32 :=
  Host.divf (broadcastInDim S400x1 ![] bcast_S_S400x1 (constant (F := Ideal) S_ .f32 0x3F800000#32))
    (addf (broadcastInDim S400x1 ![] bcast_S_S400x1 (constant (F := Ideal) S_ .f32 0x3F800000#32))
      (Host.exp (Host.negf
        (addf (Host.dotGeneral dot_S400x256_S256x1_S400x1_1_0_0_1_n_n none x w)
          (broadcastInDim S400x1 ![0, 1] bcast_S1x1_S400x1_0_1 (broadcastInDim S1x1 ![1] bcast_S1_S1x1_1 b))))))

/-- The same at the launch's arguments. -/
abbrev pooled (h : FVec Ideal S20000x512 .f32) : FVec Ideal S400x512 .f32 := pooledWith (arg2 m c) h
abbrev headPre (h : FVec Ideal S20000x512 .f32) : FVec Ideal S400x256 .f32 :=
  headPreWith (arg2 m c) (arg3 m c) (arg4 m c) (arg15 m c) (arg16 m c) h
abbrev headHidden (h : FVec Ideal S20000x512 .f32) : FVec Ideal S400x256 .f32 := reluOf (headPre m c h)
abbrev headOut (x : FVec Ideal S400x256 .f32) : FVec Ideal S400x1 .f32 := headOutWith (arg17 m c) (arg18 m c) x

/-- A three-operand operation's result at its own buffer, each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Reads the contents a list of host operations leaves at a buffer, operation by operation from the last: an
    operation's result at its own buffer is its function of its operands' contents, at any other buffer what was there. -/
local macro "head_results" : tactic =>
  `(tactic| (simp only [StableHlo.after_cons, StableHlo.after_nil]
             repeat (first
               | rw [StableHlo.nullary_result] | rw [StableHlo.unary_result] | rw [StableHlo.binary_result]
               | rw [StableHlo.ternary_result] | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

/-- The three last stretches, each over any contents V it starts from. -/
theorem after3_v129 (V : Valuation τ sig (Elt Ideal)) :
    (StableHlo.after hostOps3 V (Proc.devRef .tc main_v129) : S400x256.Idx → EReal)
      = headPreWith (V (Proc.devRef .tc main_arg2)) (V (Proc.devRef .tc main_arg3)) (V (Proc.devRef .tc main_arg4))
          (V (Proc.devRef .tc main_arg15)) (V (Proc.devRef .tc main_arg16)) (V (Proc.devRef .tc main_v120)) := by
  head_results; rfl
theorem after3_1_v130 (V : Valuation τ sig (Elt Ideal)) :
    (StableHlo.after hostOps3_1 V (Proc.devRef .tc main_v130) : S400x256.Idx → EReal) = reluOf (V (Proc.devRef .tc main_v129)) := by
  head_results; rfl
theorem after3_2_v140 (V : Valuation τ sig (Elt Ideal)) :
    (StableHlo.after hostOps3_2 V (Proc.devRef .tc main_v140) : S400x1.Idx → EReal)
      = headOutWith (V (Proc.devRef .tc main_arg17)) (V (Proc.devRef .tc main_arg18)) (V (Proc.devRef .tc main_v130)) := by
  head_results

/-- The arguments the head reads hold their launch contents when it reads them. -/
theorem B6_arg2 : (B6 m c (Proc.devRef .tc main_arg2) : S20000.Idx → BitVec 32) = arg2 m c :=
  B6_launch m c main_arg2 (by decide) (by decide) (by decide) (by decide) (by decide) (by decide)
theorem B6_arg3 : (B6 m c (Proc.devRef .tc main_arg3) : S400x8.Idx → EReal) = arg3 m c :=
  B6_launch m c main_arg3 (by decide) (by decide) (by decide) (by decide) (by decide) (by decide)
theorem B6_arg4 : (B6 m c (Proc.devRef .tc main_arg4) : S400x50x50.Idx → EReal) = arg4 m c :=
  B6_launch m c main_arg4 (by decide) (by decide) (by decide) (by decide) (by decide) (by decide)
theorem B6_arg15 : (B6 m c (Proc.devRef .tc main_arg15) : S3020x256.Idx → EReal) = arg15 m c :=
  B6_launch m c main_arg15 (by decide) (by decide) (by decide) (by decide) (by decide) (by decide)
theorem B6_arg16 : (B6 m c (Proc.devRef .tc main_arg16) : S256.Idx → EReal) = arg16 m c :=
  B6_launch m c main_arg16 (by decide) (by decide) (by decide) (by decide) (by decide) (by decide)
theorem B8_arg17 : (B8 m c (Proc.devRef .tc main_arg17) : S256x1.Idx → EReal) = arg17 m c :=
  (StableHlo.after_of_writes_sub hostOps3_1 _ hostOps3_1_writes (r := main_arg17) (by decide)).trans <|
  (StableHlo.after_of_writes_sub hostOps3 _ hostOps3_writes (r := main_arg17) (by decide)).trans <|
  B6_launch m c main_arg17 (by decide) (by decide) (by decide) (by decide) (by decide) (by decide)
theorem B8_arg18 : (B8 m c (Proc.devRef .tc main_arg18) : S1.Idx → EReal) = arg18 m c :=
  (StableHlo.after_of_writes_sub hostOps3_1 _ hostOps3_1_writes (r := main_arg18) (by decide)).trans <|
  (StableHlo.after_of_writes_sub hostOps3 _ hostOps3_writes (r := main_arg18) (by decide)).trans <|
  B6_launch m c main_arg18 (by decide) (by decide) (by decide) (by decide) (by decide) (by decide)

/-- The first dense layer before its rectifier, of the third region's output. -/
theorem B7_v129 : (B7 m c (Proc.devRef .tc main_v129) : S400x256.Idx → EReal) = headPre m c (B6 m c (Proc.devRef .tc main_v120)) :=
  (after3_v129 (B6 m c)).trans (by rw [B6_arg2 m c, B6_arg3 m c, B6_arg4 m c, B6_arg15 m c, B6_arg16 m c])
/-- After its rectifier. -/
theorem B8_v130 : (B8 m c (Proc.devRef .tc main_v130) : S400x256.Idx → EReal) = headHidden m c (B6 m c (Proc.devRef .tc main_v120)) :=
  (after3_1_v130 (B7 m c)).trans (by rw [B7_v129 m c])

/-- THE FIRST RESULT: the hidden layer of the head, of the third region's output. -/
theorem B9_v130 : (B9 m c (Proc.devRef .tc main_v130) : S400x256.Idx → EReal) = headHidden m c (B6 m c (Proc.devRef .tc main_v120)) :=
  (StableHlo.after_of_writes_sub hostOps3_2 _ hostOps3_2_writes (r := main_v130) (by decide)).trans (B8_v130 m c)
/-- THE SECOND RESULT: the head's output, of the hidden layer. -/
theorem B9_v140 : (B9 m c (Proc.devRef .tc main_v140) : S400x1.Idx → EReal)
    = headOut m c (headHidden m c (B6 m c (Proc.devRef .tc main_v120))) :=
  (after3_2_v140 (B8 m c)).trans (by rw [B8_arg17 m c, B8_arg18 m c, B8_v130 m c])

end Cert.KernelIdeal.Layer

end
-- ==== Proof.KernelLayers.lean ====
/-
  The kernel program's three layer outputs, in terms of the arguments.

  A region finds, in the buffers its windows stage, slices of the stacked parameter arrays recast as rows (the host
  stretch before it prepared them), the previous layer's output (the node features, for the first) and its sum over the
  edges. Put into the region's output function this gives each layer's output at an entry as the layer of LayerSpec —
  in the kernel's spelling of the scale — with that layer's parameter vectors, of one row of h + agg.
-/
import proofs.«142629_j73753178406914_1_alg».proof.Proof.LayerArray
import proofs.«142629_j73753178406914_1_alg».proof.Proof.KernelGlue

set_option maxRecDepth 16384

noncomputable section

open scoped BigOperators

namespace Cert.KernelIdeal.Layer

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.RowDot Cert.Dense Cert.Gin

/-! ## A layer's slices of the stacked parameters -/

abbrev kmat0 (x : S3x512x512.Idx → EReal) : S512x512.Idx → EReal :=
  shapeCast S512x512 (extractStridedSlice S1x512x512 ![0, 0, 0] x slices_S3x512x512_S1x512x512_0_0_0) shapeCasts_S1x512x512_S512x512
abbrev kvec0 (x : S3x512.Idx → EReal) : S512.Idx → EReal :=
  shapeCast S512 (extractStridedSlice S1x512 ![0, 0] x slices_S3x512_S1x512_0_0) shapeCasts_S1x512_S512
abbrev kscal0 (x : S3.Idx → EReal) : S_.Idx → EReal :=
  shapeCast S_ (extractStridedSlice S1 ![0] x slices_S3_S1_0) shapeCasts_S1_S_
abbrev kmat1 (x : S3x512x512.Idx → EReal) : S512x512.Idx → EReal :=
  shapeCast S512x512 (extractStridedSlice S1x512x512 ![1, 0, 0] x slices_S3x512x512_S1x512x512_1_0_0) shapeCasts_S1x512x512_S512x512
abbrev kvec1 (x : S3x512.Idx → EReal) : S512.Idx → EReal :=
  shapeCast S512 (extractStridedSlice S1x512 ![1, 0] x slices_S3x512_S1x512_1_0) shapeCasts_S1x512_S512
abbrev kscal1 (x : S3.Idx → EReal) : S_.Idx → EReal :=
  shapeCast S_ (extractStridedSlice S1 ![1] x slices_S3_S1_1) shapeCasts_S1_S_
abbrev kmat2 (x : S3x512x512.Idx → EReal) : S512x512.Idx → EReal :=
  shapeCast S512x512 (extractStridedSlice S1x512x512 ![2, 0, 0] x slices_S3x512x512_S1x512x512_2_0_0) shapeCasts_S1x512x512_S512x512
abbrev kvec2 (x : S3x512.Idx → EReal) : S512.Idx → EReal :=
  shapeCast S512 (extractStridedSlice S1x512 ![2, 0] x slices_S3x512_S1x512_2_0) shapeCasts_S1x512_S512
abbrev kscal2 (x : S3.Idx → EReal) : S_.Idx → EReal :=
  shapeCast S_ (extractStridedSlice S1 ![2] x slices_S3_S1_2) shapeCasts_S1_S_

/-- A length-512 vector recast as a 1×512 row, read as a row, is the vector. -/
theorem row_of_vec (v : S512.Idx → EReal) : biasRow (shapeCast S1x512 v shapeCasts_S512_S1x512) = biasVec v :=
  biasRow_shapeCast v _

/-- A rank-0 array recast as 1×1, read at its one entry, is its one value. -/
theorem one_of_scal (s : S_.Idx → EReal) :
    extractAt ![0, 0] (shapeCast S1x1 s shapeCasts_S_S1x1) inpos_S1x1_p0_0 = s ix0 :=
  congrArg s (eq_ix0 _)

variable (m : (ℓ : Loc nD τ sig) → Buf (Elt Ideal) ℓ) (c : Dev nD)

/-- Layer 1's output array. -/
abbrev H1 : S20000x512.Idx → EReal := B2 m c (Proc.devRef .tc main_v42)

/-- Layer 1's output at entry (p, q): the layer, with this layer's slices of the stacked parameters, of row p of
    the node features plus its sum over the edges. -/
theorem H1_apply (p : Fin 20000) (q : Fin 512) :
    H1 m c (ix2 p q)
      = layerRow (fun k => scaleK (biasVec (kvec0 (arg8 m c)) k) (biasVec (kvec0 (arg11 m c)) k)) (kmat0 (arg5 m c))
          (biasVec (kvec0 (arg6 m c))) (kscal0 (arg7 m c) ix0) (biasVec (kvec0 (arg9 m c))) (biasVec (kvec0 (arg10 m c)))
          (kmat0 (arg12 m c)) (biasVec (kvec0 (arg13 m c))) (kscal0 (arg14 m c) ix0)
          (fun l => arg0 m c (ix2 p l) + aggOf m c (arg0 m c) (ix2 p l)) q := by
  have e : H1 m c = G0 (T1 m) c := (B2_arr m c 12).trans (left0 (T1 m) c)
  rw [e]
  show layerRow (fun k => scaleK (biasRow (B1 m c (Proc.devRef .tc main_v35) : S1x512.Idx → EReal) k) (biasRow (B1 m c (Proc.devRef .tc main_v38) : S1x512.Idx → EReal) k)) (B1 m c (Proc.devRef .tc main_v15) : S512x512.Idx → EReal)
      (biasRow (B1 m c (Proc.devRef .tc main_v34) : S1x512.Idx → EReal)) (extractAt ![0, 0] (B1 m c (Proc.devRef .tc main_v40) : S1x1.Idx → EReal) inpos_S1x1_p0_0) (biasRow (B1 m c (Proc.devRef .tc main_v36) : S1x512.Idx → EReal)) (biasRow (B1 m c (Proc.devRef .tc main_v37) : S1x512.Idx → EReal))
      (B1 m c (Proc.devRef .tc main_v29) : S512x512.Idx → EReal) (biasRow (B1 m c (Proc.devRef .tc main_v39) : S1x512.Idx → EReal)) (extractAt ![0, 0] (B1 m c (Proc.devRef .tc main_v41) : S1x1.Idx → EReal) inpos_S1x1_p0_0)
      (sumRow (B1 m c (Proc.devRef .tc main_arg0) : S20000x512.Idx → EReal) (B1 m c (Proc.devRef .tc main_v13) : S20000x512.Idx → EReal) p) q = _
  rw [B1_v35, B1_v38, B1_v15, B1_v34, B1_v40, B1_v36, B1_v37, B1_v29, B1_v39, B1_v41, B1_arg0, B1_v13]
  simp only [row_of_vec, one_of_scal]
  rfl

/-- Layer 2's output array. -/
abbrev H2 : S20000x512.Idx → EReal := B4 m c (Proc.devRef .tc main_v81)

/-- Layer 2's output at entry (p, q): the layer, with this layer's slices of the stacked parameters, of row p of
    the previous layer's output plus its sum over the edges. -/
theorem H2_apply (p : Fin 20000) (q : Fin 512) :
    H2 m c (ix2 p q)
      = layerRow (fun k => scaleK (biasVec (kvec1 (arg8 m c)) k) (biasVec (kvec1 (arg11 m c)) k)) (kmat1 (arg5 m c))
          (biasVec (kvec1 (arg6 m c))) (kscal1 (arg7 m c) ix0) (biasVec (kvec1 (arg9 m c))) (biasVec (kvec1 (arg10 m c)))
          (kmat1 (arg12 m c)) (biasVec (kvec1 (arg13 m c))) (kscal1 (arg14 m c) ix0)
          (fun l => H1 m c (ix2 p l) + aggOf m c (H1 m c) (ix2 p l)) q := by
  have e : H2 m c = G1 (T3 m) c := (B4_arr m c 12).trans (left1 (T3 m) c)
  rw [e]
  show layerRow (fun k => scaleK (biasRow (B3 m c (Proc.devRef .tc main_v74) : S1x512.Idx → EReal) k) (biasRow (B3 m c (Proc.devRef .tc main_v77) : S1x512.Idx → EReal) k)) (B3 m c (Proc.devRef .tc main_v54) : S512x512.Idx → EReal)
      (biasRow (B3 m c (Proc.devRef .tc main_v73) : S1x512.Idx → EReal)) (extractAt ![0, 0] (B3 m c (Proc.devRef .tc main_v79) : S1x1.Idx → EReal) inpos_S1x1_p0_0) (biasRow (B3 m c (Proc.devRef .tc main_v75) : S1x512.Idx → EReal)) (biasRow (B3 m c (Proc.devRef .tc main_v76) : S1x512.Idx → EReal))
      (B3 m c (Proc.devRef .tc main_v68) : S512x512.Idx → EReal) (biasRow (B3 m c (Proc.devRef .tc main_v78) : S1x512.Idx → EReal)) (extractAt ![0, 0] (B3 m c (Proc.devRef .tc main_v80) : S1x1.Idx → EReal) inpos_S1x1_p0_0)
      (sumRow (B3 m c (Proc.devRef .tc main_v42) : S20000x512.Idx → EReal) (B3 m c (Proc.devRef .tc main_v52) : S20000x512.Idx → EReal) p) q = _
  rw [B3_v74, B3_v77, B3_v54, B3_v73, B3_v79, B3_v75, B3_v76, B3_v68, B3_v78, B3_v80, B3_v42, B3_v52]
  simp only [row_of_vec, one_of_scal]
  rfl

/-- Layer 3's output array. -/
abbrev H3 : S20000x512.Idx → EReal := B6 m c (Proc.devRef .tc main_v120)

/-- Layer 3's output at entry (p, q): the layer, with this layer's slices of the stacked parameters, of row p of
    the previous layer's output plus its sum over the edges. -/
theorem H3_apply (p : Fin 20000) (q : Fin 512) :
    H3 m c (ix2 p q)
      = layerRow (fun k => scaleK (biasVec (kvec2 (arg8 m c)) k) (biasVec (kvec2 (arg11 m c)) k)) (kmat2 (arg5 m c))
          (biasVec (kvec2 (arg6 m c))) (kscal2 (arg7 m c) ix0) (biasVec (kvec2 (arg9 m c))) (biasVec (kvec2 (arg10 m c)))
          (kmat2 (arg12 m c)) (biasVec (kvec2 (arg13 m c))) (kscal2 (arg14 m c) ix0)
          (fun l => H2 m c (ix2 p l) + aggOf m c (H2 m c) (ix2 p l)) q := by
  have e : H3 m c = G2 (T5 m) c := (B6_arr m c 12).trans (left2 (T5 m) c)
  rw [e]
  show layerRow (fun k => scaleK (biasRow (B5 m c (Proc.devRef .tc main_v113) : S1x512.Idx → EReal) k) (biasRow (B5 m c (Proc.devRef .tc main_v116) : S1x512.Idx → EReal) k)) (B5 m c (Proc.devRef .tc main_v93) : S512x512.Idx → EReal)
      (biasRow (B5 m c (Proc.devRef .tc main_v112) : S1x512.Idx → EReal)) (extractAt ![0, 0] (B5 m c (Proc.devRef .tc main_v118) : S1x1.Idx → EReal) inpos_S1x1_p0_0) (biasRow (B5 m c (Proc.devRef .tc main_v114) : S1x512.Idx → EReal)) (biasRow (B5 m c (Proc.devRef .tc main_v115) : S1x512.Idx → EReal))
      (B5 m c (Proc.devRef .tc main_v107) : S512x512.Idx → EReal) (biasRow (B5 m c (Proc.devRef .tc main_v117) : S1x512.Idx → EReal)) (extractAt ![0, 0] (B5 m c (Proc.devRef .tc main_v119) : S1x1.Idx → EReal) inpos_S1x1_p0_0)
      (sumRow (B5 m c (Proc.devRef .tc main_v81) : S20000x512.Idx → EReal) (B5 m c (Proc.devRef .tc main_v91) : S20000x512.Idx → EReal) p) q = _
  rw [B5_v113, B5_v116, B5_v93, B5_v112, B5_v118, B5_v114, B5_v115, B5_v107, B5_v117, B5_v119, B5_v81, B5_v91]
  simp only [row_of_vec, one_of_scal]
  rfl

end Cert.KernelIdeal.Layer

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.LibRowsProduct.lean ====
/-
  A product of an M×K array with a K×N matrix as ONE function of the two arrays: entry (p, q) is row p of the left
  array times the matrix, at column q, and depends on no other row.  The host's dot_general of the plain dimension
  numbers is that function.  So when the rows are cut into consecutive blocks and each block is multiplied by the whole
  matrix, the blocks laid end to end are the whole product.
-/
import Idealize.ShloMosaic.Lib.ValueIdx
import Idealize.ShloMosaic.PureOps.Ideal.Laws
import proofs.«142629_j73753178406914_1_alg».proof.Proof.LibRowDot

noncomputable section

open scoped BigOperators

namespace Cert.RowsProduct

open Idealize.ShloMosaic Idealize.ShloMosaic.ValueIdx Cert.RowDot

/-- The whole product: entry i is (row (i 0) of x) · w at column (i 1). -/
def rowsTimes {M K N : Nat} (x : (⟨2, ![M, K]⟩ : Shape).Idx → EReal) (w : (⟨2, ![K, N]⟩ : Shape).Idx → EReal) :
    (⟨2, ![M, N]⟩ : Shape).Idx → EReal :=
  fun i => rowDot (rowOf x (i 0)) w (i 1)

/-- The host's product of the plain dimension numbers is the whole product. -/
theorem hostDot_eq_rowsTimes {M K N : Nat} (prec : Option ContractPrecision)
    (x : FVec Ideal (⟨2, ![M, K]⟩ : Shape) .f32) (w : FVec Ideal (⟨2, ![K, N]⟩ : Shape) .f32) :
    Host.dotGeneral (F := Ideal) (DotDims.plain M K N) prec x w = rowsTimes x w :=
  funext fun j => dotGeneral_plain_apply prec .single x w j

/-- The vector unit's product into zero of a block of rows, after the changes of float format that keep every value:
    entry j is row (j 0) of the block times the matrix at column (j 1). -/
theorem blockDot_apply {M K N : Nat} {ψ₁ ψ₂ : FTy} (prec : Option ContractPrecision) (h₁ : ψ₁.bits < FTy.f32.bits) (h₂ : ψ₂.bits < FTy.f32.bits)
    (a : FVec Ideal (⟨2, ![M, K]⟩ : Shape) .f32) (w : FVec Ideal (⟨2, ![K, N]⟩ : Shape) .f32) (j : (⟨2, ![M, N]⟩ : Shape).Idx) :
    matmul (DotDims.plain M K N) prec (truncf ψ₁ a h₁) (truncf ψ₂ w h₂)
        (constant (F := Ideal) ⟨2, ![M, N]⟩ .f32 0x00000000#32) j
      = rowDot (rowOf a (j 0)) w (j 1) :=
  matmul_plain_zero_apply prec (φ₁ := ψ₁) (φ₂ := ψ₂) a w j

end Cert.RowsProduct

end
-- ==== Proof.RefLayer.lean ====
/-
  One layer of the reference, in the host's spelling, read at an entry.

  The reference applies a layer to the whole 20000×512 array at once: a product with W₁, the bias b₁ placed as a row
  and spread over the rows, the parametric rectifier against a spread zero with a spread slope, the mean subtracted,
  the product with the scale γ / sqrt (σ² + ε) computed once on length-512 vectors and spread, the shift added, and the
  second dense step, rectifier and final clamp at zero likewise. Entry (p, q) of the result is the layer of LayerSpec
  applied to row p of the input, at column q, with the scale in the reference's spelling.
-/
import proofs.«142629_j73753178406914_1_alg».proof.Proof.LayerSpec
import proofs.«142629_j73753178406914_1_alg».proof.Proof.LibRowBias
import proofs.«142629_j73753178406914_1_alg».proof.Proof.LibRowsProduct
import proofs.«142629_j73753178406914_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.Layers

open Cert.ReferenceIdeal
open Cert.ReferenceIdeal.Gen (bcast_S1x512_S20000x512_0_1 bcast_S512_S1x512_1 bcast_S_S20000x512 bcast_S_S512)
open Idealize.ShloMosaic Idealize.ShloMosaic.ValueIdx Cert.RowDot Cert.Dense Cert.Gin Cert.RowBias Cert.RowsProduct

/-- A length-512 vector placed as a row and spread over the 20000 rows, as the reference writes it. -/
abbrev spread (x : FVec Ideal S512 .f32) : FVec Ideal S20000x512 .f32 :=
  broadcastInDim S20000x512 ![0, 1] bcast_S1x512_S20000x512_0_1 (broadcastInDim S1x512 ![1] bcast_S512_S1x512_1 x)

/-- A rank-0 array spread over the whole 20000×512 array. -/
abbrev splat (a : FVec Ideal S_ .f32) : FVec Ideal S20000x512 .f32 := broadcastInDim S20000x512 ![] bcast_S_S20000x512 a

/-- The layer as the reference computes it, on the whole array. -/
def hostLayer (u : FVec Ideal S20000x512 .f32) (W₁ : FVec Ideal S512x512 .f32) (b₁ : FVec Ideal S512 .f32) (a₁ : FVec Ideal S_ .f32)
    (γ β μ σ2 : FVec Ideal S512 .f32) (W₂ : FVec Ideal S512x512 .f32) (b₂ : FVec Ideal S512 .f32) (a₂ : FVec Ideal S_ .f32) :
    FVec Ideal S20000x512 .f32 :=
  let z₁ := addf (Host.dotGeneral dot_S20000x512_S512x512_S20000x512_1_0_0_1_n_n none u W₁) (spread b₁)
  let p₁ := select (cmpf .oge z₁ (splat (constant S_ .f32 0x00000000#32))) z₁ (mulf (splat a₁) z₁)
  let s := Host.divf γ (Host.sqrt (addf σ2 (broadcastInDim S512 ![] bcast_S_S512 (constant S_ .f32 0x3727C5AC#32))))
  let n := addf (mulf (subf p₁ (spread μ)) (spread s)) (spread β)
  let z₂ := addf (Host.dotGeneral dot_S20000x512_S512x512_S20000x512_1_0_0_1_n_n none n W₂) (spread b₂)
  let p₂ := select (cmpf .oge z₂ (splat (constant S_ .f32 0x00000000#32))) z₂ (mulf (splat a₂) z₂)
  maximumf p₂ (splat (constant S_ .f32 0x00000000#32))

/-- A spread vector at entry (p, q) is the vector at q. -/
theorem spread_apply (x : FVec Ideal S512 .f32) (p : Fin 20000) (q : Fin 512) : spread x (ix2 p q) = biasVec x q := by
  show broadcastInDim S20000x512 ![0, 1] bcast_S1x512_S20000x512_0_1 (broadcastInDim S1x512 ![1] bcast_S512_S1x512_1 x) (ix2 p q) = x (ix1 q)
  rw [spreadRowInDim_apply (M := 20000) (N := 512)]
  exact rowInDim_apply (N := 512) x bcast_S512_S1x512_1 q

/-- A spread rank-0 array at any entry is its one value. -/
theorem splat_apply (a : FVec Ideal S_ .f32) (i : S20000x512.Idx) : splat a i = a ix0 :=
  broadcastInDim_apply ![] bcast_S_S20000x512 a i ix0 (fun d => d.elim0)

/-- The host's product at entry (p, q): row p times the matrix, at column q. -/
theorem hostDot_apply (u : FVec Ideal S20000x512 .f32) (W : FVec Ideal S512x512 .f32) (p : Fin 20000) (q : Fin 512) :
    Host.dotGeneral (F := Ideal) dot_S20000x512_S512x512_S20000x512_1_0_0_1_n_n none u W (ix2 p q) = rowDot (rowOf u p) W q :=
  dotGeneral_plain_apply (M := 20000) (K := 512) (N := 512) none .single u W (ix2 p q)

/-- The reference's scale at column k. -/
theorem hostScale_apply (γ σ2 : FVec Ideal S512 .f32) (k : Fin 512) :
    biasVec (Host.divf γ (Host.sqrt (addf σ2 (broadcastInDim S512 ![] bcast_S_S512 (constant (F := Ideal) S_ .f32 0x3727C5AC#32))))) k
      = scaleR (biasVec γ k) (biasVec σ2 k) := by
  show Ideal.div (γ (ix1 k)) (Ideal.sqrt (σ2 (ix1 k) + broadcastInDim S512 ![] bcast_S_S512 (constant (F := Ideal) S_ .f32 0x3727C5AC#32) (ix1 k))) = _
  rw [broadcastInDim_apply ![] bcast_S_S512 (constant (F := Ideal) S_ .f32 0x3727C5AC#32) (ix1 k) ix0 (fun d => d.elim0)]
  rfl

/-- The reference's layer at entry (p, q). -/
theorem hostLayer_apply (u : FVec Ideal S20000x512 .f32) (W₁ : FVec Ideal S512x512 .f32) (b₁ : FVec Ideal S512 .f32) (a₁ : FVec Ideal S_ .f32)
    (γ β μ σ2 : FVec Ideal S512 .f32) (W₂ : FVec Ideal S512x512 .f32) (b₂ : FVec Ideal S512 .f32) (a₂ : FVec Ideal S_ .f32)
    (p : Fin 20000) (q : Fin 512) :
    hostLayer u W₁ b₁ a₁ γ β μ σ2 W₂ b₂ a₂ (ix2 p q)
      = layerRow (fun k => scaleR (biasVec γ k) (biasVec σ2 k)) W₁ (biasVec b₁) (a₁ ix0) (biasVec β) (biasVec μ) W₂ (biasVec b₂) (a₂ ix0)
          (rowOf u p) q := by
  have hin : ∀ k : Fin 512,
      addf (mulf (subf (select (cmpf .oge (addf (Host.dotGeneral dot_S20000x512_S512x512_S20000x512_1_0_0_1_n_n none u W₁) (spread b₁)) (splat (constant S_ .f32 0x00000000#32)))
            (addf (Host.dotGeneral dot_S20000x512_S512x512_S20000x512_1_0_0_1_n_n none u W₁) (spread b₁))
            (mulf (splat a₁) (addf (Host.dotGeneral dot_S20000x512_S512x512_S20000x512_1_0_0_1_n_n none u W₁) (spread b₁)))) (spread μ))
          (spread (Host.divf γ (Host.sqrt (addf σ2 (broadcastInDim S512 ![] bcast_S_S512 (constant S_ .f32 0x3727C5AC#32))))))) (spread β) (ix2 p k)
        = (prelu (a₁ ix0) (dense W₁ (biasVec b₁) (rowOf u p) k) - biasVec μ k) * scaleR (biasVec γ k) (biasVec σ2 k) + biasVec β k := by
    intro k
    simp only [addf_apply, mulf_apply, subf_apply, select_apply, cmpf_apply, spread_apply, splat_apply, hostDot_apply, hostScale_apply]
    rfl
  unfold hostLayer
  simp only [maximumf_apply, addf_apply, mulf_apply, select_apply, cmpf_apply, spread_apply, splat_apply, hostDot_apply]
  rw [show rowOf (addf (mulf (subf (select (cmpf .oge (addf (Host.dotGeneral dot_S20000x512_S512x512_S20000x512_1_0_0_1_n_n none u W₁) (spread b₁)) (splat (constant S_ .f32 0x00000000#32)))
            (addf (Host.dotGeneral dot_S20000x512_S512x512_S20000x512_1_0_0_1_n_n none u W₁) (spread b₁))
            (mulf (splat a₁) (addf (Host.dotGeneral dot_S20000x512_S512x512_S20000x512_1_0_0_1_n_n none u W₁) (spread b₁)))) (spread μ))
          (spread (Host.divf γ (Host.sqrt (addf σ2 (broadcastInDim S512 ![] bcast_S_S512 (constant S_ .f32 0x3727C5AC#32))))))) (spread β)) p
      = fun k => (prelu (a₁ ix0) (dense W₁ (biasVec b₁) (rowOf u p) k) - biasVec μ k) * scaleR (biasVec γ k) (biasVec σ2 k) + biasVec β k
    from funext hin]
  rfl

end Cert.ReferenceIdeal.Layers

end
-- ==== Proof.RefGlue.lean ====
/-
  What each stretch of the reference leaves, as a term of what it found.

  The first, third and fifth stretches gather the rows of the current node features at the edges' sources, sum them
  per destination, and add the result to the features; the second, fourth and sixth apply a layer (RefLayer's
  hostLayer) with that layer's slices of the stacked parameters; the last pools the rows of each graph, joins the
  pooled features with the two other inputs, and applies the head's two dense layers.
-/
import proofs.«142629_j73753178406914_1_alg».proof.Proof.RefRun
import proofs.«142629_j73753178406914_1_alg».proof.Proof.RefLayer

set_option maxRecDepth 16384

noncomputable section

namespace Cert.ReferenceIdeal.Stretches

open Cert.ReferenceIdeal Cert.ReferenceIdeal.Gen Idealize.ShloMosaic Idealize.ShloMosaic.TcCoe Idealize.SL.Sem Idealize.ShloMosaic.StableHlo
open Cert.ReferenceIdeal.Layers

/-- Layer 1's 512×512 matrix out of a stack of three. -/
abbrev matOf0 (x : FVec Ideal S3x512x512 .f32) : FVec Ideal S512x512 .f32 :=
  shapeCast S512x512 (extractStridedSlice S1x512x512 ![0, 0, 0] x slices_S3x512x512_S1x512x512_0_0_0) shapeCasts_S1x512x512_S512x512
/-- Layer 1's length-512 vector out of a stack of three. -/
abbrev vecOf0 (x : FVec Ideal S3x512 .f32) : FVec Ideal S512 .f32 :=
  shapeCast S512 (extractStridedSlice S1x512 ![0, 0] x slices_S3x512_S1x512_0_0) shapeCasts_S1x512_S512
/-- Layer 1's slope out of three, as a rank-0 array. -/
abbrev scalOf0 (x : FVec Ideal S3 .f32) : FVec Ideal S_ .f32 :=
  shapeCast S_ (extractStridedSlice S1 ![0] x slices_S3_S1_0) shapeCasts_S1_S_
/-- Layer 2's 512×512 matrix out of a stack of three. -/
abbrev matOf1 (x : FVec Ideal S3x512x512 .f32) : FVec Ideal S512x512 .f32 :=
  shapeCast S512x512 (extractStridedSlice S1x512x512 ![1, 0, 0] x slices_S3x512x512_S1x512x512_1_0_0) shapeCasts_S1x512x512_S512x512
/-- Layer 2's length-512 vector out of a stack of three. -/
abbrev vecOf1 (x : FVec Ideal S3x512 .f32) : FVec Ideal S512 .f32 :=
  shapeCast S512 (extractStridedSlice S1x512 ![1, 0] x slices_S3x512_S1x512_1_0) shapeCasts_S1x512_S512
/-- Layer 2's slope out of three, as a rank-0 array. -/
abbrev scalOf1 (x : FVec Ideal S3 .f32) : FVec Ideal S_ .f32 :=
  shapeCast S_ (extractStridedSlice S1 ![1] x slices_S3_S1_1) shapeCasts_S1_S_
/-- Layer 3's 512×512 matrix out of a stack of three. -/
abbrev matOf2 (x : FVec Ideal S3x512x512 .f32) : FVec Ideal S512x512 .f32 :=
  shapeCast S512x512 (extractStridedSlice S1x512x512 ![2, 0, 0] x slices_S3x512x512_S1x512x512_2_0_0) shapeCasts_S1x512x512_S512x512
/-- Layer 3's length-512 vector out of a stack of three. -/
abbrev vecOf2 (x : FVec Ideal S3x512 .f32) : FVec Ideal S512 .f32 :=
  shapeCast S512 (extractStridedSlice S1x512 ![2, 0] x slices_S3x512_S1x512_2_0) shapeCasts_S1x512_S512
/-- Layer 3's slope out of three, as a rank-0 array. -/
abbrev scalOf2 (x : FVec Ideal S3 .f32) : FVec Ideal S_ .f32 :=
  shapeCast S_ (extractStridedSlice S1 ![2] x slices_S3_S1_2) shapeCasts_S1_S_

/-- The edges' source (row 0) and destination (row 1) columns. -/
abbrev srcCol (e : IVec S2x320000 32) : IVec S320000 32 :=
  shapeCast S320000 (extractStridedSlice S1x320000 ![0, 0] e slices_S2x320000_S1x320000_0_0) shapeCasts_S1x320000_S320000
abbrev dstCol (e : IVec S2x320000 32) : IVec S320000 32 :=
  shapeCast S320000 (extractStridedSlice S1x320000 ![1, 0] e slices_S2x320000_S1x320000_1_0) shapeCasts_S1x320000_S320000

/-- The sum over the edges: row d of the result is the sum of the rows h(s) over the edges s → d (a negative source
    index wrapped by 20000 first, as jnp does). -/
abbrev aggWith (src dst : IVec S320000 32) (h : FVec Ideal S20000x512 .f32) : FVec Ideal S20000x512 .f32 :=
  Host.scatterAdd scatter_S20000x512_S320000x1_S320000x512_1_0_0_1
    (broadcastInDim S20000x512 ![] bcast_S_S20000x512 (constant (F := Ideal) S_ .f32 0x00000000#32))
    (broadcastInDim S320000x1 ![0] bcast_S320000_S320000x1_0 dst)
    (Host.gather gather_S20000x512_S320000x1_S320000x512_1_0_n_n_0_1_1512 h
      (broadcastInDim S320000x1 ![0] bcast_S320000_S320000x1_0
        (select (cmpi .slt src (broadcastInDim S320000 ![] bcast_S_S320000 (constantI S_ 32 0#32)))
          (addi src (broadcastInDim S320000 ![] bcast_S_S320000 (constantI S_ 32 20000#32))) src)))

/-- The head's hidden layer: pooled rows, joined with the statistics and the flattened adjacency, through the first
    dense layer and the rectifier. -/
abbrev headHidden (h : FVec Ideal S20000x512 .f32) (batch : IVec S20000 32) (stats : FVec Ideal S400x8 .f32)
    (adj : FVec Ideal S400x50x50 .f32) (w : FVec Ideal S3020x256 .f32) (b : FVec Ideal S256 .f32) : FVec Ideal S400x256 .f32 :=
  maximumf
    (addf
      (Host.dotGeneral dot_S400x3020_S3020x256_S400x256_1_0_0_1_n_n none
        (concatenate S400x3020 1
          [⟨S400x512, Host.scatterAdd scatter_S400x512_S20000x1_S20000x512_1_0_0_1
              (broadcastInDim S400x512 ![] bcast_S_S400x512 (constant (F := Ideal) S_ .f32 0x00000000#32))
              (broadcastInDim S20000x1 ![0] bcast_S20000_S20000x1_0 batch) h⟩,
           ⟨S400x8, stats⟩, ⟨S400x2500, shapeCast S400x2500 adj shapeCasts_S400x50x50_S400x2500⟩]
          concatenates_S400x512_S400x8_S400x2500_S400x3020_d1) w)
      (broadcastInDim S400x256 ![0, 1] bcast_S1x256_S400x256_0_1 (broadcastInDim S1x256 ![1] bcast_S256_S1x256_1 b)))
    (broadcastInDim S400x256 ![] bcast_S_S400x256 (constant (F := Ideal) S_ .f32 0x00000000#32))

/-- The head's output: the second dense layer and the logistic function, 1 / (1 + exp (−x)). -/
abbrev headOut (xl : FVec Ideal S400x256 .f32) (w : FVec Ideal S256x1 .f32) (b : FVec Ideal S1 .f32) : FVec Ideal S400x1 .f32 :=
  Host.divf (broadcastInDim S400x1 ![] bcast_S_S400x1 (constant (F := Ideal) S_ .f32 0x3F800000#32))
    (addf (broadcastInDim S400x1 ![] bcast_S_S400x1 (constant (F := Ideal) S_ .f32 0x3F800000#32))
      (Host.exp (Host.negf
        (addf (Host.dotGeneral dot_S400x256_S256x1_S400x1_1_0_0_1_n_n none xl w)
          (broadcastInDim S400x1 ![0, 1] bcast_S1x1_S400x1_0_1 (broadcastInDim S1x1 ![1] bcast_S1_S1x1_1 b))))))

variable (m : (ℓ : Loc nD τ sig) → Buf (Elt Ideal) ℓ) (c : Dev nD)

/-- The edge columns the first stretch computes. -/
theorem Q1_src : (Q1 m c (Proc.devRef .tc main_v1) : S320000.Idx → BitVec 32) = srcCol (Q0 m c (Proc.devRef .tc main_arg1)) := by
  rw [Q1_eq]; generalize Q0 m c = V; after_results_simp <;> rfl
theorem Q1_dst : (Q1 m c (Proc.devRef .tc main_v3) : S320000.Idx → BitVec 32) = dstCol (Q0 m c (Proc.devRef .tc main_arg1)) := by
  rw [Q1_eq]; generalize Q0 m c = V; after_results_simp <;> rfl

/-- The first stretch leaves the node features plus their sum over the edges. -/
theorem Q1_sum : (Q1 m c (Proc.devRef .tc main_v14) : S20000x512.Idx → EReal)
    = addf (Q0 m c (Proc.devRef .tc main_arg0))
        (aggWith (srcCol (Q0 m c (Proc.devRef .tc main_arg1))) (dstCol (Q0 m c (Proc.devRef .tc main_arg1))) (Q0 m c (Proc.devRef .tc main_arg0))) := by
  rw [Q1_eq]; generalize Q0 m c = V; after_results_simp <;> rfl

/-- The third and fifth stretches likewise, of the previous layer's output and the edge columns computed at the start. -/
theorem Q3_sum : (Q3 m c (Proc.devRef .tc main_v77) : S20000x512.Idx → EReal)
    = addf (Q2 m c (Proc.devRef .tc main_v66))
        (aggWith (Q2 m c (Proc.devRef .tc main_v1)) (Q2 m c (Proc.devRef .tc main_v3)) (Q2 m c (Proc.devRef .tc main_v66))) := by
  rw [Q3_eq]; generalize Q2 m c = V; after_results_simp <;> rfl
theorem Q5_sum : (Q5 m c (Proc.devRef .tc main_v140) : S20000x512.Idx → EReal)
    = addf (Q4 m c (Proc.devRef .tc main_v129))
        (aggWith (Q4 m c (Proc.devRef .tc main_v1)) (Q4 m c (Proc.devRef .tc main_v3)) (Q4 m c (Proc.devRef .tc main_v129))) := by
  rw [Q5_eq]; generalize Q4 m c = V; after_results_simp <;> rfl

/-- The first layer's stretch leaves the layer, in the host's spelling, of what the stretch found. -/
theorem Q2_out : (Q2 m c (Proc.devRef .tc main_v66) : S20000x512.Idx → EReal)
    = hostLayer (Q1 m c (Proc.devRef .tc main_v14)) (matOf0 (Q1 m c (Proc.devRef .tc main_arg5))) (vecOf0 (Q1 m c (Proc.devRef .tc main_arg6))) (scalOf0 (Q1 m c (Proc.devRef .tc main_arg7)))
        (vecOf0 (Q1 m c (Proc.devRef .tc main_arg8))) (vecOf0 (Q1 m c (Proc.devRef .tc main_arg9))) (vecOf0 (Q1 m c (Proc.devRef .tc main_arg10))) (vecOf0 (Q1 m c (Proc.devRef .tc main_arg11)))
        (matOf0 (Q1 m c (Proc.devRef .tc main_arg12))) (vecOf0 (Q1 m c (Proc.devRef .tc main_arg13))) (scalOf0 (Q1 m c (Proc.devRef .tc main_arg14))) := by
  rw [Q2_eq]
  generalize Q1 m c = V
  after_results_simp <;> rfl

/-- The second layer's stretch leaves the layer, in the host's spelling, of what the stretch found. -/
theorem Q4_out : (Q4 m c (Proc.devRef .tc main_v129) : S20000x512.Idx → EReal)
    = hostLayer (Q3 m c (Proc.devRef .tc main_v77)) (matOf1 (Q3 m c (Proc.devRef .tc main_arg5))) (vecOf1 (Q3 m c (Proc.devRef .tc main_arg6))) (scalOf1 (Q3 m c (Proc.devRef .tc main_arg7)))
        (vecOf1 (Q3 m c (Proc.devRef .tc main_arg8))) (vecOf1 (Q3 m c (Proc.devRef .tc main_arg9))) (vecOf1 (Q3 m c (Proc.devRef .tc main_arg10))) (vecOf1 (Q3 m c (Proc.devRef .tc main_arg11)))
        (matOf1 (Q3 m c (Proc.devRef .tc main_arg12))) (vecOf1 (Q3 m c (Proc.devRef .tc main_arg13))) (scalOf1 (Q3 m c (Proc.devRef .tc main_arg14))) := by
  rw [Q4_eq]
  generalize Q3 m c = V
  after_results_simp <;> rfl

/-- The third layer's stretch leaves the layer, in the host's spelling, of what the stretch found. -/
theorem Q6_out : (Q6 m c (Proc.devRef .tc main_v192) : S20000x512.Idx → EReal)
    = hostLayer (Q5 m c (Proc.devRef .tc main_v140)) (matOf2 (Q5 m c (Proc.devRef .tc main_arg5))) (vecOf2 (Q5 m c (Proc.devRef .tc main_arg6))) (scalOf2 (Q5 m c (Proc.devRef .tc main_arg7)))
        (vecOf2 (Q5 m c (Proc.devRef .tc main_arg8))) (vecOf2 (Q5 m c (Proc.devRef .tc main_arg9))) (vecOf2 (Q5 m c (Proc.devRef .tc main_arg10))) (vecOf2 (Q5 m c (Proc.devRef .tc main_arg11)))
        (matOf2 (Q5 m c (Proc.devRef .tc main_arg12))) (vecOf2 (Q5 m c (Proc.devRef .tc main_arg13))) (scalOf2 (Q5 m c (Proc.devRef .tc main_arg14))) := by
  rw [Q6_eq]
  generalize Q5 m c = V
  after_results_simp <;> rfl

/-- The last stretch leaves the head's hidden layer and output of the third layer's output. -/
theorem Q7_hidden : (Q7 m c (Proc.devRef .tc main_v202) : S400x256.Idx → EReal)
    = headHidden (Q6 m c (Proc.devRef .tc main_v192)) (Q6 m c (Proc.devRef .tc main_arg2)) (Q6 m c (Proc.devRef .tc main_arg3))
        (Q6 m c (Proc.devRef .tc main_arg4)) (Q6 m c (Proc.devRef .tc main_arg15)) (Q6 m c (Proc.devRef .tc main_arg16)) := by
  rw [Q7_eq]; generalize Q6 m c = V; after_results_simp <;> rfl
theorem Q7_out : (Q7 m c (Proc.devRef .tc main_v212) : S400x1.Idx → EReal)
    = headOut (headHidden (Q6 m c (Proc.devRef .tc main_v192)) (Q6 m c (Proc.devRef .tc main_arg2)) (Q6 m c (Proc.devRef .tc main_arg3))
        (Q6 m c (Proc.devRef .tc main_arg4)) (Q6 m c (Proc.devRef .tc main_arg15)) (Q6 m c (Proc.devRef .tc main_arg16)))
        (Q6 m c (Proc.devRef .tc main_arg17)) (Q6 m c (Proc.devRef .tc main_arg18)) := by
  rw [Q7_eq]; generalize Q6 m c = V; after_results_simp <;> rfl

end Cert.ReferenceIdeal.Stretches

end
-- ==== Proof.RefArgs.lean ====
/-
  The reference's arguments and edge columns at every point of its run: no stretch writes an argument, and the source
  and destination columns the first stretch computes from the edge list are not written again, so each is, at every
  later point, what it was.
-/
import proofs.«142629_j73753178406914_1_alg».proof.Proof.RefGlue
import proofs.«142629_j73753178406914_1_alg».proof.Proof.RefKeeps

set_option maxRecDepth 16384

noncomputable section

namespace Cert.ReferenceIdeal.Stretches

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem Q0_arg0 : Q0 m c (Proc.devRef .tc main_arg0) = m ((c.tc : Thread nD τ).loc main_arg0) := rfl
theorem Q1_arg0 : Q1 m c (Proc.devRef .tc main_arg0) = m ((c.tc : Thread nD τ).loc main_arg0) :=
  (Q1_keep m c main_arg0 (by decide)).trans (Q0_arg0 m c)
theorem Q2_arg0 : Q2 m c (Proc.devRef .tc main_arg0) = m ((c.tc : Thread nD τ).loc main_arg0) :=
  (Q2_keep m c main_arg0 (by decide)).trans (Q1_arg0 m c)
theorem Q3_arg0 : Q3 m c (Proc.devRef .tc main_arg0) = m ((c.tc : Thread nD τ).loc main_arg0) :=
  (Q3_keep m c main_arg0 (by decide)).trans (Q2_arg0 m c)
theorem Q4_arg0 : Q4 m c (Proc.devRef .tc main_arg0) = m ((c.tc : Thread nD τ).loc main_arg0) :=
  (Q4_keep m c main_arg0 (by decide)).trans (Q3_arg0 m c)
theorem Q5_arg0 : Q5 m c (Proc.devRef .tc main_arg0) = m ((c.tc : Thread nD τ).loc main_arg0) :=
  (Q5_keep m c main_arg0 (by decide)).trans (Q4_arg0 m c)
theorem Q6_arg0 : Q6 m c (Proc.devRef .tc main_arg0) = m ((c.tc : Thread nD τ).loc main_arg0) :=
  (Q6_keep m c main_arg0 (by decide)).trans (Q5_arg0 m c)
theorem Q0_arg1 : Q0 m c (Proc.devRef .tc main_arg1) = m ((c.tc : Thread nD τ).loc main_arg1) := rfl
theorem Q1_arg1 : Q1 m c (Proc.devRef .tc main_arg1) = m ((c.tc : Thread nD τ).loc main_arg1) :=
  (Q1_keep m c main_arg1 (by decide)).trans (Q0_arg1 m c)
theorem Q2_arg1 : Q2 m c (Proc.devRef .tc main_arg1) = m ((c.tc : Thread nD τ).loc main_arg1) :=
  (Q2_keep m c main_arg1 (by decide)).trans (Q1_arg1 m c)
theorem Q3_arg1 : Q3 m c (Proc.devRef .tc main_arg1) = m ((c.tc : Thread nD τ).loc main_arg1) :=
  (Q3_keep m c main_arg1 (by decide)).trans (Q2_arg1 m c)
theorem Q4_arg1 : Q4 m c (Proc.devRef .tc main_arg1) = m ((c.tc : Thread nD τ).loc main_arg1) :=
  (Q4_keep m c main_arg1 (by decide)).trans (Q3_arg1 m c)
theorem Q5_arg1 : Q5 m c (Proc.devRef .tc main_arg1) = m ((c.tc : Thread nD τ).loc main_arg1) :=
  (Q5_keep m c main_arg1 (by decide)).trans (Q4_arg1 m c)
theorem Q6_arg1 : Q6 m c (Proc.devRef .tc main_arg1) = m ((c.tc : Thread nD τ).loc main_arg1) :=
  (Q6_keep m c main_arg1 (by decide)).trans (Q5_arg1 m c)
theorem Q0_arg2 : Q0 m c (Proc.devRef .tc main_arg2) = m ((c.tc : Thread nD τ).loc main_arg2) := rfl
theorem Q1_arg2 : Q1 m c (Proc.devRef .tc main_arg2) = m ((c.tc : Thread nD τ).loc main_arg2) :=
  (Q1_keep m c main_arg2 (by decide)).trans (Q0_arg2 m c)
theorem Q2_arg2 : Q2 m c (Proc.devRef .tc main_arg2) = m ((c.tc : Thread nD τ).loc main_arg2) :=
  (Q2_keep m c main_arg2 (by decide)).trans (Q1_arg2 m c)
theorem Q3_arg2 : Q3 m c (Proc.devRef .tc main_arg2) = m ((c.tc : Thread nD τ).loc main_arg2) :=
  (Q3_keep m c main_arg2 (by decide)).trans (Q2_arg2 m c)
theorem Q4_arg2 : Q4 m c (Proc.devRef .tc main_arg2) = m ((c.tc : Thread nD τ).loc main_arg2) :=
  (Q4_keep m c main_arg2 (by decide)).trans (Q3_arg2 m c)
theorem Q5_arg2 : Q5 m c (Proc.devRef .tc main_arg2) = m ((c.tc : Thread nD τ).loc main_arg2) :=
  (Q5_keep m c main_arg2 (by decide)).trans (Q4_arg2 m c)
theorem Q6_arg2 : Q6 m c (Proc.devRef .tc main_arg2) = m ((c.tc : Thread nD τ).loc main_arg2) :=
  (Q6_keep m c main_arg2 (by decide)).trans (Q5_arg2 m c)
theorem Q0_arg3 : Q0 m c (Proc.devRef .tc main_arg3) = m ((c.tc : Thread nD τ).loc main_arg3) := rfl
theorem Q1_arg3 : Q1 m c (Proc.devRef .tc main_arg3) = m ((c.tc : Thread nD τ).loc main_arg3) :=
  (Q1_keep m c main_arg3 (by decide)).trans (Q0_arg3 m c)
theorem Q2_arg3 : Q2 m c (Proc.devRef .tc main_arg3) = m ((c.tc : Thread nD τ).loc main_arg3) :=
  (Q2_keep m c main_arg3 (by decide)).trans (Q1_arg3 m c)
theorem Q3_arg3 : Q3 m c (Proc.devRef .tc main_arg3) = m ((c.tc : Thread nD τ).loc main_arg3) :=
  (Q3_keep m c main_arg3 (by decide)).trans (Q2_arg3 m c)
theorem Q4_arg3 : Q4 m c (Proc.devRef .tc main_arg3) = m ((c.tc : Thread nD τ).loc main_arg3) :=
  (Q4_keep m c main_arg3 (by decide)).trans (Q3_arg3 m c)
theorem Q5_arg3 : Q5 m c (Proc.devRef .tc main_arg3) = m ((c.tc : Thread nD τ).loc main_arg3) :=
  (Q5_keep m c main_arg3 (by decide)).trans (Q4_arg3 m c)
theorem Q6_arg3 : Q6 m c (Proc.devRef .tc main_arg3) = m ((c.tc : Thread nD τ).loc main_arg3) :=
  (Q6_keep m c main_arg3 (by decide)).trans (Q5_arg3 m c)
theorem Q0_arg4 : Q0 m c (Proc.devRef .tc main_arg4) = m ((c.tc : Thread nD τ).loc main_arg4) := rfl
theorem Q1_arg4 : Q1 m c (Proc.devRef .tc main_arg4) = m ((c.tc : Thread nD τ).loc main_arg4) :=
  (Q1_keep m c main_arg4 (by decide)).trans (Q0_arg4 m c)
theorem Q2_arg4 : Q2 m c (Proc.devRef .tc main_arg4) = m ((c.tc : Thread nD τ).loc main_arg4) :=
  (Q2_keep m c main_arg4 (by decide)).trans (Q1_arg4 m c)
theorem Q3_arg4 : Q3 m c (Proc.devRef .tc main_arg4) = m ((c.tc : Thread nD τ).loc main_arg4) :=
  (Q3_keep m c main_arg4 (by decide)).trans (Q2_arg4 m c)
theorem Q4_arg4 : Q4 m c (Proc.devRef .tc main_arg4) = m ((c.tc : Thread nD τ).loc main_arg4) :=
  (Q4_keep m c main_arg4 (by decide)).trans (Q3_arg4 m c)
theorem Q5_arg4 : Q5 m c (Proc.devRef .tc main_arg4) = m ((c.tc : Thread nD τ).loc main_arg4) :=
  (Q5_keep m c main_arg4 (by decide)).trans (Q4_arg4 m c)
theorem Q6_arg4 : Q6 m c (Proc.devRef .tc main_arg4) = m ((c.tc : Thread nD τ).loc main_arg4) :=
  (Q6_keep m c main_arg4 (by decide)).trans (Q5_arg4 m c)
theorem Q0_arg5 : Q0 m c (Proc.devRef .tc main_arg5) = m ((c.tc : Thread nD τ).loc main_arg5) := rfl
theorem Q1_arg5 : Q1 m c (Proc.devRef .tc main_arg5) = m ((c.tc : Thread nD τ).loc main_arg5) :=
  (Q1_keep m c main_arg5 (by decide)).trans (Q0_arg5 m c)
theorem Q2_arg5 : Q2 m c (Proc.devRef .tc main_arg5) = m ((c.tc : Thread nD τ).loc main_arg5) :=
  (Q2_keep m c main_arg5 (by decide)).trans (Q1_arg5 m c)
theorem Q3_arg5 : Q3 m c (Proc.devRef .tc main_arg5) = m ((c.tc : Thread nD τ).loc main_arg5) :=
  (Q3_keep m c main_arg5 (by decide)).trans (Q2_arg5 m c)
theorem Q4_arg5 : Q4 m c (Proc.devRef .tc main_arg5) = m ((c.tc : Thread nD τ).loc main_arg5) :=
  (Q4_keep m c main_arg5 (by decide)).trans (Q3_arg5 m c)
theorem Q5_arg5 : Q5 m c (Proc.devRef .tc main_arg5) = m ((c.tc : Thread nD τ).loc main_arg5) :=
  (Q5_keep m c main_arg5 (by decide)).trans (Q4_arg5 m c)
theorem Q6_arg5 : Q6 m c (Proc.devRef .tc main_arg5) = m ((c.tc : Thread nD τ).loc main_arg5) :=
  (Q6_keep m c main_arg5 (by decide)).trans (Q5_arg5 m c)
theorem Q0_arg6 : Q0 m c (Proc.devRef .tc main_arg6) = m ((c.tc : Thread nD τ).loc main_arg6) := rfl
theorem Q1_arg6 : Q1 m c (Proc.devRef .tc main_arg6) = m ((c.tc : Thread nD τ).loc main_arg6) :=
  (Q1_keep m c main_arg6 (by decide)).trans (Q0_arg6 m c)
theorem Q2_arg6 : Q2 m c (Proc.devRef .tc main_arg6) = m ((c.tc : Thread nD τ).loc main_arg6) :=
  (Q2_keep m c main_arg6 (by decide)).trans (Q1_arg6 m c)
theorem Q3_arg6 : Q3 m c (Proc.devRef .tc main_arg6) = m ((c.tc : Thread nD τ).loc main_arg6) :=
  (Q3_keep m c main_arg6 (by decide)).trans (Q2_arg6 m c)
theorem Q4_arg6 : Q4 m c (Proc.devRef .tc main_arg6) = m ((c.tc : Thread nD τ).loc main_arg6) :=
  (Q4_keep m c main_arg6 (by decide)).trans (Q3_arg6 m c)
theorem Q5_arg6 : Q5 m c (Proc.devRef .tc main_arg6) = m ((c.tc : Thread nD τ).loc main_arg6) :=
  (Q5_keep m c main_arg6 (by decide)).trans (Q4_arg6 m c)
theorem Q6_arg6 : Q6 m c (Proc.devRef .tc main_arg6) = m ((c.tc : Thread nD τ).loc main_arg6) :=
  (Q6_keep m c main_arg6 (by decide)).trans (Q5_arg6 m c)
theorem Q0_arg7 : Q0 m c (Proc.devRef .tc main_arg7) = m ((c.tc : Thread nD τ).loc main_arg7) := rfl
theorem Q1_arg7 : Q1 m c (Proc.devRef .tc main_arg7) = m ((c.tc : Thread nD τ).loc main_arg7) :=
  (Q1_keep m c main_arg7 (by decide)).trans (Q0_arg7 m c)
theorem Q2_arg7 : Q2 m c (Proc.devRef .tc main_arg7) = m ((c.tc : Thread nD τ).loc main_arg7) :=
  (Q2_keep m c main_arg7 (by decide)).trans (Q1_arg7 m c)
theorem Q3_arg7 : Q3 m c (Proc.devRef .tc main_arg7) = m ((c.tc : Thread nD τ).loc main_arg7) :=
  (Q3_keep m c main_arg7 (by decide)).trans (Q2_arg7 m c)
theorem Q4_arg7 : Q4 m c (Proc.devRef .tc main_arg7) = m ((c.tc : Thread nD τ).loc main_arg7) :=
  (Q4_keep m c main_arg7 (by decide)).trans (Q3_arg7 m c)
theorem Q5_arg7 : Q5 m c (Proc.devRef .tc main_arg7) = m ((c.tc : Thread nD τ).loc main_arg7) :=
  (Q5_keep m c main_arg7 (by decide)).trans (Q4_arg7 m c)
theorem Q6_arg7 : Q6 m c (Proc.devRef .tc main_arg7) = m ((c.tc : Thread nD τ).loc main_arg7) :=
  (Q6_keep m c main_arg7 (by decide)).trans (Q5_arg7 m c)
theorem Q0_arg8 : Q0 m c (Proc.devRef .tc main_arg8) = m ((c.tc : Thread nD τ).loc main_arg8) := rfl
theorem Q1_arg8 : Q1 m c (Proc.devRef .tc main_arg8) = m ((c.tc : Thread nD τ).loc main_arg8) :=
  (Q1_keep m c main_arg8 (by decide)).trans (Q0_arg8 m c)
theorem Q2_arg8 : Q2 m c (Proc.devRef .tc main_arg8) = m ((c.tc : Thread nD τ).loc main_arg8) :=
  (Q2_keep m c main_arg8 (by decide)).trans (Q1_arg8 m c)
theorem Q3_arg8 : Q3 m c (Proc.devRef .tc main_arg8) = m ((c.tc : Thread nD τ).loc main_arg8) :=
  (Q3_keep m c main_arg8 (by decide)).trans (Q2_arg8 m c)
theorem Q4_arg8 : Q4 m c (Proc.devRef .tc main_arg8) = m ((c.tc : Thread nD τ).loc main_arg8) :=
  (Q4_keep m c main_arg8 (by decide)).trans (Q3_arg8 m c)
theorem Q5_arg8 : Q5 m c (Proc.devRef .tc main_arg8) = m ((c.tc : Thread nD τ).loc main_arg8) :=
  (Q5_keep m c main_arg8 (by decide)).trans (Q4_arg8 m c)
theorem Q6_arg8 : Q6 m c (Proc.devRef .tc main_arg8) = m ((c.tc : Thread nD τ).loc main_arg8) :=
  (Q6_keep m c main_arg8 (by decide)).trans (Q5_arg8 m c)
theorem Q0_arg9 : Q0 m c (Proc.devRef .tc main_arg9) = m ((c.tc : Thread nD τ).loc main_arg9) := rfl
theorem Q1_arg9 : Q1 m c (Proc.devRef .tc main_arg9) = m ((c.tc : Thread nD τ).loc main_arg9) :=
  (Q1_keep m c main_arg9 (by decide)).trans (Q0_arg9 m c)
theorem Q2_arg9 : Q2 m c (Proc.devRef .tc main_arg9) = m ((c.tc : Thread nD τ).loc main_arg9) :=
  (Q2_keep m c main_arg9 (by decide)).trans (Q1_arg9 m c)
theorem Q3_arg9 : Q3 m c (Proc.devRef .tc main_arg9) = m ((c.tc : Thread nD τ).loc main_arg9) :=
  (Q3_keep m c main_arg9 (by decide)).trans (Q2_arg9 m c)
theorem Q4_arg9 : Q4 m c (Proc.devRef .tc main_arg9) = m ((c.tc : Thread nD τ).loc main_arg9) :=
  (Q4_keep m c main_arg9 (by decide)).trans (Q3_arg9 m c)
theorem Q5_arg9 : Q5 m c (Proc.devRef .tc main_arg9) = m ((c.tc : Thread nD τ).loc main_arg9) :=
  (Q5_keep m c main_arg9 (by decide)).trans (Q4_arg9 m c)
theorem Q6_arg9 : Q6 m c (Proc.devRef .tc main_arg9) = m ((c.tc : Thread nD τ).loc main_arg9) :=
  (Q6_keep m c main_arg9 (by decide)).trans (Q5_arg9 m c)
theorem Q0_arg10 : Q0 m c (Proc.devRef .tc main_arg10) = m ((c.tc : Thread nD τ).loc main_arg10) := rfl
theorem Q1_arg10 : Q1 m c (Proc.devRef .tc main_arg10) = m ((c.tc : Thread nD τ).loc main_arg10) :=
  (Q1_keep m c main_arg10 (by decide)).trans (Q0_arg10 m c)
theorem Q2_arg10 : Q2 m c (Proc.devRef .tc main_arg10) = m ((c.tc : Thread nD τ).loc main_arg10) :=
  (Q2_keep m c main_arg10 (by decide)).trans (Q1_arg10 m c)
theorem Q3_arg10 : Q3 m c (Proc.devRef .tc main_arg10) = m ((c.tc : Thread nD τ).loc main_arg10) :=
  (Q3_keep m c main_arg10 (by decide)).trans (Q2_arg10 m c)
theorem Q4_arg10 : Q4 m c (Proc.devRef .tc main_arg10) = m ((c.tc : Thread nD τ).loc main_arg10) :=
  (Q4_keep m c main_arg10 (by decide)).trans (Q3_arg10 m c)
theorem Q5_arg10 : Q5 m c (Proc.devRef .tc main_arg10) = m ((c.tc : Thread nD τ).loc main_arg10) :=
  (Q5_keep m c main_arg10 (by decide)).trans (Q4_arg10 m c)
theorem Q6_arg10 : Q6 m c (Proc.devRef .tc main_arg10) = m ((c.tc : Thread nD τ).loc main_arg10) :=
  (Q6_keep m c main_arg10 (by decide)).trans (Q5_arg10 m c)
theorem Q0_arg11 : Q0 m c (Proc.devRef .tc main_arg11) = m ((c.tc : Thread nD τ).loc main_arg11) := rfl
theorem Q1_arg11 : Q1 m c (Proc.devRef .tc main_arg11) = m ((c.tc : Thread nD τ).loc main_arg11) :=
  (Q1_keep m c main_arg11 (by decide)).trans (Q0_arg11 m c)
theorem Q2_arg11 : Q2 m c (Proc.devRef .tc main_arg11) = m ((c.tc : Thread nD τ).loc main_arg11) :=
  (Q2_keep m c main_arg11 (by decide)).trans (Q1_arg11 m c)
theorem Q3_arg11 : Q3 m c (Proc.devRef .tc main_arg11) = m ((c.tc : Thread nD τ).loc main_arg11) :=
  (Q3_keep m c main_arg11 (by decide)).trans (Q2_arg11 m c)
theorem Q4_arg11 : Q4 m c (Proc.devRef .tc main_arg11) = m ((c.tc : Thread nD τ).loc main_arg11) :=
  (Q4_keep m c main_arg11 (by decide)).trans (Q3_arg11 m c)
theorem Q5_arg11 : Q5 m c (Proc.devRef .tc main_arg11) = m ((c.tc : Thread nD τ).loc main_arg11) :=
  (Q5_keep m c main_arg11 (by decide)).trans (Q4_arg11 m c)
theorem Q6_arg11 : Q6 m c (Proc.devRef .tc main_arg11) = m ((c.tc : Thread nD τ).loc main_arg11) :=
  (Q6_keep m c main_arg11 (by decide)).trans (Q5_arg11 m c)
theorem Q0_arg12 : Q0 m c (Proc.devRef .tc main_arg12) = m ((c.tc : Thread nD τ).loc main_arg12) := rfl
theorem Q1_arg12 : Q1 m c (Proc.devRef .tc main_arg12) = m ((c.tc : Thread nD τ).loc main_arg12) :=
  (Q1_keep m c main_arg12 (by decide)).trans (Q0_arg12 m c)
theorem Q2_arg12 : Q2 m c (Proc.devRef .tc main_arg12) = m ((c.tc : Thread nD τ).loc main_arg12) :=
  (Q2_keep m c main_arg12 (by decide)).trans (Q1_arg12 m c)
theorem Q3_arg12 : Q3 m c (Proc.devRef .tc main_arg12) = m ((c.tc : Thread nD τ).loc main_arg12) :=
  (Q3_keep m c main_arg12 (by decide)).trans (Q2_arg12 m c)
theorem Q4_arg12 : Q4 m c (Proc.devRef .tc main_arg12) = m ((c.tc : Thread nD τ).loc main_arg12) :=
  (Q4_keep m c main_arg12 (by decide)).trans (Q3_arg12 m c)
theorem Q5_arg12 : Q5 m c (Proc.devRef .tc main_arg12) = m ((c.tc : Thread nD τ).loc main_arg12) :=
  (Q5_keep m c main_arg12 (by decide)).trans (Q4_arg12 m c)
theorem Q6_arg12 : Q6 m c (Proc.devRef .tc main_arg12) = m ((c.tc : Thread nD τ).loc main_arg12) :=
  (Q6_keep m c main_arg12 (by decide)).trans (Q5_arg12 m c)
theorem Q0_arg13 : Q0 m c (Proc.devRef .tc main_arg13) = m ((c.tc : Thread nD τ).loc main_arg13) := rfl
theorem Q1_arg13 : Q1 m c (Proc.devRef .tc main_arg13) = m ((c.tc : Thread nD τ).loc main_arg13) :=
  (Q1_keep m c main_arg13 (by decide)).trans (Q0_arg13 m c)
theorem Q2_arg13 : Q2 m c (Proc.devRef .tc main_arg13) = m ((c.tc : Thread nD τ).loc main_arg13) :=
  (Q2_keep m c main_arg13 (by decide)).trans (Q1_arg13 m c)
theorem Q3_arg13 : Q3 m c (Proc.devRef .tc main_arg13) = m ((c.tc : Thread nD τ).loc main_arg13) :=
  (Q3_keep m c main_arg13 (by decide)).trans (Q2_arg13 m c)
theorem Q4_arg13 : Q4 m c (Proc.devRef .tc main_arg13) = m ((c.tc : Thread nD τ).loc main_arg13) :=
  (Q4_keep m c main_arg13 (by decide)).trans (Q3_arg13 m c)
theorem Q5_arg13 : Q5 m c (Proc.devRef .tc main_arg13) = m ((c.tc : Thread nD τ).loc main_arg13) :=
  (Q5_keep m c main_arg13 (by decide)).trans (Q4_arg13 m c)
theorem Q6_arg13 : Q6 m c (Proc.devRef .tc main_arg13) = m ((c.tc : Thread nD τ).loc main_arg13) :=
  (Q6_keep m c main_arg13 (by decide)).trans (Q5_arg13 m c)
theorem Q0_arg14 : Q0 m c (Proc.devRef .tc main_arg14) = m ((c.tc : Thread nD τ).loc main_arg14) := rfl
theorem Q1_arg14 : Q1 m c (Proc.devRef .tc main_arg14) = m ((c.tc : Thread nD τ).loc main_arg14) :=
  (Q1_keep m c main_arg14 (by decide)).trans (Q0_arg14 m c)
theorem Q2_arg14 : Q2 m c (Proc.devRef .tc main_arg14) = m ((c.tc : Thread nD τ).loc main_arg14) :=
  (Q2_keep m c main_arg14 (by decide)).trans (Q1_arg14 m c)
theorem Q3_arg14 : Q3 m c (Proc.devRef .tc main_arg14) = m ((c.tc : Thread nD τ).loc main_arg14) :=
  (Q3_keep m c main_arg14 (by decide)).trans (Q2_arg14 m c)
theorem Q4_arg14 : Q4 m c (Proc.devRef .tc main_arg14) = m ((c.tc : Thread nD τ).loc main_arg14) :=
  (Q4_keep m c main_arg14 (by decide)).trans (Q3_arg14 m c)
theorem Q5_arg14 : Q5 m c (Proc.devRef .tc main_arg14) = m ((c.tc : Thread nD τ).loc main_arg14) :=
  (Q5_keep m c main_arg14 (by decide)).trans (Q4_arg14 m c)
theorem Q6_arg14 : Q6 m c (Proc.devRef .tc main_arg14) = m ((c.tc : Thread nD τ).loc main_arg14) :=
  (Q6_keep m c main_arg14 (by decide)).trans (Q5_arg14 m c)
theorem Q0_arg15 : Q0 m c (Proc.devRef .tc main_arg15) = m ((c.tc : Thread nD τ).loc main_arg15) := rfl
theorem Q1_arg15 : Q1 m c (Proc.devRef .tc main_arg15) = m ((c.tc : Thread nD τ).loc main_arg15) :=
  (Q1_keep m c main_arg15 (by decide)).trans (Q0_arg15 m c)
theorem Q2_arg15 : Q2 m c (Proc.devRef .tc main_arg15) = m ((c.tc : Thread nD τ).loc main_arg15) :=
  (Q2_keep m c main_arg15 (by decide)).trans (Q1_arg15 m c)
theorem Q3_arg15 : Q3 m c (Proc.devRef .tc main_arg15) = m ((c.tc : Thread nD τ).loc main_arg15) :=
  (Q3_keep m c main_arg15 (by decide)).trans (Q2_arg15 m c)
theorem Q4_arg15 : Q4 m c (Proc.devRef .tc main_arg15) = m ((c.tc : Thread nD τ).loc main_arg15) :=
  (Q4_keep m c main_arg15 (by decide)).trans (Q3_arg15 m c)
theorem Q5_arg15 : Q5 m c (Proc.devRef .tc main_arg15) = m ((c.tc : Thread nD τ).loc main_arg15) :=
  (Q5_keep m c main_arg15 (by decide)).trans (Q4_arg15 m c)
theorem Q6_arg15 : Q6 m c (Proc.devRef .tc main_arg15) = m ((c.tc : Thread nD τ).loc main_arg15) :=
  (Q6_keep m c main_arg15 (by decide)).trans (Q5_arg15 m c)
theorem Q0_arg16 : Q0 m c (Proc.devRef .tc main_arg16) = m ((c.tc : Thread nD τ).loc main_arg16) := rfl
theorem Q1_arg16 : Q1 m c (Proc.devRef .tc main_arg16) = m ((c.tc : Thread nD τ).loc main_arg16) :=
  (Q1_keep m c main_arg16 (by decide)).trans (Q0_arg16 m c)
theorem Q2_arg16 : Q2 m c (Proc.devRef .tc main_arg16) = m ((c.tc : Thread nD τ).loc main_arg16) :=
  (Q2_keep m c main_arg16 (by decide)).trans (Q1_arg16 m c)
theorem Q3_arg16 : Q3 m c (Proc.devRef .tc main_arg16) = m ((c.tc : Thread nD τ).loc main_arg16) :=
  (Q3_keep m c main_arg16 (by decide)).trans (Q2_arg16 m c)
theorem Q4_arg16 : Q4 m c (Proc.devRef .tc main_arg16) = m ((c.tc : Thread nD τ).loc main_arg16) :=
  (Q4_keep m c main_arg16 (by decide)).trans (Q3_arg16 m c)
theorem Q5_arg16 : Q5 m c (Proc.devRef .tc main_arg16) = m ((c.tc : Thread nD τ).loc main_arg16) :=
  (Q5_keep m c main_arg16 (by decide)).trans (Q4_arg16 m c)
theorem Q6_arg16 : Q6 m c (Proc.devRef .tc main_arg16) = m ((c.tc : Thread nD τ).loc main_arg16) :=
  (Q6_keep m c main_arg16 (by decide)).trans (Q5_arg16 m c)
theorem Q0_arg17 : Q0 m c (Proc.devRef .tc main_arg17) = m ((c.tc : Thread nD τ).loc main_arg17) := rfl
theorem Q1_arg17 : Q1 m c (Proc.devRef .tc main_arg17) = m ((c.tc : Thread nD τ).loc main_arg17) :=
  (Q1_keep m c main_arg17 (by decide)).trans (Q0_arg17 m c)
theorem Q2_arg17 : Q2 m c (Proc.devRef .tc main_arg17) = m ((c.tc : Thread nD τ).loc main_arg17) :=
  (Q2_keep m c main_arg17 (by decide)).trans (Q1_arg17 m c)
theorem Q3_arg17 : Q3 m c (Proc.devRef .tc main_arg17) = m ((c.tc : Thread nD τ).loc main_arg17) :=
  (Q3_keep m c main_arg17 (by decide)).trans (Q2_arg17 m c)
theorem Q4_arg17 : Q4 m c (Proc.devRef .tc main_arg17) = m ((c.tc : Thread nD τ).loc main_arg17) :=
  (Q4_keep m c main_arg17 (by decide)).trans (Q3_arg17 m c)
theorem Q5_arg17 : Q5 m c (Proc.devRef .tc main_arg17) = m ((c.tc : Thread nD τ).loc main_arg17) :=
  (Q5_keep m c main_arg17 (by decide)).trans (Q4_arg17 m c)
theorem Q6_arg17 : Q6 m c (Proc.devRef .tc main_arg17) = m ((c.tc : Thread nD τ).loc main_arg17) :=
  (Q6_keep m c main_arg17 (by decide)).trans (Q5_arg17 m c)
theorem Q0_arg18 : Q0 m c (Proc.devRef .tc main_arg18) = m ((c.tc : Thread nD τ).loc main_arg18) := rfl
theorem Q1_arg18 : Q1 m c (Proc.devRef .tc main_arg18) = m ((c.tc : Thread nD τ).loc main_arg18) :=
  (Q1_keep m c main_arg18 (by decide)).trans (Q0_arg18 m c)
theorem Q2_arg18 : Q2 m c (Proc.devRef .tc main_arg18) = m ((c.tc : Thread nD τ).loc main_arg18) :=
  (Q2_keep m c main_arg18 (by decide)).trans (Q1_arg18 m c)
theorem Q3_arg18 : Q3 m c (Proc.devRef .tc main_arg18) = m ((c.tc : Thread nD τ).loc main_arg18) :=
  (Q3_keep m c main_arg18 (by decide)).trans (Q2_arg18 m c)
theorem Q4_arg18 : Q4 m c (Proc.devRef .tc main_arg18) = m ((c.tc : Thread nD τ).loc main_arg18) :=
  (Q4_keep m c main_arg18 (by decide)).trans (Q3_arg18 m c)
theorem Q5_arg18 : Q5 m c (Proc.devRef .tc main_arg18) = m ((c.tc : Thread nD τ).loc main_arg18) :=
  (Q5_keep m c main_arg18 (by decide)).trans (Q4_arg18 m c)
theorem Q6_arg18 : Q6 m c (Proc.devRef .tc main_arg18) = m ((c.tc : Thread nD τ).loc main_arg18) :=
  (Q6_keep m c main_arg18 (by decide)).trans (Q5_arg18 m c)

theorem Q1_src' : (Q1 m c (Proc.devRef .tc main_v1) : S320000.Idx → BitVec 32) = srcCol (m ((c.tc : Thread nD τ).loc main_arg1)) :=
  (Q1_src m c).trans (congrArg srcCol (Q0_arg1 m c))
theorem Q2_src' : (Q2 m c (Proc.devRef .tc main_v1) : S320000.Idx → BitVec 32) = srcCol (m ((c.tc : Thread nD τ).loc main_arg1)) :=
  (Q2_keep m c main_v1 (by decide)).trans (Q1_src' m c)
theorem Q3_src' : (Q3 m c (Proc.devRef .tc main_v1) : S320000.Idx → BitVec 32) = srcCol (m ((c.tc : Thread nD τ).loc main_arg1)) :=
  (Q3_keep m c main_v1 (by decide)).trans (Q2_src' m c)
theorem Q4_src' : (Q4 m c (Proc.devRef .tc main_v1) : S320000.Idx → BitVec 32) = srcCol (m ((c.tc : Thread nD τ).loc main_arg1)) :=
  (Q4_keep m c main_v1 (by decide)).trans (Q3_src' m c)
theorem Q1_dst' : (Q1 m c (Proc.devRef .tc main_v3) : S320000.Idx → BitVec 32) = dstCol (m ((c.tc : Thread nD τ).loc main_arg1)) :=
  (Q1_dst m c).trans (congrArg dstCol (Q0_arg1 m c))
theorem Q2_dst' : (Q2 m c (Proc.devRef .tc main_v3) : S320000.Idx → BitVec 32) = dstCol (m ((c.tc : Thread nD τ).loc main_arg1)) :=
  (Q2_keep m c main_v3 (by decide)).trans (Q1_dst' m c)
theorem Q3_dst' : (Q3 m c (Proc.devRef .tc main_v3) : S320000.Idx → BitVec 32) = dstCol (m ((c.tc : Thread nD τ).loc main_arg1)) :=
  (Q3_keep m c main_v3 (by decide)).trans (Q2_dst' m c)
theorem Q4_dst' : (Q4 m c (Proc.devRef .tc main_v3) : S320000.Idx → BitVec 32) = dstCol (m ((c.tc : Thread nD τ).loc main_arg1)) :=
  (Q4_keep m c main_v3 (by decide)).trans (Q3_dst' m c)

end Cert.ReferenceIdeal.Stretches

end
-- ==== Proof.LayerAgree.lean ====
/-
  The two programs' layers agree.

  The kernel keeps each parameter vector as a 1×512 row and each slope as a 1×1 array, adds the neighbour sums inside
  the body, and scales by γ · rsqrt (σ² + ε); the reference keeps length-512 vectors and rank-0 slopes, adds the
  neighbour sums before the layer, and scales by γ / sqrt (σ² + ε). When the rows hold the vectors' numbers, the 1×1
  arrays the slopes', and every variance is a nonnegative real, the two layers are the same function of the same row.
-/
import proofs.«142629_j73753178406914_1_alg».proof.Proof.LayerSpec

noncomputable section

open scoped BigOperators

namespace Cert.Gin

open Idealize.ShloMosaic Idealize.ShloMosaic.ValueIdx Cert.RowDot Cert.Dense

/-- The one entry of a 1×1 array, read at the literal position (0, 0). -/
theorem extractAt_one (a : (⟨2, ![1, 1]⟩ : Shape).Idx → EReal) (h : ∀ d, (![0, 0] : Fin 2 → Nat) d < (⟨2, ![1, 1]⟩ : Shape).size d) :
    extractAt ![0, 0] a h = a (ix2 0 0) :=
  congrArg a (funext fun d => Fin.ext (by match d with | ⟨0, _⟩ => rfl | ⟨1, _⟩ => rfl))

/-- The kernel's layer on row p of h and agg is the reference's layer on row p of h + agg. -/
theorem layer_agree
    (h agg : (⟨2, ![20000, 512]⟩ : Shape).Idx → EReal) (W₁ W₂ : (⟨2, ![512, 512]⟩ : Shape).Idx → EReal)
    (b₁r γr βr μr σr b₂r : (⟨2, ![1, 512]⟩ : Shape).Idx → EReal) (a₁r a₂r : (⟨2, ![1, 1]⟩ : Shape).Idx → EReal)
    (b₁ γ β μ σ2 b₂ : (⟨1, ![512]⟩ : Shape).Idx → EReal) (a₁ a₂ : (⟨0, ![]⟩ : Shape).Idx → EReal)
    (hb₁ : biasRow b₁r = biasVec b₁) (hγ : biasRow γr = biasVec γ) (hβ : biasRow βr = biasVec β)
    (hμ : biasRow μr = biasVec μ) (hσ : biasRow σr = biasVec σ2) (hb₂ : biasRow b₂r = biasVec b₂)
    (ha₁ : a₁r (ix2 0 0) = a₁ ix0) (ha₂ : a₂r (ix2 0 0) = a₂ ix0)
    (h1 : ∀ d, (![0, 0] : Fin 2 → Nat) d < (⟨2, ![1, 1]⟩ : Shape).size d)
    (hvar : ∀ k, ∃ v : ℝ, 0 ≤ v ∧ biasVec σ2 k = (v : EReal)) (p : Fin 20000) (q : Fin 512) :
    layerRow (fun k => scaleK (biasRow γr k) (biasRow σr k)) W₁ (biasRow b₁r) (extractAt ![0, 0] a₁r h1) (biasRow βr) (biasRow μr)
        W₂ (biasRow b₂r) (extractAt ![0, 0] a₂r h1) (fun l => h (ix2 p l) + agg (ix2 p l)) q
      = layerRow (fun k => scaleR (biasVec γ k) (biasVec σ2 k)) W₁ (biasVec b₁) (a₁ ix0) (biasVec β) (biasVec μ)
        W₂ (biasVec b₂) (a₂ ix0) (rowOf (fun i => h i + agg i) p) q := by
  rw [extractAt_one, extractAt_one, hb₁, hγ, hβ, hμ, hσ, hb₂, ha₁, ha₂, layerRow_scale (biasVec γ) (biasVec σ2) hvar]
  rfl

end Cert.Gin

end
-- ==== Proof.VarFacts.lean ====
/-
  The precondition, decoded for argument 11 (the [3, 512] array of variances). The precondition is a conjunction of
  eighteen facts, each an "all entries" reduction by `and` of an elementwise comparison: for every float argument,
  |x| < +infinity at every entry; and last, argument 11 ≥ 0 at every entry. At the extended reals |x| = max x (-x), so
  |x| < ⊤ excludes x = ⊥ (where -x = ⊤) and x = ⊤, leaving a real number; and 0 ≤ x for that real. Hence every entry of
  argument 11 is a real v with 0 ≤ v.
-/
import proofs.«142629_j73753178406914_1_alg».proof.Defs
import Idealize.ShloMosaic.Lib.ReduceAll
import Idealize.ShloMosaic.Lib.IdealHost
import Idealize.ShloMosaic.Lib.ValueIdx

noncomputable section

namespace Cert.VarFacts

open Idealize.ShloMosaic Idealize.SL.Sem

/-- The rank-0 shape has one index. -/
instance : Subsingleton Cert.Pre_finite_inputs.S_.Idx := ⟨fun a b => funext fun d => d.elim0⟩

/-- The f32 pattern of +infinity is the top extended real. -/
theorem ofBits_inf_f32 : Ideal.ofBits .f32 0x7F800000#32 = (⊤ : EReal) := by
  simp [Ideal.ofBits, Ideal.ieee]

/-- An extended real whose absolute value max x (-x) lies strictly below +infinity is a real number:
    at x = ⊥ the maximum is -⊥ = ⊤, at x = ⊤ it is ⊤, and neither is below ⊤. -/
theorem real_of_abs_lt_inf (x : EReal)
    (h : Ideal.cmp .olt (max x (-x)) (Ideal.ofBits .f32 0x7F800000#32) = 1#1) : ∃ v : ℝ, x = (v : EReal) := by
  rw [ofBits_inf_f32] at h
  unfold Ideal.cmp at h
  induction x using EReal.rec with
  | bot => simp at h
  | coe r => exact ⟨r, rfl⟩
  | top => simp at h

/-- An extended real that compares ≥ the f32 zero word is nonnegative. -/
theorem nonneg_of_ge_zero (x : EReal)
    (h : Ideal.cmp .oge x (Ideal.ofBits .f32 0x00000000#32) = 1#1) : 0 ≤ x := by
  rw [Ideal.ofBits_zero_f32] at h
  unfold Ideal.cmp at h
  by_contra hx
  simp [hx] at h

open Cert.Pre_finite_inputs Cert.Pre_finite_inputs.Facts in
/-- The two conjuncts of the precondition that speak of one [3, 512] argument a, read at an entry: all of |a| below
    +infinity and all of a at least the zero word together say the entry is a real number v with 0 ≤ v. -/
theorem entry_of_conjuncts [Cert.Pre_finite_inputs.Facts] (a : FVec Ideal S3x512 .f32) (j : S_.Idx)
    (hfin : Host.reduce IntOp.andi
      (cmpf .olt (Host.absf a) (broadcastInDim S3x512 ![] bcast_S_S3x512 (constant S_ .f32 0x7F800000#32)))
      (constantI S_ 1 1#1) reducesTo_S3x512_S_d0_1 h_S_ j = 1#1)
    (hge : Host.reduce IntOp.andi
      (cmpf .oge a (broadcastInDim S3x512 ![] bcast_S_S3x512 (constant S_ .f32 0x00000000#32)))
      (constantI S_ 1 1#1) reducesTo_S3x512_S_d0_1 h_S_ j = 1#1)
    (i : S3x512.Idx) : ∃ v : ℝ, 0 ≤ v ∧ a i = (v : EReal) := by
  obtain ⟨v, hv⟩ := real_of_abs_lt_inf (a i) (Host.reduce_andi_all _ _ _ _ _ hfin i)
  have h0 : (0 : EReal) ≤ a i := nonneg_of_ge_zero (a i) (Host.reduce_andi_all _ _ _ _ _ hge i)
  rw [hv] at h0
  exact ⟨v, EReal.coe_nonneg.1 h0, hv⟩

open Cert.Pre_finite_inputs in
/-- Under the precondition every entry of argument 11 is a real number v with 0 ≤ v. The conjunction is nested to the
    left, conjunct k+1 to the right of conjuncts 1..k: the nonnegativity of argument 11 is the outermost right
    conjunct, and its finiteness is reached by eight steps to the left and then one to the right. -/
theorem var_real_nonneg [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S3x512.Idx) :
    ∃ v : ℝ, 0 ≤ v ∧
      m ((c.tc : Thread Cert.KernelIdeal.nD Cert.KernelIdeal.τ).loc Cert.KernelIdeal.main_arg11) i = (v : EReal) := by
  have e := congrFun (h c) ValueIdx.ix0
  dsimp only [Cert.Pre_finite_inputs.fn, fn_part1, fn_part2, fn_part3, fn_part4, fn_part5] at e
  -- outermost: (conjuncts 1..17) ∧ (argument 11 ≥ 0)
  obtain ⟨e1, hge⟩ := IntOp.andi_eq_one.1 e
  -- drop the finiteness of arguments 18, 17, 16, 15, 14, 13, 12 in turn
  obtain ⟨e2, -⟩ := IntOp.andi_eq_one.1 e1
  obtain ⟨e3, -⟩ := IntOp.andi_eq_one.1 e2
  obtain ⟨e4, -⟩ := IntOp.andi_eq_one.1 e3
  obtain ⟨e5, -⟩ := IntOp.andi_eq_one.1 e4
  obtain ⟨e6, -⟩ := IntOp.andi_eq_one.1 e5
  obtain ⟨e7, -⟩ := IntOp.andi_eq_one.1 e6
  obtain ⟨e8, -⟩ := IntOp.andi_eq_one.1 e7
  -- (conjuncts 1..9) ∧ (|argument 11| < +infinity)
  obtain ⟨-, hfin⟩ := IntOp.andi_eq_one.1 e8
  exact entry_of_conjuncts _ _ hfin hge i

end Cert.VarFacts

end
-- ==== Proof.Bridge.lean ====
/-
  The two programs' results agree.

  Layer by layer: the kernel program's output array of a layer (a region's output, read in KernelLayers) and the
  reference's (a stretch's result, read in RefGlue and RefLayer) are the layer of LayerSpec applied to the same rows — the
  previous layer's common output plus its sum over the same edges — with the same slices of the same parameter arrays;
  the kernel's scale γ · rsqrt (σ² + ε) is the reference's γ / sqrt (σ² + ε) because the precondition makes every
  variance a nonnegative real. The head (pooling, concatenation, two dense layers) is the same operations of the third
  layer's common output on both sides.
-/
import proofs.«142629_j73753178406914_1_alg».proof.Proof.KernelLayers
import proofs.«142629_j73753178406914_1_alg».proof.Proof.RefArgs
import proofs.«142629_j73753178406914_1_alg».proof.Proof.LayerAgree
import proofs.«142629_j73753178406914_1_alg».proof.Proof.VarFacts

set_option maxRecDepth 16384

noncomputable section

open scoped BigOperators

namespace Cert.Bridge

open Idealize.ShloMosaic Idealize.ShloMosaic.TcCoe Idealize.ShloMosaic.ValueIdx Idealize.SL.Sem
open Cert.RowDot Cert.Dense Cert.Gin

/-- Layer 1: the kernel program's output array is the reference's. Both are the layer of LayerSpec of the same rows
    with the same parameter vectors; the kernel's scale is the reference's because every variance is a nonnegative real. -/
theorem layer1_agree [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (c : Dev Cert.KernelIdeal.nD) :
    (Cert.KernelIdeal.Layer.H1 m c : Cert.KernelIdeal.S20000x512.Idx → EReal) = Cert.ReferenceIdeal.Stretches.Q2 m' c (Proc.devRef .tc Cert.ReferenceIdeal.main_v66) := by
  funext i
  obtain ⟨p, q, rfl⟩ : ∃ (p : Fin 20000) (q : Fin 512), i = ix2 p q := ⟨i 0, i 1, eq_ix2 i⟩
  have hvar : ∀ k, ∃ v : ℝ, 0 ≤ v ∧ biasVec (Cert.KernelIdeal.Layer.kvec0 (Cert.KernelIdeal.Layer.arg11 m c)) k = (v : EReal) :=
    fun k => Cert.VarFacts.var_real_nonneg m hpre c _
  rw [Cert.KernelIdeal.Layer.H1_apply, Cert.ReferenceIdeal.Stretches.Q2_out, Cert.ReferenceIdeal.Layers.hostLayer_apply, Cert.ReferenceIdeal.Stretches.Q1_sum]
  rw [Cert.ReferenceIdeal.Stretches.Q1_arg5 m' c, Cert.ReferenceIdeal.Stretches.Q1_arg6 m' c, Cert.ReferenceIdeal.Stretches.Q1_arg7 m' c, Cert.ReferenceIdeal.Stretches.Q1_arg8 m' c, Cert.ReferenceIdeal.Stretches.Q1_arg9 m' c, Cert.ReferenceIdeal.Stretches.Q1_arg10 m' c, Cert.ReferenceIdeal.Stretches.Q1_arg11 m' c, Cert.ReferenceIdeal.Stretches.Q1_arg12 m' c, Cert.ReferenceIdeal.Stretches.Q1_arg13 m' c, Cert.ReferenceIdeal.Stretches.Q1_arg14 m' c]
  rw [(hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1]
  rw [Cert.ReferenceIdeal.Stretches.Q0_arg0 m' c, Cert.ReferenceIdeal.Stretches.Q0_arg1 m' c, (hagree c).1, (hagree c).2.1]
  rw [layerRow_scale _ _ hvar]
  rfl

/-- Layer 2: the kernel program's output array is the reference's. Both are the layer of LayerSpec of the same rows
    with the same parameter vectors; the kernel's scale is the reference's because every variance is a nonnegative real. -/
theorem layer2_agree [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (c : Dev Cert.KernelIdeal.nD) :
    (Cert.KernelIdeal.Layer.H2 m c : Cert.KernelIdeal.S20000x512.Idx → EReal) = Cert.ReferenceIdeal.Stretches.Q4 m' c (Proc.devRef .tc Cert.ReferenceIdeal.main_v129) := by
  funext i
  obtain ⟨p, q, rfl⟩ : ∃ (p : Fin 20000) (q : Fin 512), i = ix2 p q := ⟨i 0, i 1, eq_ix2 i⟩
  have hvar : ∀ k, ∃ v : ℝ, 0 ≤ v ∧ biasVec (Cert.KernelIdeal.Layer.kvec1 (Cert.KernelIdeal.Layer.arg11 m c)) k = (v : EReal) :=
    fun k => Cert.VarFacts.var_real_nonneg m hpre c _
  rw [Cert.KernelIdeal.Layer.H2_apply, Cert.ReferenceIdeal.Stretches.Q4_out, Cert.ReferenceIdeal.Layers.hostLayer_apply, Cert.ReferenceIdeal.Stretches.Q3_sum]
  rw [Cert.ReferenceIdeal.Stretches.Q3_arg5 m' c, Cert.ReferenceIdeal.Stretches.Q3_arg6 m' c, Cert.ReferenceIdeal.Stretches.Q3_arg7 m' c, Cert.ReferenceIdeal.Stretches.Q3_arg8 m' c, Cert.ReferenceIdeal.Stretches.Q3_arg9 m' c, Cert.ReferenceIdeal.Stretches.Q3_arg10 m' c, Cert.ReferenceIdeal.Stretches.Q3_arg11 m' c, Cert.ReferenceIdeal.Stretches.Q3_arg12 m' c, Cert.ReferenceIdeal.Stretches.Q3_arg13 m' c, Cert.ReferenceIdeal.Stretches.Q3_arg14 m' c]
  rw [(hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1]
  rw [Cert.ReferenceIdeal.Stretches.Q2_src' m' c, Cert.ReferenceIdeal.Stretches.Q2_dst' m' c, (hagree c).2.1, ← layer1_agree m m' hpre hagree c]
  rw [layerRow_scale _ _ hvar]
  rfl

/-- Layer 3: the kernel program's output array is the reference's. Both are the layer of LayerSpec of the same rows
    with the same parameter vectors; the kernel's scale is the reference's because every variance is a nonnegative real. -/
theorem layer3_agree [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (c : Dev Cert.KernelIdeal.nD) :
    (Cert.KernelIdeal.Layer.H3 m c : Cert.KernelIdeal.S20000x512.Idx → EReal) = Cert.ReferenceIdeal.Stretches.Q6 m' c (Proc.devRef .tc Cert.ReferenceIdeal.main_v192) := by
  funext i
  obtain ⟨p, q, rfl⟩ : ∃ (p : Fin 20000) (q : Fin 512), i = ix2 p q := ⟨i 0, i 1, eq_ix2 i⟩
  have hvar : ∀ k, ∃ v : ℝ, 0 ≤ v ∧ biasVec (Cert.KernelIdeal.Layer.kvec2 (Cert.KernelIdeal.Layer.arg11 m c)) k = (v : EReal) :=
    fun k => Cert.VarFacts.var_real_nonneg m hpre c _
  rw [Cert.KernelIdeal.Layer.H3_apply, Cert.ReferenceIdeal.Stretches.Q6_out, Cert.ReferenceIdeal.Layers.hostLayer_apply, Cert.ReferenceIdeal.Stretches.Q5_sum]
  rw [Cert.ReferenceIdeal.Stretches.Q5_arg5 m' c, Cert.ReferenceIdeal.Stretches.Q5_arg6 m' c, Cert.ReferenceIdeal.Stretches.Q5_arg7 m' c, Cert.ReferenceIdeal.Stretches.Q5_arg8 m' c, Cert.ReferenceIdeal.Stretches.Q5_arg9 m' c, Cert.ReferenceIdeal.Stretches.Q5_arg10 m' c, Cert.ReferenceIdeal.Stretches.Q5_arg11 m' c, Cert.ReferenceIdeal.Stretches.Q5_arg12 m' c, Cert.ReferenceIdeal.Stretches.Q5_arg13 m' c, Cert.ReferenceIdeal.Stretches.Q5_arg14 m' c]
  rw [(hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1]
  rw [Cert.ReferenceIdeal.Stretches.Q4_src' m' c, Cert.ReferenceIdeal.Stretches.Q4_dst' m' c, (hagree c).2.1, ← layer2_agree m m' hpre hagree c]
  rw [layerRow_scale _ _ hvar]
  rfl

/-- The reference's two results are the kernel program's: the head applied to the third layer's common output. -/
theorem results_agree [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (c : Dev Cert.KernelIdeal.nD) :
    Cert.ReferenceIdeal.Stretches.Q7 m' c (Proc.devRef .tc Cert.ReferenceIdeal.main_v212) = Cert.KernelIdeal.Layer.B9 m c (Proc.devRef .tc Cert.KernelIdeal.main_v140)
      ∧ Cert.ReferenceIdeal.Stretches.Q7 m' c (Proc.devRef .tc Cert.ReferenceIdeal.main_v202) = Cert.KernelIdeal.Layer.B9 m c (Proc.devRef .tc Cert.KernelIdeal.main_v130) := by
  have h3 := layer3_agree m m' hpre hagree c
  constructor
  · rw [Cert.ReferenceIdeal.Stretches.Q7_out, Cert.KernelIdeal.Layer.B9_v140, Cert.ReferenceIdeal.Stretches.Q6_arg2 m' c, Cert.ReferenceIdeal.Stretches.Q6_arg3 m' c, Cert.ReferenceIdeal.Stretches.Q6_arg4 m' c, Cert.ReferenceIdeal.Stretches.Q6_arg15 m' c, Cert.ReferenceIdeal.Stretches.Q6_arg16 m' c, Cert.ReferenceIdeal.Stretches.Q6_arg17 m' c, Cert.ReferenceIdeal.Stretches.Q6_arg18 m' c,
      (hagree c).2.2.1, (hagree c).2.2.2.1, (hagree c).2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2, ← h3]
    rfl
  · rw [Cert.ReferenceIdeal.Stretches.Q7_hidden, Cert.KernelIdeal.Layer.B9_v130, Cert.ReferenceIdeal.Stretches.Q6_arg2 m' c, Cert.ReferenceIdeal.Stretches.Q6_arg3 m' c, Cert.ReferenceIdeal.Stretches.Q6_arg4 m' c, Cert.ReferenceIdeal.Stretches.Q6_arg15 m' c, Cert.ReferenceIdeal.Stretches.Q6_arg16 m' c,
      (hagree c).2.2.1, (hagree c).2.2.2.1, (hagree c).2.2.2.2.1, (hagree c).2.2.2.2.2.2.2.2.2.2.2.2.2.2.2.1, (hagree c).2.2.2.2.2.2.2.2.2.2.2.2.2.2.2.2.1, ← h3]
    rfl

end Cert.Bridge

end
-- ==== Proof.lean ====
/-
  The certificate.  Under finite inputs with nonnegative variances, the kernel program and the reference compute the
  same two results.

  Both programs are three graph layers and a head.  A layer adds to each node's features the sum of its neighbours'
  over the edge list, then applies to each row a dense layer, a parametric rectifier, the batch normalisation with the
  running statistics, a second dense layer, a parametric rectifier and the rectifier.  The head sums the rows of each
  graph, joins the two other inputs to the sums, and applies two dense layers, the first through the rectifier and the
  second through the logistic function; the two results are the logistic output and the rectified hidden array.  The
  kernel program computes each layer's dense–normalise–dense part in a region, one block of rows after another, and
  spells the normalisation's scale γ · rsqrt (σ² + ε); the reference computes the part on the whole array and spells
  the scale γ / sqrt (σ² + ε).  For a variance σ² that is a nonnegative real, σ² + ε is a positive real and the two
  spellings are one number; a product computed block of rows by block of rows and a product computed whole agree
  entry by entry, since every operation of the part acts on each row by itself.  These are the only differences
  between the two programs: the sums over the edges, the pooling and the head are the same operations on both sides.

  How.  The kernel program's run is followed from the launch through its three regions and the host stretches between
  and after them, the reference's through seven stretches of its host operations (a sum over the edges and a layer,
  three times, then the pooling and the head); every weakly fair execution of either terminates, faulting nowhere, with
  every buffer at the last of the contents so followed.  Each layer is read at an entry as one function of the row
  of its input and of the layer's parameters, the same function for both programs where the variances are nonnegative
  reals, so the arrays after each layer are equal, and with them the two results.  No host operation writes an argument
  and a region changes only its output array, so each program ends with every argument holding what it held at launch;
  for the word-level kernel program this is proved on its own run.
-/
import proofs.«142629_j73753178406914_1_alg».proof.Defs
import proofs.«142629_j73753178406914_1_alg».proof.Proof.Gen.Kernel
import proofs.«142629_j73753178406914_1_alg».proof.Proof.Gen.KernelIdeal
import proofs.«142629_j73753178406914_1_alg».proof.Proof.Gen.ReferenceIdeal
import proofs.«142629_j73753178406914_1_alg».proof.Proof.Gen.Pre_finite_inputs
import proofs.«142629_j73753178406914_1_alg».proof.Proof.BitsKernelKeeps
import proofs.«142629_j73753178406914_1_alg».proof.Proof.KernelKeeps
import proofs.«142629_j73753178406914_1_alg».proof.Proof.RefKeeps
import proofs.«142629_j73753178406914_1_alg».proof.Proof.Bridge

set_option maxRecDepth 16384

noncomputable section

namespace Cert.Proof

open Idealize.ShloMosaic Idealize.ShloMosaic.TcCoe Idealize.SL.Sem

/-- The word-level kernel program runs to the end, and its arguments end as they were at launch. -/
theorem frame_K : Cert.frame_Kernel := fun m ρ _ => Cert.Kernel.Layer.frame (F := Bits) m ρ

/-- The same of the kernel program on the extended reals. -/
theorem frame_KI : Cert.frame_KernelIdeal := fun m ρ _ => Cert.KernelIdeal.Layer.frame (F := Ideal) m ρ

/-- The reference runs to the end, and its arguments end as they were at launch: at the return every buffer is at the
    last of the seven stretches' contents, and no stretch writes an argument. -/
theorem frame_RI : Cert.frame_ReferenceIdeal := fun m ρ _ =>
  (θ_run Cert.ReferenceIdeal.defs _ _).mono (fun r h c =>
    ⟨(h c Cert.ReferenceIdeal.main_arg0).trans (Cert.ReferenceIdeal.Stretches.Q7_main_arg0 m c),
     (h c Cert.ReferenceIdeal.main_arg1).trans (Cert.ReferenceIdeal.Stretches.Q7_main_arg1 m c),
     (h c Cert.ReferenceIdeal.main_arg2).trans (Cert.ReferenceIdeal.Stretches.Q7_main_arg2 m c),
     (h c Cert.ReferenceIdeal.main_arg3).trans (Cert.ReferenceIdeal.Stretches.Q7_main_arg3 m c),
     (h c Cert.ReferenceIdeal.main_arg4).trans (Cert.ReferenceIdeal.Stretches.Q7_main_arg4 m c),
     (h c Cert.ReferenceIdeal.main_arg5).trans (Cert.ReferenceIdeal.Stretches.Q7_main_arg5 m c),
     (h c Cert.ReferenceIdeal.main_arg6).trans (Cert.ReferenceIdeal.Stretches.Q7_main_arg6 m c),
     (h c Cert.ReferenceIdeal.main_arg7).trans (Cert.ReferenceIdeal.Stretches.Q7_main_arg7 m c),
     (h c Cert.ReferenceIdeal.main_arg8).trans (Cert.ReferenceIdeal.Stretches.Q7_main_arg8 m c),
     (h c Cert.ReferenceIdeal.main_arg9).trans (Cert.ReferenceIdeal.Stretches.Q7_main_arg9 m c),
     (h c Cert.ReferenceIdeal.main_arg10).trans (Cert.ReferenceIdeal.Stretches.Q7_main_arg10 m c),
     (h c Cert.ReferenceIdeal.main_arg11).trans (Cert.ReferenceIdeal.Stretches.Q7_main_arg11 m c),
     (h c Cert.ReferenceIdeal.main_arg12).trans (Cert.ReferenceIdeal.Stretches.Q7_main_arg12 m c),
     (h c Cert.ReferenceIdeal.main_arg13).trans (Cert.ReferenceIdeal.Stretches.Q7_main_arg13 m c),
     (h c Cert.ReferenceIdeal.main_arg14).trans (Cert.ReferenceIdeal.Stretches.Q7_main_arg14 m c),
     (h c Cert.ReferenceIdeal.main_arg15).trans (Cert.ReferenceIdeal.Stretches.Q7_main_arg15 m c),
     (h c Cert.ReferenceIdeal.main_arg16).trans (Cert.ReferenceIdeal.Stretches.Q7_main_arg16 m c),
     (h c Cert.ReferenceIdeal.main_arg17).trans (Cert.ReferenceIdeal.Stretches.Q7_main_arg17 m c),
     (h c Cert.ReferenceIdeal.main_arg18).trans (Cert.ReferenceIdeal.Stretches.Q7_main_arg18 m c)⟩)
    (Cert.ReferenceIdeal.Stretches.run (F := Ideal) m ρ)

/-- From memories that agree on the arguments, the kernel program's holding finite inputs with nonnegative variances,
    both programs run to the end with equal results and unchanged arguments.  The results are the kernel program's
    last contents of its two result buffers; the reference's last contents of its own two are equal to them. -/
theorem algebraic : Cert.algebraic_KernelIdeal_ReferenceIdeal := fun m ρ m' ρ' hpre hagree =>
  ⟨fun c => Cert.KernelIdeal.Layer.B9 m c (Proc.devRef .tc Cert.KernelIdeal.main_v140),
   fun c => Cert.KernelIdeal.Layer.B9 m c (Proc.devRef .tc Cert.KernelIdeal.main_v130),
   (θ_run Cert.KernelIdeal.defs _ _).mono (fun r h c =>
    ⟨h c _ (Cert.KernelIdeal.Layer.mem_unscoped Cert.KernelIdeal.main_v140 (by decide)),
     h c _ (Cert.KernelIdeal.Layer.mem_unscoped Cert.KernelIdeal.main_v130 (by decide)),
     (h c _ (Cert.KernelIdeal.Layer.mem_unscoped Cert.KernelIdeal.main_arg0 (by decide))).trans (Cert.KernelIdeal.Layer.B9_main_arg0 m c),
     (h c _ (Cert.KernelIdeal.Layer.mem_unscoped Cert.KernelIdeal.main_arg1 (by decide))).trans (Cert.KernelIdeal.Layer.B9_main_arg1 m c),
     (h c _ (Cert.KernelIdeal.Layer.mem_unscoped Cert.KernelIdeal.main_arg2 (by decide))).trans (Cert.KernelIdeal.Layer.B9_main_arg2 m c),
     (h c _ (Cert.KernelIdeal.Layer.mem_unscoped Cert.KernelIdeal.main_arg3 (by decide))).trans (Cert.KernelIdeal.Layer.B9_main_arg3 m c),
     (h c _ (Cert.KernelIdeal.Layer.mem_unscoped Cert.KernelIdeal.main_arg4 (by decide))).trans (Cert.KernelIdeal.Layer.B9_main_arg4 m c),
     (h c _ (Cert.KernelIdeal.Layer.mem_unscoped Cert.KernelIdeal.main_arg5 (by decide))).trans (Cert.KernelIdeal.Layer.B9_main_arg5 m c),
     (h c _ (Cert.KernelIdeal.Layer.mem_unscoped Cert.KernelIdeal.main_arg6 (by decide))).trans (Cert.KernelIdeal.Layer.B9_main_arg6 m c),
     (h c _ (Cert.KernelIdeal.Layer.mem_unscoped Cert.KernelIdeal.main_arg7 (by decide))).trans (Cert.KernelIdeal.Layer.B9_main_arg7 m c),
     (h c _ (Cert.KernelIdeal.Layer.mem_unscoped Cert.KernelIdeal.main_arg8 (by decide))).trans (Cert.KernelIdeal.Layer.B9_main_arg8 m c),
     (h c _ (Cert.KernelIdeal.Layer.mem_unscoped Cert.KernelIdeal.main_arg9 (by decide))).trans (Cert.KernelIdeal.Layer.B9_main_arg9 m c),
     (h c _ (Cert.KernelIdeal.Layer.mem_unscoped Cert.KernelIdeal.main_arg10 (by decide))).trans (Cert.KernelIdeal.Layer.B9_main_arg10 m c),
     (h c _ (Cert.KernelIdeal.Layer.mem_unscoped Cert.KernelIdeal.main_arg11 (by decide))).trans (Cert.KernelIdeal.Layer.B9_main_arg11 m c),
     (h c _ (Cert.KernelIdeal.Layer.mem_unscoped Cert.KernelIdeal.main_arg12 (by decide))).trans (Cert.KernelIdeal.Layer.B9_main_arg12 m c),
     (h c _ (Cert.KernelIdeal.Layer.mem_unscoped Cert.KernelIdeal.main_arg13 (by decide))).trans (Cert.KernelIdeal.Layer.B9_main_arg13 m c),
     (h c _ (Cert.KernelIdeal.Layer.mem_unscoped Cert.KernelIdeal.main_arg14 (by decide))).trans (Cert.KernelIdeal.Layer.B9_main_arg14 m c),
     (h c _ (Cert.KernelIdeal.Layer.mem_unscoped Cert.KernelIdeal.main_arg15 (by decide))).trans (Cert.KernelIdeal.Layer.B9_main_arg15 m c),
     (h c _ (Cert.KernelIdeal.Layer.mem_unscoped Cert.KernelIdeal.main_arg16 (by decide))).trans (Cert.KernelIdeal.Layer.B9_main_arg16 m c),
     (h c _ (Cert.KernelIdeal.Layer.mem_unscoped Cert.KernelIdeal.main_arg17 (by decide))).trans (Cert.KernelIdeal.Layer.B9_main_arg17 m c),
     (h c _ (Cert.KernelIdeal.Layer.mem_unscoped Cert.KernelIdeal.main_arg18 (by decide))).trans (Cert.KernelIdeal.Layer.B9_main_arg18 m c)⟩)
    (Cert.KernelIdeal.Layer.run (F := Ideal) m ρ),
   (θ_run Cert.ReferenceIdeal.defs _ _).mono (fun r h c =>
    ⟨(h c Cert.ReferenceIdeal.main_v212).trans (Cert.Bridge.results_agree m m' hpre hagree c).1,
     (h c Cert.ReferenceIdeal.main_v202).trans (Cert.Bridge.results_agree m m' hpre hagree c).2,
     (h c Cert.ReferenceIdeal.main_arg0).trans (Cert.ReferenceIdeal.Stretches.Q7_main_arg0 m' c),
     (h c Cert.ReferenceIdeal.main_arg1).trans (Cert.ReferenceIdeal.Stretches.Q7_main_arg1 m' c),
     (h c Cert.ReferenceIdeal.main_arg2).trans (Cert.ReferenceIdeal.Stretches.Q7_main_arg2 m' c),
     (h c Cert.ReferenceIdeal.main_arg3).trans (Cert.ReferenceIdeal.Stretches.Q7_main_arg3 m' c),
     (h c Cert.ReferenceIdeal.main_arg4).trans (Cert.ReferenceIdeal.Stretches.Q7_main_arg4 m' c),
     (h c Cert.ReferenceIdeal.main_arg5).trans (Cert.ReferenceIdeal.Stretches.Q7_main_arg5 m' c),
     (h c Cert.ReferenceIdeal.main_arg6).trans (Cert.ReferenceIdeal.Stretches.Q7_main_arg6 m' c),
     (h c Cert.ReferenceIdeal.main_arg7).trans (Cert.ReferenceIdeal.Stretches.Q7_main_arg7 m' c),
     (h c Cert.ReferenceIdeal.main_arg8).trans (Cert.ReferenceIdeal.Stretches.Q7_main_arg8 m' c),
     (h c Cert.ReferenceIdeal.main_arg9).trans (Cert.ReferenceIdeal.Stretches.Q7_main_arg9 m' c),
     (h c Cert.ReferenceIdeal.main_arg10).trans (Cert.ReferenceIdeal.Stretches.Q7_main_arg10 m' c),
     (h c Cert.ReferenceIdeal.main_arg11).trans (Cert.ReferenceIdeal.Stretches.Q7_main_arg11 m' c),
     (h c Cert.ReferenceIdeal.main_arg12).trans (Cert.ReferenceIdeal.Stretches.Q7_main_arg12 m' c),
     (h c Cert.ReferenceIdeal.main_arg13).trans (Cert.ReferenceIdeal.Stretches.Q7_main_arg13 m' c),
     (h c Cert.ReferenceIdeal.main_arg14).trans (Cert.ReferenceIdeal.Stretches.Q7_main_arg14 m' c),
     (h c Cert.ReferenceIdeal.main_arg15).trans (Cert.ReferenceIdeal.Stretches.Q7_main_arg15 m' c),
     (h c Cert.ReferenceIdeal.main_arg16).trans (Cert.ReferenceIdeal.Stretches.Q7_main_arg16 m' c),
     (h c Cert.ReferenceIdeal.main_arg17).trans (Cert.ReferenceIdeal.Stretches.Q7_main_arg17 m' c),
     (h c Cert.ReferenceIdeal.main_arg18).trans (Cert.ReferenceIdeal.Stretches.Q7_main_arg18 m' c)⟩)
    (Cert.ReferenceIdeal.Stretches.run (F := Ideal) m' ρ')⟩

theorem claim : Cert.Claim := ⟨Cert.Kernel.Gen.facts, Cert.KernelIdeal.Gen.facts, Cert.ReferenceIdeal.Gen.facts,
  Cert.Pre_finite_inputs.Gen.facts, frame_K, frame_KI, frame_RI, trivial, algebraic⟩

end Cert.Proof

end
